-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16384x4096 : Shape := ⟨2, ![16384, 4096]⟩
abbrev S4096 : Shape := ⟨1, ![4096]⟩
abbrev S8x4096 : Shape := ⟨2, ![8, 4096]⟩
abbrev S4112 : Shape := ⟨1, ![4112]⟩
abbrev S256x16 : Shape := ⟨2, ![256, 16]⟩
abbrev S16x256 : Shape := ⟨2, ![16, 256]⟩
abbrev S_ : Shape := ⟨0, ![]⟩
abbrev S16 : Shape := ⟨1, ![16]⟩
abbrev S1x16 : Shape := ⟨2, ![1, 16]⟩
abbrev S256x1 : Shape := ⟨2, ![256, 1]⟩
abbrev S256 : Shape := ⟨1, ![256]⟩
abbrev S1x256 : Shape := ⟨2, ![1, 256]⟩
abbrev S12288 : Shape := ⟨1, ![12288]⟩
abbrev S512x4096 : Shape := ⟨2, ![512, 4096]⟩
abbrev S512 : Shape := ⟨1, ![512]⟩
abbrev S16384 : Shape := ⟨1, ![16384]⟩

abbrev nBuf : Table → Nat
  | .hbm => 5
  | .local .tc .vmem => 5
  | .shared => 1
  | .local .scVector .vmem => 5
  | _ => 0

abbrev bufTy : (tb : Table) → Fin (nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S12288, .f32⟩
  | .hbm, ⟨4, _⟩ => ⟨S16384, .f32⟩
  | .local .tc .vmem, ⟨0, _⟩ => ⟨S512x4096, .f32⟩
  | .local .tc .vmem, ⟨1, _⟩ => ⟨S512x4096, .f32⟩
  | .local .tc .vmem, ⟨2, _⟩ => ⟨S4096, .f32⟩
  | .local .tc .vmem, ⟨3, _⟩ => ⟨S512, .f32⟩
  | .local .tc .vmem, ⟨4, _⟩ => ⟨S512, .f32⟩
  | .shared, ⟨0, _⟩ => ⟨S16x256, .f32⟩
  | .local .scVector .vmem, ⟨0, _⟩ => ⟨S4096, .f32⟩
  | .local .scVector .vmem, ⟨1, _⟩ => ⟨S8x4096, .f32⟩
  | .local .scVector .vmem, ⟨2, _⟩ => ⟨S8x4096, .f32⟩
  | .local .scVector .vmem, ⟨3, _⟩ => ⟨S4112, .f32⟩
  | .local .scVector .vmem, ⟨4, _⟩ => ⟨S256x16, .f32⟩
  | _, _ => ⟨S16384x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch5 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let c12288_i32 : BitVec 32 := 12288#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c12288_i32 v2
  let c0_i32 : BitVec 32 := 0#32
  ![v3.toNat, 0]
def k0_off2 (i : grid0.Coords) : Fin 2 → Nat :=
  let c12288_i32 : BitVec 32 := 12288#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c12288_i32 v2
  let c8_i32 : BitVec 32 := 8#32
  let v6 : BitVec 32 := Scalar.addi v3 c8_i32
  let c0_i32_1 : BitVec 32 := 0#32
  ![v6.toNat, 0]
@[reducible] def k0_t1_loop : Scf.Loop 32 :=
  let c0_i32_4 : BitVec 32 := 0#32
  let c16_i32 : BitVec 32 := 16#32
  let v9 : BitVec 32 := Scalar.addi c0_i32_4 c16_i32
  let c1_i32_5 : BitVec 32 := 1#32
  ⟨c0_i32_4, v9, c1_i32_5⟩
def k0_off3 (i : grid0.Coords) : Fin 2 → Nat :=
  let c12288_i32 : BitVec 32 := 12288#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c12288_i32 v2
  let c0_i32_29 : BitVec 32 := 0#32
  ![v3.toNat, 0]
@[reducible] def k0_t2_loop : Scf.Loop 32 :=
  let c0_i32_38 : BitVec 32 := 0#32
  let c256_i32_39 : BitVec 32 := 256#32
  let v26 : BitVec 32 := Scalar.addi c0_i32_38 c256_i32_39
  let c1_i32_40 : BitVec 32 := 1#32
  ⟨c0_i32_38, v26, c1_i32_40⟩
def k0_off4 (k0_t2 : Fin k0_t2_loop.trips) : Fin 1 → Nat :=
  let c0_i32_38 : BitVec 32 := 0#32
  let c1_i32_40 : BitVec 32 := 1#32
  let arg14 : BitVec 32 := Scf.iv c0_i32_38 c1_i32_40 k0_t2
  let c16_i32_94 : BitVec 32 := 16#32
  let v150 : BitVec 32 := Scalar.muli arg14 c16_i32_94
  let v151 : Index := Scalar.indexCast v150
  ![v151.toNat]
def k0_off5 (k0_t2 : Fin k0_t2_loop.trips) : Fin 2 → Nat :=
  let c0_i32_96 : BitVec 32 := 0#32
  let v155 : Index := Scalar.indexCast c0_i32_96
  let c0_i32_38 : BitVec 32 := 0#32
  let c1_i32_40 : BitVec 32 := 1#32
  let arg14 : BitVec 32 := Scf.iv c0_i32_38 c1_i32_40 k0_t2
  let c16_i32_95 : BitVec 32 := 16#32
  let v154 : BitVec 32 := Scalar.muli arg14 c16_i32_95
  let v156 : Index := Scalar.indexCast v154
  ![0, v156.toNat]
def k0_off6 (k0_t2 : Fin k0_t2_loop.trips) : Fin 2 → Nat :=
  let c1_i32_98 : BitVec 32 := 1#32
  let v162 : Index := Scalar.indexCast c1_i32_98
  let c0_i32_38 : BitVec 32 := 0#32
  let c1_i32_40 : BitVec 32 := 1#32
  let arg14 : BitVec 32 := Scf.iv c0_i32_38 c1_i32_40 k0_t2
  let c16_i32_97 : BitVec 32 := 16#32
  let v161 : BitVec 32 := Scalar.muli arg14 c16_i32_97
  let v163 : Index := Scalar.indexCast v161
  ![1, v163.toNat]
def k0_off7 (k0_t2 : Fin k0_t2_loop.trips) : Fin 2 → Nat :=
  let c2_i32_100 : BitVec 32 := 2#32
  let v169 : Index := Scalar.indexCast c2_i32_100
  let c0_i32_38 : BitVec 32 := 0#32
  let c1_i32_40 : BitVec 32 := 1#32
  let arg14 : BitVec 32 := Scf.iv c0_i32_38 c1_i32_40 k0_t2
  let c16_i32_99 : BitVec 32 := 16#32
  let v168 : BitVec 32 := Scalar.muli arg14 c16_i32_99
  let v170 : Index := Scalar.indexCast v168
  ![2, v170.toNat]
def k0_off8 (k0_t2 : Fin k0_t2_loop.trips) : Fin 2 → Nat :=
  let c3_i32_102 : BitVec 32 := 3#32
  let v176 : Index := Scalar.indexCast c3_i32_102
  let c0_i32_38 : BitVec 32 := 0#32
  let c1_i32_40 : BitVec 32 := 1#32
  let arg14 : BitVec 32 := Scf.iv c0_i32_38 c1_i32_40 k0_t2
  let c16_i32_101 : BitVec 32 := 16#32
  let v175 : BitVec 32 := Scalar.muli arg14 c16_i32_101
  let v177 : Index := Scalar.indexCast v175
  ![3, v177.toNat]
def k0_off9 (k0_t2 : Fin k0_t2_loop.trips) : Fin 2 → Nat :=
  let c4_i32_104 : BitVec 32 := 4#32
  let v183 : Index := Scalar.indexCast c4_i32_104
  let c0_i32_38 : BitVec 32 := 0#32
  let c1_i32_40 : BitVec 32 := 1#32
  let arg14 : BitVec 32 := Scf.iv c0_i32_38 c1_i32_40 k0_t2
  let c16_i32_103 : BitVec 32 := 16#32
  let v182 : BitVec 32 := Scalar.muli arg14 c16_i32_103
  let v184 : Index := Scalar.indexCast v182
  ![4, v184.toNat]
def k0_off10 (k0_t2 : Fin k0_t2_loop.trips) : Fin 2 → Nat :=
  let c5_i32_106 : BitVec 32 := 5#32
  let v190 : Index := Scalar.indexCast c5_i32_106
  let c0_i32_38 : BitVec 32 := 0#32
  let c1_i32_40 : BitVec 32 := 1#32
  let arg14 : BitVec 32 := Scf.iv c0_i32_38 c1_i32_40 k0_t2
  let c16_i32_105 : BitVec 32 := 16#32
  let v189 : BitVec 32 := Scalar.muli arg14 c16_i32_105
  let v191 : Index := Scalar.indexCast v189
  ![5, v191.toNat]
def k0_off11 (k0_t2 : Fin k0_t2_loop.trips) : Fin 2 → Nat :=
  let c6_i32_108 : BitVec 32 := 6#32
  let v197 : Index := Scalar.indexCast c6_i32_108
  let c0_i32_38 : BitVec 32 := 0#32
  let c1_i32_40 : BitVec 32 := 1#32
  let arg14 : BitVec 32 := Scf.iv c0_i32_38 c1_i32_40 k0_t2
  let c16_i32_107 : BitVec 32 := 16#32
  let v196 : BitVec 32 := Scalar.muli arg14 c16_i32_107
  let v198 : Index := Scalar.indexCast v196
  ![6, v198.toNat]
def k0_off12 (k0_t2 : Fin k0_t2_loop.trips) : Fin 2 → Nat :=
  let c7_i32_110 : BitVec 32 := 7#32
  let v204 : Index := Scalar.indexCast c7_i32_110
  let c0_i32_38 : BitVec 32 := 0#32
  let c1_i32_40 : BitVec 32 := 1#32
  let arg14 : BitVec 32 := Scf.iv c0_i32_38 c1_i32_40 k0_t2
  let c16_i32_109 : BitVec 32 := 16#32
  let v203 : BitVec 32 := Scalar.muli arg14 c16_i32_109
  let v205 : Index := Scalar.indexCast v203
  ![7, v205.toNat]
def k0_off13 (k0_t1 : Fin k0_t1_loop.trips) (c0_i32_43 : BitVec 32) (c0_i32_45 : BitVec 32) : Fin 1 → Nat :=
  let c0_i32_4 : BitVec 32 := 0#32
  let c1_i32_5 : BitVec 32 := 1#32
  let arg13 : BitVec 32 := Scf.iv c0_i32_4 c1_i32_5 k0_t1
  let c2_i32_42 : BitVec 32 := 2#32
  let v28 : BitVec 32 := Scalar.muli arg13 c2_i32_42
  let v29 : BitVec 32 := Scalar.addi v28 c0_i32_43
  let c8_i32_44 : BitVec 32 := 8#32
  let v30 : BitVec 32 := Scalar.muli v29 c8_i32_44
  let v31 : BitVec 32 := Scalar.addi v30 c0_i32_45
  let c16_i32_46 : BitVec 32 := 16#32
  let v32 : BitVec 32 := Scalar.muli v31 c16_i32_46
  let v33 : Index := Scalar.indexCast v32
  ![v33.toNat]
def k0_cond1 (k0_t1 : Fin k0_t1_loop.trips) : BitVec 1 :=
  let c0_i32_4 : BitVec 32 := 0#32
  let c1_i32_5 : BitVec 32 := 1#32
  let arg13 : BitVec 32 := Scf.iv c0_i32_4 c1_i32_5 k0_t1
  let c2_i32 : BitVec 32 := 2#32
  let v15 : BitVec 32 := Scalar.muli arg13 c2_i32
  let c2_i32_56 : BitVec 32 := 2#32
  let v79 : BitVec 32 := Scalar.addi v15 c2_i32_56
  let c32_i32 : BitVec 32 := 32#32
  let v80 : BitVec 1 := Scalar.cmpi .slt v79 c32_i32
  let v81 : BitVec 32 := Scalar.extui v80
  let c0_i32_57 : BitVec 32 := 0#32
  let v82 : BitVec 1 := Scalar.cmpi .ne v81 c0_i32_57
  v82

def k0_off14 (i : grid0.Coords) (k0_t1 : Fin k0_t1_loop.trips) : Fin 2 → Nat :=
  let c12288_i32 : BitVec 32 := 12288#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c12288_i32 v2
  let c0_i32_4 : BitVec 32 := 0#32
  let c1_i32_5 : BitVec 32 := 1#32
  let arg13 : BitVec 32 := Scf.iv c0_i32_4 c1_i32_5 k0_t1
  let c2_i32 : BitVec 32 := 2#32
  let v15 : BitVec 32 := Scalar.muli arg13 c2_i32
  let c2_i32_94 : BitVec 32 := 2#32
  let v150 : BitVec 32 := Scalar.addi v15 c2_i32_94
  let c8_i32_95 : BitVec 32 := 8#32
  let v151 : BitVec 32 := Scalar.muli v150 c8_i32_95
  let v152 : BitVec 32 := Scalar.addi v3 v151
  let c0_i32_96 : BitVec 32 := 0#32
  ![v152.toNat, 0]
@[reducible] def k0_t3_loop : Scf.Loop 32 :=
  let c0_i32_68 : BitVec 32 := 0#32
  let c256_i32_69 : BitVec 32 := 256#32
  let v93 : BitVec 32 := Scalar.addi c0_i32_68 c256_i32_69
  let c1_i32_70 : BitVec 32 := 1#32
  ⟨c0_i32_68, v93, c1_i32_70⟩
def k0_off15 (k0_t3 : Fin k0_t3_loop.trips) : Fin 1 → Nat :=
  let c0_i32_68 : BitVec 32 := 0#32
  let c1_i32_70 : BitVec 32 := 1#32
  let arg14 : BitVec 32 := Scf.iv c0_i32_68 c1_i32_70 k0_t3
  let c16_i32_94 : BitVec 32 := 16#32
  let v150 : BitVec 32 := Scalar.muli arg14 c16_i32_94
  let v151 : Index := Scalar.indexCast v150
  ![v151.toNat]
def k0_off16 (k0_t3 : Fin k0_t3_loop.trips) : Fin 2 → Nat :=
  let c0_i32_96 : BitVec 32 := 0#32
  let v155 : Index := Scalar.indexCast c0_i32_96
  let c0_i32_68 : BitVec 32 := 0#32
  let c1_i32_70 : BitVec 32 := 1#32
  let arg14 : BitVec 32 := Scf.iv c0_i32_68 c1_i32_70 k0_t3
  let c16_i32_95 : BitVec 32 := 16#32
  let v154 : BitVec 32 := Scalar.muli arg14 c16_i32_95
  let v156 : Index := Scalar.indexCast v154
  ![0, v156.toNat]
def k0_off17 (k0_t3 : Fin k0_t3_loop.trips) : Fin 2 → Nat :=
  let c1_i32_98 : BitVec 32 := 1#32
  let v162 : Index := Scalar.indexCast c1_i32_98
  let c0_i32_68 : BitVec 32 := 0#32
  let c1_i32_70 : BitVec 32 := 1#32
  let arg14 : BitVec 32 := Scf.iv c0_i32_68 c1_i32_70 k0_t3
  let c16_i32_97 : BitVec 32 := 16#32
  let v161 : BitVec 32 := Scalar.muli arg14 c16_i32_97
  let v163 : Index := Scalar.indexCast v161
  ![1, v163.toNat]
def k0_off18 (k0_t3 : Fin k0_t3_loop.trips) : Fin 2 → Nat :=
  let c2_i32_100 : BitVec 32 := 2#32
  let v169 : Index := Scalar.indexCast c2_i32_100
  let c0_i32_68 : BitVec 32 := 0#32
  let c1_i32_70 : BitVec 32 := 1#32
  let arg14 : BitVec 32 := Scf.iv c0_i32_68 c1_i32_70 k0_t3
  let c16_i32_99 : BitVec 32 := 16#32
  let v168 : BitVec 32 := Scalar.muli arg14 c16_i32_99
  let v170 : Index := Scalar.indexCast v168
  ![2, v170.toNat]
def k0_off19 (k0_t3 : Fin k0_t3_loop.trips) : Fin 2 → Nat :=
  let c3_i32_102 : BitVec 32 := 3#32
  let v176 : Index := Scalar.indexCast c3_i32_102
  let c0_i32_68 : BitVec 32 := 0#32
  let c1_i32_70 : BitVec 32 := 1#32
  let arg14 : BitVec 32 := Scf.iv c0_i32_68 c1_i32_70 k0_t3
  let c16_i32_101 : BitVec 32 := 16#32
  let v175 : BitVec 32 := Scalar.muli arg14 c16_i32_101
  let v177 : Index := Scalar.indexCast v175
  ![3, v177.toNat]
def k0_off20 (k0_t3 : Fin k0_t3_loop.trips) : Fin 2 → Nat :=
  let c4_i32_104 : BitVec 32 := 4#32
  let v183 : Index := Scalar.indexCast c4_i32_104
  let c0_i32_68 : BitVec 32 := 0#32
  let c1_i32_70 : BitVec 32 := 1#32
  let arg14 : BitVec 32 := Scf.iv c0_i32_68 c1_i32_70 k0_t3
  let c16_i32_103 : BitVec 32 := 16#32
  let v182 : BitVec 32 := Scalar.muli arg14 c16_i32_103
  let v184 : Index := Scalar.indexCast v182
  ![4, v184.toNat]
def k0_off21 (k0_t3 : Fin k0_t3_loop.trips) : Fin 2 → Nat :=
  let c5_i32_106 : BitVec 32 := 5#32
  let v190 : Index := Scalar.indexCast c5_i32_106
  let c0_i32_68 : BitVec 32 := 0#32
  let c1_i32_70 : BitVec 32 := 1#32
  let arg14 : BitVec 32 := Scf.iv c0_i32_68 c1_i32_70 k0_t3
  let c16_i32_105 : BitVec 32 := 16#32
  let v189 : BitVec 32 := Scalar.muli arg14 c16_i32_105
  let v191 : Index := Scalar.indexCast v189
  ![5, v191.toNat]
def k0_off22 (k0_t3 : Fin k0_t3_loop.trips) : Fin 2 → Nat :=
  let c6_i32_108 : BitVec 32 := 6#32
  let v197 : Index := Scalar.indexCast c6_i32_108
  let c0_i32_68 : BitVec 32 := 0#32
  let c1_i32_70 : BitVec 32 := 1#32
  let arg14 : BitVec 32 := Scf.iv c0_i32_68 c1_i32_70 k0_t3
  let c16_i32_107 : BitVec 32 := 16#32
  let v196 : BitVec 32 := Scalar.muli arg14 c16_i32_107
  let v198 : Index := Scalar.indexCast v196
  ![6, v198.toNat]
def k0_off23 (k0_t3 : Fin k0_t3_loop.trips) : Fin 2 → Nat :=
  let c7_i32_110 : BitVec 32 := 7#32
  let v204 : Index := Scalar.indexCast c7_i32_110
  let c0_i32_68 : BitVec 32 := 0#32
  let c1_i32_70 : BitVec 32 := 1#32
  let arg14 : BitVec 32 := Scf.iv c0_i32_68 c1_i32_70 k0_t3
  let c16_i32_109 : BitVec 32 := 16#32
  let v203 : BitVec 32 := Scalar.muli arg14 c16_i32_109
  let v205 : Index := Scalar.indexCast v203
  ![7, v205.toNat]
def k0_cond2 (k0_t1 : Fin k0_t1_loop.trips) : BitVec 1 :=
  let c0_i32_4 : BitVec 32 := 0#32
  let c1_i32_5 : BitVec 32 := 1#32
  let arg13 : BitVec 32 := Scf.iv c0_i32_4 c1_i32_5 k0_t1
  let c2_i32 : BitVec 32 := 2#32
  let v15 : BitVec 32 := Scalar.muli arg13 c2_i32
  let c3_i32_91 : BitVec 32 := 3#32
  let v146 : BitVec 32 := Scalar.addi v15 c3_i32_91
  let c32_i32_92 : BitVec 32 := 32#32
  let v147 : BitVec 1 := Scalar.cmpi .slt v146 c32_i32_92
  let v148 : BitVec 32 := Scalar.extui v147
  let c0_i32_93 : BitVec 32 := 0#32
  let v149 : BitVec 1 := Scalar.cmpi .ne v148 c0_i32_93
  v149

def k0_off24 (i : grid0.Coords) (k0_t1 : Fin k0_t1_loop.trips) : Fin 2 → Nat :=
  let c12288_i32 : BitVec 32 := 12288#32
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c12288_i32 v2
  let c0_i32_4 : BitVec 32 := 0#32
  let c1_i32_5 : BitVec 32 := 1#32
  let arg13 : BitVec 32 := Scf.iv c0_i32_4 c1_i32_5 k0_t1
  let c2_i32 : BitVec 32 := 2#32
  let v15 : BitVec 32 := Scalar.muli arg13 c2_i32
  let c3_i32_94 : BitVec 32 := 3#32
  let v150 : BitVec 32 := Scalar.addi v15 c3_i32_94
  let c8_i32_95 : BitVec 32 := 8#32
  let v151 : BitVec 32 := Scalar.muli v150 c8_i32_95
  let v152 : BitVec 32 := Scalar.addi v3 v151
  let c0_i32_96 : BitVec 32 := 0#32
  ![v152.toNat, 0]
@[reducible] def k0_t4_loop : Scf.Loop 32 :=
  let c0_i32_8 : BitVec 32 := 0#32
  let c256_i32_9 : BitVec 32 := 256#32
  let v10 : BitVec 32 := Scalar.addi c0_i32_8 c256_i32_9
  let c1_i32_10 : BitVec 32 := 1#32
  ⟨c0_i32_8, v10, c1_i32_10⟩
def k0_off25 (k0_t4 : Fin k0_t4_loop.trips) : Fin 1 → Nat :=
  let c0_i32_8 : BitVec 32 := 0#32
  let c1_i32_10 : BitVec 32 := 1#32
  let arg13 : BitVec 32 := Scf.iv c0_i32_8 c1_i32_10 k0_t4
  let c16_i32_29 : BitVec 32 := 16#32
  let v15 : BitVec 32 := Scalar.muli arg13 c16_i32_29
  let v16 : Index := Scalar.indexCast v15
  ![v16.toNat]
def k0_off26 (k0_t4 : Fin k0_t4_loop.trips) : Fin 1 → Nat :=
  let c0_i32_8 : BitVec 32 := 0#32
  let c1_i32_10 : BitVec 32 := 1#32
  let arg13 : BitVec 32 := Scf.iv c0_i32_8 c1_i32_10 k0_t4
  let c16_i32_30 : BitVec 32 := 16#32
  let v19 : BitVec 32 := Scalar.muli arg13 c16_i32_30
  let c8_i32_31 : BitVec 32 := 8#32
  let v20 : BitVec 32 := Scalar.addi v19 c8_i32_31
  let v21 : Index := Scalar.indexCast v20
  ![v21.toNat]
@[reducible] def k0_t5_loop : Scf.Loop 32 :=
  let c0_i32_13 : BitVec 32 := 0#32
  let c256_i32_14 : BitVec 32 := 256#32
  let v11 : BitVec 32 := Scalar.addi c0_i32_13 c256_i32_14
  let c1_i32_15 : BitVec 32 := 1#32
  ⟨c0_i32_13, v11, c1_i32_15⟩
def k0_off27 (k0_t5 : Fin k0_t5_loop.trips) : Fin 1 → Nat :=
  let c0_i32_13 : BitVec 32 := 0#32
  let c1_i32_15 : BitVec 32 := 1#32
  let arg13 : BitVec 32 := Scf.iv c0_i32_13 c1_i32_15 k0_t5
  let c16_i32_29 : BitVec 32 := 16#32
  let v15 : BitVec 32 := Scalar.muli arg13 c16_i32_29
  let v16 : Index := Scalar.indexCast v15
  ![v16.toNat]
def k0_off28 (k0_t5 : Fin k0_t5_loop.trips) : Fin 1 → Nat :=
  let c0_i32_13 : BitVec 32 := 0#32
  let c1_i32_15 : BitVec 32 := 1#32
  let arg13 : BitVec 32 := Scf.iv c0_i32_13 c1_i32_15 k0_t5
  let c16_i32_30 : BitVec 32 := 16#32
  let v19 : BitVec 32 := Scalar.muli arg13 c16_i32_30
  let c4_i32 : BitVec 32 := 4#32
  let v20 : BitVec 32 := Scalar.addi v19 c4_i32
  let v21 : Index := Scalar.indexCast v20
  ![v21.toNat]
@[reducible] def k0_t6_loop : Scf.Loop 32 :=
  let c0_i32_18 : BitVec 32 := 0#32
  let c256_i32_19 : BitVec 32 := 256#32
  let v12 : BitVec 32 := Scalar.addi c0_i32_18 c256_i32_19
  let c1_i32_20 : BitVec 32 := 1#32
  ⟨c0_i32_18, v12, c1_i32_20⟩
def k0_off29 (k0_t6 : Fin k0_t6_loop.trips) : Fin 1 → Nat :=
  let c0_i32_18 : BitVec 32 := 0#32
  let c1_i32_20 : BitVec 32 := 1#32
  let arg13 : BitVec 32 := Scf.iv c0_i32_18 c1_i32_20 k0_t6
  let c16_i32_29 : BitVec 32 := 16#32
  let v15 : BitVec 32 := Scalar.muli arg13 c16_i32_29
  let v16 : Index := Scalar.indexCast v15
  ![v16.toNat]
def k0_off30 (k0_t6 : Fin k0_t6_loop.trips) : Fin 1 → Nat :=
  let c0_i32_18 : BitVec 32 := 0#32
  let c1_i32_20 : BitVec 32 := 1#32
  let arg13 : BitVec 32 := Scf.iv c0_i32_18 c1_i32_20 k0_t6
  let c16_i32_30 : BitVec 32 := 16#32
  let v19 : BitVec 32 := Scalar.muli arg13 c16_i32_30
  let c2_i32 : BitVec 32 := 2#32
  let v20 : BitVec 32 := Scalar.addi v19 c2_i32
  let v21 : Index := Scalar.indexCast v20
  ![v21.toNat]
@[reducible] def k0_t7_loop : Scf.Loop 32 :=
  let c0_i32_23 : BitVec 32 := 0#32
  let c256_i32_24 : BitVec 32 := 256#32
  let v13 : BitVec 32 := Scalar.addi c0_i32_23 c256_i32_24
  let c1_i32_25 : BitVec 32 := 1#32
  ⟨c0_i32_23, v13, c1_i32_25⟩
def k0_off31 (k0_t7 : Fin k0_t7_loop.trips) : Fin 1 → Nat :=
  let c0_i32_23 : BitVec 32 := 0#32
  let c1_i32_25 : BitVec 32 := 1#32
  let arg13 : BitVec 32 := Scf.iv c0_i32_23 c1_i32_25 k0_t7
  let c16_i32_29 : BitVec 32 := 16#32
  let v15 : BitVec 32 := Scalar.muli arg13 c16_i32_29
  let v16 : Index := Scalar.indexCast v15
  ![v16.toNat]
def k0_off32 (k0_t7 : Fin k0_t7_loop.trips) : Fin 1 → Nat :=
  let c0_i32_23 : BitVec 32 := 0#32
  let c1_i32_25 : BitVec 32 := 1#32
  let arg13 : BitVec 32 := Scf.iv c0_i32_23 c1_i32_25 k0_t7
  let c16_i32_30 : BitVec 32 := 16#32
  let v19 : BitVec 32 := Scalar.muli arg13 c16_i32_30
  let c1_i32_31 : BitVec 32 := 1#32
  let v20 : BitVec 32 := Scalar.addi v19 c1_i32_31
  let v21 : Index := Scalar.indexCast v20
  ![v21.toNat]
def k0_off33 (k0_t7 : Fin k0_t7_loop.trips) : Fin 2 → Nat :=
  let c0_i32_23 : BitVec 32 := 0#32
  let c1_i32_25 : BitVec 32 := 1#32
  let arg13 : BitVec 32 := Scf.iv c0_i32_23 c1_i32_25 k0_t7
  let v25 : Index := Scalar.indexCast arg13
  let c0 : Index := 0#32
  ![v25.toNat, 0]
def k0_off34 (i : grid0.Coords) : Fin 2 → Nat :=
  let arg1 : BitVec 32 := BitVec.ofNat 32 (i 1).val
  let c0_i32_30_r1 : BitVec 32 := 0#32
  ![arg1.toNat, 0]
def k0_off35 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32_28 : BitVec 32 := 256#32
  let v14 : BitVec 32 := Scalar.muli v1 c256_i32_28
  ![v14.toNat]
abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  shapeCasts_S16_S16 : S16.ShapeCasts S16
  h_S1x16 : 0 < S1x16.numel
  shapeCasts_S1x16_S16 : S1x16.ShapeCasts S16
  shapeCasts_S16_S1x16 : S16.ShapeCasts S1x16
  inb_S256x16_S256x1_0_0 : ∀ a, (![0, 0] : Fin 2 → Nat) a + S256x1.size a ≤ S256x16.size a
  squeezes_S256x1_S256 : S256x1.Squeezes S256
  squeezes_S1x256_S256 : S1x256.Squeezes S256
  inb_S512x4096_S512x4096_0_0 : ∀ a, (![0, 0] : Fin 2 → Nat) a + S512x4096.size a ≤ S512x4096.size a
  h_S512x4096 : 0 < S512x4096.numel
  inb_S4096_S4096_0 : ∀ a, (![0] : Fin 1 → Nat) a + S4096.size a ≤ S4096.size a
  h_S4096 : 0 < S4096.numel
  inb_S512_S512_0 : ∀ a, (![0] : Fin 1 → Nat) a + S512.size a ≤ S512.size a
  h_S512 : 0 < S512.numel
  concatenates_S12288_S4096_S16384_d0 : Shape.Concatenates [S12288, S4096] S16384 0
  dot_S512x4096_S4096_S512_1_0_0_n_n_n_wf : DotDims.WF S512x4096 S4096 S512 [1] [0] [0] [] [] []
  hcc0_scratch6 : 0 + S_.numel ≤ 10
  hcc0_scratch7 : 1 + S_.numel ≤ 10
  hcc0_scoped0 : 2 + S_.numel ≤ 10
  hcc0_scoped1 : 3 + S_.numel ≤ 10
  hcc0_scoped2 : 4 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x4096.size a ≤ S16384x4096.size a
  k0_off2_inb : ∀ i : grid0.Coords, ∀ a, (k0_off2 i) a + S8x4096.size a ≤ S16384x4096.size a
  k0_t1_ok : k0_t1_loop.OK
  k0_off3_inb : ∀ i : grid0.Coords, ∀ a, (k0_off3 i) a + S8x4096.size a ≤ S16384x4096.size a
  k0_t2_ok : k0_t2_loop.OK
  k0_off4_inb : ∀ k0_t2 : Fin k0_t2_loop.trips, ∀ a, (k0_off4 k0_t2) a + S16.size a ≤ S4096.size a
  k0_off5_inb : ∀ k0_t2 : Fin k0_t2_loop.trips, ∀ a, (k0_off5 k0_t2) a + S1x16.size a ≤ S8x4096.size a
  k0_off6_inb : ∀ k0_t2 : Fin k0_t2_loop.trips, ∀ a, (k0_off6 k0_t2) a + S1x16.size a ≤ S8x4096.size a
  k0_off7_inb : ∀ k0_t2 : Fin k0_t2_loop.trips, ∀ a, (k0_off7 k0_t2) a + S1x16.size a ≤ S8x4096.size a
  k0_off8_inb : ∀ k0_t2 : Fin k0_t2_loop.trips, ∀ a, (k0_off8 k0_t2) a + S1x16.size a ≤ S8x4096.size a
  k0_off9_inb : ∀ k0_t2 : Fin k0_t2_loop.trips, ∀ a, (k0_off9 k0_t2) a + S1x16.size a ≤ S8x4096.size a
  k0_off10_inb : ∀ k0_t2 : Fin k0_t2_loop.trips, ∀ a, (k0_off10 k0_t2) a + S1x16.size a ≤ S8x4096.size a
  k0_off11_inb : ∀ k0_t2 : Fin k0_t2_loop.trips, ∀ a, (k0_off11 k0_t2) a + S1x16.size a ≤ S8x4096.size a
  k0_off12_inb : ∀ k0_t2 : Fin k0_t2_loop.trips, ∀ a, (k0_off12 k0_t2) a + S1x16.size a ≤ S8x4096.size a
  k0_off13_inb : ∀ k0_t1 : Fin k0_t1_loop.trips, ∀ (r₁ : Fin 2) (r₂ : Fin 8), ∀ a, (k0_off13 k0_t1 (BitVec.ofNat 32 r₁.val) (BitVec.ofNat 32 r₂.val)) a + S16.size a ≤ S4112.size a
  k0_off14_inb : ∀ (i : grid0.Coords) (k0_t1 : Fin k0_t1_loop.trips), ∀ (k0_h1 : k0_cond1 k0_t1 = 1#1), ∀ a, (k0_off14 i k0_t1) a + S8x4096.size a ≤ S16384x4096.size a
  k0_t3_ok : k0_t3_loop.OK
  k0_off15_inb : ∀ k0_t3 : Fin k0_t3_loop.trips, ∀ a, (k0_off15 k0_t3) a + S16.size a ≤ S4096.size a
  k0_off16_inb : ∀ k0_t3 : Fin k0_t3_loop.trips, ∀ a, (k0_off16 k0_t3) a + S1x16.size a ≤ S8x4096.size a
  k0_off17_inb : ∀ k0_t3 : Fin k0_t3_loop.trips, ∀ a, (k0_off17 k0_t3) a + S1x16.size a ≤ S8x4096.size a
  k0_off18_inb : ∀ k0_t3 : Fin k0_t3_loop.trips, ∀ a, (k0_off18 k0_t3) a + S1x16.size a ≤ S8x4096.size a
  k0_off19_inb : ∀ k0_t3 : Fin k0_t3_loop.trips, ∀ a, (k0_off19 k0_t3) a + S1x16.size a ≤ S8x4096.size a
  k0_off20_inb : ∀ k0_t3 : Fin k0_t3_loop.trips, ∀ a, (k0_off20 k0_t3) a + S1x16.size a ≤ S8x4096.size a
  k0_off21_inb : ∀ k0_t3 : Fin k0_t3_loop.trips, ∀ a, (k0_off21 k0_t3) a + S1x16.size a ≤ S8x4096.size a
  k0_off22_inb : ∀ k0_t3 : Fin k0_t3_loop.trips, ∀ a, (k0_off22 k0_t3) a + S1x16.size a ≤ S8x4096.size a
  k0_off23_inb : ∀ k0_t3 : Fin k0_t3_loop.trips, ∀ a, (k0_off23 k0_t3) a + S1x16.size a ≤ S8x4096.size a
  k0_off24_inb : ∀ (i : grid0.Coords) (k0_t1 : Fin k0_t1_loop.trips), ∀ (k0_h2 : k0_cond2 k0_t1 = 1#1), ∀ a, (k0_off24 i k0_t1) a + S8x4096.size a ≤ S16384x4096.size a
  k0_t4_ok : k0_t4_loop.OK
  k0_off25_inb : ∀ k0_t4 : Fin k0_t4_loop.trips, ∀ a, (k0_off25 k0_t4) a + S16.size a ≤ S4112.size a
  k0_off26_inb : ∀ k0_t4 : Fin k0_t4_loop.trips, ∀ a, (k0_off26 k0_t4) a + S16.size a ≤ S4112.size a
  k0_t5_ok : k0_t5_loop.OK
  k0_off27_inb : ∀ k0_t5 : Fin k0_t5_loop.trips, ∀ a, (k0_off27 k0_t5) a + S16.size a ≤ S4112.size a
  k0_off28_inb : ∀ k0_t5 : Fin k0_t5_loop.trips, ∀ a, (k0_off28 k0_t5) a + S16.size a ≤ S4112.size a
  k0_t6_ok : k0_t6_loop.OK
  k0_off29_inb : ∀ k0_t6 : Fin k0_t6_loop.trips, ∀ a, (k0_off29 k0_t6) a + S16.size a ≤ S4112.size a
  k0_off30_inb : ∀ k0_t6 : Fin k0_t6_loop.trips, ∀ a, (k0_off30 k0_t6) a + S16.size a ≤ S4112.size a
  k0_t7_ok : k0_t7_loop.OK
  k0_off31_inb : ∀ k0_t7 : Fin k0_t7_loop.trips, ∀ a, (k0_off31 k0_t7) a + S16.size a ≤ S4112.size a
  k0_off32_inb : ∀ k0_t7 : Fin k0_t7_loop.trips, ∀ a, (k0_off32 k0_t7) a + S16.size a ≤ S4112.size a
  k0_off33_inb : ∀ k0_t7 : Fin k0_t7_loop.trips, ∀ a, (k0_off33 k0_t7) a + S1x16.size a ≤ S256x16.size a
  k0_off34_inb : ∀ i : grid0.Coords, ∀ a, (k0_off34 i) a + S1x256.size a ≤ S16x256.size a
  k0_off35_inb : ∀ i : grid0.Coords, ∀ a, (k0_off35 i) a + S256.size a ≤ S4096.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .f32 = 32 ∨ (Rect.block (s := S16384x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S4096.size a
  hwx1_1 : ∀ i : grid1.Coords, EltTy.bits .f32 = 32 ∨ (Rect.block (s := S4096) S4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S12288.size a
  hwx1_2 : ∀ i : grid1.Coords, EltTy.bits .f32 = 32 ∨ (Rect.block (s := S12288) S512.size (cc1_transform_2 i) (hinb1_2 i)).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
def dot_S512x4096_S4096_S512_1_0_0_n_n_n : DotDims S512x4096 S4096 S512 where
  lhsContracting := [1]
  rhsContracting := [0]
  lhsNonContracting := [0]
  rhsNonContracting := []
  lhsBatch := []
  rhsBatch := []
  wf := dot_S512x4096_S4096_S512_1_0_0_n_n_n_wf

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S4096 : Shape := ⟨1, ![4096]⟩
abbrev S16384 : Shape := ⟨1, ![16384]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x4096_S4096_S16384_1_0_0_n_n_n_wf : DotDims.WF S16384x4096 S4096 S16384 [1] [0] [0] [] [] []

variable [Facts₀]

def dot_S16384x4096_S4096_S16384_1_0_0_n_n_n : DotDims S16384x4096 S4096 S16384 where
  lhsContracting := [1]
  rhsContracting := [0]
  lhsNonContracting := [0]
  rhsNonContracting := []
  lhsBatch := []
  rhsBatch := []
  wf := dot_S16384x4096_S4096_S16384_1_0_0_n_n_n_wf

class Facts : Prop extends Facts₀ where

variable [Facts]
-- ==== Proof.Spec.lean ====
/-
  The matrix–vector product as the kernel computes it, index by index and generic in the float instance, and the
  plain sum it is compared with.

  The result has 16384 entries. Entries 0 … 12287 come from blocks of 512 rows, each one matrix product of the block
  with the vector into a zero accumulator (`tcVal`). Entries 12288 … 16383 come from a lane computation (`scVal`): a row's
  4096 products are accumulated in 16 lanes, lane `l` taking the columns `16 j + l` for `j = 0 … 255` in order
  (`laneAcc`); the 16 lanes are then added pairwise at distances 8, 4, 2 and 1 (`fold8`, `fold4`, `fold2`, `rowSum`).
  `kernelVal` is the concatenation of the two parts. At the extended reals all of it is the sum
  `G A x i = ∑ k, A (i, k) · x k`.
-/
import Idealize.ShloMosaic.PureOps.Ideal
import Idealize.ShloMosaic.Lib.ValueIdx

noncomputable section

namespace Cert.MV

open Idealize.ShloMosaic Idealize.ShloMosaic.ValueIdx
open scoped BigOperators

variable {F : FTy → Type} [FloatOps F]

/-- The matrix, the vector, the two parts of the result, the result, a block of 512 rows and its 512 results. -/
abbrev SA : Shape := ⟨2, ![16384, 4096]⟩
abbrev SX : Shape := ⟨1, ![4096]⟩
abbrev STc : Shape := ⟨1, ![12288]⟩
abbrev SSc : Shape := ⟨1, ![4096]⟩
abbrev SY : Shape := ⟨1, ![16384]⟩
abbrev SBlk : Shape := ⟨2, ![512, 4096]⟩
abbrev SOb : Shape := ⟨1, ![512]⟩

/-- The zero word. -/
abbrev zeroF : F .f32 := FloatOps.ofBits .f32 0x00000000#32

/-- Entry `(i, k)` of the matrix by natural numbers (the zero word outside the matrix). -/
def aAt (A : FVec F SA .f32) (i k : Nat) : F .f32 :=
  if h : i < 16384 ∧ k < 4096 then A (ix2 (⟨i, h.1⟩ : Fin 16384) (⟨k, h.2⟩ : Fin 4096)) else zeroF

/-- Entry `k` of the vector by a natural number (the zero word outside). -/
def xAt (x : FVec F SX .f32) (k : Nat) : F .f32 :=
  if h : k < 4096 then x (ix1 (⟨k, h⟩ : Fin 4096)) else zeroF

/-- Lane `l` of row `i`'s accumulator after `j` chunks of 16 columns: it starts at zero and chunk `j` adds the
    product of column `16 j + l`. -/
def laneAcc (A : FVec F SA .f32) (x : FVec F SX .f32) (i l : Nat) : Nat → F .f32
  | 0 => zeroF
  | j + 1 => FloatOps.addf (laneAcc A x i l j) (FloatOps.mulf (aAt A i (16 * j + l)) (xAt x (16 * j + l)))

/-- The lanes after all 256 chunks, added at distance 8, then 4, then 2, then 1. -/
def fold8 (A : FVec F SA .f32) (x : FVec F SX .f32) (i l : Nat) : F .f32 :=
  FloatOps.addf (laneAcc A x i l 256) (laneAcc A x i (l + 8) 256)
def fold4 (A : FVec F SA .f32) (x : FVec F SX .f32) (i l : Nat) : F .f32 :=
  FloatOps.addf (fold8 A x i l) (fold8 A x i (l + 4))
def fold2 (A : FVec F SA .f32) (x : FVec F SX .f32) (i l : Nat) : F .f32 :=
  FloatOps.addf (fold4 A x i l) (fold4 A x i (l + 2))
def rowSum (A : FVec F SA .f32) (x : FVec F SX .f32) (i : Nat) : F .f32 :=
  FloatOps.addf (fold2 A x i 0) (fold2 A x i 1)

/-- The last 4096 entries of the result: entry `j` is row `12288 + j`'s folded lane sum. -/
def scVal (A : FVec F SA .f32) (x : FVec F SX .f32) : FVec F SSc .f32 := fun j => rowSum A x (12288 + (j 0).val)

/-- Block `t` of 512 rows of the matrix. -/
def tcBlock (A : FVec F SA .f32) (t : Nat) : FVec F SBlk .f32 := fun j => aAt A (512 * t + (j 0).val) (j 1).val

/-- The first 12288 entries of the result: entry `i` is entry `i mod 512` of the matrix product of block `i / 512`
    with the vector, into a zero accumulator. -/
def tcVal (d : DotDims SBlk SX SOb) (A : FVec F SA .f32) (x : FVec F SX .f32) : FVec F STc .f32 := fun i =>
  FloatOps.matmul d none (tcBlock A ((i 0).val / 512)) x (constant SOb .f32 0x00000000#32)
    (ix1 (⟨(i 0).val % 512, Nat.mod_lt _ (by norm_num)⟩ : Fin 512))

/-- The whole result: the block part followed by the lane part. -/
def kernelVal (d : DotDims SBlk SX SOb) (A : FVec F SA .f32) (x : FVec F SX .f32)
    (h : Shape.Concatenates [STc, SSc] SY 0) : FVec F SY .f32 :=
  concatenate SY 0 [⟨STc, tcVal d A x⟩, ⟨SSc, scVal A x⟩] h

/-- The plain matrix–vector product over the extended reals. -/
def G (A : SA.Idx → EReal) (x : SX.Idx → EReal) : SY.Idx → EReal :=
  fun i => ∑ k : Fin 4096, A (ix2 (⟨(i 0).val, (i 0).isLt⟩ : Fin 16384) k) * x (ix1 k)

end Cert.MV

end
-- ==== Proof.Common.lean ====
/-
  The vocabulary of the kernel program's run: the program as a launch of SparseCore 0's sixteen vector subcores
  beside the TensorCore's @main, the ghost state (the launch handshakes' rounds, the TensorCore pipeline's staging
  rounds, the local transfers' counters), the arrays as locations, and what the launch hands each vector subcore and
  takes back.

  Vector subcore `w` reads the whole matrix and the whole vector (a read share of each), owns entries
  `256 w … 256 w + 255` of the SparseCore's result and row `w` of the SparseCore's shared scratch, and hands them
  back with its 256 result entries at the folded lane sums of its rows (Spec's `scVal`).
-/
import proofs.«219795_g11467562680804_week1_w4_611_41_alg».proof.Proof.Gen.KernelIdeal
import proofs.«219795_g11467562680804_week1_w4_611_41_alg».proof.Proof.Gen.KernelIdeal.Skeleton
import proofs.«219795_g11467562680804_week1_w4_611_41_alg».proof.Proof.Gen.KernelIdeal.Launch
import proofs.«219795_g11467562680804_week1_w4_611_41_alg».proof.Proof.Gen.KernelIdeal.Points
import proofs.«219795_g11467562680804_week1_w4_611_41_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Pf

open Cert.KernelIdeal Cert.KernelIdeal.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's staging rounds, the transfers' counters -/

abbrev UH : Type := URounds (GSem nD τ sig) ℕ
abbrev UP : Type := URounds (GSem nD τ sig) Unit
abbrev UU : Type := UH × (UP × Counters)

/-- The handshakes' rounds: the left factor. The counters are found by instance in the right. -/
abbrev EH : Emb UH (MT nD τ sig (HIx 1) (Elt F) ℕ UU ℕ) := embL

/-! ## The arrays -/

variable (m : (ℓ : Loc nD τ sig) → Buf (Elt F) ℓ) (ρ : Dev nD → PrngReg)

/-- The matrix, the vector (the arguments), the SparseCore's 4096 results, the TensorCore's 12288, the result. -/
abbrev aLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0
abbrev tLoc (d : Dev nD) : Loc nD τ sig := (SparseCore.T d).loc main_v1
abbrev yLoc (d : Dev nD) : Loc nD τ sig := (SparseCore.T d).loc main_v2

/-- A vector subcore's coordinates in the kernel's grid. -/
def coordsV (c : Fin (grid0.bound 0)) (s : Fin (grid0.bound 1)) : grid0.Coords :=
  fun | 0 => c | 1 => s | ⟨_ + 2, h⟩ => absurd h (Nat.not_lt.2 (Nat.le_add_left _ _))
abbrev cV (L : grid0.Coords) : Fin τ.nSC := (L 0).castLE hcore0
abbrev jV (L : grid0.Coords) : Fin τ.nSub := (L 1).castLE hsub0

/-- The whole arrays as a vector subcore's kernel names them. -/
abbrev aV : Memref sig .scVector .hbm S16384x4096 .f32 := Memref.whole main_arg0_scv
abbrev xV : Memref sig .scVector .hbm S4096 .f32 := Memref.whole main_arg1_scv
abbrev oV : Memref sig .scVector .hbm S4096 .f32 := Memref.whole main_v0_scv
abbrev shV : Memref sig .scVector .shared S16x256 .f32 := Memref.whole cc0_scratch5

/-- The 256 result entries vector subcore `L` writes, and its row of the shared scratch, as the kernel slices them. -/
abbrev oSl (L : grid0.Coords) : Memref sig .scVector .hbm S256 .f32 :=
  (oV).slice (Rect.unit (s := S4096) (k0_off35 L) S256.size (k0_off35_inb L)) (fun _ => rfl)
abbrev shSl (L : grid0.Coords) : Memref sig .scVector .shared S256 .f32 :=
  ((shV).slice (Rect.unit (s := S16x256) (k0_off34 L) S1x256.size (k0_off34_inb L)) (fun _ => rfl)).squeeze S256 squeezes_S1x256_S256

variable [FloatOps F]

/-- The SparseCore's 4096 results as they should end: the folded lane sums of rows 12288 … 16383. -/
def scOut (d : Dev nD) : Buf (Elt F) (oLoc d) := scVal (F := F) (m (aLoc d)) (m (xLoc d))
/-- The TensorCore's 12288 results: the block products. -/
def tcOut (d : Dev nD) : Buf (Elt F) (tLoc d) := tcVal (F := F) dot_S512x4096_S4096_S512_1_0_0_n_n_n (m (aLoc d)) (m (xLoc d))
/-- The result: the two parts concatenated. -/
def yOut (d : Dev nD) : Buf (Elt F) (yLoc d) :=
  kernelVal (F := F) dot_S512x4096_S4096_S512_1_0_0_n_n_n (m (aLoc d)) (m (xLoc d)) concatenates_S12288_S4096_S16384_d0

local notation "𝕄" => MT nD τ sig (HIx 1) (Elt F) ℕ UU ℕ

/-- What vector subcore `L` of device `d` is handed: a read share of the matrix and of the vector, its 256 result
    entries at their launch contents, its row of the shared scratch at some contents. -/
def tileGo (d : Dev nD) (L : grid0.Coords) : sProp 𝕄 :=
  iprop((aLoc d ↦{Transfers.shareTok fullShare 16 (jV L)} m (aLoc d)) ∗ (xLoc d ↦{Transfers.shareTok fullShare 16 (jV L)} m (xLoc d))
    ∗ ((oSl L).view.loc (V d (cV L) (jV L)) ↦[(oSl L).view.set]{fullShare} m (oLoc d))
    ∗ ∃ f, (shSl L).view.loc (V d (cV L) (jV L)) ↦[(shSl L).view.set]{fullShare} f)

/-- What it hands back: the same, its 256 result entries at the folded lane sums of its rows. -/
def tileTd (d : Dev nD) (L : grid0.Coords) : sProp 𝕄 :=
  iprop((aLoc d ↦{Transfers.shareTok fullShare 16 (jV L)} m (aLoc d)) ∗ (xLoc d ↦{Transfers.shareTok fullShare 16 (jV L)} m (xLoc d))
    ∗ ((oSl L).view.loc (V d (cV L) (jV L)) ↦[(oSl L).view.set]{fullShare} scOut m d)
    ∗ ∃ f, (shSl L).view.loc (V d (cV L) (jV L)) ↦[(shSl L).view.set]{fullShare} f)

/-- The grid coordinates of task `i` on SparseCore `c` of call 0's grid. -/
abbrev coordsOf (c : Fin ((K (F := F)).nCore 0)) (i : Fin ((K (F := F)).nSub 0)) : grid0.Coords :=
  coordsV ⟨c.val, c.isLt⟩ ⟨i.val, i.isLt⟩

/-- The one SparseCore call: SparseCore 0 takes the matrix, the vector and its result array whole and brings them
    back, the result array at the folded lane sums; each task its share. -/
def P : (K (F := F)).Pay (nD := nD) (Val := Elt F) (Name := ℕ) (U := UU) where
  st := fun _ d _ => iprop((aLoc d ↦{fullShare} m (aLoc d)) ∗ (xLoc d ↦{fullShare} m (xLoc d)) ∗ (oLoc d ↦{fullShare} m (oLoc d)))
  dn := fun _ d _ => iprop((aLoc d ↦{fullShare} m (aLoc d)) ∗ (xLoc d ↦{fullShare} m (xLoc d)) ∗ (oLoc d ↦{fullShare} scOut m d))
  go := fun q d c i => match q with | 0 => tileGo m d (coordsOf c i)
  td := fun q d c i => match q with | 0 => tileTd m d (coordsOf c i)
  x := fun _ _ => iprop(emp)

instance P_storable : (P (F := F) m).IsStorable where
  st _ d c := by unfold P; infer_instance
  dn _ d c := by unfold P; infer_instance
  go q d c i := match q with | 0 => by unfold P tileGo; infer_instance
  td q d c i := match q with | 0 => by unfold P tileTd; infer_instance

end Cert.KernelIdeal.Pf

end
-- ==== Proof.TileStorage.lean ====
/-
  A vector subcore's own storage, item by item: its five scratch buffers (the copy of the vector, the two 8-row
  buffers, the lane accumulators' rows, the folded rows) and its five transfer semaphores, each named, beside the rest.
-/
import proofs.«219795_g11467562680804_week1_w4_611_41_alg».proof.Proof.Common

noncomputable section

namespace Cert.KernelIdeal.Pf

open Cert.KernelIdeal Cert.KernelIdeal.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (c : Fin τ.nSC) (i : Fin τ.nSub)

/-- The subcore's five transfer semaphores as cells. -/
abbrev cellA0 : GSem nD τ sig := (V d c i, .dma cc0_scratch6.sem)
abbrev cellA1 : GSem nD τ sig := (V d c i, .dma cc0_scratch7.sem)
abbrev cellX : GSem nD τ sig := (V d c i, .dma cc0_scoped0.sem)
abbrev cellS : GSem nD τ sig := (V d c i, .dma cc0_scoped1.sem)
abbrev cellO : GSem nD τ sig := (V d c i, .dma cc0_scoped2.sem)

theorem mem_cell (sm : DmaSem sig) (h : (SemLoc.dma sm : SemLoc sig).isScoped .scVector = true) :
    ((V d c i, SemLoc.dma sm) : GSem nD τ sig) ∈ ownCells (V d c i) := (mem_ownCells).mpr ⟨rfl, h⟩

theorem cell_ne {a b : DmaSem sig} (h : a ≠ b) : ((V d c i, SemLoc.dma a) : GSem nD τ sig) ≠ (V d c i, SemLoc.dma b) :=
  fun e => h (SemLoc.dma.inj (Prod.mk.inj e).2)

theorem ownSems0_V5 :
    (ownSems0 (V d c i) : sProp 𝕄)
      = iprop(semVal (cellA0 d c i) 0 ∗ semVal (cellA1 d c i) 0 ∗ semVal (cellX d c i) 0 ∗ semVal (cellS d c i) 0 ∗ semVal (cellO d c i) 0
          ∗ bigSep ((((((ownCells (V d c i)).erase (cellA0 d c i)).erase (cellA1 d c i)).erase (cellX d c i)).erase (cellS d c i)).erase (cellO d c i))
              fun g => semVal g 0) := by
  unfold SparseCore.Cfg.ownSems0
  have m0 := mem_cell d c i cc0_scratch6.sem (by decide)
  have m1 := mem_cell d c i cc0_scratch7.sem (by decide)
  have m2 := mem_cell d c i cc0_scoped0.sem (by decide)
  have m3 := mem_cell d c i cc0_scoped1.sem (by decide)
  have m4 := mem_cell d c i cc0_scoped2.sem (by decide)
  have n10 := cell_ne d c i (show (cc0_scratch7.sem : DmaSem sig) ≠ cc0_scratch6.sem by decide)
  have n20 := cell_ne d c i (show (cc0_scoped0.sem : DmaSem sig) ≠ cc0_scratch6.sem by decide)
  have n21 := cell_ne d c i (show (cc0_scoped0.sem : DmaSem sig) ≠ cc0_scratch7.sem by decide)
  have n30 := cell_ne d c i (show (cc0_scoped1.sem : DmaSem sig) ≠ cc0_scratch6.sem by decide)
  have n31 := cell_ne d c i (show (cc0_scoped1.sem : DmaSem sig) ≠ cc0_scratch7.sem by decide)
  have n32 := cell_ne d c i (show (cc0_scoped1.sem : DmaSem sig) ≠ cc0_scoped0.sem by decide)
  have n40 := cell_ne d c i (show (cc0_scoped2.sem : DmaSem sig) ≠ cc0_scratch6.sem by decide)
  have n41 := cell_ne d c i (show (cc0_scoped2.sem : DmaSem sig) ≠ cc0_scratch7.sem by decide)
  have n42 := cell_ne d c i (show (cc0_scoped2.sem : DmaSem sig) ≠ cc0_scoped0.sem by decide)
  have n43 := cell_ne d c i (show (cc0_scoped2.sem : DmaSem sig) ≠ cc0_scoped1.sem by decide)
  rw [SparseCore.bigSep_erase' m0,
    SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41, Finset.mem_erase.mpr ⟨n40, m4⟩⟩⟩⟩)]

/-- A scratch buffer of the subcore as one of its own buffers. -/
abbrev bref (b : Ref sig .scVector) : DevRef τ sig := (Proc.scVector c i).devRef b

theorem mem_bref (b : Ref sig .scVector) (h : (bref c i b).owner = .proc (Proc.scVector c i)) : bref c i b ∈ ownRefs (sig := sig) (Proc.scVector c i) :=
  SparseCore.Cfg.mem_ownRefs_of_owner h

theorem bref_ne {a b : Ref sig .scVector} (h : a ≠ b) : bref c i a ≠ bref c i b :=
  fun e => h (Proc.devRef_injective _ e)

theorem ownBufs_V5 :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f)
          ∗ bigSep ((((((ownRefs (τ := τ) (sig := sig) (.scVector c i)).erase (bref c i cc0_scratch0)).erase (bref c i cc0_scratch1)).erase (bref c i cc0_scratch2)).erase
              (bref c i cc0_scratch3)).erase (bref c i cc0_scratch4))
              fun b => iprop(∃ f, ((d, b) : Loc nD τ sig) ↦{fullShare} f)) := by
  unfold SparseCore.Cfg.ownBufs
  have m0 := mem_bref c i cc0_scratch0 rfl
  have m1 := mem_bref c i cc0_scratch1 rfl
  have m2 := mem_bref c i cc0_scratch2 rfl
  have m3 := mem_bref c i cc0_scratch3 rfl
  have m4 := mem_bref c i cc0_scratch4 rfl
  have n10 := bref_ne c i (show (cc0_scratch1 : Ref sig .scVector) ≠ cc0_scratch0 by decide)
  have n20 := bref_ne c i (show (cc0_scratch2 : Ref sig .scVector) ≠ cc0_scratch0 by decide)
  have n21 := bref_ne c i (show (cc0_scratch2 : Ref sig .scVector) ≠ cc0_scratch1 by decide)
  have n30 := bref_ne c i (show (cc0_scratch3 : Ref sig .scVector) ≠ cc0_scratch0 by decide)
  have n31 := bref_ne c i (show (cc0_scratch3 : Ref sig .scVector) ≠ cc0_scratch1 by decide)
  have n32 := bref_ne c i (show (cc0_scratch3 : Ref sig .scVector) ≠ cc0_scratch2 by decide)
  have n40 := bref_ne c i (show (cc0_scratch4 : Ref sig .scVector) ≠ cc0_scratch0 by decide)
  have n41 := bref_ne c i (show (cc0_scratch4 : Ref sig .scVector) ≠ cc0_scratch1 by decide)
  have n42 := bref_ne c i (show (cc0_scratch4 : Ref sig .scVector) ≠ cc0_scratch2 by decide)
  have n43 := bref_ne c i (show (cc0_scratch4 : Ref sig .scVector) ≠ cc0_scratch3 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41, Finset.mem_erase.mpr ⟨n40, m4⟩⟩⟩⟩)]

/-! ## The task's thread, its scratch buffers as the kernel names them, and the arrays as the task addresses them -/

section Names

variable (m : (ℓ : Loc nD τ sig) → Buf (Elt F) ℓ) (d : Dev nD) (L : grid0.Coords)

abbrev thr : Thread nD τ := V d (cV L) (jV L)
abbrev s0 : Memref sig .scVector .vmem S4096 .f32 := Memref.whole cc0_scratch0
abbrev s1 : Memref sig .scVector .vmem S8x4096 .f32 := Memref.whole cc0_scratch1
abbrev s2 : Memref sig .scVector .vmem S8x4096 .f32 := Memref.whole cc0_scratch2
abbrev s3 : Memref sig .scVector .vmem S4112 .f32 := Memref.whole cc0_scratch3
abbrev s4 : Memref sig .scVector .vmem S256x16 .f32 := Memref.whole cc0_scratch4

theorem pts_aV (q : PosShare TreeShare) (f : Buf (Elt F) (aLoc d)) :
    ((aV).view.loc (thr d L) ↦{q} f : sProp 𝕄) = aLoc d ↦{q} f := by
  simp only [Memref.view_whole, View.set_whole]
theorem pts_xV (q : PosShare TreeShare) (f : Buf (Elt F) (xLoc d)) :
    ((xV).view.loc (thr d L) ↦{q} f : sProp 𝕄) = xLoc d ↦{q} f := by
  simp only [Memref.view_whole, View.set_whole]
theorem pts_s0 (f : Buf (Elt F) ((thr d L).loc cc0_scratch0)) :
    ((s0).view.loc (thr d L) ↦{fullShare} f : sProp 𝕄) = (thr d L).loc cc0_scratch0 ↦{fullShare} f := rfl
theorem pts_s1 (f : Buf (Elt F) ((thr d L).loc cc0_scratch1)) :
    ((s1).view.loc (thr d L) ↦{fullShare} f : sProp 𝕄) = (thr d L).loc cc0_scratch1 ↦{fullShare} f := rfl
theorem pts_s2 (f : Buf (Elt F) ((thr d L).loc cc0_scratch2)) :
    ((s2).view.loc (thr d L) ↦{fullShare} f : sProp 𝕄) = (thr d L).loc cc0_scratch2 ↦{fullShare} f := rfl
theorem pts_s3 (f : Buf (Elt F) ((thr d L).loc cc0_scratch3)) :
    ((s3).view.loc (thr d L) ↦{fullShare} f : sProp 𝕄) = (thr d L).loc cc0_scratch3 ↦{fullShare} f := rfl
theorem pts_s4 (f : Buf (Elt F) ((thr d L).loc cc0_scratch4)) :
    ((s4).view.loc (thr d L) ↦{fullShare} f : sProp 𝕄) = (thr d L).loc cc0_scratch4 ↦{fullShare} f := rfl

theorem vec2_congr {u v : Nat} (h : u = v) : (![u, 0] : Fin 2 → Nat) = ![v, 0] := by rw [h]

/-- The tile's first row of the matrix. -/
abbrev base (L : grid0.Coords) : Nat := 256 * (L 1).val + 256 * (L 0).val + 12288

/-- An 8-row block of the matrix as a source of a copy, at a stated first row. -/
abbrev aBlk (off : Fin 2 → Nat) (h : ∀ a, off a + S8x4096.size a ≤ S16384x4096.size a) : Memref sig .scVector .hbm S8x4096 .f32 :=
  (aV).slice (Rect.unit (s := S16384x4096) off S8x4096.size h) (fun _ => rfl)

end Names

end Cert.KernelIdeal.Pf

end
-- ==== Proof.LibViewAt.lean ====
/-
  Loads and stores through unit-stride rectangles of a rank-1 or rank-2 view, read at an index.

  A load of `w` consecutive entries from offset `o` of a rank-1 view, at lane `l`, is the view's entry `o + l`; a load of
  a row piece `(r, c0 … c0 + w - 1)` of a rank-2 view, at lane `l`, is the entry `(r, c0 + l)`. After a list of unmasked
  stores whose last one is such a rectangle, an entry inside the rectangle reads the payload's lane and an entry
  outside it reads what the earlier stores left. The offset is given by an equation, so that a closed form of a
  program's offset function can be supplied. Through a view of a whole buffer, `View.read` is the contents themselves
  (`View.read_whole`). Last, the casts between a 1 × w row and a w-vector at an index.
-/
import Idealize.ShloMosaic.Lib.Writes
import Idealize.ShloMosaic.Lib.ValueIdx
import Idealize.ShloMosaic.Lib.Pipeline.Value

noncomputable section

namespace Cert.ViewAt

open Idealize.ShloMosaic Idealize.ShloMosaic.ValueIdx

variable {sig : RefSig} {κ : Kind} {sp : Space} {e : EltTy} {Val : EltTy → Type}

/-! ## A store of the whole shape -/

section Whole

variable {s : Shape} (v : View sig κ sp s e)

/-- After a store of the whole shape, the view reads the payload, whatever it held before. -/
theorem read_writes_whole (f : v.ty.Contents Val) (w : (Rect.whole s).shape.Idx → Val e) (x : (Rect.whole s).shape.Idx) :
    v.read Val (v.writes Val f [⟨Rect.whole s, w⟩]) x = w x := by
  have h := View.read_writes_cons_emb v f (Rect.whole s) w [] x
  rwa [Rect.emb_whole_apply] at h

end Whole

/-! ## Rank 1 -/

section Rank1

variable {n : Nat}

/-- An entry of a piece of width `w` at offset `o` is inside the view. -/
theorem lt_of_inb1 {off : Fin 1 → Nat} {o w : Nat} (ho : off = ![o])
    (h : ∀ a, off a + (![w] : Fin 1 → Nat) a ≤ (⟨1, ![n]⟩ : Shape).size a) {j : Nat} (hj : j < w) : o + j < n := by
  subst ho
  have : o + w ≤ n := h 0
  omega

/-- The piece's own index `l` placed in the view is `o + l`. -/
theorem emb_unit1 {off : Fin 1 → Nat} {o w : Nat} (ho : off = ![o])
    (h : ∀ a, off a + (![w] : Fin 1 → Nat) a ≤ (⟨1, ![n]⟩ : Shape).size a) (l : (⟨1, ![w]⟩ : Shape).Idx) :
    (Rect.unit (s := ⟨1, ![n]⟩) off ![w] h).emb l = ix1 (⟨o + (l 0).val, lt_of_inb1 ho h (l 0).isLt⟩ : Fin n) := by
  subst ho
  funext a
  match a with
  | ⟨0, _⟩ => exact Fin.ext (show o + 1 * (l 0).val = o + (l 0).val by rw [Nat.one_mul])

variable (v : View sig κ sp ⟨1, ![n]⟩ e)

/-- A load of `w` consecutive entries from offset `o`, at lane `l`, is entry `o + l`. -/
theorem readAt_unit1 (C : v.ty.Contents Val) {off : Fin 1 → Nat} {o w : Nat} (ho : off = ![o])
    (h : ∀ a, off a + (![w] : Fin 1 → Nat) a ≤ (⟨1, ![n]⟩ : Shape).size a) (l : (⟨1, ![w]⟩ : Shape).Idx) :
    v.readAt Val (Rect.unit (s := ⟨1, ![n]⟩) off ![w] h).toLoadRect C l
      = v.read Val C (ix1 (⟨o + (l 0).val, lt_of_inb1 ho h (l 0).isLt⟩ : Fin n)) := by
  rw [View.readAt_apply]
  exact congrArg (v.read Val C) (emb_unit1 ho h l)

/-- After stores whose last one is `w` entries at offset `o`: entry `o + l` reads the payload's lane `l`. -/
theorem read_writes_unit1_in (f : v.ty.Contents Val) {off : Fin 1 → Nat} {o w : Nat} (ho : off = ![o])
    (h : ∀ a, off a + (![w] : Fin 1 → Nat) a ≤ (⟨1, ![n]⟩ : Shape).size a)
    (pay : (⟨1, ![w]⟩ : Shape).Idx → Val e) (Ls : List (View.Piece Val ⟨1, ![n]⟩ e)) (l : (⟨1, ![w]⟩ : Shape).Idx) :
    v.read Val (v.writes Val f (⟨Rect.unit (s := ⟨1, ![n]⟩) off ![w] h, pay⟩ :: Ls))
        (ix1 (⟨o + (l 0).val, lt_of_inb1 ho h (l 0).isLt⟩ : Fin n)) = pay l := by
  rw [← emb_unit1 ho h l]
  exact View.read_writes_cons_emb v f (Rect.unit (s := ⟨1, ![n]⟩) off ![w] h) pay Ls l

/-- An entry outside the last store's rectangle reads what the earlier stores left. -/
theorem read_writes_unit1_out (f : v.ty.Contents Val) {off : Fin 1 → Nat} {o w : Nat} (ho : off = ![o])
    (h : ∀ a, off a + (![w] : Fin 1 → Nat) a ≤ (⟨1, ![n]⟩ : Shape).size a)
    (pay : (⟨1, ![w]⟩ : Shape).Idx → Val e) (Ls : List (View.Piece Val ⟨1, ![n]⟩ e)) (p : Fin n)
    (hp : p.val < o ∨ o + w ≤ p.val) :
    v.read Val (v.writes Val f (⟨Rect.unit (s := ⟨1, ![n]⟩) off ![w] h, pay⟩ :: Ls)) (ix1 p)
      = v.read Val (v.writes Val f Ls) (ix1 p) := by
  subst ho
  rw [View.writes_cons]
  refine View.read_slice_write_of_not_mem _ _ _ _ ?_
  rw [Rect.map_emb_univ, Rect.mem_set_unit]
  intro hm
  have := hm 0
  have e1 : ((ix1 p : (⟨1, ![n]⟩ : Shape).Idx) 0).val = p.val := rfl
  have e2 : (![o] : Fin 1 → Nat) 0 = o := rfl
  have e3 : (![w] : Fin 1 → Nat) 0 = w := rfl
  omega

/-- The two cases in one: the last store's payload inside its rectangle, the earlier stores outside it. -/
theorem read_writes_unit1_cons (f : v.ty.Contents Val) {off : Fin 1 → Nat} {o w : Nat} (ho : off = ![o])
    (h : ∀ a, off a + (![w] : Fin 1 → Nat) a ≤ (⟨1, ![n]⟩ : Shape).size a)
    (pay : (⟨1, ![w]⟩ : Shape).Idx → Val e) (Ls : List (View.Piece Val ⟨1, ![n]⟩ e)) (p : Fin n) :
    v.read Val (v.writes Val f (⟨Rect.unit (s := ⟨1, ![n]⟩) off ![w] h, pay⟩ :: Ls)) (ix1 p)
      = if hp : o ≤ p.val ∧ p.val < o + w then pay (ix1 (⟨p.val - o, by omega⟩ : Fin w))
        else v.read Val (v.writes Val f Ls) (ix1 p) := by
  by_cases hp : o ≤ p.val ∧ p.val < o + w
  · rw [dif_pos hp]
    have e := read_writes_unit1_in v f ho h pay Ls (ix1 (⟨p.val - o, by omega⟩ : Fin w))
    have ep : (⟨o + (p.val - o), lt_of_inb1 ho h (show p.val - o < w by omega)⟩ : Fin n) = p := Fin.ext (by
      show o + (p.val - o) = p.val
      omega)
    exact (congrArg (fun q => v.read Val (v.writes Val f (⟨Rect.unit (s := ⟨1, ![n]⟩) off ![w] h, pay⟩ :: Ls)) (ix1 q)) ep).symm.trans e
  · rw [dif_neg hp]
    exact read_writes_unit1_out v f ho h pay Ls p (by omega)

end Rank1

/-! ## Rank 2, a row piece -/

section Rank2

variable {R Cn : Nat}

/-- A row piece `(r, c0 … c0 + w - 1)` is inside the view. -/
theorem lt_of_inb2 {off : Fin 2 → Nat} {r c0 w : Nat} (ho : off = ![r, c0])
    (h : ∀ a, off a + (![1, w] : Fin 2 → Nat) a ≤ (⟨2, ![R, Cn]⟩ : Shape).size a) {j : Nat} (hj : j < w) :
    r < R ∧ c0 + j < Cn := by
  subst ho
  have h0 : r + 1 ≤ R := h 0
  have h1 : c0 + w ≤ Cn := h 1
  omega

/-- The piece's own index `l` placed in the view is `(r, c0 + l)`. -/
theorem emb_unit2 {off : Fin 2 → Nat} {r c0 w : Nat} (ho : off = ![r, c0])
    (h : ∀ a, off a + (![1, w] : Fin 2 → Nat) a ≤ (⟨2, ![R, Cn]⟩ : Shape).size a) (l : (⟨2, ![1, w]⟩ : Shape).Idx) :
    (Rect.unit (s := ⟨2, ![R, Cn]⟩) off ![1, w] h).emb l
      = ix2 (⟨r, (lt_of_inb2 ho h (l 1).isLt).1⟩ : Fin R) (⟨c0 + (l 1).val, (lt_of_inb2 ho h (l 1).isLt).2⟩ : Fin Cn) := by
  subst ho
  funext a
  match a with
  | ⟨0, _⟩ =>
    have hl : (l 0).val < 1 := (l 0).isLt
    exact Fin.ext (show r + 1 * (l 0).val = r by omega)
  | ⟨1, _⟩ => exact Fin.ext (show c0 + 1 * (l 1).val = c0 + (l 1).val by rw [Nat.one_mul])

variable (v : View sig κ sp ⟨2, ![R, Cn]⟩ e)

/-- A load of the row piece, at lane `l`, is entry `(r, c0 + l)`. -/
theorem readAt_unit2 (C : v.ty.Contents Val) {off : Fin 2 → Nat} {r c0 w : Nat} (ho : off = ![r, c0])
    (h : ∀ a, off a + (![1, w] : Fin 2 → Nat) a ≤ (⟨2, ![R, Cn]⟩ : Shape).size a) (l : (⟨2, ![1, w]⟩ : Shape).Idx) :
    v.readAt Val (Rect.unit (s := ⟨2, ![R, Cn]⟩) off ![1, w] h).toLoadRect C l
      = v.read Val C (ix2 (⟨r, (lt_of_inb2 ho h (l 1).isLt).1⟩ : Fin R)
          (⟨c0 + (l 1).val, (lt_of_inb2 ho h (l 1).isLt).2⟩ : Fin Cn)) := by
  rw [View.readAt_apply]
  exact congrArg (v.read Val C) (emb_unit2 ho h l)

/-- After stores whose last one is the row piece: entry `(r, c0 + l)` reads the payload's lane `l`. -/
theorem read_writes_unit2_in (f : v.ty.Contents Val) {off : Fin 2 → Nat} {r c0 w : Nat} (ho : off = ![r, c0])
    (h : ∀ a, off a + (![1, w] : Fin 2 → Nat) a ≤ (⟨2, ![R, Cn]⟩ : Shape).size a)
    (pay : (⟨2, ![1, w]⟩ : Shape).Idx → Val e) (Ls : List (View.Piece Val ⟨2, ![R, Cn]⟩ e))
    (l : (⟨2, ![1, w]⟩ : Shape).Idx) :
    v.read Val (v.writes Val f (⟨Rect.unit (s := ⟨2, ![R, Cn]⟩) off ![1, w] h, pay⟩ :: Ls))
        (ix2 (⟨r, (lt_of_inb2 ho h (l 1).isLt).1⟩ : Fin R) (⟨c0 + (l 1).val, (lt_of_inb2 ho h (l 1).isLt).2⟩ : Fin Cn))
      = pay l := by
  rw [← emb_unit2 ho h l]
  exact View.read_writes_cons_emb v f (Rect.unit (s := ⟨2, ![R, Cn]⟩) off ![1, w] h) pay Ls l

/-- An entry outside the row piece reads what the earlier stores left. -/
theorem read_writes_unit2_out (f : v.ty.Contents Val) {off : Fin 2 → Nat} {r c0 w : Nat} (ho : off = ![r, c0])
    (h : ∀ a, off a + (![1, w] : Fin 2 → Nat) a ≤ (⟨2, ![R, Cn]⟩ : Shape).size a)
    (pay : (⟨2, ![1, w]⟩ : Shape).Idx → Val e) (Ls : List (View.Piece Val ⟨2, ![R, Cn]⟩ e)) (p : Fin R) (q : Fin Cn)
    (hp : p.val ≠ r ∨ q.val < c0 ∨ c0 + w ≤ q.val) :
    v.read Val (v.writes Val f (⟨Rect.unit (s := ⟨2, ![R, Cn]⟩) off ![1, w] h, pay⟩ :: Ls)) (ix2 p q)
      = v.read Val (v.writes Val f Ls) (ix2 p q) := by
  subst ho
  rw [View.writes_cons]
  refine View.read_slice_write_of_not_mem _ _ _ _ ?_
  rw [Rect.map_emb_univ, Rect.mem_set_unit]
  intro hm
  have h0 := hm 0
  have h1 := hm 1
  have e1 : ((ix2 p q : (⟨2, ![R, Cn]⟩ : Shape).Idx) 0).val = p.val := rfl
  have e2 : ((ix2 p q : (⟨2, ![R, Cn]⟩ : Shape).Idx) 1).val = q.val := rfl
  have e3 : (![r, c0] : Fin 2 → Nat) 0 = r := rfl
  have e4 : (![r, c0] : Fin 2 → Nat) 1 = c0 := rfl
  have e5 : (![1, w] : Fin 2 → Nat) 0 = 1 := rfl
  have e6 : (![1, w] : Fin 2 → Nat) 1 = w := rfl
  omega

/-- The two cases in one, for a row piece. -/
theorem read_writes_unit2_cons (f : v.ty.Contents Val) {off : Fin 2 → Nat} {r c0 w : Nat} (ho : off = ![r, c0])
    (h : ∀ a, off a + (![1, w] : Fin 2 → Nat) a ≤ (⟨2, ![R, Cn]⟩ : Shape).size a)
    (pay : (⟨2, ![1, w]⟩ : Shape).Idx → Val e) (Ls : List (View.Piece Val ⟨2, ![R, Cn]⟩ e)) (p : Fin R) (q : Fin Cn) :
    v.read Val (v.writes Val f (⟨Rect.unit (s := ⟨2, ![R, Cn]⟩) off ![1, w] h, pay⟩ :: Ls)) (ix2 p q)
      = if hp : p.val = r ∧ c0 ≤ q.val ∧ q.val < c0 + w then pay (ix2 (0 : Fin 1) (⟨q.val - c0, by omega⟩ : Fin w))
        else v.read Val (v.writes Val f Ls) (ix2 p q) := by
  by_cases hp : p.val = r ∧ c0 ≤ q.val ∧ q.val < c0 + w
  · rw [dif_pos hp]
    have e := read_writes_unit2_in v f ho h pay Ls (ix2 (0 : Fin 1) (⟨q.val - c0, by omega⟩ : Fin w))
    refine Eq.trans (congrArg (fun y => v.read Val
      (v.writes Val f (⟨Rect.unit (s := ⟨2, ![R, Cn]⟩) off ![1, w] h, pay⟩ :: Ls)) y) ?_) e
    funext a
    match a with
    | ⟨0, _⟩ => exact Fin.ext hp.1
    | ⟨1, _⟩ => exact Fin.ext (show q.val = c0 + (q.val - c0) by omega)
  · rw [dif_neg hp]
    exact read_writes_unit2_out v f ho h pay Ls p q (by omega)

/-- A block of `hh` rows and `w` columns from `(r0, c0)`: its own index `j` placed in the view is `(r0 + j₀, c0 + j₁)`. -/
theorem lt_of_inb_block {off : Fin 2 → Nat} {r0 c0 hh w : Nat} (ho : off = ![r0, c0])
    (h : ∀ a, off a + (![hh, w] : Fin 2 → Nat) a ≤ (⟨2, ![R, Cn]⟩ : Shape).size a) {i j : Nat} (hi : i < hh) (hj : j < w) :
    r0 + i < R ∧ c0 + j < Cn := by
  subst ho
  have h0 : r0 + hh ≤ R := h 0
  have h1 : c0 + w ≤ Cn := h 1
  omega

theorem emb_block2 {off : Fin 2 → Nat} {r0 c0 hh w : Nat} (ho : off = ![r0, c0])
    (h : ∀ a, off a + (![hh, w] : Fin 2 → Nat) a ≤ (⟨2, ![R, Cn]⟩ : Shape).size a) (j : (⟨2, ![hh, w]⟩ : Shape).Idx) :
    (Rect.unit (s := ⟨2, ![R, Cn]⟩) off ![hh, w] h).emb j
      = ix2 (⟨r0 + (j 0).val, (lt_of_inb_block ho h (j 0).isLt (j 1).isLt).1⟩ : Fin R)
          (⟨c0 + (j 1).val, (lt_of_inb_block ho h (j 0).isLt (j 1).isLt).2⟩ : Fin Cn) := by
  subst ho
  funext a
  match a with
  | ⟨0, _⟩ => exact Fin.ext (show r0 + 1 * (j 0).val = r0 + (j 0).val by rw [Nat.one_mul])
  | ⟨1, _⟩ => exact Fin.ext (show c0 + 1 * (j 1).val = c0 + (j 1).val by rw [Nat.one_mul])

/-- The view restricted to the block, read at the block's index `j`, is the view's entry `(r0 + j₀, c0 + j₁)`. -/
theorem read_slice_block2 (C : v.ty.Contents Val) {off : Fin 2 → Nat} {r0 c0 hh w : Nat} (ho : off = ![r0, c0])
    (h : ∀ a, off a + (![hh, w] : Fin 2 → Nat) a ≤ (⟨2, ![R, Cn]⟩ : Shape).size a) (j : (⟨2, ![hh, w]⟩ : Shape).Idx) :
    (v.slice (Rect.unit (s := ⟨2, ![R, Cn]⟩) off ![hh, w] h)).read Val C j
      = v.read Val C (ix2 (⟨r0 + (j 0).val, (lt_of_inb_block ho h (j 0).isLt (j 1).isLt).1⟩ : Fin R)
          (⟨c0 + (j 1).val, (lt_of_inb_block ho h (j 0).isLt (j 1).isLt).2⟩ : Fin Cn)) := by
  show v.readAt Val (Rect.unit (s := ⟨2, ![R, Cn]⟩) off ![hh, w] h).toLoadRect C j = _
  rw [View.readAt_apply]
  exact congrArg (v.read Val C) (emb_block2 ho h j)

/-- A load of the block, at the block's index `j`, is the view's entry `(r0 + j₀, c0 + j₁)`. -/
theorem readAt_block2 (C : v.ty.Contents Val) {off : Fin 2 → Nat} {r0 c0 hh w : Nat} (ho : off = ![r0, c0])
    (h : ∀ a, off a + (![hh, w] : Fin 2 → Nat) a ≤ (⟨2, ![R, Cn]⟩ : Shape).size a) (j : (⟨2, ![hh, w]⟩ : Shape).Idx) :
    v.readAt Val (Rect.unit (s := ⟨2, ![R, Cn]⟩) off ![hh, w] h).toLoadRect C j
      = v.read Val C (ix2 (⟨r0 + (j 0).val, (lt_of_inb_block ho h (j 0).isLt (j 1).isLt).1⟩ : Fin R)
          (⟨c0 + (j 1).val, (lt_of_inb_block ho h (j 0).isLt (j 1).isLt).2⟩ : Fin Cn)) :=
  read_slice_block2 v C ho h j

end Rank2

/-! ## A 1 × w row and a w-vector -/

section Casts

variable {α : Type} {w : Nat}

/-- A 1 × w row cast to a w-vector, at lane `l`, is the row's entry `(0, l)`. -/
theorem shapeCast_row_to_vec (x : (⟨2, ![1, w]⟩ : Shape).Idx → α)
    (h : (⟨2, ![1, w]⟩ : Shape).ShapeCasts ⟨1, ![w]⟩) (l : (⟨1, ![w]⟩ : Shape).Idx) :
    shapeCast ⟨1, ![w]⟩ x h l = x (ix2 (0 : Fin 1) (l 0)) :=
  shapeCast_apply x h l _ (by
    rw [Shape.rowMajor_val_two, Shape.rowMajor_val_one]
    show 0 * w + (l 0).val = (l 0).val
    omega)

/-- A w-vector cast to a 1 × w row, at `(0, l)`, is the vector's lane `l`. -/
theorem shapeCast_vec_to_row (x : (⟨1, ![w]⟩ : Shape).Idx → α)
    (h : (⟨1, ![w]⟩ : Shape).ShapeCasts ⟨2, ![1, w]⟩) (j : (⟨2, ![1, w]⟩ : Shape).Idx) :
    shapeCast ⟨2, ![1, w]⟩ x h j = x (ix1 (j 1)) :=
  shapeCast_apply x h j _ (by
    rw [Shape.rowMajor_val_two, Shape.rowMajor_val_one]
    have : (j 0).val < 1 := (j 0).isLt
    show (j 1).val = (j 0).val * w + (j 1).val
    have e0 : (j 0).val = 0 := by omega
    rw [e0]; omega)

/-- An n × 1 column cast to an n-vector, at `l`, is the column's entry `(l, 0)`. -/
theorem shapeCast_col_to_vec {n : Nat} (x : (⟨2, ![n, 1]⟩ : Shape).Idx → α)
    (h : (⟨2, ![n, 1]⟩ : Shape).ShapeCasts ⟨1, ![n]⟩) (l : (⟨1, ![n]⟩ : Shape).Idx) :
    shapeCast ⟨1, ![n]⟩ x h l = x (ix2 (l 0) (0 : Fin 1)) :=
  shapeCast_apply x h l _ (by
    rw [Shape.rowMajor_val_two, Shape.rowMajor_val_one]
    show (l 0).val * 1 + 0 = (l 0).val
    omega)

end Casts

end Cert.ViewAt

end
-- ==== Proof.Entries.lean ====
/-
  Entries by natural numbers read as entries by index, for every float instance: inside the matrix `aAt` is the entry
  itself, inside the vector `xAt` is, a block of 512 rows read at `(r, c)` is the matrix at row `512 t + r`, and an entry
  of the plain product depends on its index's one coordinate only.
-/
import proofs.«219795_g11467562680804_week1_w4_611_41_alg».proof.Proof.Spec

noncomputable section

namespace Cert.MV

open Idealize.ShloMosaic Idealize.ShloMosaic.ValueIdx
open scoped BigOperators

variable {F : FTy → Type} [FloatOps F]

/-- A rank-1 index's coordinate is below the extent, written as the extent itself. -/
theorem lt1 {n : Nat} (j : (⟨1, ![n]⟩ : Shape).Idx) : (j 0).val < n := (j 0).isLt

/-- Inside the matrix the entry by natural numbers is the entry. -/
theorem aAt_of_lt (A : FVec F SA .f32) {i k : Nat} (hi : i < 16384) (hk : k < 4096) :
    aAt A i k = A (ix2 (⟨i, hi⟩ : Fin 16384) (⟨k, hk⟩ : Fin 4096)) := dif_pos ⟨hi, hk⟩

/-- Inside the vector the entry by a natural number is the entry. -/
theorem xAt_of_lt (x : FVec F SX .f32) {k : Nat} (hk : k < 4096) : xAt x k = x (ix1 (⟨k, hk⟩ : Fin 4096)) :=
  dif_pos hk

/-- Block `t` read at an index with coordinates `(r, c)` is the matrix at `(512 t + r, c)`. -/
theorem tcBlock_apply (A : FVec F SA .f32) (t : Nat) (j : SBlk.Idx) (r c : Nat) (hr : (j 0).val = r)
    (hc : (j 1).val = c) : tcBlock A t j = aAt A (512 * t + r) c := by
  subst hr hc; rfl

/-- A rank-1 index is determined by its coordinate. -/
theorem idx1_ext {n : Nat} (i i' : (⟨1, ![n]⟩ : Shape).Idx) (h : (i 0).val = (i' 0).val) : i = i' :=
  funext fun a => by
    match a with
    | ⟨0, _⟩ => exact Fin.ext h

end Cert.MV

end
-- ==== Proof.TileVals.lean ====
import proofs.«219795_g11467562680804_week1_w4_611_41_alg».proof.Proof.TileStorage
import proofs.«219795_g11467562680804_week1_w4_611_41_alg».proof.Proof.LibViewAt
import proofs.«219795_g11467562680804_week1_w4_611_41_alg».proof.Proof.Entries
import Idealize.ShloMosaic.Lib.Pipeline.Value

noncomputable section

namespace Cert.KernelIdeal.Pf

open Cert.KernelIdeal Cert.KernelIdeal.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (m : (ℓ : Loc nD τ sig) → Buf (Elt F) ℓ) [FloatOps F]
variable (d : Dev nD) (L : grid0.Coords)

/-! ## What the task's buffers hold, in terms of the matrix and the vector -/

/-- The vector as the task's copy of it holds it. -/
abbrev xBuf : Buf (Elt F) ((thr d L).loc cc0_scratch0) := m (xLoc d)

/-- Rows `r0 … r0 + 7` of the matrix as an 8-row buffer holds them. -/
def blkC (r0 : Nat) : S8x4096.Idx → Elt F .f32 := fun j => aAt (F := F) (m (aLoc d)) (r0 + (j 0).val) (j 1).val

/-- The sixteen lane accumulators of matrix row `r` after `j` chunks of 16 columns. -/
def laneV (r j : Nat) : FVec F S16 .f32 := fun l => laneAcc (F := F) (m (aLoc d)) (m (xLoc d)) r (l 0).val j

/-- Those of the eight rows `r0 … r0 + 7`. -/
abbrev acc8 (r0 j : Nat) : FVec F S16 .f32 × FVec F S16 .f32 × FVec F S16 .f32 × FVec F S16 .f32 × FVec F S16 .f32 × FVec F S16 .f32 × FVec F S16 .f32 × FVec F S16 .f32 :=
  (laneV m d r0 j, laneV m d (r0 + 1) j, laneV m d (r0 + 2) j, laneV m d (r0 + 3) j, laneV m d (r0 + 4) j, laneV m d (r0 + 5) j, laneV m d (r0 + 6) j, laneV m d (r0 + 7) j)

/-- What the lane rows should hold: entry `16 ρ + l` is lane `l` of matrix row `base + ρ` after all 256 chunks. -/
def laneRow (y : S4112.Idx) : Elt F .f32 :=
  laneAcc (F := F) (m (aLoc d)) (m (xLoc d)) (base L + (y 0).val / 16) ((y 0).val % 16) 256

/-- The first `n` lane rows are written. -/
def rowsDone (n : Nat) (f3 : Buf (Elt F) ((thr d L).loc cc0_scratch3)) : Prop :=
  ∀ y : S4112.Idx, (y 0).val < 16 * n → (s3).view.read (Elt F) f3 y = laneRow m d L y

theorem t1_trips : k0_t1_loop.trips = 16 := by decide
theorem t2_trips : k0_t2_loop.trips = 256 := by decide
theorem t3_trips : k0_t3_loop.trips = 256 := by decide
theorem cond1_iff : ∀ k : Fin k0_t1_loop.trips, k0_cond1 k = 1#1 ↔ k.val + 1 < 16 := by decide +kernel
theorem cond2_iff : ∀ k : Fin k0_t1_loop.trips, k0_cond2 k = 1#1 ↔ k.val + 1 < 16 := by decide +kernel

theorem vec1_congr {u v : Nat} (h : u = v) : (![u] : Fin 1 → Nat) = ![v] := by rw [h]

/-! ## Landings -/

/-- What the vector's copy lands is the vector. -/
theorem x_lands (f0 : Buf (Elt F) ((thr d L).loc cc0_scratch0)) (w : S4096.Idx → Elt F .f32)
    (hw : w = (xV).view.read (Elt F) (m (xLoc d))) :
    View.write (Elt F) (s0).view f0 w Finset.univ = xBuf m d L := by
  subst hw
  exact View.write_whole_univ _ _ _

/-- The eight rows of the matrix from row `r0`, read through the slice a copy takes them from. -/
theorem blk_read (off : Fin 2 → Nat) (h : ∀ a, off a + S8x4096.size a ≤ S16384x4096.size a) (r0 : Nat) (ho : off = ![r0, 0]) :
    (aBlk off h).view.read (Elt F) (m (aLoc d)) = blkC m d r0 := by
  funext j
  refine (Cert.ViewAt.read_slice_block2 (Val := Elt F) (aV).view (m (aLoc d)) ho h j).trans ?_
  have h1 := (Cert.ViewAt.lt_of_inb_block ho h (j 0).isLt (j 1).isLt)
  show m (aLoc d) (ix2 (⟨r0 + (j 0).val, h1.1⟩ : Fin 16384) (⟨0 + (j 1).val, h1.2⟩ : Fin 4096)) = aAt (F := F) (m (aLoc d)) (r0 + (j 0).val) (j 1).val
  rw [aAt_of_lt (F := F) (m (aLoc d)) h1.1 (by have := h1.2; omega)]
  congr 2
  exact Fin.ext (Nat.zero_add _)

/-- What a block's copy lands in the first 8-row buffer is the block's eight rows. -/
theorem blk_lands1 (off : Fin 2 → Nat) (h : ∀ a, off a + S8x4096.size a ≤ S16384x4096.size a) (r0 : Nat) (ho : off = ![r0, 0])
    (w : S8x4096.Idx → Elt F .f32) (hw : w = (aBlk off h).view.read (Elt F) (m (aLoc d)))
    (c : Buf (Elt F) ((thr d L).loc cc0_scratch1)) :
    View.write (Elt F) (s1).view c w Finset.univ = blkC m d r0 := by
  subst hw
  exact (View.write_whole_univ _ _ _).trans (blk_read m d off h r0 ho)

/-- The same for the second 8-row buffer. -/
theorem blk_lands2 (off : Fin 2 → Nat) (h : ∀ a, off a + S8x4096.size a ≤ S16384x4096.size a) (r0 : Nat) (ho : off = ![r0, 0])
    (w : S8x4096.Idx → Elt F .f32) (hw : w = (aBlk off h).view.read (Elt F) (m (aLoc d)))
    (c : Buf (Elt F) ((thr d L).loc cc0_scratch2)) :
    View.write (Elt F) (s2).view c w Finset.univ = blkC m d r0 := by
  subst hw
  exact (View.write_whole_univ _ _ _).trans (blk_read m d off h r0 ho)

/-! ## The accumulators' start and one chunk -/

/-- The accumulators an inner loop starts from are the lane accumulators after no chunk. -/
theorem acc8_zero (r0 : Nat) :
    ((k0_pay15 (F := F), k0_pay16 (F := F), k0_pay17 (F := F), k0_pay18 (F := F), k0_pay19 (F := F), k0_pay20 (F := F), k0_pay21 (F := F), k0_pay22 (F := F))
      : FVec F S16 .f32 × FVec F S16 .f32 × FVec F S16 .f32 × FVec F S16 .f32 × FVec F S16 .f32 × FVec F S16 .f32 × FVec F S16 .f32 × FVec F S16 .f32)
      = acc8 m d r0 0 := rfl

theorem acc8_zero' (r0 : Nat) :
    ((k0_pay33 (F := F), k0_pay34 (F := F), k0_pay35 (F := F), k0_pay36 (F := F), k0_pay37 (F := F), k0_pay38 (F := F), k0_pay39 (F := F), k0_pay40 (F := F))
      : FVec F S16 .f32 × FVec F S16 .f32 × FVec F S16 .f32 × FVec F S16 .f32 × FVec F S16 .f32 × FVec F S16 .f32 × FVec F S16 .f32 × FVec F S16 .f32)
      = acc8 m d r0 0 := rfl

/-- The 16 entries of the vector loaded for chunk `jv`. -/
theorem x_chunk (off : Fin 1 → Nat) (h : ∀ a, off a + S16.size a ≤ S4096.size a) (jv : Nat) (ho : off = ![16 * jv]) (l : S16.Idx) :
    (s0).view.readAt (Elt F) (Rect.unit (s := S4096) off S16.size h).toLoadRect (xBuf m d L) l
      = xAt (F := F) (m (xLoc d)) (16 * jv + (l 0).val) :=
  (Cert.ViewAt.readAt_unit1 (Val := Elt F) (s0).view (xBuf m d L) ho h l).trans (xAt_of_lt (F := F) (m (xLoc d)) _).symm

/-- The 16 entries of row `r` of an 8-row buffer loaded for chunk `jv`, first buffer. -/
theorem a_chunk1 (off : Fin 2 → Nat) (h : ∀ a, off a + S1x16.size a ≤ S8x4096.size a) (r0 r jv : Nat) (ho : off = ![r, 16 * jv]) (l : S16.Idx) :
    (s1).view.readAt (Elt F) (Rect.unit (s := S8x4096) off S1x16.size h).toLoadRect (blkC m d r0) (ix2 (0 : Fin 1) (l 0))
      = aAt (F := F) (m (aLoc d)) (r0 + r) (16 * jv + (l 0).val) :=
  (Cert.ViewAt.readAt_unit2 (Val := Elt F) (s1).view (blkC m d r0) ho h (ix2 (0 : Fin 1) (l 0)))

/-- The same for the second buffer. -/
theorem a_chunk2 (off : Fin 2 → Nat) (h : ∀ a, off a + S1x16.size a ≤ S8x4096.size a) (r0 r jv : Nat) (ho : off = ![r, 16 * jv]) (l : S16.Idx) :
    (s2).view.readAt (Elt F) (Rect.unit (s := S8x4096) off S1x16.size h).toLoadRect (blkC m d r0) (ix2 (0 : Fin 1) (l 0))
      = aAt (F := F) (m (aLoc d)) (r0 + r) (16 * jv + (l 0).val) :=
  (Cert.ViewAt.readAt_unit2 (Val := Elt F) (s2).view (blkC m d r0) ho h (ix2 (0 : Fin 1) (l 0)))

theorem step_k0_pay2 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay2 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay3 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay3 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay4 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay4 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay5 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay5 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay6 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay6 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay7 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay7 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay9 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay9 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay10 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay10 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay11 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay11 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay12 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay12 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay13 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay13 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay14 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay14 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay23 (R jv : Nat) (xv : Vec F S16 .f32) (av : Vec F S1x16 .f32) (px : Vec F S16 .f32 → FVec F S16 .f32)
    (hpx : ∀ v, px v = shapeCast S16 v shapeCasts_S16_S16)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay23 (laneV m d R jv) (px xv) av = laneV m d R (jv + 1) := by
  funext l
  show FloatOps.addf (laneV m d R jv l) (FloatOps.mulf (shapeCast S16 av shapeCasts_S1x16_S16 l) (px xv l)) = _
  rw [hpx, Cert.ViewAt.shapeCast_row_to_vec, shapeCast_self, hx, ha]
  rfl

theorem step_k0_pay24 (R jv : Nat) (xv : Vec F S16 .f32) (av : Vec F S1x16 .f32) (px : Vec F S16 .f32 → FVec F S16 .f32)
    (hpx : ∀ v, px v = shapeCast S16 v shapeCasts_S16_S16)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay24 (laneV m d R jv) (px xv) av = laneV m d R (jv + 1) := by
  funext l
  show FloatOps.addf (laneV m d R jv l) (FloatOps.mulf (shapeCast S16 av shapeCasts_S1x16_S16 l) (px xv l)) = _
  rw [hpx, Cert.ViewAt.shapeCast_row_to_vec, shapeCast_self, hx, ha]
  rfl

theorem step_k0_pay41 (R jv : Nat) (xv : Vec F S16 .f32) (av : Vec F S1x16 .f32) (px : Vec F S16 .f32 → FVec F S16 .f32)
    (hpx : ∀ v, px v = shapeCast S16 v shapeCasts_S16_S16)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay41 (laneV m d R jv) (px xv) av = laneV m d R (jv + 1) := by
  funext l
  show FloatOps.addf (laneV m d R jv l) (FloatOps.mulf (shapeCast S16 av shapeCasts_S1x16_S16 l) (px xv l)) = _
  rw [hpx, Cert.ViewAt.shapeCast_row_to_vec, shapeCast_self, hx, ha]
  rfl

theorem step_k0_pay42 (R jv : Nat) (xv : Vec F S16 .f32) (av : Vec F S1x16 .f32) (px : Vec F S16 .f32 → FVec F S16 .f32)
    (hpx : ∀ v, px v = shapeCast S16 v shapeCasts_S16_S16)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay42 (laneV m d R jv) (px xv) av = laneV m d R (jv + 1) := by
  funext l
  show FloatOps.addf (laneV m d R jv l) (FloatOps.mulf (shapeCast S16 av shapeCasts_S1x16_S16 l) (px xv l)) = _
  rw [hpx, Cert.ViewAt.shapeCast_row_to_vec, shapeCast_self, hx, ha]
  rfl

/-! ## The stored rows -/

theorem store_k0_pay25 (R T : Nat) (hT : T = 256) (l : S16.Idx) :
    k0_pay25 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay26 (R T : Nat) (hT : T = 256) (l : S16.Idx) :
    k0_pay26 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay27 (R T : Nat) (hT : T = 256) (l : S16.Idx) :
    k0_pay27 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay28 (R T : Nat) (hT : T = 256) (l : S16.Idx) :
    k0_pay28 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay29 (R T : Nat) (hT : T = 256) (l : S16.Idx) :
    k0_pay29 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay30 (R T : Nat) (hT : T = 256) (l : S16.Idx) :
    k0_pay30 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay31 (R T : Nat) (hT : T = 256) (l : S16.Idx) :
    k0_pay31 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay32 (R T : Nat) (hT : T = 256) (l : S16.Idx) :
    k0_pay32 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay43 (R T : Nat) (hT : T = 256) (l : S16.Idx) :
    k0_pay43 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay44 (R T : Nat) (hT : T = 256) (l : S16.Idx) :
    k0_pay44 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay45 (R T : Nat) (hT : T = 256) (l : S16.Idx) :
    k0_pay45 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay46 (R T : Nat) (hT : T = 256) (l : S16.Idx) :
    k0_pay46 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay47 (R T : Nat) (hT : T = 256) (l : S16.Idx) :
    k0_pay47 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay48 (R T : Nat) (hT : T = 256) (l : S16.Idx) :
    k0_pay48 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay49 (R T : Nat) (hT : T = 256) (l : S16.Idx) :
    k0_pay49 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay50 (R T : Nat) (hT : T = 256) (l : S16.Idx) :
    k0_pay50 (laneV m d R T) l = laneAcc (F := F) (m (aLoc d)) (m (xLoc d)) R (l 0).val 256 := by
  subst hT
  show shapeCast S16 (laneV m d R 256) shapeCasts_S16_S16 l = _
  rw [shapeCast_self]; rfl

/-- A bare cast of a row's accumulators, as stored. -/
theorem store_cast (R T : Nat) (hT : T = 256) (hc : S16.ShapeCasts S16) (l : S16.Idx) :
    shapeCast S16 (laneV m d R T) hc l = laneAcc (F := F) (m (aLoc d)) (m (xLoc d)) R (l 0).val 256 := by
  subst hT
  rw [shapeCast_self]; rfl

/-- One more lane row written: if the first `n` rows are written under a piece list, storing row `n`'s accumulators
    on top of it writes the first `n + 1`. -/
theorem rowsDone_cons (n : Nat) (hn : n < 256) (f : Buf (Elt F) ((thr d L).loc cc0_scratch3)) (ps : List (View.Piece (Elt F) S4112 .f32))
    (hps : rowsDone m d L n ((s3).view.writes (Elt F) f ps))
    (off : Fin 1 → Nat) (h : ∀ a, off a + S16.size a ≤ S4112.size a) (ho : off = ![16 * n])
    (pay : S16.Idx → Elt F .f32) (R : Nat) (hR : R = base L + n)
    (hpay : ∀ l : S16.Idx, pay l = laneAcc (F := F) (m (aLoc d)) (m (xLoc d)) R (l 0).val 256) :
    rowsDone m d L (n + 1) ((s3).view.writes (Elt F) f (⟨Rect.unit (s := S4112) off S16.size h, pay⟩ :: ps)) := by
  intro y hy
  obtain ⟨p, rfl⟩ : ∃ p : Fin 4112, y = ix1 p :=
    ⟨⟨(y 0).val, (y 0).isLt⟩, by funext a; match a with | ⟨0, _⟩ => rfl⟩
  have hy' : p.val < 16 * (n + 1) := hy
  refine (Cert.ViewAt.read_writes_unit1_cons (Val := Elt F) (s3).view f ho h pay ps p).trans ?_
  split
  · rename_i hp
    rw [hpay]
    subst hR
    show laneAcc (F := F) (m (aLoc d)) (m (xLoc d)) (base L + n) (p.val - 16 * n) 256 = laneAcc (F := F) (m (aLoc d)) (m (xLoc d)) (base L + p.val / 16) (p.val % 16) 256
    have e1 : p.val / 16 = n := by omega
    have e2 : p.val % 16 = p.val - 16 * n := by omega
    rw [e1, e2]
  · rename_i hp
    have hlt : p.val < 16 * n := by omega
    exact hps (ix1 p) hlt

end Cert.KernelIdeal.Pf

end
-- ==== Proof.TileTrip.lean ====
import proofs.«219795_g11467562680804_week1_w4_611_41_alg».proof.Proof.TileVals

set_option pp.maxSteps 4000
set_option pp.deepTerms false

noncomputable section

namespace Cert.KernelIdeal.Pf

open Cert.KernelIdeal Cert.KernelIdeal.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]
variable (d : Dev nD) (L : grid0.Coords)

/-- The inner loop over the first 8-row buffer before chunk `j`: the vector's copy and the buffer in place, the
    eight carried lane accumulators at their values after `j` chunks. -/
def invIn1 (r0 : Nat) (j : Nat)
    (acc : FVec F S16 .f32 × FVec F S16 .f32 × FVec F S16 .f32 × FVec F S16 .f32 × FVec F S16 .f32 × FVec F S16 .f32 × FVec F S16 .f32 × FVec F S16 .f32) : sProp 𝕄 :=
  iprop(((s0).view.loc (thr d L) ↦{fullShare} xBuf m d L)
    ∗ ((s1).view.loc (thr d L) ↦{fullShare} blkC m d r0)
    ∗ ⌜acc = acc8 m d r0 j⌝)

/-- The inner loop over the second 8-row buffer before chunk `j`: the vector's copy and the buffer in place, the
    eight carried lane accumulators at their values after `j` chunks. -/
def invIn2 (r0 : Nat) (j : Nat)
    (acc : FVec F S16 .f32 × FVec F S16 .f32 × FVec F S16 .f32 × FVec F S16 .f32 × FVec F S16 .f32 × FVec F S16 .f32 × FVec F S16 .f32 × FVec F S16 .f32) : sProp 𝕄 :=
  iprop(((s0).view.loc (thr d L) ↦{fullShare} xBuf m d L)
    ∗ ((s2).view.loc (thr d L) ↦{fullShare} blkC m d r0)
    ∗ ⌜acc = acc8 m d r0 j⌝)

/-- Blocks `2k` and `2k + 1` on their way into the two 8-row buffers, the share of the matrix less the two. -/
def aFly (q : PosShare TreeShare) (k : Nat) : sProp 𝕄 :=
  iprop(∃ (o0 : Fin 2 → Nat) (h0 : ∀ a, o0 a + S8x4096.size a ≤ S16384x4096.size a) (o1 : Fin 2 → Nat) (h1 : ∀ a, o1 a + S8x4096.size a ≤ S16384x4096.size a),
        ⌜o0 = ![256 * (L 1).val + 256 * (L 0).val + 16 * k + 12288, 0] ∧ o1 = ![256 * (L 1).val + 256 * (L 0).val + 16 * k + 12296, 0]⌝
        ∗ (Transfers.Flight countersEmb (thr d L) (SemLoc.dma cc0_scratch6.sem) (default : HIx 1) 1048576
            iprop(((s1).view.loc (thr d L) ↦{fullShare} blkC m d (base L + 16 * k))
              ∗ (aV).view.loc (thr d L) ↦[(aBlk o0 h0).view.set]{q} m (aLoc d)))
        ∗ (Transfers.Flight countersEmb (thr d L) (SemLoc.dma cc0_scratch7.sem) (default : HIx 1) 1048576
            iprop(((s2).view.loc (thr d L) ↦{fullShare} blkC m d (base L + 16 * k + 8))
              ∗ (aV).view.loc (thr d L) ↦[(aBlk o1 h1).view.set]{q} m (aLoc d)))
        ∗ ((aV).view.loc (thr d L) ↦[(Finset.univ \ (aBlk o0 h0).view.set) \ (aBlk o1 h1).view.set]{q} m (aLoc d)))

/-- Nothing on its way: both semaphores at zero, the two buffers at some contents, the share of the matrix whole. -/
def aLanded (q : PosShare TreeShare) : sProp 𝕄 :=
  iprop(semVal (thr d L, SemLoc.dma cc0_scratch6.sem) 0 ∗ semVal (thr d L, SemLoc.dma cc0_scratch7.sem) 0
    ∗ (∃ c, (s1).view.loc (thr d L) ↦{fullShare} c) ∗ (∃ c, (s2).view.loc (thr d L) ↦{fullShare} c)
    ∗ ((aV).view.loc (thr d L) ↦{q} m (aLoc d)))

/-- The outer loop before trip `k`: the vector's copy in place; the lane rows of the blocks before `2k` written;
    blocks `2k`, `2k + 1` on their way (nothing after the last trip). -/
def invOuter (O : CellTallies nD τ sig (HIx 1)) (W : Waits sig (HIx 1)) (q : PosShare TreeShare) (k : Nat) (_ : PUnit) : sProp 𝕄 :=
  iprop(Transfers.MayWaits (thr d L) (none : HIx 1) O
    ∗ ((xV).view.loc (thr d L) ↦{q} m (xLoc d))
    ∗ ((s0).view.loc (thr d L) ↦{fullShare} xBuf m d L)
    ∗ (∃ f3, ((s3).view.loc (thr d L) ↦{fullShare} f3) ∗ ⌜rowsDone m d L (16 * k) f3⌝)
    ∗ (if k < 16 then aFly m d L q k else aLanded m d L q)
    ∗ ∃ W', ⌜∀ p ∈ W', p ∈ W ∨ p.2 = none⌝ ∗ owes (thr d L) O W')

/-- The first row of the tile as the kernel computes it. -/
abbrev v3w (L : grid0.Coords) : BitVec 32 :=
  Scalar.addi (12288#32) (Scalar.muli (Scalar.addi (Scalar.muli (BitVec.ofNat 32 (L 1).val) 1#32) (BitVec.ofNat 32 (L 0).val)) 256#32)

set_option maxHeartbeats 4000000 in
/-- One trip of the outer loop: wait for block `2k`, accumulate its eight rows over the 256 chunks and store their
    lane rows, start block `2k + 2` if there is one; the same for block `2k + 1` and `2k + 3`. -/
theorem outer_trip (O : CellTallies nD τ sig (HIx 1)) (W : Waits sig (HIx 1)) (q : PosShare TreeShare) (k : Fin k0_t1_loop.trips) :
    invOuter m d L O W q k.val PUnit.unit
      ⊢ wp frame (wpE (defs₀ (F := F)) 𝒱₀ (thr d L) none) Set.univ
          (k0_t1_body L aV (Memref.isWhole_whole _) xV (Memref.isWhole_whole _) oV (Memref.isWhole_whole _)
            s0 (Memref.isWhole_whole _) s1 (Memref.isWhole_whole _) s2 (Memref.isWhole_whole _) s3 (Memref.isWhole_whole _) s4 (Memref.isWhole_whole _)
            shV (Memref.isWhole_whole _) cc0_scratch6 cc0_scratch7 cc0_scoped0 cc0_scoped1 cc0_scoped2 (v3w L) k PUnit.unit)
          fun _ => invOuter m d L O W q (k.val + 1) PUnit.unit := by
  sl_unfold [k0_t1_body]
  have hk16 : k.val < 16 := lt_of_lt_of_eq k.isLt t1_trips
  unfold invOuter
  rw [if_pos hk16]
  unfold aFly
  iintro ⟨Hmw, HX, H0, ⟨%f3, H3, %hf3⟩, ⟨%o0, %h0, %o1, %h1, %ho, HF0, HF1, HA⟩, %W', %hW', HO⟩
  obtain ⟨rfl, rfl⟩ := ho
  sl_exec
  sl_for (invIn1 m d L (base L + 16 * k)) $$ [H0 HF0_dst]
  case region =>
    intro j acc
    unfold invIn1
    iintro ⟨H0, H1, %hacc⟩
    subst hacc
    sl_exec
    sl_step
    isplitl [H0]; · iexact H0
    isplitl [H1]; · iexact H1
    ipureintro
    sl_unfold_run_names
    have hx := fun l => x_chunk m d L (k0_off4 j) (k0_off4_inb j) j.val (k0_off4_eq j) l
    exact Prod.ext (step_k0_pay2 m d _ j.val _ _ hx (fun l => a_chunk1 m d (k0_off5 j) (k0_off5_inb j) (base L + 16 * k.val) 0 j.val (k0_off5_eq j) l)) (Prod.ext (step_k0_pay3 m d _ j.val _ _ hx (fun l => a_chunk1 m d (k0_off6 j) (k0_off6_inb j) (base L + 16 * k.val) 1 j.val (k0_off6_eq j) l)) (Prod.ext (step_k0_pay4 m d _ j.val _ _ hx (fun l => a_chunk1 m d (k0_off7 j) (k0_off7_inb j) (base L + 16 * k.val) 2 j.val (k0_off7_eq j) l)) (Prod.ext (step_k0_pay5 m d _ j.val _ _ hx (fun l => a_chunk1 m d (k0_off8 j) (k0_off8_inb j) (base L + 16 * k.val) 3 j.val (k0_off8_eq j) l)) (Prod.ext (step_k0_pay6 m d _ j.val _ _ hx (fun l => a_chunk1 m d (k0_off9 j) (k0_off9_inb j) (base L + 16 * k.val) 4 j.val (k0_off9_eq j) l)) (Prod.ext (step_k0_pay7 m d _ j.val _ _ hx (fun l => a_chunk1 m d (k0_off10 j) (k0_off10_inb j) (base L + 16 * k.val) 5 j.val (k0_off10_eq j) l)) (Prod.ext (step_k0_pay23 m d _ j.val _ _ (k0_pay1 (F := F)) (fun _ => rfl) hx (fun l => a_chunk1 m d (k0_off11 j) (k0_off11_inb j) (base L + 16 * k.val) 6 j.val (k0_off11_eq j) l)) ((step_k0_pay24 m d _ j.val _ _ (k0_pay1 (F := F)) (fun _ => rfl) hx (fun l => a_chunk1 m d (k0_off12 j) (k0_off12_inb j) (base L + 16 * k.val) 7 j.val (k0_off12_eq j) l)))))))))
  · unfold invIn1
    isplitl [H0]; · iexact H0
    isplitl [HF0_dst]; · iexact HF0_dst
    ipureintro; exact acc8_zero m d _
  iintro %acc HI
  unfold invIn1
  icases HI with ⟨H0, H1, %hacc⟩
  subst hacc
  by_cases hk : k.val + 1 < 16
  · have k0_h1 : k0_cond1 k = 1#1 := (cond1_iff k).mpr hk
    have k0_h2 : k0_cond2 k = 1#1 := (cond2_iff k).mpr hk
    have e14 : k0_off14 L k 0 = 256 * (L 1).val + 256 * (L 0).val + 16 * k.val + 12304 := by rw [k0_off14_eq]; rfl
    have e24 : k0_off24 L k 0 = 256 * (L 1).val + 256 * (L 0).val + 16 * k.val + 12312 := by rw [k0_off24_eq]; rfl
    have hd1 : Disjoint (aBlk (k0_off14 L k) (k0_off14_inb L k k0_h1)).view.set (aBlk ![256 * (L 1).val + 256 * (L 0).val + 16 * k.val + 12296, 0] h1).view.set :=
      View.disjoint_slice_of_sep _ _ _ 0 rfl rfl (Or.inr (by show 256 * (L 1).val + 256 * (L 0).val + 16 * k.val + 12296 + 8 ≤ k0_off14 L k 0; omega))
    have hd1' := hd1.symm
    have hd2 : Disjoint (aBlk (k0_off24 L k) (k0_off24_inb L k k0_h2)).view.set (aBlk (k0_off14 L k) (k0_off14_inb L k k0_h1)).view.set :=
      View.disjoint_slice_of_sep _ _ _ 0 rfl rfl (Or.inr (by show k0_off14 L k 0 + 8 ≤ k0_off24 L k 0; omega))
    have hd2' := hd2.symm
    sl_exec
    sl_for (invIn2 m d L (base L + 16 * k + 8)) $$ [H0 HF1_dst]
    case region =>
      intro j acc
      unfold invIn2
      iintro ⟨H0, H2, %hacc⟩
      subst hacc
      sl_exec
      sl_step
      isplitl [H0]; · iexact H0
      isplitl [H2]; · iexact H2
      ipureintro
      sl_unfold_run_names
      have hx := fun l => x_chunk m d L (k0_off15 j) (k0_off15_inb j) j.val (k0_off15_eq j) l
      exact Prod.ext (step_k0_pay9 m d _ j.val _ _ hx (fun l => a_chunk2 m d (k0_off16 j) (k0_off16_inb j) (base L + 16 * k.val + 8) 0 j.val (k0_off16_eq j) l)) (Prod.ext (step_k0_pay10 m d _ j.val _ _ hx (fun l => a_chunk2 m d (k0_off17 j) (k0_off17_inb j) (base L + 16 * k.val + 8) 1 j.val (k0_off17_eq j) l)) (Prod.ext (step_k0_pay11 m d _ j.val _ _ hx (fun l => a_chunk2 m d (k0_off18 j) (k0_off18_inb j) (base L + 16 * k.val + 8) 2 j.val (k0_off18_eq j) l)) (Prod.ext (step_k0_pay12 m d _ j.val _ _ hx (fun l => a_chunk2 m d (k0_off19 j) (k0_off19_inb j) (base L + 16 * k.val + 8) 3 j.val (k0_off19_eq j) l)) (Prod.ext (step_k0_pay13 m d _ j.val _ _ hx (fun l => a_chunk2 m d (k0_off20 j) (k0_off20_inb j) (base L + 16 * k.val + 8) 4 j.val (k0_off20_eq j) l)) (Prod.ext (step_k0_pay14 m d _ j.val _ _ hx (fun l => a_chunk2 m d (k0_off21 j) (k0_off21_inb j) (base L + 16 * k.val + 8) 5 j.val (k0_off21_eq j) l)) (Prod.ext (step_k0_pay41 m d _ j.val _ _ (k0_pay8 (F := F)) (fun _ => rfl) hx (fun l => a_chunk2 m d (k0_off22 j) (k0_off22_inb j) (base L + 16 * k.val + 8) 6 j.val (k0_off22_eq j) l)) ((step_k0_pay42 m d _ j.val _ _ (k0_pay8 (F := F)) (fun _ => rfl) hx (fun l => a_chunk2 m d (k0_off23 j) (k0_off23_inb j) (base L + 16 * k.val + 8) 7 j.val (k0_off23_eq j) l)))))))))
    · unfold invIn2
      isplitl [H0]; · iexact H0
      isplitl [HF1_dst]; · iexact HF1_dst
      ipureintro; exact acc8_zero' m d _
    iintro %acc2 HI2
    unfold invIn2
    icases HI2 with ⟨H0, H2, %hacc2⟩
    subst hacc2
    sl_exec
    sl_step
    isplitl [Hmw]; · iexact Hmw
    isplitl [HX]; · iexact HX
    isplitl [H0]; · iexact H0
    isplitl [H3]
    · iexists _
      isplitl [H3]; · iexact H3
      ipureintro
      sl_unfold_run_names
      have hf3' : rowsDone m d L (16 * k.val + 0) ((s3).view.writes (Elt F) f3 []) := hf3
      have e16 : 16 * (k.val + 1) = 16 * k.val + 15 + 1 := by omega
      rw [e16]
      exact (rowsDone_cons m d L (16 * k.val + 15) (by omega) f3 _ (rowsDone_cons m d L (16 * k.val + 14) (by omega) f3 _ (rowsDone_cons m d L (16 * k.val + 13) (by omega) f3 _ (rowsDone_cons m d L (16 * k.val + 12) (by omega) f3 _ (rowsDone_cons m d L (16 * k.val + 11) (by omega) f3 _ (rowsDone_cons m d L (16 * k.val + 10) (by omega) f3 _ (rowsDone_cons m d L (16 * k.val + 9) (by omega) f3 _ (rowsDone_cons m d L (16 * k.val + 8) (by omega) f3 _ (rowsDone_cons m d L (16 * k.val + 7) (by omega) f3 _ (rowsDone_cons m d L (16 * k.val + 6) (by omega) f3 _ (rowsDone_cons m d L (16 * k.val + 5) (by omega) f3 _ (rowsDone_cons m d L (16 * k.val + 4) (by omega) f3 _ (rowsDone_cons m d L (16 * k.val + 3) (by omega) f3 _ (rowsDone_cons m d L (16 * k.val + 2) (by omega) f3 _ (rowsDone_cons m d L (16 * k.val + 1) (by omega) f3 _ (rowsDone_cons m d L (16 * k.val + 0) (by omega) f3 _ hf3' _ _ ((k0_off13_eq k ⟨0, by decide⟩ ⟨0, by decide⟩).trans (vec1_congr (by simp only []; omega))) _ (base L + 16 * k.val) (by omega) (fun l => store_k0_pay25 m d _ _ t2_trips l)) _ _ ((k0_off13_eq k ⟨0, by decide⟩ ⟨1, by decide⟩).trans (vec1_congr (by simp only []; omega))) _ (base L + 16 * k.val + 1) (by omega) (fun l => store_k0_pay26 m d _ _ t2_trips l)) _ _ ((k0_off13_eq k ⟨0, by decide⟩ ⟨2, by decide⟩).trans (vec1_congr (by simp only []; omega))) _ (base L + 16 * k.val + 2) (by omega) (fun l => store_cast m d _ _ t2_trips _ l)) _ _ ((k0_off13_eq k ⟨0, by decide⟩ ⟨3, by decide⟩).trans (vec1_congr (by simp only []; omega))) _ (base L + 16 * k.val + 3) (by omega) (fun l => store_cast m d _ _ t2_trips _ l)) _ _ ((k0_off13_eq k ⟨0, by decide⟩ ⟨4, by decide⟩).trans (vec1_congr (by simp only []; omega))) _ (base L + 16 * k.val + 4) (by omega) (fun l => store_cast m d _ _ t2_trips _ l)) _ _ ((k0_off13_eq k ⟨0, by decide⟩ ⟨5, by decide⟩).trans (vec1_congr (by simp only []; omega))) _ (base L + 16 * k.val + 5) (by omega) (fun l => store_cast m d _ _ t2_trips _ l)) _ _ ((k0_off13_eq k ⟨0, by decide⟩ ⟨6, by decide⟩).trans (vec1_congr (by simp only []; omega))) _ (base L + 16 * k.val + 6) (by omega) (fun l => store_cast m d _ _ t2_trips _ l)) _ _ ((k0_off13_eq k ⟨0, by decide⟩ ⟨7, by decide⟩).trans (vec1_congr (by simp only []; omega))) _ (base L + 16 * k.val + 7) (by omega) (fun l => store_cast m d _ _ t2_trips _ l)) _ _ ((k0_off13_eq k ⟨1, by decide⟩ ⟨0, by decide⟩).trans (vec1_congr (by simp only []; omega))) _ (base L + 16 * k.val + 8) (by omega) (fun l => store_k0_pay43 m d _ _ t3_trips l)) _ _ ((k0_off13_eq k ⟨1, by decide⟩ ⟨1, by decide⟩).trans (vec1_congr (by simp only []; omega))) _ (base L + 16 * k.val + 8 + 1) (by omega) (fun l => store_k0_pay44 m d _ _ t3_trips l)) _ _ ((k0_off13_eq k ⟨1, by decide⟩ ⟨2, by decide⟩).trans (vec1_congr (by simp only []; omega))) _ (base L + 16 * k.val + 8 + 2) (by omega) (fun l => store_k0_pay45 m d _ _ t3_trips l)) _ _ ((k0_off13_eq k ⟨1, by decide⟩ ⟨3, by decide⟩).trans (vec1_congr (by simp only []; omega))) _ (base L + 16 * k.val + 8 + 3) (by omega) (fun l => store_k0_pay46 m d _ _ t3_trips l)) _ _ ((k0_off13_eq k ⟨1, by decide⟩ ⟨4, by decide⟩).trans (vec1_congr (by simp only []; omega))) _ (base L + 16 * k.val + 8 + 4) (by omega) (fun l => store_k0_pay47 m d _ _ t3_trips l)) _ _ ((k0_off13_eq k ⟨1, by decide⟩ ⟨5, by decide⟩).trans (vec1_congr (by simp only []; omega))) _ (base L + 16 * k.val + 8 + 5) (by omega) (fun l => store_k0_pay48 m d _ _ t3_trips l)) _ _ ((k0_off13_eq k ⟨1, by decide⟩ ⟨6, by decide⟩).trans (vec1_congr (by simp only []; omega))) _ (base L + 16 * k.val + 8 + 6) (by omega) (fun l => store_k0_pay49 m d _ _ t3_trips l)) _ _ ((k0_off13_eq k ⟨1, by decide⟩ ⟨7, by decide⟩).trans (vec1_congr (by simp only []; omega))) _ (base L + 16 * k.val + 8 + 7) (by omega) (fun l => store_k0_pay50 m d _ _ t3_trips l))
    isplitl [HF0 HF1 HA]
    · rw [if_pos hk]
      iexists (k0_off14 L k), (k0_off14_inb L k k0_h1), (k0_off24 L k), (k0_off24_inb L k k0_h2)
      isplitr
      · ipureintro
        exact ⟨(k0_off14_eq L k).trans (vec2_congr (by omega)), (k0_off24_eq L k).trans (vec2_congr (by omega))⟩
      isplitl [HF0]
      · iapply (Transfers.Flight_mono _ _ ?_) $$ HF0
        iintro ⟨H, HA⟩
        isplitl [H]
        · iapply (Entails.of_eq (congrArg (fun c => ((s1).view.loc (thr d L) ↦{fullShare} c : sProp 𝕄))
            (blk_lands1 m d L (k0_off14 L k) (k0_off14_inb L k k0_h1) (base L + 16 * (k.val + 1)) ((k0_off14_eq L k).trans (vec2_congr (by unfold base; omega))) (outer_trip.sl.dma16 m d L k k0_h1) (by sl_unfold_run_names; rfl) _)))
          iexact H
        iexact HA
      isplitl [HF1]
      · iapply (Transfers.Flight_mono _ _ ?_) $$ HF1
        iintro ⟨H, HA⟩
        isplitl [H]
        · iapply (Entails.of_eq (congrArg (fun c => ((s2).view.loc (thr d L) ↦{fullShare} c : sProp 𝕄))
            (blk_lands2 m d L (k0_off24 L k) (k0_off24_inb L k k0_h2) (base L + 16 * (k.val + 1) + 8) ((k0_off24_eq L k).trans (vec2_congr (by unfold base; omega))) (outer_trip.sl.dma16_1 m d L k k0_h2) (by sl_unfold_run_names; rfl) _)))
          iexact H
        iexact HA
      iexact HA
    iexists (insert (SemLoc.dma cc0_scratch7.sem, (default : HIx 1)) (insert (SemLoc.dma cc0_scratch6.sem, (default : HIx 1)) W')); isplitr
    · ipureintro; intro p hp
      rcases Finset.mem_insert.mp hp with hp | hp
      · exact .inr (by subst hp; rfl)
      rcases Finset.mem_insert.mp hp with hp | hp
      · exact .inr (by subst hp; rfl)
      · exact hW' p hp
    · iexact HO
  · have k0_h1 : ¬ k0_cond1 k = 1#1 := fun h => hk ((cond1_iff k).mp h)
    have k0_h2 : ¬ k0_cond2 k = 1#1 := fun h => hk ((cond2_iff k).mp h)
    sl_exec
    sl_for (invIn2 m d L (base L + 16 * k + 8)) $$ [H0 HF1_dst]
    case region =>
      intro j acc
      unfold invIn2
      iintro ⟨H0, H2, %hacc⟩
      subst hacc
      sl_exec
      sl_step
      isplitl [H0]; · iexact H0
      isplitl [H2]; · iexact H2
      ipureintro
      sl_unfold_run_names
      have hx := fun l => x_chunk m d L (k0_off15 j) (k0_off15_inb j) j.val (k0_off15_eq j) l
      exact Prod.ext (step_k0_pay9 m d _ j.val _ _ hx (fun l => a_chunk2 m d (k0_off16 j) (k0_off16_inb j) (base L + 16 * k.val + 8) 0 j.val (k0_off16_eq j) l)) (Prod.ext (step_k0_pay10 m d _ j.val _ _ hx (fun l => a_chunk2 m d (k0_off17 j) (k0_off17_inb j) (base L + 16 * k.val + 8) 1 j.val (k0_off17_eq j) l)) (Prod.ext (step_k0_pay11 m d _ j.val _ _ hx (fun l => a_chunk2 m d (k0_off18 j) (k0_off18_inb j) (base L + 16 * k.val + 8) 2 j.val (k0_off18_eq j) l)) (Prod.ext (step_k0_pay12 m d _ j.val _ _ hx (fun l => a_chunk2 m d (k0_off19 j) (k0_off19_inb j) (base L + 16 * k.val + 8) 3 j.val (k0_off19_eq j) l)) (Prod.ext (step_k0_pay13 m d _ j.val _ _ hx (fun l => a_chunk2 m d (k0_off20 j) (k0_off20_inb j) (base L + 16 * k.val + 8) 4 j.val (k0_off20_eq j) l)) (Prod.ext (step_k0_pay14 m d _ j.val _ _ hx (fun l => a_chunk2 m d (k0_off21 j) (k0_off21_inb j) (base L + 16 * k.val + 8) 5 j.val (k0_off21_eq j) l)) (Prod.ext (step_k0_pay41 m d _ j.val _ _ (k0_pay8 (F := F)) (fun _ => rfl) hx (fun l => a_chunk2 m d (k0_off22 j) (k0_off22_inb j) (base L + 16 * k.val + 8) 6 j.val (k0_off22_eq j) l)) ((step_k0_pay42 m d _ j.val _ _ (k0_pay8 (F := F)) (fun _ => rfl) hx (fun l => a_chunk2 m d (k0_off23 j) (k0_off23_inb j) (base L + 16 * k.val + 8) 7 j.val (k0_off23_eq j) l)))))))))
    · unfold invIn2
      isplitl [H0]; · iexact H0
      isplitl [HF1_dst]; · iexact HF1_dst
      ipureintro; exact acc8_zero' m d _
    iintro %acc2 HI2
    unfold invIn2
    icases HI2 with ⟨H0, H2, %hacc2⟩
    subst hacc2
    sl_exec
    sl_step
    isplitl [Hmw]; · iexact Hmw
    isplitl [HX]; · iexact HX
    isplitl [H0]; · iexact H0
    isplitl [H3]
    · iexists _
      isplitl [H3]; · iexact H3
      ipureintro
      sl_unfold_run_names
      have hf3' : rowsDone m d L (16 * k.val + 0) ((s3).view.writes (Elt F) f3 []) := hf3
      have e16 : 16 * (k.val + 1) = 16 * k.val + 15 + 1 := by omega
      rw [e16]
      exact (rowsDone_cons m d L (16 * k.val + 15) (by omega) f3 _ (rowsDone_cons m d L (16 * k.val + 14) (by omega) f3 _ (rowsDone_cons m d L (16 * k.val + 13) (by omega) f3 _ (rowsDone_cons m d L (16 * k.val + 12) (by omega) f3 _ (rowsDone_cons m d L (16 * k.val + 11) (by omega) f3 _ (rowsDone_cons m d L (16 * k.val + 10) (by omega) f3 _ (rowsDone_cons m d L (16 * k.val + 9) (by omega) f3 _ (rowsDone_cons m d L (16 * k.val + 8) (by omega) f3 _ (rowsDone_cons m d L (16 * k.val + 7) (by omega) f3 _ (rowsDone_cons m d L (16 * k.val + 6) (by omega) f3 _ (rowsDone_cons m d L (16 * k.val + 5) (by omega) f3 _ (rowsDone_cons m d L (16 * k.val + 4) (by omega) f3 _ (rowsDone_cons m d L (16 * k.val + 3) (by omega) f3 _ (rowsDone_cons m d L (16 * k.val + 2) (by omega) f3 _ (rowsDone_cons m d L (16 * k.val + 1) (by omega) f3 _ (rowsDone_cons m d L (16 * k.val + 0) (by omega) f3 _ hf3' _ _ ((k0_off13_eq k ⟨0, by decide⟩ ⟨0, by decide⟩).trans (vec1_congr (by simp only []; omega))) _ (base L + 16 * k.val) (by omega) (fun l => store_k0_pay25 m d _ _ t2_trips l)) _ _ ((k0_off13_eq k ⟨0, by decide⟩ ⟨1, by decide⟩).trans (vec1_congr (by simp only []; omega))) _ (base L + 16 * k.val + 1) (by omega) (fun l => store_k0_pay26 m d _ _ t2_trips l)) _ _ ((k0_off13_eq k ⟨0, by decide⟩ ⟨2, by decide⟩).trans (vec1_congr (by simp only []; omega))) _ (base L + 16 * k.val + 2) (by omega) (fun l => store_cast m d _ _ t2_trips _ l)) _ _ ((k0_off13_eq k ⟨0, by decide⟩ ⟨3, by decide⟩).trans (vec1_congr (by simp only []; omega))) _ (base L + 16 * k.val + 3) (by omega) (fun l => store_cast m d _ _ t2_trips _ l)) _ _ ((k0_off13_eq k ⟨0, by decide⟩ ⟨4, by decide⟩).trans (vec1_congr (by simp only []; omega))) _ (base L + 16 * k.val + 4) (by omega) (fun l => store_cast m d _ _ t2_trips _ l)) _ _ ((k0_off13_eq k ⟨0, by decide⟩ ⟨5, by decide⟩).trans (vec1_congr (by simp only []; omega))) _ (base L + 16 * k.val + 5) (by omega) (fun l => store_cast m d _ _ t2_trips _ l)) _ _ ((k0_off13_eq k ⟨0, by decide⟩ ⟨6, by decide⟩).trans (vec1_congr (by simp only []; omega))) _ (base L + 16 * k.val + 6) (by omega) (fun l => store_cast m d _ _ t2_trips _ l)) _ _ ((k0_off13_eq k ⟨0, by decide⟩ ⟨7, by decide⟩).trans (vec1_congr (by simp only []; omega))) _ (base L + 16 * k.val + 7) (by omega) (fun l => store_cast m d _ _ t2_trips _ l)) _ _ ((k0_off13_eq k ⟨1, by decide⟩ ⟨0, by decide⟩).trans (vec1_congr (by simp only []; omega))) _ (base L + 16 * k.val + 8) (by omega) (fun l => store_k0_pay43 m d _ _ t3_trips l)) _ _ ((k0_off13_eq k ⟨1, by decide⟩ ⟨1, by decide⟩).trans (vec1_congr (by simp only []; omega))) _ (base L + 16 * k.val + 8 + 1) (by omega) (fun l => store_k0_pay44 m d _ _ t3_trips l)) _ _ ((k0_off13_eq k ⟨1, by decide⟩ ⟨2, by decide⟩).trans (vec1_congr (by simp only []; omega))) _ (base L + 16 * k.val + 8 + 2) (by omega) (fun l => store_k0_pay45 m d _ _ t3_trips l)) _ _ ((k0_off13_eq k ⟨1, by decide⟩ ⟨3, by decide⟩).trans (vec1_congr (by simp only []; omega))) _ (base L + 16 * k.val + 8 + 3) (by omega) (fun l => store_k0_pay46 m d _ _ t3_trips l)) _ _ ((k0_off13_eq k ⟨1, by decide⟩ ⟨4, by decide⟩).trans (vec1_congr (by simp only []; omega))) _ (base L + 16 * k.val + 8 + 4) (by omega) (fun l => store_k0_pay47 m d _ _ t3_trips l)) _ _ ((k0_off13_eq k ⟨1, by decide⟩ ⟨5, by decide⟩).trans (vec1_congr (by simp only []; omega))) _ (base L + 16 * k.val + 8 + 5) (by omega) (fun l => store_k0_pay48 m d _ _ t3_trips l)) _ _ ((k0_off13_eq k ⟨1, by decide⟩ ⟨6, by decide⟩).trans (vec1_congr (by simp only []; omega))) _ (base L + 16 * k.val + 8 + 6) (by omega) (fun l => store_k0_pay49 m d _ _ t3_trips l)) _ _ ((k0_off13_eq k ⟨1, by decide⟩ ⟨7, by decide⟩).trans (vec1_congr (by simp only []; omega))) _ (base L + 16 * k.val + 8 + 7) (by omega) (fun l => store_k0_pay50 m d _ _ t3_trips l))
    isplitl [HF0 HF1 HA H1 H2]
    · rw [if_neg hk]
      unfold aLanded
      isplitl [HF0]; · iexact HF0
      isplitl [HF1]; · iexact HF1
      isplitl [H1]; · iexists _; iexact H1
      isplitl [H2]; · iexists _; iexact H2
      iexact HA
    iexists (insert (SemLoc.dma cc0_scratch7.sem, (default : HIx 1)) (insert (SemLoc.dma cc0_scratch6.sem, (default : HIx 1)) W')); isplitr
    · ipureintro; intro p hp
      rcases Finset.mem_insert.mp hp with hp | hp
      · exact .inr (by subst hp; rfl)
      rcases Finset.mem_insert.mp hp with hp | hp
      · exact .inr (by subst hp; rfl)
      · exact hW' p hp
    · iexact HO

end Cert.KernelIdeal.Pf

end
-- ==== Proof.FoldRows.lean ====
/-
  The in-place additions of the lane rows, as facts about the rows' contents.

  The lane rows are 4112 entries: row `ρ` is entries `16 ρ … 16 ρ + 15`, and sixteen spare entries follow the last row.
  A pass at distance `δ` replaces, row after row in increasing order, the sixteen entries of row `k` by their sums with
  the sixteen entries `δ` further on (which run into the next row's first entries: that row has not been touched yet).
  What a pass needs of its input is the first `2 δ` entries of every row; what it leaves is, in the first `δ` entries
  of every row, the sums of the input's entries `l` and `l + δ`. Three passes (8, 4, 2) turn a row's sixteen lane
  accumulators into the two partial sums whose sum is the row's result.
-/
import proofs.«219795_g11467562680804_week1_w4_611_41_alg».proof.Proof.Spec
import proofs.«219795_g11467562680804_week1_w4_611_41_alg».proof.Proof.LibViewAt

noncomputable section

namespace Cert.MV

open Idealize.ShloMosaic Idealize.ShloMosaic.ValueIdx

variable {F : FTy → Type} [FloatOps F]

/-- The lane rows and the folded rows. -/
abbrev SL3 : Shape := ⟨1, ![4112]⟩
abbrev SF4 : Shape := ⟨2, ![256, 16]⟩

/-- Entry `n` of the lane rows by a natural number (the zero word outside). -/
def rowAt (f : SL3.Idx → F .f32) (n : Nat) : F .f32 :=
  if h : n < 4112 then f (ix1 (⟨n, h⟩ : Fin 4112)) else zeroF

theorem rowAt_of_lt (f : SL3.Idx → F .f32) {n : Nat} (h : n < 4112) : rowAt f n = f (ix1 (⟨n, h⟩ : Fin 4112)) :=
  dif_pos h

/-- A pass at distance `δ` over input rows `In`, before row `k`: the rows before `k` hold the sums in their first `δ`
    entries, the rows from `k` on still hold the input in their first `2 δ`. -/
def PassInv (δ : Nat) (In : Nat → Nat → F .f32) (k : Nat) (f : SL3.Idx → F .f32) : Prop :=
  (∀ ρ l, ρ < k → l < δ → rowAt f (16 * ρ + l) = FloatOps.addf (In ρ l) (In ρ (l + δ)))
    ∧ (∀ ρ l, k ≤ ρ → ρ < 256 → l < 2 * δ → rowAt f (16 * ρ + l) = In ρ l)

/-- Before the first row nothing has been added. -/
theorem PassInv.start {δ : Nat} {In : Nat → Nat → F .f32} {f : SL3.Idx → F .f32}
    (h : ∀ ρ l, ρ < 256 → l < 2 * δ → rowAt f (16 * ρ + l) = In ρ l) : PassInv δ In 0 f :=
  ⟨fun _ _ hρ => absurd hρ (Nat.not_lt_zero _), fun ρ l _ hρ hl => h ρ l hρ hl⟩

/-- After the last row every row holds the sums. -/
theorem PassInv.finish {δ : Nat} {In : Nat → Nat → F .f32} {f : SL3.Idx → F .f32} (h : PassInv δ In 256 f) :
    ∀ ρ l, ρ < 256 → l < δ → rowAt f (16 * ρ + l) = FloatOps.addf (In ρ l) (In ρ (l + δ)) :=
  fun ρ l hρ hl => h.1 ρ l hρ hl

/-- Row `k`'s step: its sixteen entries become their sums with the entries `δ` further on, nothing else changes. -/
theorem PassInv.step {δ : Nat} {In : Nat → Nat → F .f32} {k : Nat} {f f' : SL3.Idx → F .f32} (hδ : 2 * δ ≤ 16)
    (hk : k < 256) (hinv : PassInv δ In k f)
    (hin : ∀ l, l < 16 → rowAt f' (16 * k + l) = FloatOps.addf (rowAt f (16 * k + l)) (rowAt f (16 * k + δ + l)))
    (hout : ∀ n, n < 16 * k ∨ 16 * k + 16 ≤ n → rowAt f' n = rowAt f n) : PassInv δ In (k + 1) f' := by
  refine ⟨fun ρ l hρ hl => ?_, fun ρ l hρ hρ' hl => ?_⟩
  · rcases Nat.lt_succ_iff_lt_or_eq.mp hρ with hlt | rfl
    · rw [hout _ (Or.inl (by omega))]
      exact hinv.1 ρ l hlt hl
    · rw [hin l (by omega), hinv.2 ρ l (Nat.le_refl _) hk (by omega)]
      have e : 16 * ρ + δ + l = 16 * ρ + (l + δ) := by omega
      rw [e, hinv.2 ρ (l + δ) (Nat.le_refl _) hk (by omega)]
  · rw [hout _ (Or.inr (by omega))]
    exact hinv.2 ρ l (by omega) hρ' hl

/-! ## One step through a view

What one trip's store leaves, through any view of the lane rows' shape: the payload is the lane-by-lane sum of two
loads of sixteen entries, at `16 k` and at `16 k + δ`, stored at `16 k`. -/

section Step

variable {sig : RefSig} {κ : Kind} {sp : Space} (v : View sig κ sp SL3 .f32) (f : v.ty.Contents (Elt F))

theorem fold_step_view {off1 off2 : Fin 1 → Nat} {k δ : Nat} (ho1 : off1 = ![16 * k]) (ho2 : off2 = ![16 * k + δ])
    (h1 : ∀ a, off1 a + (![16] : Fin 1 → Nat) a ≤ SL3.size a) (h2 : ∀ a, off2 a + (![16] : Fin 1 → Nat) a ≤ SL3.size a)
    (pay : (⟨1, ![16]⟩ : Shape).Idx → F .f32)
    (hpay : ∀ l, pay l = FloatOps.addf (v.readAt (Elt F) (Rect.unit (s := SL3) off1 ![16] h1).toLoadRect f l)
      (v.readAt (Elt F) (Rect.unit (s := SL3) off2 ![16] h2).toLoadRect f l)) :
    (∀ l, l < 16 → rowAt (v.read (Elt F) (v.writes (Elt F) f [⟨Rect.unit (s := SL3) off1 ![16] h1, pay⟩])) (16 * k + l)
        = FloatOps.addf (rowAt (v.read (Elt F) f) (16 * k + l)) (rowAt (v.read (Elt F) f) (16 * k + δ + l)))
      ∧ (∀ n, n < 16 * k ∨ 16 * k + 16 ≤ n →
          rowAt (v.read (Elt F) (v.writes (Elt F) f [⟨Rect.unit (s := SL3) off1 ![16] h1, pay⟩])) n
            = rowAt (v.read (Elt F) f) n) := by
  have b1 : 16 * k + 16 ≤ 4112 := by have := h1 0; subst ho1; exact this
  have b2 : 16 * k + δ + 16 ≤ 4112 := by have := h2 0; subst ho2; exact this
  refine ⟨fun l hl => ?_, fun n hn => ?_⟩
  · rw [rowAt_of_lt _ (show 16 * k + l < 4112 by omega), rowAt_of_lt _ (show 16 * k + l < 4112 by omega),
      rowAt_of_lt _ (show 16 * k + δ + l < 4112 by omega)]
    have e := Cert.ViewAt.read_writes_unit1_in v f ho1 h1 pay [] (ix1 (⟨l, hl⟩ : Fin 16))
    have r1 := Cert.ViewAt.readAt_unit1 v f ho1 h1 (ix1 (⟨l, hl⟩ : Fin 16))
    have r2 := Cert.ViewAt.readAt_unit1 v f ho2 h2 (ix1 (⟨l, hl⟩ : Fin 16))
    rw [hpay, r1, r2] at e
    exact e
  · by_cases hlt : n < 4112
    · rw [rowAt_of_lt _ hlt, rowAt_of_lt _ hlt]
      exact Cert.ViewAt.read_writes_unit1_out v f ho1 h1 pay [] (⟨n, hlt⟩ : Fin 4112) (by
        show n < 16 * k ∨ 16 * k + 16 ≤ n
        exact hn)
    · unfold rowAt; rw [dif_neg hlt, dif_neg hlt]

end Step

/-! ## The last pass through two views

The last pass reads the lane rows and writes the folded rows: row `k` of the folded rows receives, lane by lane, the
sums of the lane rows' entries `16 k + l` and `16 k + 1 + l`; its column 0 is the sum of entries `16 k` and `16 k + 1`. -/

section LastStep

variable {sig : RefSig} {κ κ' : Kind} {sp sp' : Space} (v3 : View sig κ sp SL3 .f32) (f : v3.ty.Contents (Elt F))
  (v4 : View sig κ' sp' SF4 .f32) (g : v4.ty.Contents (Elt F))

theorem last_step_view {off1 off2 : Fin 1 → Nat} {off3 : Fin 2 → Nat} {k : Nat} (ho1 : off1 = ![16 * k])
    (ho2 : off2 = ![16 * k + 1]) (ho3 : off3 = ![k, 0])
    (h1 : ∀ a, off1 a + (![16] : Fin 1 → Nat) a ≤ SL3.size a) (h2 : ∀ a, off2 a + (![16] : Fin 1 → Nat) a ≤ SL3.size a)
    (h3 : ∀ a, off3 a + (![1, 16] : Fin 2 → Nat) a ≤ SF4.size a)
    (pay : (⟨2, ![1, 16]⟩ : Shape).Idx → F .f32)
    (hpay : ∀ j, pay j = FloatOps.addf (v3.readAt (Elt F) (Rect.unit (s := SL3) off1 ![16] h1).toLoadRect f (ix1 (j 1)))
      (v3.readAt (Elt F) (Rect.unit (s := SL3) off2 ![16] h2).toLoadRect f (ix1 (j 1)))) (ρ : Fin 256) :
    v4.read (Elt F) (v4.writes (Elt F) g [⟨Rect.unit (s := SF4) off3 ![1, 16] h3, pay⟩]) (ix2 ρ (0 : Fin 16))
      = if ρ.val = k then FloatOps.addf (rowAt (v3.read (Elt F) f) (16 * k)) (rowAt (v3.read (Elt F) f) (16 * k + 1))
        else v4.read (Elt F) g (ix2 ρ (0 : Fin 16)) := by
  have b1 : 16 * k + 16 ≤ 4112 := by have := h1 0; subst ho1; exact this
  have b2 : 16 * k + 1 + 16 ≤ 4112 := by have := h2 0; subst ho2; exact this
  rw [Cert.ViewAt.read_writes_unit2_cons v4 g ho3 h3 pay [] ρ (0 : Fin 16)]
  by_cases hρ : ρ.val = k
  · rw [dif_pos ⟨hρ, Nat.le_refl _, by norm_num⟩, if_pos hρ, hpay,
      rowAt_of_lt _ (show 16 * k < 4112 by omega), rowAt_of_lt _ (show 16 * k + 1 < 4112 by omega)]
    have r1 := Cert.ViewAt.readAt_unit1 v3 f ho1 h1 (ix1 (0 : Fin 16))
    have r2 := Cert.ViewAt.readAt_unit1 v3 f ho2 h2 (ix1 (0 : Fin 16))
    exact congrArg₂ FloatOps.addf r1 r2
  · rw [dif_neg (fun hh => hρ hh.1), if_neg hρ]
    rfl

end LastStep

end Cert.MV

end
-- ==== Proof.TileTail.lean ====
/-
  The second half of a vector subcore's task: from the lane rows to its 256 entries of the result.

  After the outer loop, row `ρ` of the lane rows holds the sixteen lane accumulators of matrix row `base + ρ`. Three
  passes add, in place and row after row, each row's sixteen entries to the sixteen entries 8, then 4, then 2 further
  on: after them the first two entries of a row are the two partial sums `fold2 … 0` and `fold2 … 1`. A fourth pass
  adds at distance 1 into the folded rows, whose column 0 is then the row's result `rowSum`. Column 0 is copied to the
  subcore's row of the shared scratch and from there to the subcore's 256 entries of the result, which therefore end
  at the rows' results: the specification's lane part at those entries. Each pass is a counted loop whose invariant is
  a pure fact about the rows' contents (`PassInv`); the copies are two local transfers, each waited for at once.
-/
import proofs.«219795_g11467562680804_week1_w4_611_41_alg».proof.Proof.TileStorage
import proofs.«219795_g11467562680804_week1_w4_611_41_alg».proof.Proof.Entries
import proofs.«219795_g11467562680804_week1_w4_611_41_alg».proof.Proof.FoldRows

noncomputable section

namespace Cert.KernelIdeal.Pf

open Cert.KernelIdeal Cert.KernelIdeal.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

/-- What the subcore's task does after its outer loop: the four in-place additions of the lane rows at distances 8,
    4, 2 and 1 (the last into the folded rows), then column 0 of the folded rows to the subcore's row of the shared
    scratch and from there to its 256 entries of the result. -/
noncomputable def tailProg (L : grid0.Coords) :
    Prog (TpuEff nD τ sig (Elt F) Λ₀ (.scVector ((L 0).castLE hcore0) ((L 1).castLE hsub0))) PUnit := do
  Scf.Loop.for k0_t4_loop k0_t4_ok ⟨⟩ (k0_t4_body L aV (Memref.isWhole_whole _) xV (Memref.isWhole_whole _) oV (Memref.isWhole_whole _) s0 (Memref.isWhole_whole _) s1 (Memref.isWhole_whole _) s2 (Memref.isWhole_whole _) s3 (Memref.isWhole_whole _) s4 (Memref.isWhole_whole _) shV (Memref.isWhole_whole _) cc0_scratch6 cc0_scratch7 cc0_scoped0 cc0_scoped1 cc0_scoped2)
  Scf.Loop.for k0_t5_loop k0_t5_ok ⟨⟩ (k0_t5_body L aV (Memref.isWhole_whole _) xV (Memref.isWhole_whole _) oV (Memref.isWhole_whole _) s0 (Memref.isWhole_whole _) s1 (Memref.isWhole_whole _) s2 (Memref.isWhole_whole _) s3 (Memref.isWhole_whole _) s4 (Memref.isWhole_whole _) shV (Memref.isWhole_whole _) cc0_scratch6 cc0_scratch7 cc0_scoped0 cc0_scoped1 cc0_scoped2)
  Scf.Loop.for k0_t6_loop k0_t6_ok ⟨⟩ (k0_t6_body L aV (Memref.isWhole_whole _) xV (Memref.isWhole_whole _) oV (Memref.isWhole_whole _) s0 (Memref.isWhole_whole _) s1 (Memref.isWhole_whole _) s2 (Memref.isWhole_whole _) s3 (Memref.isWhole_whole _) s4 (Memref.isWhole_whole _) shV (Memref.isWhole_whole _) cc0_scratch6 cc0_scratch7 cc0_scoped0 cc0_scoped1 cc0_scoped2)
  Scf.Loop.for k0_t7_loop k0_t7_ok ⟨⟩ (k0_t7_body L aV (Memref.isWhole_whole _) xV (Memref.isWhole_whole _) oV (Memref.isWhole_whole _) s0 (Memref.isWhole_whole _) s1 (Memref.isWhole_whole _) s2 (Memref.isWhole_whole _) s3 (Memref.isWhole_whole _) s4 (Memref.isWhole_whole _) shV (Memref.isWhole_whole _) cc0_scratch6 cc0_scratch7 cc0_scoped0 cc0_scoped1 cc0_scoped2)
  let v20_r1 : Memref sig .scVector .shared S1x256 .f32 := (shV).slice (Rect.unit (s := S16x256) (k0_off34 L) S1x256.size (k0_off34_inb L)) (fun _ => rfl)
  let v21_r1 : Memref sig .scVector .shared S256 .f32 := v20_r1.squeeze S256 squeezes_S1x256_S256
  let v22_r1 : Memref sig .scVector .vmem S256x1 .f32 := (s4).slice (Rect.unit (s := S256x16) ![0, 0] S256x1.size inb_S256x16_S256x1_0_0) (fun _ => rfl)
  let v23_r1 : Memref sig .scVector .vmem S256 .f32 := v22_r1.squeeze S256 squeezes_S256x1_S256
  Prog.lift (.enqueueDma v23_r1 (.here v21_r1) (.dma cc0_scoped1.sem) ((View.wordExact_bits rfl).reshape _ _) ((View.wordExact_bits rfl).reshape _ _) ⟨Or.inl rfl, trivial⟩)
  let v28_r1 : Memref sig .scVector .shared S1x256 .f32 := (shV).slice (Rect.unit (s := S16x256) (k0_off34 L) S1x256.size (k0_off34_inb L)) (fun _ => rfl)
  let v29_r1 : Memref sig .scVector .shared S256 .f32 := v28_r1.squeeze S256 squeezes_S1x256_S256
  let v30_r1 : Memref sig .scVector .vmem S256x1 .f32 := (s4).slice (Rect.unit (s := S256x16) ![0, 0] S256x1.size inb_S256x16_S256x1_0_0) (fun _ => rfl)
  let v31_r1 : Memref sig .scVector .vmem S256 .f32 := v30_r1.squeeze S256 squeezes_S256x1_S256
  Prog.lift (.waitDma2 cc0_scoped1.sem v31_r1 v29_r1 ((View.wordExact_bits rfl).reshape _ _) ((View.wordExact_bits rfl).reshape _ _))
  let v16_r2 : Memref sig .scVector .hbm S256 .f32 := (oV).slice (Rect.unit (s := S4096) (k0_off35 L) S256.size (k0_off35_inb L)) (fun _ => rfl)
  let v17_r2 : Memref sig .scVector .shared S1x256 .f32 := (shV).slice (Rect.unit (s := S16x256) (k0_off34 L) S1x256.size (k0_off34_inb L)) (fun _ => rfl)
  let v18_r2 : Memref sig .scVector .shared S256 .f32 := v17_r2.squeeze S256 squeezes_S1x256_S256
  Prog.lift (.enqueueDma v18_r2 (.here v16_r2) (.dma cc0_scoped2.sem) ((View.wordExact_bits rfl).reshape _ _) (View.wordExact_bits rfl) ⟨Or.inl rfl, trivial⟩)
  let v19_r2 : Memref sig .scVector .hbm S256 .f32 := (oV).slice (Rect.unit (s := S4096) (k0_off35 L) S256.size (k0_off35_inb L)) (fun _ => rfl)
  let v20_r2 : Memref sig .scVector .shared S1x256 .f32 := (shV).slice (Rect.unit (s := S16x256) (k0_off34 L) S1x256.size (k0_off34_inb L)) (fun _ => rfl)
  let v21_r2 : Memref sig .scVector .shared S256 .f32 := v20_r2.squeeze S256 squeezes_S1x256_S256
  Prog.lift (.waitDma2 cc0_scoped2.sem v21_r2 v19_r2 ((View.wordExact_bits rfl).reshape _ _) (View.wordExact_bits rfl))
  pure ⟨⟩

/-- What the outer loop leaves: row `ρ` of the lane rows holds the sixteen lane accumulators of matrix row
    `base L + ρ` after all 256 chunks. -/
def laneRows (A : Buf (Elt F) (aLoc d)) (X : Buf (Elt F) (xLoc d)) (L : grid0.Coords)
    (f3 : Buf (Elt F) ((thr d L).loc cc0_scratch3)) : Prop :=
  ∀ (ρ : Fin 256) (l : Fin 16), f3 (ix1 (⟨16 * ρ.val + l.val, by omega⟩ : Fin 4112)) = laneAcc A X (base L + ρ.val) l.val 256

/-- Each pass runs over all 256 rows. -/
theorem trips4 : k0_t4_loop.trips = 256 := by decide
theorem trips5 : k0_t5_loop.trips = 256 := by decide
theorem trips6 : k0_t6_loop.trips = 256 := by decide
theorem trips7 : k0_t7_loop.trips = 256 := by decide

/-- The three in-place passes' payloads are the lane-by-lane sums of their two loads. -/
theorem k0_pay51_apply (a b : Vec F S16 .f32) (l : S16.Idx) : k0_pay51 a b l = FloatOps.addf (a l) (b l) := by
  unfold k0_pay51; simp only [shapeCast_self]; rfl
theorem k0_pay52_apply (a b : Vec F S16 .f32) (l : S16.Idx) : k0_pay52 a b l = FloatOps.addf (a l) (b l) := by
  unfold k0_pay52; simp only [shapeCast_self]; rfl
theorem k0_pay53_apply (a b : Vec F S16 .f32) (l : S16.Idx) : k0_pay53 a b l = FloatOps.addf (a l) (b l) := by
  unfold k0_pay53; simp only [shapeCast_self]; rfl

/-- A pass at distance `δ` over input rows `In`, before row `k`: the lane rows at contents in the pass's state. -/
def invPass (δ : Nat) (In : Nat → Nat → F .f32) (k : Nat) (_ : PUnit) : sProp 𝕄 :=
  iprop(∃ f, ((s3).view.loc (thr d L) ↦{fullShare} f) ∗ ⌜PassInv δ In k f⌝)

/-- The rows the three passes work on: the lane accumulators, then the sums at distance 8, then at distance 4. -/
def in8 (A : Buf (Elt F) (aLoc d)) (X : Buf (Elt F) (xLoc d)) (L : grid0.Coords) (ρ l : Nat) : F .f32 := laneAcc A X (base L + ρ) l 256
def in4 (A : Buf (Elt F) (aLoc d)) (X : Buf (Elt F) (xLoc d)) (L : grid0.Coords) (ρ l : Nat) : F .f32 := fold8 A X (base L + ρ) l
def in2 (A : Buf (Elt F) (aLoc d)) (X : Buf (Elt F) (xLoc d)) (L : grid0.Coords) (ρ l : Nat) : F .f32 := fold4 A X (base L + ρ) l

/-- The last pass's payload is the lane-by-lane sum of its two loads, as a 1 × 16 row. -/
theorem k0_pay54_apply (a b : Vec F S16 .f32) (j : S1x16.Idx) :
    k0_pay54 a b j = FloatOps.addf (a (ix1 (j 1))) (b (ix1 (j 1))) := by
  unfold k0_pay54
  rw [Cert.ViewAt.shapeCast_vec_to_row]
  simp only [shapeCast_self]
  rfl

/-- The last pass before row `k`: the lane rows as the third pass left them, the folded rows' column 0 at the rows'
    results for the rows before `k`. -/
def invLast (fC : Buf (Elt F) ((thr d L).loc cc0_scratch3)) (k : Nat) (_ : PUnit) : sProp 𝕄 :=
  iprop(((s3).view.loc (thr d L) ↦{fullShare} fC)
    ∗ ∃ g, ((s4).view.loc (thr d L) ↦{fullShare} g)
      ∗ ⌜∀ ρ : Fin 256, ρ.val < k → g (ix2 ρ (0 : Fin 16)) = rowSum (m (aLoc d)) (m (xLoc d)) (base L + ρ.val)⌝)

/-- Column 0 of the folded rows, as the first copy reads it: entry `j` is the folded rows' entry `(j, 0)`. -/
theorem col0_read (g : Buf (Elt F) ((thr d L).loc cc0_scratch4)) (j : S256.Idx) :
    View.read (Elt F)
        (((s4).slice (Rect.unit (s := S256x16) ![0, 0] S256x1.size inb_S256x16_S256x1_0_0) (fun _ => rfl)).squeeze S256
          squeezes_S256x1_S256).view g j
      = g (ix2 (j 0) (0 : Fin 16)) := by
  have e := congrFun (Memref.read_squeeze_slice (Val := Elt F) (s4)
    (Rect.unit (s := S256x16) ![0, 0] S256x1.size inb_S256x16_S256x1_0_0) (fun _ => rfl) squeezes_S256x1_S256
    (by decide) g) j
  rw [e, Cert.ViewAt.shapeCast_col_to_vec]
  have r := Cert.ViewAt.readAt_block2 (Val := Elt F) (s4).view g (off := ![0, 0]) (r0 := 0) (c0 := 0) (hh := 256) (w := 1) rfl
    inb_S256x16_S256x1_0_0 (ix2 (j 0) (0 : Fin 1))
  refine r.trans ?_
  exact congrArg g (funext fun a => by
    match a with
    | ⟨0, _⟩ => exact Fin.ext (Nat.zero_add _)
    | ⟨1, _⟩ => exact Fin.ext rfl)

/-- What the second copy leaves in the subcore's 256 entries of the result: there, the rows' results. -/
theorem out_agree (fsh : Buf (Elt F) ((shSl L).view.loc (thr d L))) (g : Buf (Elt F) ((thr d L).loc cc0_scratch4))
    (hg : ∀ ρ : Fin 256, ρ.val < 256 → g (ix2 ρ (0 : Fin 16)) = rowSum (m (aLoc d)) (m (xLoc d)) (base L + ρ.val))
    (w0 : S256.Idx → F .f32)
    (hw0 : w0 = ReadAs.same.apply (View.read (Elt F)
      (((s4).slice (Rect.unit (s := S256x16) ![0, 0] S256x1.size inb_S256x16_S256x1_0_0) (fun _ => rfl)).squeeze S256
        squeezes_S256x1_S256).view g))
    (w1 : S256.Idx → F .f32)
    (hw1 : w1 = ReadAs.same.apply (View.read (Elt F) (shSl L).view
      ((shSl L).view.writes (Elt F) fsh [⟨Rect.whole S256, w0⟩]))) :
    ∀ i ∈ (oSl L).view.set, (oSl L).view.writes (Elt F) (m (oLoc d)) [⟨Rect.whole S256, w1⟩] i = scOut m d i := by
  intro i hi
  obtain ⟨j, -, rfl⟩ := Finset.mem_map.mp hi
  have eL : (oSl L).view.writes (Elt F) (m (oLoc d)) [⟨Rect.whole S256, w1⟩] ((oSl L).view.emb j) = w1 j :=
    Cert.ViewAt.read_writes_whole (oSl L).view (m (oLoc d)) w1 j
  have e1 : w1 j = w0 j := by
    rw [hw1]
    exact Cert.ViewAt.read_writes_whole (shSl L).view fsh w0 j
  have e0 : w0 j = g (ix2 (j 0) (0 : Fin 16)) := by
    rw [hw0]
    exact col0_read d L g j
  have hj : (j 0).val < 256 := (j 0).isLt
  have eidx : (oSl L).view.emb j
      = ix1 (⟨256 * (L 1).val + 256 * (L 0).val + (j 0).val,
          Cert.ViewAt.lt_of_inb1 (k0_off35_eq L) (k0_off35_inb L) (j 0).isLt⟩ : Fin 4096) :=
    Cert.ViewAt.emb_unit1 (k0_off35_eq L) (k0_off35_inb L) j
  rw [eL, e1, e0, hg (j 0) hj, eidx]
  show _ = rowSum (m (aLoc d)) (m (xLoc d)) (12288 + (256 * (L 1).val + 256 * (L 0).val + (j 0).val))
  congr 1
  show 256 * (L 1).val + 256 * (L 0).val + 12288 + (j 0).val = 12288 + (256 * (L 1).val + 256 * (L 0).val + (j 0).val)
  omega

/-- The same at the contents the two copies leave, spelt as the run spells them. -/
theorem out_agree_run (fsh : Buf (Elt F) ((shSl L).view.loc (thr d L))) (g : Buf (Elt F) ((thr d L).loc cc0_scratch4))
    (hg : ∀ ρ : Fin 256, ρ.val < 256 → g (ix2 ρ (0 : Fin 16)) = rowSum (m (aLoc d)) (m (xLoc d)) (base L + ρ.val)) :
    ∀ i ∈ (oSl L).view.set,
      (oSl L).view.writes (Elt F) (m (oLoc d))
        [⟨Rect.whole S256, ReadAs.same.apply (View.read (Elt F) (shSl L).view
          ((shSl L).view.writes (Elt F) fsh
            [⟨Rect.whole S256, ReadAs.same.apply (View.read (Elt F)
              (((s4).slice (Rect.unit (s := S256x16) ![0, 0] S256x1.size inb_S256x16_S256x1_0_0) (fun _ => rfl)).squeeze S256
                squeezes_S256x1_S256).view g)⟩]))⟩] i
        = scOut m d i :=
  out_agree m d L fsh g hg _ rfl _ rfl

theorem tile_tail (O : CellTallies nD τ sig (HIx 1)) (W1 : Waits sig (HIx 1))
    (f3 : Buf (Elt F) ((thr d L).loc cc0_scratch3)) (hf3 : laneRows d (m (aLoc d)) (m (xLoc d)) L f3) :
  (iprop(Transfers.MayWaits (thr d L) (none : HIx 1) O ∗ ((s3).view.loc (thr d L) ↦{fullShare} f3)
      ∗ (∃ f4, (s4).view.loc (thr d L) ↦{fullShare} f4)
      ∗ ((oSl L).view.loc (thr d L) ↦[(oSl L).view.set]{fullShare} m (oLoc d))
      ∗ (∃ fsh, (shSl L).view.loc (thr d L) ↦[(shSl L).view.set]{fullShare} fsh)
      ∗ semVal (cellS d (cV L) (jV L)) 0 ∗ semVal (cellO d (cV L) (jV L)) 0 ∗ owes (thr d L) O W1) : sProp 𝕄)
    ⊢ wp frame (wpE (defs₀ (F := F)) 𝒱₀ (thr d L) none) Set.univ (tailProg (F := F) L) fun _ =>
        iprop((∃ f3', (s3).view.loc (thr d L) ↦{fullShare} f3') ∗ (∃ f4, (s4).view.loc (thr d L) ↦{fullShare} f4)
          ∗ ((oSl L).view.loc (thr d L) ↦[(oSl L).view.set]{fullShare} scOut m d)
          ∗ (∃ fsh, (shSl L).view.loc (thr d L) ↦[(shSl L).view.set]{fullShare} fsh)
          ∗ semVal (cellS d (cV L) (jV L)) 0 ∗ semVal (cellO d (cV L) (jV L)) 0
          ∗ ∃ W', ⌜∀ p ∈ W', p ∈ W1 ∨ p.2 = none⌝ ∗ owes (thr d L) O W') := by
  unfold tailProg
  iintro ⟨#Hmw, H3, ⟨%f4, H4⟩, HOut, ⟨%fsh, HSh⟩, HsS, HsO, HO⟩
  sl_for (invPass (F := F) d L 8 (in8 d (m (aLoc d)) (m (xLoc d)) L)) $$ [H3]
  case region =>
    intro k _
    unfold invPass
    iintro ⟨%f, H3, %hinv⟩
    sl_exec
    sl_step
    iexists _
    isplitl [H3]; · iexact H3
    ipureintro
    have hk : k.val < 256 := Nat.lt_of_lt_of_le k.isLt k0_t4_abs.2.1
    have st := fold_step_view (F := F) (s3).view f (k0_off25_eq k) (k0_off26_eq k) (k0_off25_inb k) (k0_off26_inb k) _
      (fun l => k0_pay51_apply _ _ l)
    exact PassInv.step (δ := 8) (by norm_num) hk hinv st.1 st.2
  · unfold invPass
    iexists f3
    isplitl [H3]; · iexact H3
    ipureintro
    refine PassInv.start fun ρ l hρ hl => ?_
    rw [rowAt_of_lt _ (show 16 * ρ + l < 4112 by omega)]
    exact hf3 ⟨ρ, hρ⟩ ⟨l, by omega⟩
  iintro %_ HI
  unfold invPass
  icases HI with ⟨%fA, H3, %hA⟩
  rw [show Scf.trips k0_t4_loop.lb k0_t4_loop.ub k0_t4_loop.st = 256 from trips4] at hA
  sl_for (invPass (F := F) d L 4 (in4 d (m (aLoc d)) (m (xLoc d)) L)) $$ [H3]
  case region =>
    intro k _
    unfold invPass
    iintro ⟨%f, H3, %hinv⟩
    sl_exec
    sl_step
    iexists _
    isplitl [H3]; · iexact H3
    ipureintro
    have hk : k.val < 256 := Nat.lt_of_lt_of_le k.isLt k0_t5_abs.2.1
    have st := fold_step_view (F := F) (s3).view f (k0_off27_eq k) (k0_off28_eq k) (k0_off27_inb k) (k0_off28_inb k) _
      (fun l => k0_pay52_apply _ _ l)
    exact PassInv.step (δ := 4) (by norm_num) hk hinv st.1 st.2
  · unfold invPass
    iexists fA
    isplitl [H3]; · iexact H3
    ipureintro
    exact PassInv.start fun ρ l hρ hl => hA.finish ρ l hρ (by omega)
  iintro %_ HI
  unfold invPass
  icases HI with ⟨%fB, H3, %hB⟩
  rw [show Scf.trips k0_t5_loop.lb k0_t5_loop.ub k0_t5_loop.st = 256 from trips5] at hB
  sl_for (invPass (F := F) d L 2 (in2 d (m (aLoc d)) (m (xLoc d)) L)) $$ [H3]
  case region =>
    intro k _
    unfold invPass
    iintro ⟨%f, H3, %hinv⟩
    sl_exec
    sl_step
    iexists _
    isplitl [H3]; · iexact H3
    ipureintro
    have hk : k.val < 256 := Nat.lt_of_lt_of_le k.isLt k0_t6_abs.2.1
    have st := fold_step_view (F := F) (s3).view f (k0_off29_eq k) (k0_off30_eq k) (k0_off29_inb k) (k0_off30_inb k) _
      (fun l => k0_pay53_apply _ _ l)
    exact PassInv.step (δ := 2) (by norm_num) hk hinv st.1 st.2
  · unfold invPass
    iexists fB
    isplitl [H3]; · iexact H3
    ipureintro
    exact PassInv.start fun ρ l hρ hl => hB.finish ρ l hρ (by omega)
  iintro %_ HI
  unfold invPass
  icases HI with ⟨%fC, H3, %hC⟩
  rw [show Scf.trips k0_t6_loop.lb k0_t6_loop.ub k0_t6_loop.st = 256 from trips6] at hC
  sl_for (invLast (F := F) m d L fC) $$ [H3 H4]
  case region =>
    intro k _
    unfold invLast
    iintro ⟨H3, %g, H4, %hg⟩
    sl_exec
    sl_step
    isplitl [H3]; · iexact H3
    iexists _
    isplitl [H4]; · iexact H4
    ipureintro
    intro ρ hρ
    have hk : k.val < 256 := Nat.lt_of_lt_of_le k.isLt k0_t7_abs.2.1
    have st := last_step_view (F := F) (s3).view fC (s4).view g (k0_off31_eq k) (k0_off32_eq k) (k0_off33_eq k)
      (k0_off31_inb k) (k0_off32_inb k) (k0_off33_inb k) _ (fun j => k0_pay54_apply _ _ j) ρ
    refine st.trans ?_
    by_cases hρk : ρ.val = k.val
    · rw [if_pos hρk]
      have e0 := hC.finish k.val 0 hk (by norm_num)
      have e1 := hC.finish k.val 1 hk (by norm_num)
      rw [hρk]
      exact (congrArg₂ FloatOps.addf e0 e1)
    · rw [if_neg hρk]
      exact hg ρ (by omega)
  · unfold invLast
    isplitl [H3]; · iexact H3
    iexists f4
    isplitl [H4]; · iexact H4
    ipureintro
    exact fun ρ hρ => absurd hρ (Nat.not_lt_zero _)
  iintro %_ HI
  unfold invLast
  icases HI with ⟨H3, %g, H4, %hg⟩
  rw [show Scf.trips k0_t7_loop.lb k0_t7_loop.ub k0_t7_loop.st = 256 from trips7] at hg
  sl_exec
  sl_step
  isplitl [H3]; · iexists _; iexact H3
  isplitl [H4]; · iexists _; iexact H4
  isplitl [HOut]
  · sl_unfold_run_names
    iapply (Entails.of_eq (pointsTo_congr (out_agree_run (F := F) m d L fsh g hg)))
    iexact HOut
  isplitl [HSh]; · iexists _; iexact HSh
  isplitl [HsS]; · iexact HsS
  isplitl [HsO]; · iexact HsO
  iexists (insert (SemLoc.dma cc0_scoped2.sem, (default : HIx 1)) (insert (SemLoc.dma cc0_scoped1.sem, (default : HIx 1)) W1))
  isplitr
  · ipureintro; intro p hp
    rcases Finset.mem_insert.mp hp with hp | hp
    · exact .inr (hp ▸ rfl)
    · rcases Finset.mem_insert.mp hp with hp | hp
      · exact .inr (hp ▸ rfl)
      · exact .inl hp
  · iexact HO

end Cert.KernelIdeal.Pf

end
-- ==== Proof.TileBody.lean ====
import proofs.«219795_g11467562680804_week1_w4_611_41_alg».proof.Proof.TileTrip
import proofs.«219795_g11467562680804_week1_w4_611_41_alg».proof.Proof.TileTail

set_option pp.maxSteps 4000
set_option pp.deepTerms false

noncomputable section

namespace Cert.KernelIdeal.Pf

open Cert.KernelIdeal Cert.KernelIdeal.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

set_option maxHeartbeats 4000000 in
/-- The task of vector subcore `L`: copy the vector, stream its 32 blocks of 8 rows through two buffers accumulating
    each row in 16 lanes, fold the lanes, and write its 256 results out through its row of the shared scratch. -/
theorem tile_body (hF : (K (F := F)).Facts) (O : CellTallies nD τ sig (HIx 1)) (W : Waits sig (HIx 1)) (hO : ∀ g, O g none = 0) :
    iprop(levAts (K (F := F)).L (K (F := F)).lev ∗ emp ∗ tileGo m d L
        ∗ scopedBufs (thr d L) ∗ scopedSems0 (thr d L) ∗ owes (thr d L) O W)
      ⊢ wp frame (wpE (defs₀ (F := F)) 𝒱₀ (thr d L) none) Set.univ
          (cc0__sc_mv L aV (Memref.isWhole_whole _) xV (Memref.isWhole_whole _) oV (Memref.isWhole_whole _)
            s0 (Memref.isWhole_whole _) s1 (Memref.isWhole_whole _) s2 (Memref.isWhole_whole _) s3 (Memref.isWhole_whole _) s4 (Memref.isWhole_whole _)
            shV (Memref.isWhole_whole _) cc0_scratch6 cc0_scratch7 cc0_scoped0 cc0_scoped1 cc0_scoped2)
          fun _ => iprop(tileTd m d L ∗ scopedBufs (thr d L) ∗ scopedSems0 (thr d L)
            ∗ ∃ W', ⌜∀ p ∈ W', p ∈ W ∨ p.2 = none⌝ ∗ owes (thr d L) O W') := by
  simp only [cc0__sc_mv_eq_skeleton]; unfold cc0__sc_mv_skel
  simp only [k0_part6_eq_skeleton]; unfold k0_part6_skel
  simp only [bind_assoc]
  rw [(K (F := F)).scopedBufs_V hF d (cV L) (jV L), SparseCore.Cfg.scopedSems0_V (Val := Elt F) d (cV L) (jV L), ownSems0_V5, ownBufs_V5]
  unfold tileGo
  iintro ⟨#Hlv, -, ⟨HA, HX, HOut, ⟨%fsh, HSh⟩⟩, ⟨⟨%f0, H0⟩, ⟨%f1, H1⟩, ⟨%f2, H2⟩, ⟨%f3, H3⟩, ⟨%f4, H4⟩, Hbufs⟩, ⟨HsA0, HsA1, HsX, HsS, HsO, Hsems⟩, HO⟩
  ihave Hmw := ((K (F := F)).mayWaits_none (thr := thr d L) hO) $$ Hlv
  ihave HA' := (Entails.of_eq (pts_aV (F := F) d L _ _).symm) $$ HA
  ihave HX' := (Entails.of_eq (pts_xV (F := F) d L _ _).symm) $$ HX
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  sl_exec
  -- the landed vector is the vector
  ihave H0c := (Entails.of_eq (congrArg (fun c => ((s0).view.loc (thr d L) ↦{fullShare} c : sProp 𝕄)) (x_lands m d L f0 (tile_body.sl.dma0 m d) (by sl_unfold_run_names; rfl)))) $$ H0'
  sl_for (invOuter m d L O W (Transfers.shareTok fullShare 16 (jV L))) $$ [Hmw HX' H0c H3' HsA0 HsA1 HA' HO]
  case region =>
    intro k _
    exact outer_trip m d L O W _ k
  · unfold invOuter
    rw [if_pos (by norm_num : (0 : Nat) < 16)]
    unfold aFly
    isplitl [Hmw]; · iexact Hmw
    isplitl [HX']; · iexact HX'
    isplitl [H0c]; · iexact H0c
    isplitl [H3']
    · iexists _
      isplitl [H3']; · iexact H3'
      ipureintro; intro y hy; exact absurd hy (by omega)
    isplitl [HsA0 HsA1 HA']
    · iexists (k0_off1 L), (k0_off1_inb L), (k0_off2 L), (k0_off2_inb L)
      isplitr
      · ipureintro
        exact ⟨(k0_off1_eq L).trans (vec2_congr (by omega)), (k0_off2_eq L).trans (vec2_congr (by omega))⟩
      isplitl [HsA0]
      · iapply (Transfers.Flight_mono _ _ ?_) $$ HsA0
        iintro ⟨H, HA⟩
        isplitl [H]
        · iapply (Entails.of_eq (congrArg (fun c => ((s1).view.loc (thr d L) ↦{fullShare} c : sProp 𝕄))
            (blk_lands1 m d L (k0_off1 L) (k0_off1_inb L) (base L + 16 * 0) ((k0_off1_eq L).trans (vec2_congr (by unfold base; omega))) (tile_body.sl.dma0_1 m d L) (by sl_unfold_run_names; rfl) _)))
          iexact H
        iexact HA
      isplitl [HsA1]
      · iapply (Transfers.Flight_mono _ _ ?_) $$ HsA1
        iintro ⟨H, HA⟩
        isplitl [H]
        · iapply (Entails.of_eq (congrArg (fun c => ((s2).view.loc (thr d L) ↦{fullShare} c : sProp 𝕄))
            (blk_lands2 m d L (k0_off2 L) (k0_off2_inb L) (base L + 16 * 0 + 8) ((k0_off2_eq L).trans (vec2_congr (by unfold base; omega))) (tile_body.sl.dma0_2 m d L) (by sl_unfold_run_names; rfl) _)))
          iexact H
        iexact HA
      iexact HA'
    iexists (insert (SemLoc.dma cc0_scoped0.sem, (default : HIx 1)) W); isplitr
    · ipureintro; intro p hp
      rcases Finset.mem_insert.mp hp with hp | hp
      · exact .inr (by subst hp; rfl)
      · exact .inl hp
    · iexact HO
  iintro %_ HI
  have e16 : Scf.trips k0_t1_loop.lb k0_t1_loop.ub k0_t1_loop.st = 16 := t1_trips
  rw [e16]
  unfold invOuter
  rw [if_neg (by norm_num : ¬ (16 : Nat) < 16)]
  unfold aLanded
  icases HI with ⟨-, HX, H0, ⟨%g3, H3, %hg3⟩, ⟨HsA0, HsA1, ⟨%c1, H1⟩, ⟨%c2, H2⟩, HA⟩, %W1, %hW1, HO⟩
  have hrows : laneRows d (m (aLoc d)) (m (xLoc d)) L g3 := by
    intro ρ l
    have hρ := ρ.isLt
    have hl := l.isLt
    refine (hg3 (ix1 (⟨16 * ρ.val + l.val, by omega⟩ : Fin 4112)) (by show 16 * ρ.val + l.val < 16 * (16 * 16); omega)).trans ?_
    show laneAcc (F := F) (m (aLoc d)) (m (xLoc d)) (base L + (16 * ρ.val + l.val) / 16) ((16 * ρ.val + l.val) % 16) 256 = _
    have e1 : (16 * ρ.val + l.val) / 16 = ρ.val := by omega
    have e2 : (16 * ρ.val + l.val) % 16 = l.val := by omega
    rw [e1, e2]
  -- what remains is the tail: the four folds and the two copies out
  ihave Hwp := (tile_tail m d L O W1 g3 hrows) $$ [H3 H4' HOut HSh HsS HsO HO]
  · isplitr; · iexact Hmw
    isplitl [H3]; · iexact H3
    isplitl [H4']; · iexists _; iexact H4'
    isplitl [HOut]; · iexact HOut
    isplitl [HSh]; · iexists _; iexact HSh
    isplitl [HsS]; · iexact HsS
    isplitl [HsO]; · iexact HsO
    iexact HO
  iapply (wp_wand_r frame (wpE (defs₀ (F := F)) 𝒱₀ (thr d L) none) Set.univ)
  isplitl [Hwp]; · iexact Hwp
  iintro %_ ⟨⟨%g3', H3⟩, ⟨%g4, H4⟩, HOut, ⟨%fsh', HSh⟩, HsS, HsO, %W2, %hW2, HO⟩
  unfold tileTd
  isplitl [HA HX HOut HSh]
  · isplitl [HA]; · iapply (Entails.of_eq (pts_aV (F := F) d L _ _)); iexact HA
    isplitl [HX]; · iapply (Entails.of_eq (pts_xV (F := F) d L _ _)); iexact HX
    isplitl [HOut]; · iexact HOut
    iexists _; iexact HSh
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [HsA0 HsA1 HsX HsS HsO Hsems]
  · isplitl [HsA0]; · iexact HsA0
    isplitl [HsA1]; · iexact HsA1
    isplitl [HsX]; · iexact HsX
    isplitl [HsS]; · iexact HsS
    isplitl [HsO]; · iexact HsO
    iexact Hsems
  iexists W2; isplitr
  · ipureintro; intro p hp
    rcases hW2 p hp with h | h
    · exact hW1 p h
    · exact .inr h
  · iexact HO

end Cert.KernelIdeal.Pf

end
-- ==== Proof.TileObl.lean ====
import proofs.«219795_g11467562680804_week1_w4_611_41_alg».proof.Proof.TileBody

noncomputable section

namespace Cert.KernelIdeal.Pf

open Cert.KernelIdeal Cert.KernelIdeal.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- The body table's row for a vector subcore is the kernel at that subcore's coordinates on the whole arrays and its scratch. -/
theorem defs₀_vector (c : Fin τ.nSC) (s : Fin τ.nSub) :
    defs₀ (F := F) (.scVector c s) 0 ()
      = SparseCore.onTile hcore0 hsub0 (fun c s => cc0__sc_mv (coordsV c s)
          aV (Memref.isWhole_whole _) xV (Memref.isWhole_whole _) oV (Memref.isWhole_whole _)
          s0 (Memref.isWhole_whole _) s1 (Memref.isWhole_whole _) s2 (Memref.isWhole_whole _) s3 (Memref.isWhole_whole _) s4 (Memref.isWhole_whole _)
          shV (Memref.isWhole_whole _) cc0_scratch6 cc0_scratch7 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the one vector-subcore call: every task of its grid is `tile_body`. -/
theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

end Cert.KernelIdeal.Pf

end
-- ==== Proof.LaunchSplit.lean ====
/-
  How SparseCore 0's operands split among its sixteen vector subcores and gather back.

  The matrix and the vector are read by every subcore: each is handed one of sixteen read shares of the whole
  array, the remainder staying with the split until the shares come back. The SparseCore's 4096 results are cut
  into sixteen runs of 256 consecutive entries, run `w` to subcore `w`; the shared scratch (sixteen rows of 256)
  is cut into its rows, row `w` to subcore `w`. The runs and the rows are the sixteen parts of their arrays
  along the leading axis, so they are pairwise disjoint and cover them.
-/
import proofs.«219795_g11467562680804_week1_w4_611_41_alg».proof.Proof.Common
import Idealize.ShloMosaic.Lib.Transfers

noncomputable section

namespace Cert.KernelIdeal.Pf

open Cert.KernelIdeal Cert.KernelIdeal.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The sixteen parts of the result array and of the shared scratch -/

theorem bound_one : grid0.bound 1 = 16 := rfl
theorem nSub_eq : τ.nSub = 16 := rfl
abbrev jL (L : grid0.Coords) : Fin 16 := Fin.cast bound_one (L 1)

theorem hdivO : 16 ∣ S4096.size 0 := ⟨256, rfl⟩
theorem hdivS : 16 ∣ S16x256.size 0 := ⟨1, rfl⟩
abbrev oPart (i : Fin 16) : Rect S4096 := Rect.part (s := S4096) (a₀ := 0) hdivO i
abbrev sPart (i : Fin 16) : Rect S16x256 := Rect.part (s := S16x256) (a₀ := 0) hdivS i
abbrev oSet (i : Fin 16) : Finset S4096.Idx := ((oV).view.slice (oPart i)).set
abbrev sSet (i : Fin 16) : Finset S16x256.Idx := ((shV).view.slice (sPart i)).set

theorem coord0_zero (L : grid0.Coords) : (L 0).val = 0 := by
  have h : (L 0).val < 1 := (L 0).isLt
  omega

/-- Subcore `L`'s run of the results is part `L 1` of sixteen. -/
theorem oRect_eq (L : grid0.Coords) :
    Rect.unit (s := S4096) (k0_off35 L) S256.size (k0_off35_inb L) = oPart (jL L) := by
  unfold oPart Rect.part Rect.block
  congr 1 <;> funext a
  · rw [k0_off35_eq]
    match a with
    | 0 => simp [Shape.partIx, Shape.partSize, coord0_zero L]; omega
  · match a with
    | 0 => simp [Shape.partSize]

/-- Its row of the shared scratch is part `L 1` of sixteen. -/
theorem sRect_eq (L : grid0.Coords) :
    Rect.unit (s := S16x256) (k0_off34 L) S1x256.size (k0_off34_inb L) = sPart (jL L) := by
  unfold sPart Rect.part Rect.block
  congr 1 <;> funext a
  · rw [k0_off34_eq]
    match a with
    | 0 => simp [Shape.partIx, Shape.partSize]
    | 1 => simp [Shape.partIx, Shape.partSize]
  · match a with
    | 0 => simp [Shape.partSize]
    | 1 => simp [Shape.partSize]

theorem set_oSl (L : grid0.Coords) : (oSl L).view.set = oSet (jL L) := by
  show ((oV).view.slice (Rect.unit (s := S4096) (k0_off35 L) S256.size (k0_off35_inb L))).set = ((oV).view.slice (oPart (jL L))).set
  exact oRect_eq L ▸ rfl

theorem set_shSl (L : grid0.Coords) : (shSl L).view.set = sSet (jL L) := by
  show (((shV).view.slice (Rect.unit (s := S16x256) (k0_off34 L) S1x256.size (k0_off34_inb L))).reshape S256 squeezes_S1x256_S256.numel_eq).set
    = ((shV).view.slice (sPart (jL L))).set
  rw [View.set_reshape]
  exact sRect_eq L ▸ rfl

theorem oSet_eq (i : Fin 16) : oSet i = (oPart i).set := by
  show ((View.whole (main_v0_scv : Ref sig .scVector)).slice (oPart i)).set = _
  rw [View.set_slice]; exact Finset.map_refl
theorem sSet_eq (i : Fin 16) : sSet i = (sPart i).set := by
  show ((View.whole (cc0_scratch5 : Ref sig .scVector)).slice (sPart i)).set = _
  rw [View.set_slice]; exact Finset.map_refl

theorem oSets_disjoint : ∀ i ∈ (Finset.univ : Finset (Fin 16)), ∀ j ∈ (Finset.univ : Finset (Fin 16)), i ≠ j → Disjoint (oSet i) (oSet j) :=
  fun i _ j _ h => by rw [oSet_eq, oSet_eq]; exact Rect.part_disjoint hdivO h
theorem oSets_cover : (Finset.univ : Finset (Fin 16)).biUnion oSet = Finset.univ :=
  (Finset.biUnion_congr rfl fun i _ => oSet_eq i).trans (Rect.biUnion_part hdivO)
theorem sSets_disjoint : ∀ i ∈ (Finset.univ : Finset (Fin 16)), ∀ j ∈ (Finset.univ : Finset (Fin 16)), i ≠ j → Disjoint (sSet i) (sSet j) :=
  fun i _ j _ h => by rw [sSet_eq, sSet_eq]; exact Rect.part_disjoint hdivS h
theorem sSets_cover : (Finset.univ : Finset (Fin 16)).biUnion sSet = Finset.univ :=
  (Finset.biUnion_congr rfl fun i _ => sSet_eq i).trans (Rect.biUnion_part hdivS)

/-! ## The task payloads over the sixteen parts -/

variable (m : (ℓ : Loc nD τ sig) → Buf (Elt F) ℓ)

/-- SparseCore `c`'s shared scratch, as every one of its subcores addresses it. -/
abbrev shRef (c : Fin τ.nSC) : DevRef τ sig := ⟨.shared, ⟨0, by decide⟩, c⟩
abbrev shLoc (d : Dev nD) (c : Fin τ.nSC) : Loc nD τ sig := (d, shRef c)

variable [FloatOps F]

/-- What task `j` is handed, over the parts: read share `j` of the matrix and of the vector, part `j` of the
    results at the launch contents, part `j` of the shared scratch at some contents; -/
def goAt (d : Dev nD) (c : Fin τ.nSC) (j : Fin 16) : sProp 𝕄 :=
  iprop((aLoc d ↦{Transfers.shareTok fullShare 16 j} m (aLoc d)) ∗ (xLoc d ↦{Transfers.shareTok fullShare 16 j} m (xLoc d))
    ∗ (oLoc d ↦[oSet j]{fullShare} m (oLoc d)) ∗ ∃ f, shLoc d c ↦[sSet j]{fullShare} f)
/-- and what it hands back: the same, part `j` of the results at the folded lane sums. -/
def tdAt (d : Dev nD) (c : Fin τ.nSC) (j : Fin 16) : sProp 𝕄 :=
  iprop((aLoc d ↦{Transfers.shareTok fullShare 16 j} m (aLoc d)) ∗ (xLoc d ↦{Transfers.shareTok fullShare 16 j} m (xLoc d))
    ∗ (oLoc d ↦[oSet j]{fullShare} scOut m d) ∗ ∃ f, shLoc d c ↦[sSet j]{fullShare} f)

theorem tileGo_eq (d : Dev nD) (L : grid0.Coords) : tileGo m d L = goAt m d (cV L) (jL L) := by
  unfold tileGo goAt
  rw [set_oSl, set_shSl]
  rfl
theorem tileTd_eq (d : Dev nD) (L : grid0.Coords) : tileTd m d L = tdAt m d (cV L) (jL L) := by
  unfold tileTd tdAt
  rw [set_oSl, set_shSl]
  rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem go_tasks (d : Dev nD) (c : Fin ((K (F := F)).nCore 0)) :
    (bigSep Finset.univ fun i : Fin ((K (F := F)).nSub 0) => (P m).go 0 d c i) = bigSep Finset.univ fun j : Fin 16 => goAt m d ((K (F := F)).core 0 c) j := by
  rw [← bigSep_tasks (F := F) (fun j => goAt m d ((K (F := F)).core 0 c) j)]
  exact bigSep_congr fun i _ => tileGo_eq m d (coordsOf c i)
theorem td_tasks (d : Dev nD) (c : Fin ((K (F := F)).nCore 0)) :
    (bigSep Finset.univ fun i : Fin ((K (F := F)).nSub 0) => (P m).td 0 d c i) = bigSep Finset.univ fun j : Fin 16 => tdAt m d ((K (F := F)).core 0 c) j := by
  rw [← bigSep_tasks (F := F) (fun j => tdAt m d ((K (F := F)).core 0 c) j)]
  exact bigSep_congr fun i _ => tileTd_eq m d (coordsOf c i)

/-! ## Splitting and joining -/

omit [FloatOps F] in
theorem oPts_parts (d : Dev nD) (f : Buf (Elt F) (oLoc d)) :
    (oLoc d ↦{fullShare} f : sProp 𝕄) = bigSep Finset.univ fun i : Fin 16 => oLoc d ↦[oSet i]{fullShare} f := by
  rw [← pointsTo_biUnion Finset.univ (ℓ := oLoc d) oSet oSets_disjoint, oSets_cover]; try rfl
omit [FloatOps F] in
theorem shPts_parts (d : Dev nD) (c : Fin τ.nSC) (f : Buf (Elt F) (shLoc d c)) :
    (shLoc d c ↦{fullShare} f : sProp 𝕄) = bigSep Finset.univ fun i : Fin 16 => shLoc d c ↦[sSet i]{fullShare} f := by
  rw [← pointsTo_biUnion Finset.univ (ℓ := shLoc d c) sSet sSets_disjoint, sSets_cover]; try rfl

/-- The scratch's parts, each at contents of its own, are the scratch whole at some contents. -/
theorem shParts_join (d : Dev nD) (c : Fin τ.nSC) :
    (bigSep Finset.univ fun i : Fin 16 => iprop(∃ f, shLoc d c ↦[sSet i]{fullShare} f)) ⊢ (iprop(∃ f, shLoc d c ↦{fullShare} f) : sProp 𝕄) := by
  refine (bigSep_exists_pi Finset.univ (fun i (f : Buf (Elt F) (shLoc d c)) => (shLoc d c ↦[sSet i]{fullShare} f : sProp 𝕄))).trans ?_
  iintro ⟨%fs, H⟩
  ihave H' := (pointsTo_biUnion_join Finset.univ sSet fs (fs 0) sSets_disjoint) $$ H
  icases H' with ⟨%g, -, Hg⟩
  rw [sSets_cover]
  iexists g; iexact Hg

omit [FloatOps F] in
/-- The shared scratch is among the sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- **The split of call 0.** The matrix and the vector as sixteen read shares (the remainder kept until they come
    back), the results and the shared scratch as their sixteen parts; back: the shares rejoin, the results' parts — each
    at the folded lane sums — are the array at them, the scratch's parts are the scratch at some contents. -/
theorem vecSplit : (K (F := F)).VecSplit (P m) 0 := by
  intro d c
  rw [go_tasks, td_tasks]
  show iprop(iprop((aLoc d ↦{fullShare} m (aLoc d)) ∗ (xLoc d ↦{fullShare} m (xLoc d)) ∗ (oLoc d ↦{fullShare} m (oLoc d))) ∗ ownBufs (S d ((K (F := F)).core 0 c)))
    ⊢ |={Set.univ}=> iprop((bigSep Finset.univ fun j : Fin 16 => goAt m d ((K (F := F)).core 0 c) j)
      ∗ ((bigSep Finset.univ fun j : Fin 16 => tdAt m d ((K (F := F)).core 0 c) j)
          -∗ iprop(iprop((aLoc d ↦{fullShare} m (aLoc d)) ∗ (xLoc d ↦{fullShare} m (xLoc d)) ∗ (oLoc d ↦{fullShare} scOut m d)) ∗ ownBufs (S d ((K (F := F)).core 0 c)))))
  unfold goAt tdAt
  rw [bigSep_sep', bigSep_sep', bigSep_sep', bigSep_sep', bigSep_sep', bigSep_sep', ownBufs_S, oPts_parts, oPts_parts]
  iintro ⟨⟨Ha, Hx, Ho⟩, ⟨%fsh, Hsh⟩, Hrest⟩
  ihave Ha' := (Transfers.pointsTo_toks_split fullShare 16) $$ Ha
  icases Ha' with ⟨Har, Hat⟩
  ihave Hx' := (Transfers.pointsTo_toks_split fullShare 16) $$ Hx
  icases Hx' with ⟨Hxr, Hxt⟩
  imodintro
  isplitl [Hat Hxt Ho Hsh]
  · isplitl [Hat]; · iexact Hat
    isplitl [Hxt]; · iexact Hxt
    isplitl [Ho]; · iexact Ho
    ihave Hsh' := ((Entails.of_eq (shPts_parts d ((K (F := F)).core 0 c) fsh)).trans (SparseCore.ent (bigSep_mono (Φ := fun i => (shLoc d ((K (F := F)).core 0 c) ↦[sSet i]{fullShare} fsh : sProp 𝕄))
      (Ψ := fun i => iprop(∃ f, shLoc d ((K (F := F)).core 0 c) ↦[sSet i]{fullShare} f))
      fun i _ => BI.BIClass.exists_intro (Φ := fun f => (shLoc d ((K (F := F)).core 0 c) ↦[sSet i]{fullShare} f : sProp 𝕄)) fsh))) $$ Hsh
    iexact Hsh'
  iintro ⟨Hat, Hxt, Ho, Hsh⟩
  isplitl [Har Hat Hxr Hxt Ho]
  · isplitl [Har Hat]
    · iapply (Transfers.pointsTo_toks_join fullShare 16)
      isplitl [Har] <;> iassumption
    isplitl [Hxr Hxt]
    · iapply (Transfers.pointsTo_toks_join fullShare 16)
      isplitl [Hxr] <;> iassumption
    iexact Ho
  isplitl [Hsh]; · iapply (shParts_join d); iexact Hsh
  iexact Hrest

end Cert.KernelIdeal.Pf

end
-- ==== Proof.LaunchRegion.lean ====
/-
  The TensorCore's part of the product: rows 0 … 12287, a pipeline of 24 points, point `t` multiplying block `t`
  of the matrix (512 rows) by the whole vector into block `t` of the TensorCore's result.

  This module: the pipeline library's place in the ghost state, the arrays as the region finds them (the
  SparseCore's results already in place), the proof data — what each window's staging buffer holds after the body
  at each point — and the body's run at a symbolic point.
-/
import proofs.«219795_g11467562680804_week1_w4_611_41_alg».proof.Proof.Common
import Idealize.ShloMosaic.Lib.Pipeline.Regions
import Idealize.ShloMosaic.Lib.Pipeline.Value
import Idealize.ShloMosaic.Lib.Pipeline.FrameBody
import Idealize.ShloMosaic.Lib.Tactic

noncomputable section

namespace Cert.KernelIdeal.Pf

open Cert.KernelIdeal Cert.KernelIdeal.Gen Cert.MV

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

/-! ## The pipeline library's rounds: the left half of the right factor -/

def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ _) := by unfold EP; infer_instance

/-- No prefetched table. -/
abbrev adm : (p : Fin 1) → (pcfgs (F := F) p).Adm := fun p => (cfgs p).toPCfg_adm

variable (m : (ℓ : Loc nD τ sig) → Buf (Elt F) ℓ)
variable [FloatOps F]

/-! ## The arrays as the region finds them -/

abbrev o' : DevRef τ sig := Proc.devRef .tc (main_v0 : Ref sig .tc)
/-- The launch contents; -/
def V0 (d : Dev nD) : Valuation τ sig (Elt F) := fun b => m (d, b)
/-- after the SparseCore call: its 4096 results at the folded lane sums. -/
def V1 (d : Dev nD) : Valuation τ sig (Elt F) := Function.update (V0 m d) o' (scOut m d)
abbrev Vr (d : Dev nD) (b : Ref sig .tc) : Buf (Elt F) ((d : Thread nD τ).loc b) := V1 m d (Proc.devRef .tc b)

theorem Vr_arg0 (d : Dev nD) : Vr m d main_arg0 = m (aLoc d) := Function.update_of_ne (show Proc.devRef .tc (main_arg0 : Ref sig .tc) ≠ o' by decide) _ _
theorem Vr_arg1 (d : Dev nD) : Vr m d main_arg1 = m (xLoc d) := Function.update_of_ne (show Proc.devRef .tc (main_arg1 : Ref sig .tc) ≠ o' by decide) _ _
theorem Vr_v0 (d : Dev nD) : Vr m d main_v0 = scOut m d := Function.update_self _ _ _
theorem Vr_v1 (d : Dev nD) : Vr m d main_v1 = m (tLoc d) := Function.update_of_ne (show Proc.devRef .tc (main_v1 : Ref sig .tc) ≠ o' by decide) _ _
theorem Vr_v2 (d : Dev nD) : Vr m d main_v2 = m (yLoc d) := Function.update_of_ne (show Proc.devRef .tc (main_v2 : Ref sig .tc) ≠ o' by decide) _ _

/-! ## The proof data -/

/-- Block `t` of the matrix, and the vector, as the fetches stage them. -/
abbrev blkA (c : Dev nD) (t : Fin cfg1.N) : (cfg1.win 0).block.Idx → Elt F (cfg1.win 0).elt :=
  ((cfg1.win 0).blk t).view.read (Elt F) (Vr m c (Pipeline.arrRef spec1 0))
abbrev blkX (c : Dev nD) (t : Fin cfg1.N) : (cfg1.win 1).block.Idx → Elt F (cfg1.win 1).elt :=
  ((cfg1.win 1).blk t).view.read (Elt F) (Vr m c (Pipeline.arrRef spec1 1))

/-- The recorded pairs the TensorCore may hold through the region: those at or below the first call's band. -/
def recB (c : Dev nD) : Set (SemLoc sig × HIx 1) := {p | (K (F := F)).lev ((c : Thread nD τ), p.1) p.2 ≤ 8}

/-- On core `c`: the arrays as the region finds them; after the body an input's buffer holds its block, the output's
    the block's product with the vector; no invariant but the scoped rest; nothing owed. -/
def dats (_ : Fin 1) (c : Dev nD) : Dat τ (Elt F) (HIx 1) ℕ UU ℕ cfg1 c where
  A w := Vr m c (Pipeline.arrRef spec1 w)
  after w t := match w with
    | ⟨0, _⟩ => blkA m c t
    | ⟨1, _⟩ => blkX m c t
    | ⟨2, _⟩ => k1_pay1 (blkA m c t) (blkX m c t)
    | ⟨_ + 3, h⟩ => absurd h (Nat.not_lt.2 (Nat.le_add_left _ _))
  Φ _ := Pipeline.scopedRest (Ix := HIx 1) (Name := ℕ) (U := UU) (Lvl := ℕ) (Val := Elt F) spec1 c
  q _ := fullShare
  owed _ := 0
  recorded _ := recB (F := F) c

/-! ## The body at a point -/

abbrev 𝒱₀' : Variants := Variants.none

omit [FloatOps F] in
theorem hz1 : (![0] : Fin 1 → Nat) = fun _ => 0 := by funext a; fin_cases a; rfl
omit [FloatOps F] in
theorem hz2 : (![0, 0] : Fin 2 → Nat) = fun _ => 0 := by funext a; fin_cases a <;> rfl

/-- A store over the whole of a 512-vector leaves its payload, whatever was there. -/
theorem read_store_whole (v : View sig .tc .vmem S512 .f32) (f : v.ty.Contents (Elt F)) (w : S512.Idx → Elt F .f32) :
    v.read (Elt F) (v.writes (Elt F) f [(⟨Rect.unit (s := S512) ![0] S512.size inb_S512_S512_0, w⟩ : View.Piece (Elt F) S512 .f32)]) = w := by
  have hc : ∀ y : S512.Idx, ∃ p ∈ [(⟨Rect.unit (s := S512) ![0] S512.size inb_S512_S512_0, w⟩ : View.Piece (Elt F) S512 .f32)], y ∈ p.1.set :=
    fun y => ⟨(⟨Rect.unit (s := S512) ![0] S512.size inb_S512_S512_0, w⟩ : View.Piece (Elt F) S512 .f32), List.mem_singleton_self _,
      View.mem_set_unit_zero (S := S512) hz1 inb_S512_S512_0 y⟩
  have h1 := View.read_writes_eq_canon v f [(⟨Rect.unit (s := S512) ![0] S512.size inb_S512_S512_0, w⟩ : View.Piece (Elt F) S512 .f32)] hc
  have h2 := View.canon_unit_zero (Val := Elt F) (S := S512) (e := .f32) hz1 inb_S512_S512_0 w
  exact h1.trans h2

/-- A load of the whole of a buffer reads its contents. -/
theorem readAt_whole_A (v : View sig .tc .vmem S512x4096 .f32) (f : v.ty.Contents (Elt F)) :
    v.readAt (Elt F) (Rect.unit (s := S512x4096) ![0, 0] S512x4096.size inb_S512x4096_S512x4096_0_0).toLoadRect f = v.read (Elt F) f :=
  (View.readAt_eq_ld v f _).trans (View.ld_unit_zero hz2 inb_S512x4096_S512x4096_0_0 _)
theorem readAt_whole_x (v : View sig .tc .vmem S4096 .f32) (f : v.ty.Contents (Elt F)) :
    v.readAt (Elt F) (Rect.unit (s := S4096) ![0] S4096.size inb_S4096_S4096_0).toLoadRect f = v.read (Elt F) f :=
  (View.readAt_eq_ld v f _).trans (View.ld_unit_zero hz1 inb_S4096_S4096_0 _)

/-- The body on three whole staging buffers: the matrix block and the vector are read, the product of the block
    with the vector into a zero accumulator is stored over the whole output buffer (what it held is read and dropped). -/
theorem tcBody (c : Dev nD) (i : grid1.Coords)
    (M1 : Memref sig .tc .vmem S512x4096 .f32) (h1 : M1.IsWhole) (M2 : Memref sig .tc .vmem S4096 .f32) (h2 : M2.IsWhole)
    (M3 : Memref sig .tc .vmem S512 .f32) (h3 : M3.IsWhole)
    (X1 : S512x4096.Idx → Elt F .f32) (X2 : S4096.Idx → Elt F .f32) (X3 : S512.Idx → Elt F .f32) (Q : PUnit → sProp 𝕄) :
    iprop(owns (c : Thread nD τ) M1 fullShare X1 ∗ owns (c : Thread nD τ) M2 fullShare X2 ∗ owns (c : Thread nD τ) M3 fullShare X3
      ∗ (iprop(owns (c : Thread nD τ) M1 fullShare X1 ∗ owns (c : Thread nD τ) M2 fullShare X2 ∗ owns (c : Thread nD τ) M3 fullShare (k1_pay1 X1 X2)) -∗ Q ⟨⟩))
    ⊢ wp frame (wpE (defs₀ (F := F)) Variants.none (c : Thread nD τ) none) Set.univ (cc1__tc_mv_body i M1 h1 M2 h2 M3 h3) Q := by
  unfold owns
  rw [h1.set_eq_univ, h2.set_eq_univ, h3.set_eq_univ]
  iintro ⟨⟨%f1, %e1, H1⟩, ⟨%f2, %e2, H2⟩, ⟨%f3, %e3, H3⟩, Hk⟩
  simp only [cc1__tc_mv_body_eq_skeleton]; unfold cc1__tc_mv_body_skel
  sl_exec
  sl_step
  iapply Hk
  isplitl [H1]
  · iexists f1
    isplitr
    · ipureintro; exact e1
    · iexact H1
  isplitl [H2]
  · iexists f2
    isplitr
    · ipureintro; exact e2
    · iexact H2
  iexists _
  isplitr; swap
  · iexact H3
  ipureintro
  exact (read_store_whole M3.view f3 _).trans
    (congrArg₂ k1_pay1 ((readAt_whole_A M1.view f1).trans e1) ((readAt_whole_x M2.view f2).trans e2))

/-! ## What the body finds, and the body obligation -/

theorem before0 (c : Dev nD) (t : Fin cfg1.N) (d) : (dats m 0 c).before 0 t d = blkA m c t := by
  rw [Dat.before_fetched _ 0 t (fetch1_0 t)]; rfl
theorem before1 (c : Dev nD) (t : Fin cfg1.N) (d) : (dats m 0 c).before 1 t d = blkX m c t := by
  rw [Pipeline.Dat.before_in_eq_fetched (dats m 0 c) 1 rfl (fun _ => rfl) (fun _ _ _ => rfl) (fun _ => rfl) t d]; rfl

theorem body_obligation (c : Dev nD) : BodyObligation (dats m 0 c) (defs₀ (F := F)) 𝒱₀' none Set.univ := fun t => by
  rw [bigSep_W1, bigSep_W1]
  rw [show (dats m 0 c).Φ t.castSucc = Pipeline.scopedRest (Ix := HIx 1) (Name := ℕ) (U := UU) (Lvl := ℕ) (Val := Elt F) spec1 c from rfl,
    show (dats m 0 c).Φ t.succ = Pipeline.scopedRest (Ix := HIx 1) (Name := ℕ) (U := UU) (Lvl := ℕ) (Val := Elt F) spec1 c from rfl]
  unfold Dat.owesAt Dat.bound
  rw [show (dats m 0 c).owed t.castSucc = 0 from rfl, show (dats m 0 c).owed t.succ = 0 from rfl,
    show (dats m 0 c).recorded t.castSucc = recB (F := F) c from rfl, show (dats m 0 c).recorded t.succ = recB (F := F) c from rfl]
  iintro ⟨HΦ, HO, ⟨%d0, H0⟩, ⟨%d1, H1⟩, ⟨%d2, H2⟩⟩
  rw [before0, before1]
  iapply (tcBody c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (blkA m c t) (blkX m c t) ((dats m 0 c).before 2 t d2))
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

end Cert.KernelIdeal.Pf

end
-- ==== Proof.LaunchSeg.lean ====
/-
  The TensorCore's region as one step of @main: entered from the arrays as the SparseCore call left them, it
  leaves the matrix and the vector as they were and the TensorCore's result at what the pipeline wrote back, block
  by block; the SparseCore's results and the final result's buffer bypass it.
-/
import proofs.«219795_g11467562680804_week1_w4_611_41_alg».proof.Proof.LaunchRegion
import Idealize.ShloMosaic.Lib.Pipeline.Regions
import Idealize.ShloMosaic.Lib.Pipeline.Value
import Idealize.ShloMosaic.Lib.Pipeline.FrameBody
import Idealize.ShloMosaic.Lib.Tactic

noncomputable section

namespace Cert.KernelIdeal.Pf

open Cert.KernelIdeal Cert.KernelIdeal.Gen Cert.MV

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ)
variable [FloatOps F]

/-- What rides beside the buffers through the region: the TensorCore owing nothing, its recorded pairs at or below
    the first call's band. -/
abbrev Rw (c : Dev nD) : sProp 𝕄 :=
  iprop(∃ W : Waits sig (HIx 1), ⌜(↑W : Set (SemLoc sig × HIx 1)) ⊆ recB (F := F) c⌝ ∗ owes (c : Thread nD τ) (0 : CellTallies nD τ sig (HIx 1)) W)

/-- The two arrays that bypass the region. -/
abbrev Zr (c : Dev nD) : sProp 𝕄 :=
  iprop((((c : Thread nD τ).loc main_v0) ↦{fullShare} Vr m c main_v0) ∗ (((c : Thread nD τ).loc main_v2) ↦{fullShare} Vr m c main_v2))

/-- The region's arrays after it. -/
abbrev Tr (c : Dev nD) : sProp 𝕄 := (dats m 0 c).arrays ((dats m 0 c).arrAt · cfg1.N)

omit [FloatOps F] in
theorem waitPairs_sub (c : Dev nD) : cfg1.waitPairs (none : HIx 1) ⊆ recB (F := F) c := by
  rintro p ⟨w, s, rfl⟩
  show (K (F := F)).lev _ none ≤ 8
  exact Nat.zero_le _

set_option backward.isDefEq.respectTransparency.types false in
/-- The region: the generated layout, no semaphore of the kernel's own, the body obligation; nothing enters the
    pipeline's invariant. -/
def reg1 : Pipeline.RegionSeg (pcfgs (F := F)) adm (dats m) (none : HIx 1) defs₀ 𝒱₀' (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation m c).loose
  hwaits := Pipeline.hwaits_of_owed_zero _ _ _ _ (K (F := F)).L (K (F := F)).lev 0 fun _ _ => rfl
  pre c := iprop(unscopedBufs c (Vr m c) ∗ Rw (F := F) c)
  post c := iprop(Tr m c ∗ Zr m c ∗ Rw (F := F) c)
  X _ := iprop(emp)
  Y _ := iprop(emp)
  Z c := Zr m c
  hentry c := by
    have hsplit := (Pipeline.arrays_of_unscopedBufs (pcfgs (F := F)) adm (dats m) launch1.win launch1.arr_whole c
      ((dats m 0 c).share_full fun _ => rfl) (Vr m c) fun _ => rfl).trans (sep_mono .rfl (Entails.of_eq (unscopedRest1_eq c (Vr m c))))
    iintro ⟨⟨Hub, HO⟩, -, -⟩
    ihave H := hsplit $$ Hub
    icases H with ⟨Ha, H0, H2⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W
      isplitr
      · ipureintro; exact hW.trans Set.subset_union_left
      · iexact HO
    isplitr; · iempintro
    isplitl [H0]; · iexact H0
    iexact H2
  hin c := by
    rw [show (dats m 0 c).Φ 0 = Pipeline.scopedRest (Ix := HIx 1) (Name := ℕ) (U := UU) (Lvl := ℕ) (Val := Elt F) spec1 c from rfl]
    iintro ⟨-, -, Hr⟩; iexact Hr
  hout c := by
    rw [show (dats m 0 c).Φ (Fin.last cfg1.N) = Pipeline.scopedRest (Ix := HIx 1) (Name := ℕ) (U := UU) (Lvl := ℕ) (Val := Elt F) spec1 c from rfl]
    iintro Hr
    isplitr; · iempintro
    isplitr
    · unfold Pipeline.ownSems0; rw [show (Finset.univ : Finset PEmpty) = ∅ from rfl, BI.bigSep_empty]; iempintro
    iexact Hr
  hexit c := by
    iintro ⟨Ha, HO, -, HZ⟩
    imodintro
    isplitl [Ha]; · iexact Ha
    isplitl [HZ]; · iexact HZ
    unfold Pipeline.Dat.owesAt Pipeline.owesWithin
    icases HO with ⟨%W, %hW, HO⟩; iexists W
    isplitr
    · ipureintro; exact hW.trans (Set.union_subset (show (dats m 0 c).recorded (Fin.last cfg1.N) ⊆ recB (F := F) c from subset_rfl) (waitPairs_sub c))
    · iexact HO

end Cert.KernelIdeal.Pf

end
-- ==== Proof.LaunchValue.lean ====
/-
  From blocks to the array: the TensorCore's 12288 results after the region.

  Point `t` of the pipeline writes back, as block `t` of the result array, the product of block `t` of the matrix
  (rows `512 t … 512 t + 511`) with the whole vector into a zero accumulator. Entry `i` of the array lies in block
  `i / 512` at position `i mod 512`, and the 24 blocks cover the array: so the array ends holding, entry by entry, the
  block products of the specification.
-/
import proofs.«219795_g11467562680804_week1_w4_611_41_alg».proof.Proof.LaunchRegion
import Idealize.ShloMosaic.Lib.Pipeline.Regions
import Idealize.ShloMosaic.Lib.Pipeline.Value
import Idealize.ShloMosaic.Lib.Pipeline.FrameBody
import Idealize.ShloMosaic.Lib.Tactic

noncomputable section

namespace Cert.KernelIdeal.Pf

open Cert.KernelIdeal Cert.KernelIdeal.Gen Cert.MV
open Idealize.ShloMosaic.ValueIdx

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ)
variable [FloatOps F]

/-- The body's payload at an entry, over plain functions: if the first operand is block `t` of the matrix and the
    second the vector, entry `j` of the payload is entry `512 t + j` of the specification's block products. -/
theorem pay_at (A : FVec F SA .f32) (x : FVec F SX .f32) (t : Nat)
    (X1 : Vec F S512x4096 .f32) (X2 : Vec F S4096 .f32)
    (h1 : ∀ j : S512x4096.Idx, X1 j = aAt A (512 * t + (j 0).val) (j 1).val) (h2 : X2 = x)
    (j : S512.Idx) (i : S12288.Idx) (hi : (i 0).val = 512 * t + (j 0).val) :
    k1_pay1 X1 X2 j = tcVal dot_S512x4096_S4096_S512_1_0_0_n_n_n A x i := by
  have hj : (j 0).val < 512 := (j 0).isLt
  have hq : (i 0).val / 512 = t := by rw [hi]; omega
  have hr : (i 0).val % 512 = (j 0).val := by rw [hi]; omega
  have hX : X1 = tcBlock A t := funext fun j' => h1 j'
  have hidx : (ix1 (⟨(i 0).val % 512, Nat.mod_lt _ (by norm_num)⟩ : Fin 512)) = j := by
    rw [eq_ix1 j]; exact congrArg ix1 (Fin.ext hr)
  unfold tcVal
  rw [hidx, hq, ← hX, ← h2]
  rfl

/-- The printed index maps over the grid: the matrix window's block row and the result window's block are the
    point; the matrix window's block column and the vector's block are 0. -/
theorem idx_facts : ∀ t : Fin cfg1.N, win1_0.index t (0 : Fin 2) = t.val ∧ win1_0.index t (1 : Fin 2) = 0
    ∧ win1_1.index t (0 : Fin 1) = 0 ∧ win1_2.index t (0 : Fin 1) = t.val :=
  (by decide +kernel : ∀ t : Fin grid1.N, _)

/-- What point `t` writes back is block `t` of the specification's block products. -/
theorem flushed_eq (c : Dev nD) (t : Fin cfg1.N) :
    (dats m 0 c).flushed 2 t = ((cfg1.win 2).blk t).view.read (Elt F) (tcOut m c) := by
  obtain ⟨e0, e1, e2, e3⟩ := idx_facts t
  funext j
  show k1_pay1 (blkA m c t) (blkX m c t) j = tcVal dot_S512x4096_S4096_S512_1_0_0_n_n_n (m (aLoc c)) (m (xLoc c)) (((cfg1.win 2).blk t).view.emb j)
  refine pay_at (m (aLoc c)) (m (xLoc c)) t.val (blkA m c t) (blkX m c t) ?_ ?_ j _ ?_
  · intro j'
    have hj0 : (j' 0).val < 512 := (j' 0).isLt
    have hj1 : (j' 1).val < 4096 := (j' 1).isLt
    have ht : t.val < 24 := t.isLt
    show Vr m c main_arg0 (((cfg1.win 0).blk t).view.emb j') = _
    rw [Vr_arg0]
    unfold aAt
    rw [dif_pos ⟨by omega, by omega⟩]
    congr 1
    funext a; apply Fin.ext
    match a with
    | ⟨0, _⟩ => show win1_0.index t (0 : Fin 2) * 512 + 1 * (j' 0).val = 512 * t.val + (j' 0).val; omega
    | ⟨1, _⟩ => show win1_0.index t (1 : Fin 2) * 4096 + 1 * (j' 1).val = (j' 1).val; omega
  · funext k
    show Vr m c main_arg1 (((cfg1.win 1).blk t).view.emb k) = m (xLoc c) k
    rw [Vr_arg1]
    congr 1
    funext a; apply Fin.ext
    match a with
    | ⟨0, _⟩ => show win1_1.index t (0 : Fin 1) * 4096 + 1 * (k 0).val = (k 0).val; omega
  · show win1_2.index t (0 : Fin 1) * 512 + 1 * (j 0).val = 512 * t.val + (j 0).val
    omega

/-- An entry is in point `t`'s block iff it is in the block's range. -/
theorem mem_blk (t : Fin cfg1.N) (i : S12288.Idx) :
    i ∈ ((cfg1.win 2).blk t).view.set ↔ ∀ a : Fin 1, win1_2.index t a * S512.size a ≤ (i a).val ∧ (i a).val < win1_2.index t a * S512.size a + S512.size a := by
  show i ∈ ((View.whole main_v1).slice (win1_2.rect t)).set ↔ _
  rw [View.set_slice_whole, Rect.mem_set_unit]
  exact Iff.rfl

/-- Every entry is in the block of the point its position divided by 512 names. -/
theorem tc_cover (i : S12288.Idx) : ∃ t : Fin cfg1.N, (cfg1.win 2).flush t = true ∧ i ∈ ((cfg1.win 2).blk t).view.set := by
  have hi : (i 0).val < 12288 := (i 0).isLt
  have hlt : (i 0).val / 512 < cfg1.N := by show _ < grid1.N; rw [N_1]; omega
  refine ⟨⟨(i 0).val / 512, hlt⟩, flush1_2 _, ?_⟩
  rw [mem_blk]
  intro a
  obtain ⟨-, -, -, e3⟩ := idx_facts ⟨(i 0).val / 512, hlt⟩
  match a with
  | ⟨0, _⟩ =>
    show win1_2.index ⟨(i 0).val / 512, hlt⟩ (0 : Fin 1) * 512 ≤ (i 0).val ∧ (i 0).val < win1_2.index ⟨(i 0).val / 512, hlt⟩ (0 : Fin 1) * 512 + 512
    rw [e3]
    show (i 0).val / 512 * 512 ≤ (i 0).val ∧ (i 0).val < (i 0).val / 512 * 512 + 512
    omega

/-- The TensorCore's result array after the region: the specification's block products. -/
theorem tc_final (c : Dev nD) : (dats m 0 c).arrAt 2 cfg1.N = tcOut m c :=
  (dats m 0 c).arrAt_eq_of_cover 2 (tcOut m c) (fun t _ => flushed_eq m c t) tc_cover

/-- The matrix and the vector are inputs of the region: after it they hold what they held. -/
theorem a_final (c : Dev nD) : (dats m 0 c).arrAt 0 cfg1.N = m (aLoc c) :=
  ((dats m 0 c).arrAt_in 0 rfl _).trans (Vr_arg0 m c)
theorem x_final (c : Dev nD) : (dats m 0 c).arrAt 1 cfg1.N = m (xLoc c) :=
  ((dats m 0 c).arrAt_in 1 rfl _).trans (Vr_arg1 m c)

end Cert.KernelIdeal.Pf

end
-- ==== Proof.LaunchMain.lean ====
/-
  The launch: @main on the TensorCore — the SparseCore call, the TensorCore's own region, the concatenation of
  the two parts — and the program's run.

  The launch element is the handshakes' rounds and the pipeline's staging rounds (the transfers' counters are
  dropped). @main hands SparseCore 0 the matrix, the vector and its result array and gets them back with the
  results at the folded lane sums; enters the region with the pipeline's ghost state the launch funded and leaves it
  with the TensorCore's results at the block products; concatenates. The final state is read off the three
  arrays @main ends holding.
-/
import proofs.«219795_g11467562680804_week1_w4_611_41_alg».proof.Proof.LaunchSplit
import proofs.«219795_g11467562680804_week1_w4_611_41_alg».proof.Proof.LaunchSeg
import proofs.«219795_g11467562680804_week1_w4_611_41_alg».proof.Proof.LaunchValue
import Idealize.ShloMosaic.Lib.Pipeline.Regions
import Idealize.ShloMosaic.Lib.Tactic

noncomputable section

namespace Cert.KernelIdeal.Pf

open Cert.KernelIdeal Cert.KernelIdeal.Gen Cert.MV

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element -/

/-- What the launch funds the TensorCore's region with: its staging cells' ghost state and its transfers' tokens. -/
abbrev Gd (d : Dev nD) : sProp 𝕄 :=
  iprop(Pipeline.cellsGhost (nD := nD) (τ := τ) (Pipeline.pin (pcfgs (F := F)) adm) (EP (F := F)) 0 d ∗ Pipeline.toksInit (nD := nD) (τ := τ) (Pipeline.pin (pcfgs (F := F)) adm) (EP (F := F)) 0 d)

omit [FloatOps F] in
/-- The pipeline's staging cells are pairwise distinct (the generated fact, at the pinned configuration). -/
theorem pin_inj : Function.Injective (Pipeline.cellOf (nD := nD) (τ := τ) (Pipeline.pin (pcfgs (F := F)) adm)) := cellOf_inj

def u₀ : UU :=
  (initOf (K (F := F)).hsCells (K (F := F)).hsToks,
    (initOf (Pipeline.cells (nD := nD) (τ := τ) (Pipeline.pin (pcfgs (F := F)) adm) pin_inj) (Pipeline.launchToks (nD := nD) (τ := τ) (Pipeline.pin (pcfgs (F := F)) adm) pin_inj), 1))

omit [FloatOps F] in
theorem bigSep_emp' {I : Type} (s : Finset I) : (bigSep s fun _ => iprop(emp)) = (iprop(emp) : sProp 𝕄) := bigSep_emp_const s

omit [FloatOps F] in
/-- The launch element's three factors: the handshakes', the pipeline's, the counters' (dropped). -/
theorem ownU_split3 (a : UH) (b : UP) : (ownU ((a, (b, 1)) : UU) : sProp 𝕄) ⊢ iprop(BI.own (EH a) ∗ BI.own (EP (F := F) b)) := by
  iintro Hu
  ihave H := (ownU_pair _ _) $$ Hu
  icases H with ⟨HH, HR⟩
  ihave H2 := (show (BI.own ((embR : Emb (UP × Counters) (MT nD τ sig (HIx 1) (Elt F) ℕ UU ℕ)) (b, (1 : Counters))) : sProp 𝕄)
      ⊢ iprop(BI.own (EP (F := F) b) ∗ BI.own (((Emb.inr : Emb Counters (UP × Counters)).trans embR) (1 : Counters))) from own_pair_emb (embR : Emb (UP × Counters) (MT nD τ sig (HIx 1) (Elt F) ℕ UU ℕ)) b (1 : Counters)) $$ HR
  icases H2 with ⟨HP, -⟩
  isplitl [HH]; · iexact HH
  iexact HP

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_split3 (F := F) _ _) $$ Hu
  icases H with ⟨HH, HP⟩
  imod (Pipeline.fund_ghost (nD := nD) (τ := τ) (Pipeline.pin (pcfgs (F := F)) adm) (EP (F := F)) pin_inj) $$ HP with ⟨Hg, Ht⟩
  imodintro
  isplitl [HH]; · iexact HH
  isplitl [Hg Ht]
  · rw [bigSep_sep',
      show (bigSep Finset.univ fun d : Dev nD => Pipeline.cellsGhost (nD := nD) (τ := τ) (Pipeline.pin (pcfgs (F := F)) adm) (EP (F := F)) 0 d)
        = bigSep Finset.univ fun d : Dev nD => bigSep Finset.univ fun p : Fin 1 => Pipeline.cellsGhost (nD := nD) (τ := τ) (Pipeline.pin (pcfgs (F := F)) adm) (EP (F := F)) p d
        from bigSep_congr fun d _ => (bigSep_univ_of_subsingleton (Φ := fun p : Fin 1 => Pipeline.cellsGhost (nD := nD) (τ := τ) (Pipeline.pin (pcfgs (F := F)) adm) (EP (F := F)) p d) (0 : Fin 1)).symm,
      show (bigSep Finset.univ fun d : Dev nD => Pipeline.toksInit (nD := nD) (τ := τ) (Pipeline.pin (pcfgs (F := F)) adm) (EP (F := F)) 0 d)
        = bigSep Finset.univ fun d : Dev nD => bigSep Finset.univ fun p : Fin 1 => Pipeline.toksInit (nD := nD) (τ := τ) (Pipeline.pin (pcfgs (F := F)) adm) (EP (F := F)) p d
        from bigSep_congr fun d _ => (bigSep_univ_of_subsingleton (Φ := fun p : Fin 1 => Pipeline.toksInit (nD := nD) (τ := τ) (Pipeline.pin (pcfgs (F := F)) adm) (EP (F := F)) p d) (0 : Fin 1)).symm]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (oLoc d ↦{fullShare} W main_v0)
      ∗ (tLoc d ↦{fullShare} W main_v1) ∗ (yLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c)
    = iprop((aLoc d ↦{fullShare} m (aLoc d)) ∗ (xLoc d ↦{fullShare} m (xLoc d)) ∗ (oLoc d ↦{fullShare} m (oLoc d))) :=
  bigSep_univ_of_subsingleton (0 : Fin 1)
theorem dn0_eq (d : Dev nD) : (bigSep Finset.univ fun c : Fin ((K (F := F)).nCore 0) => (P m).dn 0 d c)
    = iprop((aLoc d ↦{fullShare} m (aLoc d)) ∗ (xLoc d ↦{fullShare} m (xLoc d)) ∗ (oLoc d ↦{fullShare} scOut m d)) :=
  bigSep_univ_of_subsingleton (0 : Fin 1)

/-- The TensorCore's handshake state after the one call: what it owes (nothing) can be taken out and put back. -/
theorem tcSt_owes (d : Dev nD) :
    (K (F := F)).tcSt EH d 1 ⊢ iprop(Rw (F := F) d ∗ (Rw (F := F) d -∗ (K (F := F)).tcSt EH d 1)) := by
  unfold SparseCore.Cfg.tcSt
  rw [(K (F := F)).Otc_end d le_rfl]
  iintro ⟨⟨%W, %hW, HO⟩, Hrest⟩
  isplitl [HO]
  · iexists W
    isplitr
    · ipureintro; exact fun p hp => hW p hp
    · iexact HO
  iintro ⟨%W', %hW', HO⟩
  isplitl [HO]
  · iexists W'
    isplitr
    · ipureintro; exact fun p hp => hW' hp
    · iexact HO
  iexact Hrest

/-- The region's arrays after it, one by one. -/
theorem Tr_eq (d : Dev nD) : Tr m d = iprop((aLoc d ↦{fullShare} m (aLoc d)) ∗ (xLoc d ↦{fullShare} m (xLoc d)) ∗ (tLoc d ↦{fullShare} tcOut m d)) := by
  unfold Tr Dat.arrays
  rw [bigSep_W1]
  beta_reduce
  rw [(dats m 0 d).share_full (fun _ => rfl) 0, (dats m 0 d).share_full (fun _ => rfl) 1, (dats m 0 d).share_full (fun _ => rfl) 2,
    a_final, x_final, tc_final]
  simp only [Memref.view_whole, View.set_whole]

omit [FloatOps F] in
/-- The region's call, lifted to the extended body table, is @main's line. -/
theorem lift_cc : (SparseCore.liftProg (Q := 1) (Prog.lift (.customCall (Pipeline.entry 0) ()) : Prog (TpuEff nD τ sig (Elt F) (ΛP (F := F)) .tc) PUnit)
      : Prog (TpuEff nD τ sig (Elt F) (SparseCore.Sig (ΛP (F := F)) 1) .tc) PUnit)
    = Prog.lift (.customCall (SparseCore.inner (Pipeline.entry 0)) ()) := rfl

/-- The lifted call from the pipeline's own. -/
theorem wp_lift_cc (d : Dev nD) (Q : PUnit.{1} → sProp 𝕄) :
    wp frame (wpE (D (F := F)) 𝒱 (T d) none) Set.univ (Prog.lift (.customCall (Pipeline.entry 0) ()) : Prog (TpuEff nD τ sig (Elt F) (ΛP (F := F)) .tc) PUnit) Q
      ⊢ wp frame (wpE ((K (F := F)).defs (D (F := F))) 𝒱 (T d) none) Set.univ
          (Prog.lift (.customCall (SparseCore.inner (Pipeline.entry 0)) ())) Q := by
  rw [← lift_cc (F := F)]
  exact (K (F := F)).wp_liftProg (D (F := F)) 𝒱 (T d) Set.univ none _ Q

set_option backward.isDefEq.respectTransparency.types false in
/-- The TensorCore's region inside the SparseCore program's @main: entered through the lift of the pipeline's
    program to the extended body table, run as the region step. -/
theorem wp_region (d : Dev nD) (Q : PUnit.{1} → sProp 𝕄) :
    iprop((iprop(boundary (d.tc : Thread nD τ) ∗ (reg1 m).post d) -∗ |={Set.univ}=> Q ⟨⟩)
        ∗ boundary (d.tc : Thread nD τ) ∗ (reg1 m).pre d ∗ levAts (K (F := F)).L (K (F := F)).lev ∗ Gd (F := F) d)
      ⊢ wp frame (wpE ((K (F := F)).defs (D (F := F))) 𝒱 (T d) none) Set.univ
          (Prog.lift (.customCall (SparseCore.inner (Pipeline.entry 0)) ())) Q := by
  have h := Pipeline.RegionSeg.wp (pcfgs (F := F)) adm (dats m) (none : HIx 1) cellOf_inj (EP (F := F)) defs₀ 𝒱₀'
    (K (F := F)).L (K (F := F)).lev (reg1 m) d none (fun u h => nomatch h) (fun _ => Prog.ret PUnit.unit) Q
  have e : iprop((iprop(boundary (d.tc : Thread nD τ) ∗ (reg1 m).post d) -∗ |={Set.univ}=> Q ⟨⟩)
        ∗ boundary (d.tc : Thread nD τ) ∗ (reg1 m).pre d ∗ levAts (K (F := F)).L (K (F := F)).lev ∗ Gd (F := F) d)
      ⊢ iprop((iprop(boundary (d.tc : Thread nD τ) ∗ (reg1 m).post d) -∗
        wp frame (wpE (Pipeline.defs (pcfgs (F := F)) defs₀) (Variants.lift 𝒱₀') (d.tc : Thread nD τ) none) Set.univ (Prog.ret PUnit.unit) Q)
      ∗ boundary (d.tc : Thread nD τ) ∗ (reg1 m).pre d ∗ levAts (K (F := F)).L (K (F := F)).lev
      ∗ Pipeline.cellsGhost (nD := nD) (τ := τ) (Pipeline.pin (pcfgs (F := F)) adm) (EP (F := F)) 0 d
      ∗ Pipeline.toksInit (nD := nD) (τ := τ) (Pipeline.pin (pcfgs (F := F)) adm) (EP (F := F)) 0 d) := by
    iintro ⟨Hk, Hb, Hpre, Hl, Hg, Ht⟩
    isplitl [Hk]
    · iintro Hp
      rw [wp_ret]
      iapply Hk; iexact Hp
    isplitl [Hb]; · iexact Hb
    isplitl [Hpre]; · iexact Hpre
    isplitl [Hl]; · iexact Hl
    isplitl [Hg]; · iexact Hg
    iexact Ht
  exact BI.Entails.trans e (BI.Entails.trans h (wp_lift_cc d Q))

/-! ### The concatenation -/

abbrev t' : DevRef τ sig := Proc.devRef .tc (main_v1 : Ref sig .tc)
abbrev y' : DevRef τ sig := Proc.devRef .tc (main_v2 : Ref sig .tc)

/-- The two parts joined: the TensorCore's 12288 results, then the SparseCore's 4096. -/
abbrev opCat : HloOp τ sig (Elt F) :=
  StableHlo.binary main_v1 main_v0 main_v2 ((fun a b => concatenate S16384 0 [⟨S12288, a⟩, ⟨S4096, b⟩] concatenates_S12288_S4096_S16384_d0) : (⟨S12288, .f32⟩ : BufTy).Contents (Elt F) → (⟨S4096, .f32⟩ : BufTy).Contents (Elt F) → (⟨S16384, .f32⟩ : BufTy).Contents (Elt F))

/-- The three arrays the concatenation names. -/
abbrev S3 : Finset (DevRef τ sig) := {t', o', y'}

omit [FloatOps F] in
theorem held_S3 (d : Dev nD) (W : Valuation τ sig (Elt F)) :
    (held (T d) S3 W : sProp 𝕄) = iprop((tLoc d ↦{fullShare} W t') ∗ (oLoc d ↦{fullShare} W o') ∗ (yLoc d ↦{fullShare} W y')) := by
  unfold held S3
  rw [SparseCore.bigSep_insert' (by decide), SparseCore.bigSep_insert' (by decide), bigSep_singleton]

theorem hCat : (opCat (F := F)).bufs ⊆ S3 := show ({t', o', y'} : Finset (DevRef τ sig)) ⊆ S3 by decide

/-- Before the concatenation: the TensorCore's results at the block products, the SparseCore's at the folded lane sums. -/
def Vc (d : Dev nD) : Valuation τ sig (Elt F) := Function.update (V1 m d) t' (tcOut m d)

theorem Vc_t (d : Dev nD) : Vc m d t' = tcOut m d := Function.update_self _ _ _
theorem Vc_o (d : Dev nD) : Vc m d o' = scOut m d :=
  (Function.update_of_ne (show o' ≠ t' by decide) _ _).trans (Function.update_self _ _ _)
theorem Vc_y (d : Dev nD) : Vc m d y' = m (yLoc d) :=
  (Function.update_of_ne (show y' ≠ t' by decide) _ _).trans (Function.update_of_ne (show y' ≠ o' by decide) _ _)

/-- The concatenation's result is the specification's. -/
theorem cat_result (d : Dev nD) : (opCat (F := F)).result (Vc m d) y' = yOut m d := by
  rw [StableHlo.binary_result', Vc_t, Vc_o]
  rfl

/-- What @main ends holding for the claim: the result, the matrix, the vector. -/
abbrev FIN (d : Dev nD) : sProp 𝕄 :=
  iprop((yLoc d ↦{fullShare} yOut m d) ∗ (aLoc d ↦{fullShare} m (aLoc d)) ∗ (xLoc d ↦{fullShare} m (xLoc d)))

set_option backward.isDefEq.respectTransparency.types false in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hx, Ho, Ht, Hy⟩, -, -⟩, HG⟩
  -- the SparseCore call
  iapply ((K (F := F)).wp_run (D (F := F)) 𝒱 (EH := EH) (P := P m) κ d 0) $$ [Hst Ha Hx Ho Hb Ht Hy HG]
  isplitr; · iexact Hctx
  isplitl [Hst]; · iexact Hst
  isplitl [Ha Hx Ho]
  · rw [st0_eq]
    isplitl [Ha]; · iexact Ha
    isplitl [Hx]; · iexact Hx
    iexact Ho
  iintro ⟨Hst, Hdn⟩
  ihave Hdn' := (Entails.of_eq (dn0_eq m d)) $$ Hdn
  icases Hdn' with ⟨Ha, Hx, Ho⟩
  ihave Hst' := (show (K (F := F)).tcSt EH d ((0 : Fin 1).val + 1) ⊢ iprop(Rw (F := F) d ∗ (Rw (F := F) d -∗ (K (F := F)).tcSt EH d 1)) from tcSt_owes (F := F) d) $$ Hst
  icases Hst' with ⟨HO, Hback⟩
  ihave Hlev := (SparseCore.Cfg.ctx_levAts κ) $$ Hctx
  -- the TensorCore's region
  iapply (wp_region m d _) $$ [Hb Ha Hx Ho Ht Hy HO Hlev HG Hback]
  isplitr [Hb Ha Hx Ho Ht Hy HO Hlev HG]
  swap
  · isplitl [Hb]; · iexact Hb
    isplitl [Ha Hx Ho Ht Hy HO]
    · iapply (show iprop(unscopedBufs d (Vr m d) ∗ Rw (F := F) d) ⊢ (reg1 m).pre d from BI.Entails.refl _)
      rw [unscopedBufs_eq, Vr_arg0, Vr_arg1, Vr_v0, Vr_v1, Vr_v2]
      isplitr [HO]
      · isplitl [Ha]; · iexact Ha
        isplitl [Hx]; · iexact Hx
        isplitl [Ho]; · iexact Ho
        isplitl [Ht]; · iexact Ht
        iexact Hy
      · iexact HO
    isplitl [Hlev]; · iexact Hlev
    iexact HG
  iintro ⟨Hb, Hpost⟩
  ihave Hp := (show (reg1 m).post d ⊢ iprop(Tr m d ∗ Zr m d ∗ Rw (F := F) d) from BI.Entails.refl _) $$ Hpost
  icases Hp with ⟨Htr, ⟨Ho, Hy⟩, HO⟩
  ihave Htr' := (Entails.of_eq (Tr_eq m d)) $$ Htr
  icases Htr' with ⟨Ha, Hx, Ht⟩
  imodintro
  -- the concatenation
  iapply (wp_hlo_within 𝒱 (SparseCore.T d) none Set.univ (op := opCat) (S := S3) hCat (V := Vc m d)) $$ [Hb Ht Ho Hy]
  · isplitl [Hb]; · iexact Hb
    rw [held_S3, Vc_t, Vc_o, Vc_y, ← Vr_v0 m d, ← Vr_v2 m d]
    isplitl [Ht]; · iexact Ht
    isplitl [Ho]; · iexact Ho
    iexact Hy
  iintro ⟨Hb, Hheld⟩
  ihave Hh := (Entails.of_eq (held_S3 (F := F) d _)) $$ Hheld
  icases Hh with ⟨-, -, Hy⟩
  rw [wp_ret, cat_result]
  imodintro; imodintro
  isplitl [HO Hback]
  · iapply Hback; iexact HO
  isplitl [Hy]; · iexact Hy
  isplitl [Ha]; · iexact Ha
  iexact Hx

/-! ## The final state, and the run -/

def fq (d : Dev nD) (s' : Phys nD τ sig (Elt F)) : Prop :=
  s'.mem.mem (yLoc d) = yOut m d ∧ s'.mem.mem (aLoc d) = m (aLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hy, Ha, Hx⟩, HSI⟩
  ihave H := (persistent_entails_right (SI_pointsTo_agree (st := s') (ℓ := yLoc d) (I := Finset.univ) (q := fullShare) (f := yOut m d))) $$ [HSI Hy]
  · isplitl [HSI] <;> iassumption
  icases H with ⟨%h0, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro
  exact ⟨funext fun i => h0 i (Finset.mem_univ i), funext fun i => h1 i (Finset.mem_univ i), funext fun i => h2 i (Finset.mem_univ i)⟩

/-- The claim's reading of the final memory: the result at the specification's, the arguments unchanged. -/
def QC : PUnit × MemSt nD τ sig (Elt F) → Prop := fun r =>
  ∀ c : Dev nD, r.2.mem (yLoc c) = yOut m c ∧ r.2.mem (aLoc c) = m (aLoc c) ∧ r.2.mem (xLoc c) = m (xLoc c)

/-- **The program's run.** From any memory with every semaphore at zero, given the vector subcores' task proved:
    every weakly fair execution terminates, nothing faulting, the result array at the specification's value of the
    arguments and the arguments unchanged. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun d => Gd (F := F) d) (FIN m) (u₀ (F := F)) (sep_elim_left.trans (hu₀ m)) (hmain m ρ) (fq m) (hfin m) (QC m) (fun _ h => h)

end Cert.KernelIdeal.Pf

end
-- ==== Proof.Word.Common.lean ====
/-
  The vocabulary of the kernel program's run: the program as a launch of SparseCore 0's sixteen vector subcores
  beside the TensorCore's @main, the ghost state (the launch handshakes' rounds, the TensorCore pipeline's staging
  rounds, the local transfers' counters), the arrays as locations, and what the launch hands each vector subcore and
  takes back.

  Vector subcore `w` reads the whole matrix and the whole vector (a read share of each), owns entries
  `256 w … 256 w + 255` of the SparseCore's result and row `w` of the SparseCore's shared scratch, and hands them
  back with its 256 result entries at the folded lane sums of its rows (Spec's `scVal`).
-/
import proofs.«219795_g11467562680804_week1_w4_611_41_alg».proof.Proof.Gen.Kernel
import proofs.«219795_g11467562680804_week1_w4_611_41_alg».proof.Proof.Gen.Kernel.Skeleton
import proofs.«219795_g11467562680804_week1_w4_611_41_alg».proof.Proof.Gen.Kernel.Launch
import proofs.«219795_g11467562680804_week1_w4_611_41_alg».proof.Proof.Gen.Kernel.Points
import proofs.«219795_g11467562680804_week1_w4_611_41_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Pf

open Cert.Kernel Cert.Kernel.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's staging rounds, the transfers' counters -/

abbrev UH : Type := URounds (GSem nD τ sig) ℕ
abbrev UP : Type := URounds (GSem nD τ sig) Unit
abbrev UU : Type := UH × (UP × Counters)

/-- The handshakes' rounds: the left factor. The counters are found by instance in the right. -/
abbrev EH : Emb UH (MT nD τ sig (HIx 1) (Elt F) ℕ UU ℕ) := embL

/-! ## The arrays -/

variable (m : (ℓ : Loc nD τ sig) → Buf (Elt F) ℓ) (ρ : Dev nD → PrngReg)

/-- The matrix, the vector (the arguments), the SparseCore's 4096 results, the TensorCore's 12288, the result. -/
abbrev aLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0
abbrev tLoc (d : Dev nD) : Loc nD τ sig := (SparseCore.T d).loc main_v1
abbrev yLoc (d : Dev nD) : Loc nD τ sig := (SparseCore.T d).loc main_v2

/-- A vector subcore's coordinates in the kernel's grid. -/
def coordsV (c : Fin (grid0.bound 0)) (s : Fin (grid0.bound 1)) : grid0.Coords :=
  fun | 0 => c | 1 => s | ⟨_ + 2, h⟩ => absurd h (Nat.not_lt.2 (Nat.le_add_left _ _))
abbrev cV (L : grid0.Coords) : Fin τ.nSC := (L 0).castLE hcore0
abbrev jV (L : grid0.Coords) : Fin τ.nSub := (L 1).castLE hsub0

/-- The whole arrays as a vector subcore's kernel names them. -/
abbrev aV : Memref sig .scVector .hbm S16384x4096 .f32 := Memref.whole main_arg0_scv
abbrev xV : Memref sig .scVector .hbm S4096 .f32 := Memref.whole main_arg1_scv
abbrev oV : Memref sig .scVector .hbm S4096 .f32 := Memref.whole main_v0_scv
abbrev shV : Memref sig .scVector .shared S16x256 .f32 := Memref.whole cc0_scratch5

/-- The 256 result entries vector subcore `L` writes, and its row of the shared scratch, as the kernel slices them. -/
abbrev oSl (L : grid0.Coords) : Memref sig .scVector .hbm S256 .f32 :=
  (oV).slice (Rect.unit (s := S4096) (k0_off35 L) S256.size (k0_off35_inb L)) (fun _ => rfl)
abbrev shSl (L : grid0.Coords) : Memref sig .scVector .shared S256 .f32 :=
  ((shV).slice (Rect.unit (s := S16x256) (k0_off34 L) S1x256.size (k0_off34_inb L)) (fun _ => rfl)).squeeze S256 squeezes_S1x256_S256

variable [FloatOps F]

/-- The SparseCore's 4096 results as they should end: the folded lane sums of rows 12288 … 16383. -/
def scOut (d : Dev nD) : Buf (Elt F) (oLoc d) := scVal (F := F) (m (aLoc d)) (m (xLoc d))
/-- The TensorCore's 12288 results: the block products. -/
def tcOut (d : Dev nD) : Buf (Elt F) (tLoc d) := tcVal (F := F) dot_S512x4096_S4096_S512_1_0_0_n_n_n (m (aLoc d)) (m (xLoc d))
/-- The result: the two parts concatenated. -/
def yOut (d : Dev nD) : Buf (Elt F) (yLoc d) :=
  kernelVal (F := F) dot_S512x4096_S4096_S512_1_0_0_n_n_n (m (aLoc d)) (m (xLoc d)) concatenates_S12288_S4096_S16384_d0

local notation "𝕄" => MT nD τ sig (HIx 1) (Elt F) ℕ UU ℕ

/-- What vector subcore `L` of device `d` is handed: a read share of the matrix and of the vector, its 256 result
    entries at their launch contents, its row of the shared scratch at some contents. -/
def tileGo (d : Dev nD) (L : grid0.Coords) : sProp 𝕄 :=
  iprop((aLoc d ↦{Transfers.shareTok fullShare 16 (jV L)} m (aLoc d)) ∗ (xLoc d ↦{Transfers.shareTok fullShare 16 (jV L)} m (xLoc d))
    ∗ ((oSl L).view.loc (V d (cV L) (jV L)) ↦[(oSl L).view.set]{fullShare} m (oLoc d))
    ∗ ∃ f, (shSl L).view.loc (V d (cV L) (jV L)) ↦[(shSl L).view.set]{fullShare} f)

/-- What it hands back: the same, its 256 result entries at the folded lane sums of its rows. -/
def tileTd (d : Dev nD) (L : grid0.Coords) : sProp 𝕄 :=
  iprop((aLoc d ↦{Transfers.shareTok fullShare 16 (jV L)} m (aLoc d)) ∗ (xLoc d ↦{Transfers.shareTok fullShare 16 (jV L)} m (xLoc d))
    ∗ ((oSl L).view.loc (V d (cV L) (jV L)) ↦[(oSl L).view.set]{fullShare} scOut m d)
    ∗ ∃ f, (shSl L).view.loc (V d (cV L) (jV L)) ↦[(shSl L).view.set]{fullShare} f)

/-- The grid coordinates of task `i` on SparseCore `c` of call 0's grid. -/
abbrev coordsOf (c : Fin ((K (F := F)).nCore 0)) (i : Fin ((K (F := F)).nSub 0)) : grid0.Coords :=
  coordsV ⟨c.val, c.isLt⟩ ⟨i.val, i.isLt⟩

/-- The one SparseCore call: SparseCore 0 takes the matrix, the vector and its result array whole and brings them
    back, the result array at the folded lane sums; each task its share. -/
def P : (K (F := F)).Pay (nD := nD) (Val := Elt F) (Name := ℕ) (U := UU) where
  st := fun _ d _ => iprop((aLoc d ↦{fullShare} m (aLoc d)) ∗ (xLoc d ↦{fullShare} m (xLoc d)) ∗ (oLoc d ↦{fullShare} m (oLoc d)))
  dn := fun _ d _ => iprop((aLoc d ↦{fullShare} m (aLoc d)) ∗ (xLoc d ↦{fullShare} m (xLoc d)) ∗ (oLoc d ↦{fullShare} scOut m d))
  go := fun q d c i => match q with | 0 => tileGo m d (coordsOf c i)
  td := fun q d c i => match q with | 0 => tileTd m d (coordsOf c i)
  x := fun _ _ => iprop(emp)

instance P_storable : (P (F := F) m).IsStorable where
  st _ d c := by unfold P; infer_instance
  dn _ d c := by unfold P; infer_instance
  go q d c i := match q with | 0 => by unfold P tileGo; infer_instance
  td q d c i := match q with | 0 => by unfold P tileTd; infer_instance

end Cert.Kernel.Pf

end
-- ==== Proof.Word.TileStorage.lean ====
/-
  A vector subcore's own storage, item by item: its five scratch buffers (the copy of the vector, the two 8-row
  buffers, the lane accumulators' rows, the folded rows) and its five transfer semaphores, each named, beside the rest.
-/
import proofs.«219795_g11467562680804_week1_w4_611_41_alg».proof.Proof.Word.Common

noncomputable section

namespace Cert.Kernel.Pf

open Cert.Kernel Cert.Kernel.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (c : Fin τ.nSC) (i : Fin τ.nSub)

/-- The subcore's five transfer semaphores as cells. -/
abbrev cellA0 : GSem nD τ sig := (V d c i, .dma cc0_scratch6.sem)
abbrev cellA1 : GSem nD τ sig := (V d c i, .dma cc0_scratch7.sem)
abbrev cellX : GSem nD τ sig := (V d c i, .dma cc0_scoped0.sem)
abbrev cellS : GSem nD τ sig := (V d c i, .dma cc0_scoped1.sem)
abbrev cellO : GSem nD τ sig := (V d c i, .dma cc0_scoped2.sem)

theorem mem_cell (sm : DmaSem sig) (h : (SemLoc.dma sm : SemLoc sig).isScoped .scVector = true) :
    ((V d c i, SemLoc.dma sm) : GSem nD τ sig) ∈ ownCells (V d c i) := (mem_ownCells).mpr ⟨rfl, h⟩

theorem cell_ne {a b : DmaSem sig} (h : a ≠ b) : ((V d c i, SemLoc.dma a) : GSem nD τ sig) ≠ (V d c i, SemLoc.dma b) :=
  fun e => h (SemLoc.dma.inj (Prod.mk.inj e).2)

theorem ownSems0_V5 :
    (ownSems0 (V d c i) : sProp 𝕄)
      = iprop(semVal (cellA0 d c i) 0 ∗ semVal (cellA1 d c i) 0 ∗ semVal (cellX d c i) 0 ∗ semVal (cellS d c i) 0 ∗ semVal (cellO d c i) 0
          ∗ bigSep ((((((ownCells (V d c i)).erase (cellA0 d c i)).erase (cellA1 d c i)).erase (cellX d c i)).erase (cellS d c i)).erase (cellO d c i))
              fun g => semVal g 0) := by
  unfold SparseCore.Cfg.ownSems0
  have m0 := mem_cell d c i cc0_scratch6.sem (by decide)
  have m1 := mem_cell d c i cc0_scratch7.sem (by decide)
  have m2 := mem_cell d c i cc0_scoped0.sem (by decide)
  have m3 := mem_cell d c i cc0_scoped1.sem (by decide)
  have m4 := mem_cell d c i cc0_scoped2.sem (by decide)
  have n10 := cell_ne d c i (show (cc0_scratch7.sem : DmaSem sig) ≠ cc0_scratch6.sem by decide)
  have n20 := cell_ne d c i (show (cc0_scoped0.sem : DmaSem sig) ≠ cc0_scratch6.sem by decide)
  have n21 := cell_ne d c i (show (cc0_scoped0.sem : DmaSem sig) ≠ cc0_scratch7.sem by decide)
  have n30 := cell_ne d c i (show (cc0_scoped1.sem : DmaSem sig) ≠ cc0_scratch6.sem by decide)
  have n31 := cell_ne d c i (show (cc0_scoped1.sem : DmaSem sig) ≠ cc0_scratch7.sem by decide)
  have n32 := cell_ne d c i (show (cc0_scoped1.sem : DmaSem sig) ≠ cc0_scoped0.sem by decide)
  have n40 := cell_ne d c i (show (cc0_scoped2.sem : DmaSem sig) ≠ cc0_scratch6.sem by decide)
  have n41 := cell_ne d c i (show (cc0_scoped2.sem : DmaSem sig) ≠ cc0_scratch7.sem by decide)
  have n42 := cell_ne d c i (show (cc0_scoped2.sem : DmaSem sig) ≠ cc0_scoped0.sem by decide)
  have n43 := cell_ne d c i (show (cc0_scoped2.sem : DmaSem sig) ≠ cc0_scoped1.sem by decide)
  rw [SparseCore.bigSep_erase' m0,
    SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41, Finset.mem_erase.mpr ⟨n40, m4⟩⟩⟩⟩)]

/-- A scratch buffer of the subcore as one of its own buffers. -/
abbrev bref (b : Ref sig .scVector) : DevRef τ sig := (Proc.scVector c i).devRef b

theorem mem_bref (b : Ref sig .scVector) (h : (bref c i b).owner = .proc (Proc.scVector c i)) : bref c i b ∈ ownRefs (sig := sig) (Proc.scVector c i) :=
  SparseCore.Cfg.mem_ownRefs_of_owner h

theorem bref_ne {a b : Ref sig .scVector} (h : a ≠ b) : bref c i a ≠ bref c i b :=
  fun e => h (Proc.devRef_injective _ e)

theorem ownBufs_V5 :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f)
          ∗ bigSep ((((((ownRefs (τ := τ) (sig := sig) (.scVector c i)).erase (bref c i cc0_scratch0)).erase (bref c i cc0_scratch1)).erase (bref c i cc0_scratch2)).erase
              (bref c i cc0_scratch3)).erase (bref c i cc0_scratch4))
              fun b => iprop(∃ f, ((d, b) : Loc nD τ sig) ↦{fullShare} f)) := by
  unfold SparseCore.Cfg.ownBufs
  have m0 := mem_bref c i cc0_scratch0 rfl
  have m1 := mem_bref c i cc0_scratch1 rfl
  have m2 := mem_bref c i cc0_scratch2 rfl
  have m3 := mem_bref c i cc0_scratch3 rfl
  have m4 := mem_bref c i cc0_scratch4 rfl
  have n10 := bref_ne c i (show (cc0_scratch1 : Ref sig .scVector) ≠ cc0_scratch0 by decide)
  have n20 := bref_ne c i (show (cc0_scratch2 : Ref sig .scVector) ≠ cc0_scratch0 by decide)
  have n21 := bref_ne c i (show (cc0_scratch2 : Ref sig .scVector) ≠ cc0_scratch1 by decide)
  have n30 := bref_ne c i (show (cc0_scratch3 : Ref sig .scVector) ≠ cc0_scratch0 by decide)
  have n31 := bref_ne c i (show (cc0_scratch3 : Ref sig .scVector) ≠ cc0_scratch1 by decide)
  have n32 := bref_ne c i (show (cc0_scratch3 : Ref sig .scVector) ≠ cc0_scratch2 by decide)
  have n40 := bref_ne c i (show (cc0_scratch4 : Ref sig .scVector) ≠ cc0_scratch0 by decide)
  have n41 := bref_ne c i (show (cc0_scratch4 : Ref sig .scVector) ≠ cc0_scratch1 by decide)
  have n42 := bref_ne c i (show (cc0_scratch4 : Ref sig .scVector) ≠ cc0_scratch2 by decide)
  have n43 := bref_ne c i (show (cc0_scratch4 : Ref sig .scVector) ≠ cc0_scratch3 by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41, Finset.mem_erase.mpr ⟨n40, m4⟩⟩⟩⟩)]

/-! ## The task's thread, its scratch buffers as the kernel names them, and the arrays as the task addresses them -/

section Names

variable (m : (ℓ : Loc nD τ sig) → Buf (Elt F) ℓ) (d : Dev nD) (L : grid0.Coords)

abbrev thr : Thread nD τ := V d (cV L) (jV L)
abbrev s0 : Memref sig .scVector .vmem S4096 .f32 := Memref.whole cc0_scratch0
abbrev s1 : Memref sig .scVector .vmem S8x4096 .f32 := Memref.whole cc0_scratch1
abbrev s2 : Memref sig .scVector .vmem S8x4096 .f32 := Memref.whole cc0_scratch2
abbrev s3 : Memref sig .scVector .vmem S4112 .f32 := Memref.whole cc0_scratch3
abbrev s4 : Memref sig .scVector .vmem S256x16 .f32 := Memref.whole cc0_scratch4

theorem pts_aV (q : PosShare TreeShare) (f : Buf (Elt F) (aLoc d)) :
    ((aV).view.loc (thr d L) ↦{q} f : sProp 𝕄) = aLoc d ↦{q} f := by
  simp only [Memref.view_whole, View.set_whole]
theorem pts_xV (q : PosShare TreeShare) (f : Buf (Elt F) (xLoc d)) :
    ((xV).view.loc (thr d L) ↦{q} f : sProp 𝕄) = xLoc d ↦{q} f := by
  simp only [Memref.view_whole, View.set_whole]
theorem pts_s0 (f : Buf (Elt F) ((thr d L).loc cc0_scratch0)) :
    ((s0).view.loc (thr d L) ↦{fullShare} f : sProp 𝕄) = (thr d L).loc cc0_scratch0 ↦{fullShare} f := rfl
theorem pts_s1 (f : Buf (Elt F) ((thr d L).loc cc0_scratch1)) :
    ((s1).view.loc (thr d L) ↦{fullShare} f : sProp 𝕄) = (thr d L).loc cc0_scratch1 ↦{fullShare} f := rfl
theorem pts_s2 (f : Buf (Elt F) ((thr d L).loc cc0_scratch2)) :
    ((s2).view.loc (thr d L) ↦{fullShare} f : sProp 𝕄) = (thr d L).loc cc0_scratch2 ↦{fullShare} f := rfl
theorem pts_s3 (f : Buf (Elt F) ((thr d L).loc cc0_scratch3)) :
    ((s3).view.loc (thr d L) ↦{fullShare} f : sProp 𝕄) = (thr d L).loc cc0_scratch3 ↦{fullShare} f := rfl
theorem pts_s4 (f : Buf (Elt F) ((thr d L).loc cc0_scratch4)) :
    ((s4).view.loc (thr d L) ↦{fullShare} f : sProp 𝕄) = (thr d L).loc cc0_scratch4 ↦{fullShare} f := rfl

theorem vec2_congr {u v : Nat} (h : u = v) : (![u, 0] : Fin 2 → Nat) = ![v, 0] := by rw [h]

/-- The tile's first row of the matrix. -/
abbrev base (L : grid0.Coords) : Nat := 256 * (L 1).val + 256 * (L 0).val + 12288

/-- An 8-row block of the matrix as a source of a copy, at a stated first row. -/
abbrev aBlk (off : Fin 2 → Nat) (h : ∀ a, off a + S8x4096.size a ≤ S16384x4096.size a) : Memref sig .scVector .hbm S8x4096 .f32 :=
  (aV).slice (Rect.unit (s := S16384x4096) off S8x4096.size h) (fun _ => rfl)

end Names

end Cert.Kernel.Pf

end
-- ==== Proof.Word.TileVals.lean ====
import proofs.«219795_g11467562680804_week1_w4_611_41_alg».proof.Proof.Word.TileStorage
import proofs.«219795_g11467562680804_week1_w4_611_41_alg».proof.Proof.LibViewAt
import proofs.«219795_g11467562680804_week1_w4_611_41_alg».proof.Proof.Entries
import Idealize.ShloMosaic.Lib.Pipeline.Value

noncomputable section

namespace Cert.Kernel.Pf

open Cert.Kernel Cert.Kernel.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx

variable (m : (ℓ : Loc nD τ sig) → Buf (Elt F) ℓ) [FloatOps F]
variable (d : Dev nD) (L : grid0.Coords)

/-! ## What the task's buffers hold, in terms of the matrix and the vector -/

/-- The vector as the task's copy of it holds it. -/
abbrev xBuf : Buf (Elt F) ((thr d L).loc cc0_scratch0) := m (xLoc d)

/-- Rows `r0 … r0 + 7` of the matrix as an 8-row buffer holds them. -/
def blkC (r0 : Nat) : S8x4096.Idx → Elt F .f32 := fun j => aAt (F := F) (m (aLoc d)) (r0 + (j 0).val) (j 1).val

/-- The sixteen lane accumulators of matrix row `r` after `j` chunks of 16 columns. -/
def laneV (r j : Nat) : FVec F S16 .f32 := fun l => laneAcc (F := F) (m (aLoc d)) (m (xLoc d)) r (l 0).val j

/-- Those of the eight rows `r0 … r0 + 7`. -/
abbrev acc8 (r0 j : Nat) : FVec F S16 .f32 × FVec F S16 .f32 × FVec F S16 .f32 × FVec F S16 .f32 × FVec F S16 .f32 × FVec F S16 .f32 × FVec F S16 .f32 × FVec F S16 .f32 :=
  (laneV m d r0 j, laneV m d (r0 + 1) j, laneV m d (r0 + 2) j, laneV m d (r0 + 3) j, laneV m d (r0 + 4) j, laneV m d (r0 + 5) j, laneV m d (r0 + 6) j, laneV m d (r0 + 7) j)

/-- What the lane rows should hold: entry `16 ρ + l` is lane `l` of matrix row `base + ρ` after all 256 chunks. -/
def laneRow (y : S4112.Idx) : Elt F .f32 :=
  laneAcc (F := F) (m (aLoc d)) (m (xLoc d)) (base L + (y 0).val / 16) ((y 0).val % 16) 256

/-- The first `n` lane rows are written. -/
def rowsDone (n : Nat) (f3 : Buf (Elt F) ((thr d L).loc cc0_scratch3)) : Prop :=
  ∀ y : S4112.Idx, (y 0).val < 16 * n → (s3).view.read (Elt F) f3 y = laneRow m d L y

theorem t1_trips : k0_t1_loop.trips = 16 := by decide
theorem t2_trips : k0_t2_loop.trips = 256 := by decide
theorem t3_trips : k0_t3_loop.trips = 256 := by decide
theorem cond1_iff : ∀ k : Fin k0_t1_loop.trips, k0_cond1 k = 1#1 ↔ k.val + 1 < 16 := by decide +kernel
theorem cond2_iff : ∀ k : Fin k0_t1_loop.trips, k0_cond2 k = 1#1 ↔ k.val + 1 < 16 := by decide +kernel

theorem vec1_congr {u v : Nat} (h : u = v) : (![u] : Fin 1 → Nat) = ![v] := by rw [h]

/-! ## Landings -/

/-- What the vector's copy lands is the vector. -/
theorem x_lands (f0 : Buf (Elt F) ((thr d L).loc cc0_scratch0)) (w : S4096.Idx → Elt F .f32)
    (hw : w = (xV).view.read (Elt F) (m (xLoc d))) :
    View.write (Elt F) (s0).view f0 w Finset.univ = xBuf m d L := by
  subst hw
  exact View.write_whole_univ _ _ _

/-- The eight rows of the matrix from row `r0`, read through the slice a copy takes them from. -/
theorem blk_read (off : Fin 2 → Nat) (h : ∀ a, off a + S8x4096.size a ≤ S16384x4096.size a) (r0 : Nat) (ho : off = ![r0, 0]) :
    (aBlk off h).view.read (Elt F) (m (aLoc d)) = blkC m d r0 := by
  funext j
  refine (Cert.ViewAt.read_slice_block2 (Val := Elt F) (aV).view (m (aLoc d)) ho h j).trans ?_
  have h1 := (Cert.ViewAt.lt_of_inb_block ho h (j 0).isLt (j 1).isLt)
  show m (aLoc d) (ix2 (⟨r0 + (j 0).val, h1.1⟩ : Fin 16384) (⟨0 + (j 1).val, h1.2⟩ : Fin 4096)) = aAt (F := F) (m (aLoc d)) (r0 + (j 0).val) (j 1).val
  rw [aAt_of_lt (F := F) (m (aLoc d)) h1.1 (by have := h1.2; omega)]
  congr 2
  exact Fin.ext (Nat.zero_add _)

/-- What a block's copy lands in the first 8-row buffer is the block's eight rows. -/
theorem blk_lands1 (off : Fin 2 → Nat) (h : ∀ a, off a + S8x4096.size a ≤ S16384x4096.size a) (r0 : Nat) (ho : off = ![r0, 0])
    (w : S8x4096.Idx → Elt F .f32) (hw : w = (aBlk off h).view.read (Elt F) (m (aLoc d)))
    (c : Buf (Elt F) ((thr d L).loc cc0_scratch1)) :
    View.write (Elt F) (s1).view c w Finset.univ = blkC m d r0 := by
  subst hw
  exact (View.write_whole_univ _ _ _).trans (blk_read m d off h r0 ho)

/-- The same for the second 8-row buffer. -/
theorem blk_lands2 (off : Fin 2 → Nat) (h : ∀ a, off a + S8x4096.size a ≤ S16384x4096.size a) (r0 : Nat) (ho : off = ![r0, 0])
    (w : S8x4096.Idx → Elt F .f32) (hw : w = (aBlk off h).view.read (Elt F) (m (aLoc d)))
    (c : Buf (Elt F) ((thr d L).loc cc0_scratch2)) :
    View.write (Elt F) (s2).view c w Finset.univ = blkC m d r0 := by
  subst hw
  exact (View.write_whole_univ _ _ _).trans (blk_read m d off h r0 ho)

/-! ## The accumulators' start and one chunk -/

/-- The accumulators an inner loop starts from are the lane accumulators after no chunk. -/
theorem acc8_zero (r0 : Nat) :
    ((k0_pay15 (F := F), k0_pay16 (F := F), k0_pay17 (F := F), k0_pay18 (F := F), k0_pay19 (F := F), k0_pay20 (F := F), k0_pay21 (F := F), k0_pay22 (F := F))
      : FVec F S16 .f32 × FVec F S16 .f32 × FVec F S16 .f32 × FVec F S16 .f32 × FVec F S16 .f32 × FVec F S16 .f32 × FVec F S16 .f32 × FVec F S16 .f32)
      = acc8 m d r0 0 := rfl

theorem acc8_zero' (r0 : Nat) :
    ((k0_pay33 (F := F), k0_pay34 (F := F), k0_pay35 (F := F), k0_pay36 (F := F), k0_pay37 (F := F), k0_pay38 (F := F), k0_pay39 (F := F), k0_pay40 (F := F))
      : FVec F S16 .f32 × FVec F S16 .f32 × FVec F S16 .f32 × FVec F S16 .f32 × FVec F S16 .f32 × FVec F S16 .f32 × FVec F S16 .f32 × FVec F S16 .f32)
      = acc8 m d r0 0 := rfl

/-- The 16 entries of the vector loaded for chunk `jv`. -/
theorem x_chunk (off : Fin 1 → Nat) (h : ∀ a, off a + S16.size a ≤ S4096.size a) (jv : Nat) (ho : off = ![16 * jv]) (l : S16.Idx) :
    (s0).view.readAt (Elt F) (Rect.unit (s := S4096) off S16.size h).toLoadRect (xBuf m d L) l
      = xAt (F := F) (m (xLoc d)) (16 * jv + (l 0).val) :=
  (Cert.ViewAt.readAt_unit1 (Val := Elt F) (s0).view (xBuf m d L) ho h l).trans (xAt_of_lt (F := F) (m (xLoc d)) _).symm

/-- The 16 entries of row `r` of an 8-row buffer loaded for chunk `jv`, first buffer. -/
theorem a_chunk1 (off : Fin 2 → Nat) (h : ∀ a, off a + S1x16.size a ≤ S8x4096.size a) (r0 r jv : Nat) (ho : off = ![r, 16 * jv]) (l : S16.Idx) :
    (s1).view.readAt (Elt F) (Rect.unit (s := S8x4096) off S1x16.size h).toLoadRect (blkC m d r0) (ix2 (0 : Fin 1) (l 0))
      = aAt (F := F) (m (aLoc d)) (r0 + r) (16 * jv + (l 0).val) :=
  (Cert.ViewAt.readAt_unit2 (Val := Elt F) (s1).view (blkC m d r0) ho h (ix2 (0 : Fin 1) (l 0)))

/-- The same for the second buffer. -/
theorem a_chunk2 (off : Fin 2 → Nat) (h : ∀ a, off a + S1x16.size a ≤ S8x4096.size a) (r0 r jv : Nat) (ho : off = ![r, 16 * jv]) (l : S16.Idx) :
    (s2).view.readAt (Elt F) (Rect.unit (s := S8x4096) off S1x16.size h).toLoadRect (blkC m d r0) (ix2 (0 : Fin 1) (l 0))
      = aAt (F := F) (m (aLoc d)) (r0 + r) (16 * jv + (l 0).val) :=
  (Cert.ViewAt.readAt_unit2 (Val := Elt F) (s2).view (blkC m d r0) ho h (ix2 (0 : Fin 1) (l 0)))

theorem step_k0_pay2 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay2 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay3 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay3 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay4 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay4 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay5 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay5 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay6 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay6 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay7 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay7 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay9 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay9 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay10 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay10 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay11 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay11 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay12 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay12 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay13 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay13 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay14 (R jv : Nat) (xv : Vec F S16 .f32) (av : Vec F S1x16 .f32)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay14 (laneV m d R jv) xv av = laneV m d R (jv + 1) := by
  funext l
  show FloatOps.addf (laneV m d R jv l) (FloatOps.mulf (shapeCast S16 av shapeCasts_S1x16_S16 l) (shapeCast S16 xv shapeCasts_S16_S16 l)) = _
  rw [Cert.ViewAt.shapeCast_row_to_vec, shapeCast_self, hx, ha]
  rfl

theorem step_k0_pay23 (R jv : Nat) (xv : Vec F S16 .f32) (av : Vec F S1x16 .f32) (px : Vec F S16 .f32 → FVec F S16 .f32)
    (hpx : ∀ v, px v = shapeCast S16 v shapeCasts_S16_S16)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay23 (laneV m d R jv) (px xv) av = laneV m d R (jv + 1) := by
  funext l
  show FloatOps.addf (laneV m d R jv l) (FloatOps.mulf (shapeCast S16 av shapeCasts_S1x16_S16 l) (px xv l)) = _
  rw [hpx, Cert.ViewAt.shapeCast_row_to_vec, shapeCast_self, hx, ha]
  rfl

theorem step_k0_pay24 (R jv : Nat) (xv : Vec F S16 .f32) (av : Vec F S1x16 .f32) (px : Vec F S16 .f32 → FVec F S16 .f32)
    (hpx : ∀ v, px v = shapeCast S16 v shapeCasts_S16_S16)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay24 (laneV m d R jv) (px xv) av = laneV m d R (jv + 1) := by
  funext l
  show FloatOps.addf (laneV m d R jv l) (FloatOps.mulf (shapeCast S16 av shapeCasts_S1x16_S16 l) (px xv l)) = _
  rw [hpx, Cert.ViewAt.shapeCast_row_to_vec, shapeCast_self, hx, ha]
  rfl

theorem step_k0_pay41 (R jv : Nat) (xv : Vec F S16 .f32) (av : Vec F S1x16 .f32) (px : Vec F S16 .f32 → FVec F S16 .f32)
    (hpx : ∀ v, px v = shapeCast S16 v shapeCasts_S16_S16)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay41 (laneV m d R jv) (px xv) av = laneV m d R (jv + 1) := by
  funext l
  show FloatOps.addf (laneV m d R jv l) (FloatOps.mulf (shapeCast S16 av shapeCasts_S1x16_S16 l) (px xv l)) = _
  rw [hpx, Cert.ViewAt.shapeCast_row_to_vec, shapeCast_self, hx, ha]
  rfl

theorem step_k0_pay42 (R jv : Nat) (xv : Vec F S16 .f32) (av : Vec F S1x16 .f32) (px : Vec F S16 .f32 → FVec F S16 .f32)
    (hpx : ∀ v, px v = shapeCast S16 v shapeCasts_S16_S16)
    (hx : ∀ l : S16.Idx, xv l = xAt (F := F) (m (xLoc d)) (16 * jv + (l 0).val))
    (ha : ∀ l : S16.Idx, av (ix2 (0 : Fin 1) (l 0)) = aAt (F := F) (m (aLoc d)) R (16 * jv + (l 0).val)) :
    k0_pay42 (laneV m d R jv) (px xv) av = laneV m d R (jv + 1) := by
  funext l
  show FloatOps.addf (laneV m d R jv l) (FloatOps.mulf (shapeCast S16 av shapeCasts_S1x16_S16 l) (px xv l)) = _
  rw [hpx, Cert.ViewAt.shapeCast_row_to_vec, shapeCast_self, hx, ha]
  rfl

/-! ## The stored rows -/

theorem store_k0_pay25 (R T : Nat) (hT : T = 256) (l : S16.Idx) :
    k0_pay25 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay26 (R T : Nat) (hT : T = 256) (l : S16.Idx) :
    k0_pay26 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay27 (R T : Nat) (hT : T = 256) (l : S16.Idx) :
    k0_pay27 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay28 (R T : Nat) (hT : T = 256) (l : S16.Idx) :
    k0_pay28 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay29 (R T : Nat) (hT : T = 256) (l : S16.Idx) :
    k0_pay29 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay30 (R T : Nat) (hT : T = 256) (l : S16.Idx) :
    k0_pay30 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay31 (R T : Nat) (hT : T = 256) (l : S16.Idx) :
    k0_pay31 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay32 (R T : Nat) (hT : T = 256) (l : S16.Idx) :
    k0_pay32 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay43 (R T : Nat) (hT : T = 256) (l : S16.Idx) :
    k0_pay43 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay44 (R T : Nat) (hT : T = 256) (l : S16.Idx) :
    k0_pay44 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay45 (R T : Nat) (hT : T = 256) (l : S16.Idx) :
    k0_pay45 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay46 (R T : Nat) (hT : T = 256) (l : S16.Idx) :
    k0_pay46 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay47 (R T : Nat) (hT : T = 256) (l : S16.Idx) :
    k0_pay47 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay48 (R T : Nat) (hT : T = 256) (l : S16.Idx) :
    k0_pay48 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay49 (R T : Nat) (hT : T = 256) (l : S16.Idx) :
    k0_pay49 (laneV m d R T) l = laneAcc (F := F) (m (aLoc d)) (m (xLoc d)) R (l 0).val 256 := by
  subst hT
  show shapeCast S16 (laneV m d R 256) shapeCasts_S16_S16 l = _
  rw [shapeCast_self]; rfl

theorem store_k0_pay50 (R T : Nat) (hT : T = 256) (l : S16.Idx) :
    k0_pay50 (laneV m d R T) l = laneAcc (F := F) (m (aLoc d)) (m (xLoc d)) R (l 0).val 256 := by
  subst hT
  show shapeCast S16 (laneV m d R 256) shapeCasts_S16_S16 l = _
  rw [shapeCast_self]; rfl

/-- A bare cast of a row's accumulators, as stored. -/
theorem store_cast (R T : Nat) (hT : T = 256) (hc : S16.ShapeCasts S16) (l : S16.Idx) :
    shapeCast S16 (laneV m d R T) hc l = laneAcc (F := F) (m (aLoc d)) (m (xLoc d)) R (l 0).val 256 := by
  subst hT
  rw [shapeCast_self]; rfl

/-- One more lane row written: if the first `n` rows are written under a piece list, storing row `n`'s accumulators
    on top of it writes the first `n + 1`. -/
theorem rowsDone_cons (n : Nat) (hn : n < 256) (f : Buf (Elt F) ((thr d L).loc cc0_scratch3)) (ps : List (View.Piece (Elt F) S4112 .f32))
    (hps : rowsDone m d L n ((s3).view.writes (Elt F) f ps))
    (off : Fin 1 → Nat) (h : ∀ a, off a + S16.size a ≤ S4112.size a) (ho : off = ![16 * n])
    (pay : S16.Idx → Elt F .f32) (R : Nat) (hR : R = base L + n)
    (hpay : ∀ l : S16.Idx, pay l = laneAcc (F := F) (m (aLoc d)) (m (xLoc d)) R (l 0).val 256) :
    rowsDone m d L (n + 1) ((s3).view.writes (Elt F) f (⟨Rect.unit (s := S4112) off S16.size h, pay⟩ :: ps)) := by
  intro y hy
  obtain ⟨p, rfl⟩ : ∃ p : Fin 4112, y = ix1 p :=
    ⟨⟨(y 0).val, (y 0).isLt⟩, by funext a; match a with | ⟨0, _⟩ => rfl⟩
  have hy' : p.val < 16 * (n + 1) := hy
  refine (Cert.ViewAt.read_writes_unit1_cons (Val := Elt F) (s3).view f ho h pay ps p).trans ?_
  split
  · rename_i hp
    rw [hpay]
    subst hR
    show laneAcc (F := F) (m (aLoc d)) (m (xLoc d)) (base L + n) (p.val - 16 * n) 256 = laneAcc (F := F) (m (aLoc d)) (m (xLoc d)) (base L + p.val / 16) (p.val % 16) 256
    have e1 : p.val / 16 = n := by omega
    have e2 : p.val % 16 = p.val - 16 * n := by omega
    rw [e1, e2]
  · rename_i hp
    have hlt : p.val < 16 * n := by omega
    exact hps (ix1 p) hlt

end Cert.Kernel.Pf

end
-- ==== Proof.Word.TileTrip.lean ====
import proofs.«219795_g11467562680804_week1_w4_611_41_alg».proof.Proof.Word.TileVals

set_option pp.maxSteps 4000
set_option pp.deepTerms false

noncomputable section

namespace Cert.Kernel.Pf

open Cert.Kernel Cert.Kernel.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]
variable (d : Dev nD) (L : grid0.Coords)

/-- The inner loop over the first 8-row buffer before chunk `j`: the vector's copy and the buffer in place, the
    eight carried lane accumulators at their values after `j` chunks. -/
def invIn1 (r0 : Nat) (j : Nat)
    (acc : FVec F S16 .f32 × FVec F S16 .f32 × FVec F S16 .f32 × FVec F S16 .f32 × FVec F S16 .f32 × FVec F S16 .f32 × FVec F S16 .f32 × FVec F S16 .f32) : sProp 𝕄 :=
  iprop(((s0).view.loc (thr d L) ↦{fullShare} xBuf m d L)
    ∗ ((s1).view.loc (thr d L) ↦{fullShare} blkC m d r0)
    ∗ ⌜acc = acc8 m d r0 j⌝)

/-- The inner loop over the second 8-row buffer before chunk `j`: the vector's copy and the buffer in place, the
    eight carried lane accumulators at their values after `j` chunks. -/
def invIn2 (r0 : Nat) (j : Nat)
    (acc : FVec F S16 .f32 × FVec F S16 .f32 × FVec F S16 .f32 × FVec F S16 .f32 × FVec F S16 .f32 × FVec F S16 .f32 × FVec F S16 .f32 × FVec F S16 .f32) : sProp 𝕄 :=
  iprop(((s0).view.loc (thr d L) ↦{fullShare} xBuf m d L)
    ∗ ((s2).view.loc (thr d L) ↦{fullShare} blkC m d r0)
    ∗ ⌜acc = acc8 m d r0 j⌝)

/-- Blocks `2k` and `2k + 1` on their way into the two 8-row buffers, the share of the matrix less the two. -/
def aFly (q : PosShare TreeShare) (k : Nat) : sProp 𝕄 :=
  iprop(∃ (o0 : Fin 2 → Nat) (h0 : ∀ a, o0 a + S8x4096.size a ≤ S16384x4096.size a) (o1 : Fin 2 → Nat) (h1 : ∀ a, o1 a + S8x4096.size a ≤ S16384x4096.size a),
        ⌜o0 = ![256 * (L 1).val + 256 * (L 0).val + 16 * k + 12288, 0] ∧ o1 = ![256 * (L 1).val + 256 * (L 0).val + 16 * k + 12296, 0]⌝
        ∗ (Transfers.Flight countersEmb (thr d L) (SemLoc.dma cc0_scratch6.sem) (default : HIx 1) 1048576
            iprop(((s1).view.loc (thr d L) ↦{fullShare} blkC m d (base L + 16 * k))
              ∗ (aV).view.loc (thr d L) ↦[(aBlk o0 h0).view.set]{q} m (aLoc d)))
        ∗ (Transfers.Flight countersEmb (thr d L) (SemLoc.dma cc0_scratch7.sem) (default : HIx 1) 1048576
            iprop(((s2).view.loc (thr d L) ↦{fullShare} blkC m d (base L + 16 * k + 8))
              ∗ (aV).view.loc (thr d L) ↦[(aBlk o1 h1).view.set]{q} m (aLoc d)))
        ∗ ((aV).view.loc (thr d L) ↦[(Finset.univ \ (aBlk o0 h0).view.set) \ (aBlk o1 h1).view.set]{q} m (aLoc d)))

/-- Nothing on its way: both semaphores at zero, the two buffers at some contents, the share of the matrix whole. -/
def aLanded (q : PosShare TreeShare) : sProp 𝕄 :=
  iprop(semVal (thr d L, SemLoc.dma cc0_scratch6.sem) 0 ∗ semVal (thr d L, SemLoc.dma cc0_scratch7.sem) 0
    ∗ (∃ c, (s1).view.loc (thr d L) ↦{fullShare} c) ∗ (∃ c, (s2).view.loc (thr d L) ↦{fullShare} c)
    ∗ ((aV).view.loc (thr d L) ↦{q} m (aLoc d)))

/-- The outer loop before trip `k`: the vector's copy in place; the lane rows of the blocks before `2k` written;
    blocks `2k`, `2k + 1` on their way (nothing after the last trip). -/
def invOuter (O : CellTallies nD τ sig (HIx 1)) (W : Waits sig (HIx 1)) (q : PosShare TreeShare) (k : Nat) (_ : PUnit) : sProp 𝕄 :=
  iprop(Transfers.MayWaits (thr d L) (none : HIx 1) O
    ∗ ((xV).view.loc (thr d L) ↦{q} m (xLoc d))
    ∗ ((s0).view.loc (thr d L) ↦{fullShare} xBuf m d L)
    ∗ (∃ f3, ((s3).view.loc (thr d L) ↦{fullShare} f3) ∗ ⌜rowsDone m d L (16 * k) f3⌝)
    ∗ (if k < 16 then aFly m d L q k else aLanded m d L q)
    ∗ ∃ W', ⌜∀ p ∈ W', p ∈ W ∨ p.2 = none⌝ ∗ owes (thr d L) O W')

/-- The first row of the tile as the kernel computes it. -/
abbrev v3w (L : grid0.Coords) : BitVec 32 :=
  Scalar.addi (12288#32) (Scalar.muli (Scalar.addi (Scalar.muli (BitVec.ofNat 32 (L 1).val) 1#32) (BitVec.ofNat 32 (L 0).val)) 256#32)

set_option maxHeartbeats 4000000 in
/-- One trip of the outer loop: wait for block `2k`, accumulate its eight rows over the 256 chunks and store their
    lane rows, start block `2k + 2` if there is one; the same for block `2k + 1` and `2k + 3`. -/
theorem outer_trip (O : CellTallies nD τ sig (HIx 1)) (W : Waits sig (HIx 1)) (q : PosShare TreeShare) (k : Fin k0_t1_loop.trips) :
    invOuter m d L O W q k.val PUnit.unit
      ⊢ wp frame (wpE (defs₀ (F := F)) 𝒱₀ (thr d L) none) Set.univ
          (k0_t1_body L aV (Memref.isWhole_whole _) xV (Memref.isWhole_whole _) oV (Memref.isWhole_whole _)
            s0 (Memref.isWhole_whole _) s1 (Memref.isWhole_whole _) s2 (Memref.isWhole_whole _) s3 (Memref.isWhole_whole _) s4 (Memref.isWhole_whole _)
            shV (Memref.isWhole_whole _) cc0_scratch6 cc0_scratch7 cc0_scoped0 cc0_scoped1 cc0_scoped2 (v3w L) k PUnit.unit)
          fun _ => invOuter m d L O W q (k.val + 1) PUnit.unit := by
  sl_unfold [k0_t1_body]
  have hk16 : k.val < 16 := lt_of_lt_of_eq k.isLt t1_trips
  unfold invOuter
  rw [if_pos hk16]
  unfold aFly
  iintro ⟨Hmw, HX, H0, ⟨%f3, H3, %hf3⟩, ⟨%o0, %h0, %o1, %h1, %ho, HF0, HF1, HA⟩, %W', %hW', HO⟩
  obtain ⟨rfl, rfl⟩ := ho
  sl_exec
  sl_for (invIn1 m d L (base L + 16 * k)) $$ [H0 HF0_dst]
  case region =>
    intro j acc
    unfold invIn1
    iintro ⟨H0, H1, %hacc⟩
    subst hacc
    sl_exec
    sl_step
    isplitl [H0]; · iexact H0
    isplitl [H1]; · iexact H1
    ipureintro
    sl_unfold_run_names
    have hx := fun l => x_chunk m d L (k0_off4 j) (k0_off4_inb j) j.val (k0_off4_eq j) l
    exact Prod.ext (step_k0_pay2 m d _ j.val _ _ hx (fun l => a_chunk1 m d (k0_off5 j) (k0_off5_inb j) (base L + 16 * k.val) 0 j.val (k0_off5_eq j) l)) (Prod.ext (step_k0_pay3 m d _ j.val _ _ hx (fun l => a_chunk1 m d (k0_off6 j) (k0_off6_inb j) (base L + 16 * k.val) 1 j.val (k0_off6_eq j) l)) (Prod.ext (step_k0_pay4 m d _ j.val _ _ hx (fun l => a_chunk1 m d (k0_off7 j) (k0_off7_inb j) (base L + 16 * k.val) 2 j.val (k0_off7_eq j) l)) (Prod.ext (step_k0_pay5 m d _ j.val _ _ hx (fun l => a_chunk1 m d (k0_off8 j) (k0_off8_inb j) (base L + 16 * k.val) 3 j.val (k0_off8_eq j) l)) (Prod.ext (step_k0_pay6 m d _ j.val _ _ hx (fun l => a_chunk1 m d (k0_off9 j) (k0_off9_inb j) (base L + 16 * k.val) 4 j.val (k0_off9_eq j) l)) (Prod.ext (step_k0_pay7 m d _ j.val _ _ hx (fun l => a_chunk1 m d (k0_off10 j) (k0_off10_inb j) (base L + 16 * k.val) 5 j.val (k0_off10_eq j) l)) (Prod.ext (step_k0_pay23 m d _ j.val _ _ (k0_pay1 (F := F)) (fun _ => rfl) hx (fun l => a_chunk1 m d (k0_off11 j) (k0_off11_inb j) (base L + 16 * k.val) 6 j.val (k0_off11_eq j) l)) ((step_k0_pay24 m d _ j.val _ _ (k0_pay1 (F := F)) (fun _ => rfl) hx (fun l => a_chunk1 m d (k0_off12 j) (k0_off12_inb j) (base L + 16 * k.val) 7 j.val (k0_off12_eq j) l)))))))))
  · unfold invIn1
    isplitl [H0]; · iexact H0
    isplitl [HF0_dst]; · iexact HF0_dst
    ipureintro; exact acc8_zero m d _
  iintro %acc HI
  unfold invIn1
  icases HI with ⟨H0, H1, %hacc⟩
  subst hacc
  by_cases hk : k.val + 1 < 16
  · have k0_h1 : k0_cond1 k = 1#1 := (cond1_iff k).mpr hk
    have k0_h2 : k0_cond2 k = 1#1 := (cond2_iff k).mpr hk
    have e14 : k0_off14 L k 0 = 256 * (L 1).val + 256 * (L 0).val + 16 * k.val + 12304 := by rw [k0_off14_eq]; rfl
    have e24 : k0_off24 L k 0 = 256 * (L 1).val + 256 * (L 0).val + 16 * k.val + 12312 := by rw [k0_off24_eq]; rfl
    have hd1 : Disjoint (aBlk (k0_off14 L k) (k0_off14_inb L k k0_h1)).view.set (aBlk ![256 * (L 1).val + 256 * (L 0).val + 16 * k.val + 12296, 0] h1).view.set :=
      View.disjoint_slice_of_sep _ _ _ 0 rfl rfl (Or.inr (by show 256 * (L 1).val + 256 * (L 0).val + 16 * k.val + 12296 + 8 ≤ k0_off14 L k 0; omega))
    have hd1' := hd1.symm
    have hd2 : Disjoint (aBlk (k0_off24 L k) (k0_off24_inb L k k0_h2)).view.set (aBlk (k0_off14 L k) (k0_off14_inb L k k0_h1)).view.set :=
      View.disjoint_slice_of_sep _ _ _ 0 rfl rfl (Or.inr (by show k0_off14 L k 0 + 8 ≤ k0_off24 L k 0; omega))
    have hd2' := hd2.symm
    sl_exec
    sl_for (invIn2 m d L (base L + 16 * k + 8)) $$ [H0 HF1_dst]
    case region =>
      intro j acc
      unfold invIn2
      iintro ⟨H0, H2, %hacc⟩
      subst hacc
      sl_exec
      sl_step
      isplitl [H0]; · iexact H0
      isplitl [H2]; · iexact H2
      ipureintro
      sl_unfold_run_names
      have hx := fun l => x_chunk m d L (k0_off15 j) (k0_off15_inb j) j.val (k0_off15_eq j) l
      exact Prod.ext (step_k0_pay9 m d _ j.val _ _ hx (fun l => a_chunk2 m d (k0_off16 j) (k0_off16_inb j) (base L + 16 * k.val + 8) 0 j.val (k0_off16_eq j) l)) (Prod.ext (step_k0_pay10 m d _ j.val _ _ hx (fun l => a_chunk2 m d (k0_off17 j) (k0_off17_inb j) (base L + 16 * k.val + 8) 1 j.val (k0_off17_eq j) l)) (Prod.ext (step_k0_pay11 m d _ j.val _ _ hx (fun l => a_chunk2 m d (k0_off18 j) (k0_off18_inb j) (base L + 16 * k.val + 8) 2 j.val (k0_off18_eq j) l)) (Prod.ext (step_k0_pay12 m d _ j.val _ _ hx (fun l => a_chunk2 m d (k0_off19 j) (k0_off19_inb j) (base L + 16 * k.val + 8) 3 j.val (k0_off19_eq j) l)) (Prod.ext (step_k0_pay13 m d _ j.val _ _ hx (fun l => a_chunk2 m d (k0_off20 j) (k0_off20_inb j) (base L + 16 * k.val + 8) 4 j.val (k0_off20_eq j) l)) (Prod.ext (step_k0_pay14 m d _ j.val _ _ hx (fun l => a_chunk2 m d (k0_off21 j) (k0_off21_inb j) (base L + 16 * k.val + 8) 5 j.val (k0_off21_eq j) l)) (Prod.ext (step_k0_pay41 m d _ j.val _ _ (k0_pay8 (F := F)) (fun _ => rfl) hx (fun l => a_chunk2 m d (k0_off22 j) (k0_off22_inb j) (base L + 16 * k.val + 8) 6 j.val (k0_off22_eq j) l)) ((step_k0_pay42 m d _ j.val _ _ (k0_pay8 (F := F)) (fun _ => rfl) hx (fun l => a_chunk2 m d (k0_off23 j) (k0_off23_inb j) (base L + 16 * k.val + 8) 7 j.val (k0_off23_eq j) l)))))))))
    · unfold invIn2
      isplitl [H0]; · iexact H0
      isplitl [HF1_dst]; · iexact HF1_dst
      ipureintro; exact acc8_zero' m d _
    iintro %acc2 HI2
    unfold invIn2
    icases HI2 with ⟨H0, H2, %hacc2⟩
    subst hacc2
    sl_exec
    sl_step
    isplitl [Hmw]; · iexact Hmw
    isplitl [HX]; · iexact HX
    isplitl [H0]; · iexact H0
    isplitl [H3]
    · iexists _
      isplitl [H3]; · iexact H3
      ipureintro
      sl_unfold_run_names
      have hf3' : rowsDone m d L (16 * k.val + 0) ((s3).view.writes (Elt F) f3 []) := hf3
      have e16 : 16 * (k.val + 1) = 16 * k.val + 15 + 1 := by omega
      rw [e16]
      exact (rowsDone_cons m d L (16 * k.val + 15) (by omega) f3 _ (rowsDone_cons m d L (16 * k.val + 14) (by omega) f3 _ (rowsDone_cons m d L (16 * k.val + 13) (by omega) f3 _ (rowsDone_cons m d L (16 * k.val + 12) (by omega) f3 _ (rowsDone_cons m d L (16 * k.val + 11) (by omega) f3 _ (rowsDone_cons m d L (16 * k.val + 10) (by omega) f3 _ (rowsDone_cons m d L (16 * k.val + 9) (by omega) f3 _ (rowsDone_cons m d L (16 * k.val + 8) (by omega) f3 _ (rowsDone_cons m d L (16 * k.val + 7) (by omega) f3 _ (rowsDone_cons m d L (16 * k.val + 6) (by omega) f3 _ (rowsDone_cons m d L (16 * k.val + 5) (by omega) f3 _ (rowsDone_cons m d L (16 * k.val + 4) (by omega) f3 _ (rowsDone_cons m d L (16 * k.val + 3) (by omega) f3 _ (rowsDone_cons m d L (16 * k.val + 2) (by omega) f3 _ (rowsDone_cons m d L (16 * k.val + 1) (by omega) f3 _ (rowsDone_cons m d L (16 * k.val + 0) (by omega) f3 _ hf3' _ _ ((k0_off13_eq k ⟨0, by decide⟩ ⟨0, by decide⟩).trans (vec1_congr (by simp only []; omega))) _ (base L + 16 * k.val) (by omega) (fun l => store_k0_pay25 m d _ _ t2_trips l)) _ _ ((k0_off13_eq k ⟨0, by decide⟩ ⟨1, by decide⟩).trans (vec1_congr (by simp only []; omega))) _ (base L + 16 * k.val + 1) (by omega) (fun l => store_k0_pay26 m d _ _ t2_trips l)) _ _ ((k0_off13_eq k ⟨0, by decide⟩ ⟨2, by decide⟩).trans (vec1_congr (by simp only []; omega))) _ (base L + 16 * k.val + 2) (by omega) (fun l => store_cast m d _ _ t2_trips _ l)) _ _ ((k0_off13_eq k ⟨0, by decide⟩ ⟨3, by decide⟩).trans (vec1_congr (by simp only []; omega))) _ (base L + 16 * k.val + 3) (by omega) (fun l => store_cast m d _ _ t2_trips _ l)) _ _ ((k0_off13_eq k ⟨0, by decide⟩ ⟨4, by decide⟩).trans (vec1_congr (by simp only []; omega))) _ (base L + 16 * k.val + 4) (by omega) (fun l => store_cast m d _ _ t2_trips _ l)) _ _ ((k0_off13_eq k ⟨0, by decide⟩ ⟨5, by decide⟩).trans (vec1_congr (by simp only []; omega))) _ (base L + 16 * k.val + 5) (by omega) (fun l => store_cast m d _ _ t2_trips _ l)) _ _ ((k0_off13_eq k ⟨0, by decide⟩ ⟨6, by decide⟩).trans (vec1_congr (by simp only []; omega))) _ (base L + 16 * k.val + 6) (by omega) (fun l => store_cast m d _ _ t2_trips _ l)) _ _ ((k0_off13_eq k ⟨0, by decide⟩ ⟨7, by decide⟩).trans (vec1_congr (by simp only []; omega))) _ (base L + 16 * k.val + 7) (by omega) (fun l => store_cast m d _ _ t2_trips _ l)) _ _ ((k0_off13_eq k ⟨1, by decide⟩ ⟨0, by decide⟩).trans (vec1_congr (by simp only []; omega))) _ (base L + 16 * k.val + 8) (by omega) (fun l => store_k0_pay43 m d _ _ t3_trips l)) _ _ ((k0_off13_eq k ⟨1, by decide⟩ ⟨1, by decide⟩).trans (vec1_congr (by simp only []; omega))) _ (base L + 16 * k.val + 8 + 1) (by omega) (fun l => store_k0_pay44 m d _ _ t3_trips l)) _ _ ((k0_off13_eq k ⟨1, by decide⟩ ⟨2, by decide⟩).trans (vec1_congr (by simp only []; omega))) _ (base L + 16 * k.val + 8 + 2) (by omega) (fun l => store_k0_pay45 m d _ _ t3_trips l)) _ _ ((k0_off13_eq k ⟨1, by decide⟩ ⟨3, by decide⟩).trans (vec1_congr (by simp only []; omega))) _ (base L + 16 * k.val + 8 + 3) (by omega) (fun l => store_k0_pay46 m d _ _ t3_trips l)) _ _ ((k0_off13_eq k ⟨1, by decide⟩ ⟨4, by decide⟩).trans (vec1_congr (by simp only []; omega))) _ (base L + 16 * k.val + 8 + 4) (by omega) (fun l => store_k0_pay47 m d _ _ t3_trips l)) _ _ ((k0_off13_eq k ⟨1, by decide⟩ ⟨5, by decide⟩).trans (vec1_congr (by simp only []; omega))) _ (base L + 16 * k.val + 8 + 5) (by omega) (fun l => store_k0_pay48 m d _ _ t3_trips l)) _ _ ((k0_off13_eq k ⟨1, by decide⟩ ⟨6, by decide⟩).trans (vec1_congr (by simp only []; omega))) _ (base L + 16 * k.val + 8 + 6) (by omega) (fun l => store_k0_pay49 m d _ _ t3_trips l)) _ _ ((k0_off13_eq k ⟨1, by decide⟩ ⟨7, by decide⟩).trans (vec1_congr (by simp only []; omega))) _ (base L + 16 * k.val + 8 + 7) (by omega) (fun l => store_k0_pay50 m d _ _ t3_trips l))
    isplitl [HF0 HF1 HA]
    · rw [if_pos hk]
      iexists (k0_off14 L k), (k0_off14_inb L k k0_h1), (k0_off24 L k), (k0_off24_inb L k k0_h2)
      isplitr
      · ipureintro
        exact ⟨(k0_off14_eq L k).trans (vec2_congr (by omega)), (k0_off24_eq L k).trans (vec2_congr (by omega))⟩
      isplitl [HF0]
      · iapply (Transfers.Flight_mono _ _ ?_) $$ HF0
        iintro ⟨H, HA⟩
        isplitl [H]
        · iapply (Entails.of_eq (congrArg (fun c => ((s1).view.loc (thr d L) ↦{fullShare} c : sProp 𝕄))
            (blk_lands1 m d L (k0_off14 L k) (k0_off14_inb L k k0_h1) (base L + 16 * (k.val + 1)) ((k0_off14_eq L k).trans (vec2_congr (by unfold base; omega))) (outer_trip.sl.dma16 m d L k k0_h1) (by sl_unfold_run_names; rfl) _)))
          iexact H
        iexact HA
      isplitl [HF1]
      · iapply (Transfers.Flight_mono _ _ ?_) $$ HF1
        iintro ⟨H, HA⟩
        isplitl [H]
        · iapply (Entails.of_eq (congrArg (fun c => ((s2).view.loc (thr d L) ↦{fullShare} c : sProp 𝕄))
            (blk_lands2 m d L (k0_off24 L k) (k0_off24_inb L k k0_h2) (base L + 16 * (k.val + 1) + 8) ((k0_off24_eq L k).trans (vec2_congr (by unfold base; omega))) (outer_trip.sl.dma16_1 m d L k k0_h2) (by sl_unfold_run_names; rfl) _)))
          iexact H
        iexact HA
      iexact HA
    iexists (insert (SemLoc.dma cc0_scratch7.sem, (default : HIx 1)) (insert (SemLoc.dma cc0_scratch6.sem, (default : HIx 1)) W')); isplitr
    · ipureintro; intro p hp
      rcases Finset.mem_insert.mp hp with hp | hp
      · exact .inr (by subst hp; rfl)
      rcases Finset.mem_insert.mp hp with hp | hp
      · exact .inr (by subst hp; rfl)
      · exact hW' p hp
    · iexact HO
  · have k0_h1 : ¬ k0_cond1 k = 1#1 := fun h => hk ((cond1_iff k).mp h)
    have k0_h2 : ¬ k0_cond2 k = 1#1 := fun h => hk ((cond2_iff k).mp h)
    sl_exec
    sl_for (invIn2 m d L (base L + 16 * k + 8)) $$ [H0 HF1_dst]
    case region =>
      intro j acc
      unfold invIn2
      iintro ⟨H0, H2, %hacc⟩
      subst hacc
      sl_exec
      sl_step
      isplitl [H0]; · iexact H0
      isplitl [H2]; · iexact H2
      ipureintro
      sl_unfold_run_names
      have hx := fun l => x_chunk m d L (k0_off15 j) (k0_off15_inb j) j.val (k0_off15_eq j) l
      exact Prod.ext (step_k0_pay9 m d _ j.val _ _ hx (fun l => a_chunk2 m d (k0_off16 j) (k0_off16_inb j) (base L + 16 * k.val + 8) 0 j.val (k0_off16_eq j) l)) (Prod.ext (step_k0_pay10 m d _ j.val _ _ hx (fun l => a_chunk2 m d (k0_off17 j) (k0_off17_inb j) (base L + 16 * k.val + 8) 1 j.val (k0_off17_eq j) l)) (Prod.ext (step_k0_pay11 m d _ j.val _ _ hx (fun l => a_chunk2 m d (k0_off18 j) (k0_off18_inb j) (base L + 16 * k.val + 8) 2 j.val (k0_off18_eq j) l)) (Prod.ext (step_k0_pay12 m d _ j.val _ _ hx (fun l => a_chunk2 m d (k0_off19 j) (k0_off19_inb j) (base L + 16 * k.val + 8) 3 j.val (k0_off19_eq j) l)) (Prod.ext (step_k0_pay13 m d _ j.val _ _ hx (fun l => a_chunk2 m d (k0_off20 j) (k0_off20_inb j) (base L + 16 * k.val + 8) 4 j.val (k0_off20_eq j) l)) (Prod.ext (step_k0_pay14 m d _ j.val _ _ hx (fun l => a_chunk2 m d (k0_off21 j) (k0_off21_inb j) (base L + 16 * k.val + 8) 5 j.val (k0_off21_eq j) l)) (Prod.ext (step_k0_pay41 m d _ j.val _ _ (k0_pay8 (F := F)) (fun _ => rfl) hx (fun l => a_chunk2 m d (k0_off22 j) (k0_off22_inb j) (base L + 16 * k.val + 8) 6 j.val (k0_off22_eq j) l)) ((step_k0_pay42 m d _ j.val _ _ (k0_pay8 (F := F)) (fun _ => rfl) hx (fun l => a_chunk2 m d (k0_off23 j) (k0_off23_inb j) (base L + 16 * k.val + 8) 7 j.val (k0_off23_eq j) l)))))))))
    · unfold invIn2
      isplitl [H0]; · iexact H0
      isplitl [HF1_dst]; · iexact HF1_dst
      ipureintro; exact acc8_zero' m d _
    iintro %acc2 HI2
    unfold invIn2
    icases HI2 with ⟨H0, H2, %hacc2⟩
    subst hacc2
    sl_exec
    sl_step
    isplitl [Hmw]; · iexact Hmw
    isplitl [HX]; · iexact HX
    isplitl [H0]; · iexact H0
    isplitl [H3]
    · iexists _
      isplitl [H3]; · iexact H3
      ipureintro
      sl_unfold_run_names
      have hf3' : rowsDone m d L (16 * k.val + 0) ((s3).view.writes (Elt F) f3 []) := hf3
      have e16 : 16 * (k.val + 1) = 16 * k.val + 15 + 1 := by omega
      rw [e16]
      exact (rowsDone_cons m d L (16 * k.val + 15) (by omega) f3 _ (rowsDone_cons m d L (16 * k.val + 14) (by omega) f3 _ (rowsDone_cons m d L (16 * k.val + 13) (by omega) f3 _ (rowsDone_cons m d L (16 * k.val + 12) (by omega) f3 _ (rowsDone_cons m d L (16 * k.val + 11) (by omega) f3 _ (rowsDone_cons m d L (16 * k.val + 10) (by omega) f3 _ (rowsDone_cons m d L (16 * k.val + 9) (by omega) f3 _ (rowsDone_cons m d L (16 * k.val + 8) (by omega) f3 _ (rowsDone_cons m d L (16 * k.val + 7) (by omega) f3 _ (rowsDone_cons m d L (16 * k.val + 6) (by omega) f3 _ (rowsDone_cons m d L (16 * k.val + 5) (by omega) f3 _ (rowsDone_cons m d L (16 * k.val + 4) (by omega) f3 _ (rowsDone_cons m d L (16 * k.val + 3) (by omega) f3 _ (rowsDone_cons m d L (16 * k.val + 2) (by omega) f3 _ (rowsDone_cons m d L (16 * k.val + 1) (by omega) f3 _ (rowsDone_cons m d L (16 * k.val + 0) (by omega) f3 _ hf3' _ _ ((k0_off13_eq k ⟨0, by decide⟩ ⟨0, by decide⟩).trans (vec1_congr (by simp only []; omega))) _ (base L + 16 * k.val) (by omega) (fun l => store_k0_pay25 m d _ _ t2_trips l)) _ _ ((k0_off13_eq k ⟨0, by decide⟩ ⟨1, by decide⟩).trans (vec1_congr (by simp only []; omega))) _ (base L + 16 * k.val + 1) (by omega) (fun l => store_k0_pay26 m d _ _ t2_trips l)) _ _ ((k0_off13_eq k ⟨0, by decide⟩ ⟨2, by decide⟩).trans (vec1_congr (by simp only []; omega))) _ (base L + 16 * k.val + 2) (by omega) (fun l => store_cast m d _ _ t2_trips _ l)) _ _ ((k0_off13_eq k ⟨0, by decide⟩ ⟨3, by decide⟩).trans (vec1_congr (by simp only []; omega))) _ (base L + 16 * k.val + 3) (by omega) (fun l => store_cast m d _ _ t2_trips _ l)) _ _ ((k0_off13_eq k ⟨0, by decide⟩ ⟨4, by decide⟩).trans (vec1_congr (by simp only []; omega))) _ (base L + 16 * k.val + 4) (by omega) (fun l => store_cast m d _ _ t2_trips _ l)) _ _ ((k0_off13_eq k ⟨0, by decide⟩ ⟨5, by decide⟩).trans (vec1_congr (by simp only []; omega))) _ (base L + 16 * k.val + 5) (by omega) (fun l => store_cast m d _ _ t2_trips _ l)) _ _ ((k0_off13_eq k ⟨0, by decide⟩ ⟨6, by decide⟩).trans (vec1_congr (by simp only []; omega))) _ (base L + 16 * k.val + 6) (by omega) (fun l => store_cast m d _ _ t2_trips _ l)) _ _ ((k0_off13_eq k ⟨0, by decide⟩ ⟨7, by decide⟩).trans (vec1_congr (by simp only []; omega))) _ (base L + 16 * k.val + 7) (by omega) (fun l => store_cast m d _ _ t2_trips _ l)) _ _ ((k0_off13_eq k ⟨1, by decide⟩ ⟨0, by decide⟩).trans (vec1_congr (by simp only []; omega))) _ (base L + 16 * k.val + 8) (by omega) (fun l => store_k0_pay43 m d _ _ t3_trips l)) _ _ ((k0_off13_eq k ⟨1, by decide⟩ ⟨1, by decide⟩).trans (vec1_congr (by simp only []; omega))) _ (base L + 16 * k.val + 8 + 1) (by omega) (fun l => store_k0_pay44 m d _ _ t3_trips l)) _ _ ((k0_off13_eq k ⟨1, by decide⟩ ⟨2, by decide⟩).trans (vec1_congr (by simp only []; omega))) _ (base L + 16 * k.val + 8 + 2) (by omega) (fun l => store_k0_pay45 m d _ _ t3_trips l)) _ _ ((k0_off13_eq k ⟨1, by decide⟩ ⟨3, by decide⟩).trans (vec1_congr (by simp only []; omega))) _ (base L + 16 * k.val + 8 + 3) (by omega) (fun l => store_k0_pay46 m d _ _ t3_trips l)) _ _ ((k0_off13_eq k ⟨1, by decide⟩ ⟨4, by decide⟩).trans (vec1_congr (by simp only []; omega))) _ (base L + 16 * k.val + 8 + 4) (by omega) (fun l => store_k0_pay47 m d _ _ t3_trips l)) _ _ ((k0_off13_eq k ⟨1, by decide⟩ ⟨5, by decide⟩).trans (vec1_congr (by simp only []; omega))) _ (base L + 16 * k.val + 8 + 5) (by omega) (fun l => store_k0_pay48 m d _ _ t3_trips l)) _ _ ((k0_off13_eq k ⟨1, by decide⟩ ⟨6, by decide⟩).trans (vec1_congr (by simp only []; omega))) _ (base L + 16 * k.val + 8 + 6) (by omega) (fun l => store_k0_pay49 m d _ _ t3_trips l)) _ _ ((k0_off13_eq k ⟨1, by decide⟩ ⟨7, by decide⟩).trans (vec1_congr (by simp only []; omega))) _ (base L + 16 * k.val + 8 + 7) (by omega) (fun l => store_k0_pay50 m d _ _ t3_trips l))
    isplitl [HF0 HF1 HA H1 H2]
    · rw [if_neg hk]
      unfold aLanded
      isplitl [HF0]; · iexact HF0
      isplitl [HF1]; · iexact HF1
      isplitl [H1]; · iexists _; iexact H1
      isplitl [H2]; · iexists _; iexact H2
      iexact HA
    iexists (insert (SemLoc.dma cc0_scratch7.sem, (default : HIx 1)) (insert (SemLoc.dma cc0_scratch6.sem, (default : HIx 1)) W')); isplitr
    · ipureintro; intro p hp
      rcases Finset.mem_insert.mp hp with hp | hp
      · exact .inr (by subst hp; rfl)
      rcases Finset.mem_insert.mp hp with hp | hp
      · exact .inr (by subst hp; rfl)
      · exact hW' p hp
    · iexact HO

end Cert.Kernel.Pf

end
-- ==== Proof.Word.TileTail.lean ====
/-
  The second half of a vector subcore's task: from the lane rows to its 256 entries of the result.

  After the outer loop, row `ρ` of the lane rows holds the sixteen lane accumulators of matrix row `base + ρ`. Three
  passes add, in place and row after row, each row's sixteen entries to the sixteen entries 8, then 4, then 2 further
  on: after them the first two entries of a row are the two partial sums `fold2 … 0` and `fold2 … 1`. A fourth pass
  adds at distance 1 into the folded rows, whose column 0 is then the row's result `rowSum`. Column 0 is copied to the
  subcore's row of the shared scratch and from there to the subcore's 256 entries of the result, which therefore end
  at the rows' results: the specification's lane part at those entries. Each pass is a counted loop whose invariant is
  a pure fact about the rows' contents (`PassInv`); the copies are two local transfers, each waited for at once.
-/
import proofs.«219795_g11467562680804_week1_w4_611_41_alg».proof.Proof.Word.TileStorage
import proofs.«219795_g11467562680804_week1_w4_611_41_alg».proof.Proof.Entries
import proofs.«219795_g11467562680804_week1_w4_611_41_alg».proof.Proof.FoldRows

noncomputable section

namespace Cert.Kernel.Pf

open Cert.Kernel Cert.Kernel.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

/-- What the subcore's task does after its outer loop: the four in-place additions of the lane rows at distances 8,
    4, 2 and 1 (the last into the folded rows), then column 0 of the folded rows to the subcore's row of the shared
    scratch and from there to its 256 entries of the result. -/
noncomputable def tailProg (L : grid0.Coords) :
    Prog (TpuEff nD τ sig (Elt F) Λ₀ (.scVector ((L 0).castLE hcore0) ((L 1).castLE hsub0))) PUnit := do
  Scf.Loop.for k0_t4_loop k0_t4_ok ⟨⟩ (k0_t4_body L aV (Memref.isWhole_whole _) xV (Memref.isWhole_whole _) oV (Memref.isWhole_whole _) s0 (Memref.isWhole_whole _) s1 (Memref.isWhole_whole _) s2 (Memref.isWhole_whole _) s3 (Memref.isWhole_whole _) s4 (Memref.isWhole_whole _) shV (Memref.isWhole_whole _) cc0_scratch6 cc0_scratch7 cc0_scoped0 cc0_scoped1 cc0_scoped2)
  Scf.Loop.for k0_t5_loop k0_t5_ok ⟨⟩ (k0_t5_body L aV (Memref.isWhole_whole _) xV (Memref.isWhole_whole _) oV (Memref.isWhole_whole _) s0 (Memref.isWhole_whole _) s1 (Memref.isWhole_whole _) s2 (Memref.isWhole_whole _) s3 (Memref.isWhole_whole _) s4 (Memref.isWhole_whole _) shV (Memref.isWhole_whole _) cc0_scratch6 cc0_scratch7 cc0_scoped0 cc0_scoped1 cc0_scoped2)
  Scf.Loop.for k0_t6_loop k0_t6_ok ⟨⟩ (k0_t6_body L aV (Memref.isWhole_whole _) xV (Memref.isWhole_whole _) oV (Memref.isWhole_whole _) s0 (Memref.isWhole_whole _) s1 (Memref.isWhole_whole _) s2 (Memref.isWhole_whole _) s3 (Memref.isWhole_whole _) s4 (Memref.isWhole_whole _) shV (Memref.isWhole_whole _) cc0_scratch6 cc0_scratch7 cc0_scoped0 cc0_scoped1 cc0_scoped2)
  Scf.Loop.for k0_t7_loop k0_t7_ok ⟨⟩ (k0_t7_body L aV (Memref.isWhole_whole _) xV (Memref.isWhole_whole _) oV (Memref.isWhole_whole _) s0 (Memref.isWhole_whole _) s1 (Memref.isWhole_whole _) s2 (Memref.isWhole_whole _) s3 (Memref.isWhole_whole _) s4 (Memref.isWhole_whole _) shV (Memref.isWhole_whole _) cc0_scratch6 cc0_scratch7 cc0_scoped0 cc0_scoped1 cc0_scoped2)
  let v20_r1 : Memref sig .scVector .shared S1x256 .f32 := (shV).slice (Rect.unit (s := S16x256) (k0_off34 L) S1x256.size (k0_off34_inb L)) (fun _ => rfl)
  let v21_r1 : Memref sig .scVector .shared S256 .f32 := v20_r1.squeeze S256 squeezes_S1x256_S256
  let v22_r1 : Memref sig .scVector .vmem S256x1 .f32 := (s4).slice (Rect.unit (s := S256x16) ![0, 0] S256x1.size inb_S256x16_S256x1_0_0) (fun _ => rfl)
  let v23_r1 : Memref sig .scVector .vmem S256 .f32 := v22_r1.squeeze S256 squeezes_S256x1_S256
  Prog.lift (.enqueueDma v23_r1 (.here v21_r1) (.dma cc0_scoped1.sem) ((View.wordExact_bits rfl).reshape _ _) ((View.wordExact_bits rfl).reshape _ _) ⟨Or.inl rfl, trivial⟩)
  let v28_r1 : Memref sig .scVector .shared S1x256 .f32 := (shV).slice (Rect.unit (s := S16x256) (k0_off34 L) S1x256.size (k0_off34_inb L)) (fun _ => rfl)
  let v29_r1 : Memref sig .scVector .shared S256 .f32 := v28_r1.squeeze S256 squeezes_S1x256_S256
  let v30_r1 : Memref sig .scVector .vmem S256x1 .f32 := (s4).slice (Rect.unit (s := S256x16) ![0, 0] S256x1.size inb_S256x16_S256x1_0_0) (fun _ => rfl)
  let v31_r1 : Memref sig .scVector .vmem S256 .f32 := v30_r1.squeeze S256 squeezes_S256x1_S256
  Prog.lift (.waitDma2 cc0_scoped1.sem v31_r1 v29_r1 ((View.wordExact_bits rfl).reshape _ _) ((View.wordExact_bits rfl).reshape _ _))
  let v16_r2 : Memref sig .scVector .hbm S256 .f32 := (oV).slice (Rect.unit (s := S4096) (k0_off35 L) S256.size (k0_off35_inb L)) (fun _ => rfl)
  let v17_r2 : Memref sig .scVector .shared S1x256 .f32 := (shV).slice (Rect.unit (s := S16x256) (k0_off34 L) S1x256.size (k0_off34_inb L)) (fun _ => rfl)
  let v18_r2 : Memref sig .scVector .shared S256 .f32 := v17_r2.squeeze S256 squeezes_S1x256_S256
  Prog.lift (.enqueueDma v18_r2 (.here v16_r2) (.dma cc0_scoped2.sem) ((View.wordExact_bits rfl).reshape _ _) (View.wordExact_bits rfl) ⟨Or.inl rfl, trivial⟩)
  let v19_r2 : Memref sig .scVector .hbm S256 .f32 := (oV).slice (Rect.unit (s := S4096) (k0_off35 L) S256.size (k0_off35_inb L)) (fun _ => rfl)
  let v20_r2 : Memref sig .scVector .shared S1x256 .f32 := (shV).slice (Rect.unit (s := S16x256) (k0_off34 L) S1x256.size (k0_off34_inb L)) (fun _ => rfl)
  let v21_r2 : Memref sig .scVector .shared S256 .f32 := v20_r2.squeeze S256 squeezes_S1x256_S256
  Prog.lift (.waitDma2 cc0_scoped2.sem v21_r2 v19_r2 ((View.wordExact_bits rfl).reshape _ _) (View.wordExact_bits rfl))
  pure ⟨⟩

/-- What the outer loop leaves: row `ρ` of the lane rows holds the sixteen lane accumulators of matrix row
    `base L + ρ` after all 256 chunks. -/
def laneRows (A : Buf (Elt F) (aLoc d)) (X : Buf (Elt F) (xLoc d)) (L : grid0.Coords)
    (f3 : Buf (Elt F) ((thr d L).loc cc0_scratch3)) : Prop :=
  ∀ (ρ : Fin 256) (l : Fin 16), f3 (ix1 (⟨16 * ρ.val + l.val, by omega⟩ : Fin 4112)) = laneAcc A X (base L + ρ.val) l.val 256

/-- Each pass runs over all 256 rows. -/
theorem trips4 : k0_t4_loop.trips = 256 := by decide
theorem trips5 : k0_t5_loop.trips = 256 := by decide
theorem trips6 : k0_t6_loop.trips = 256 := by decide
theorem trips7 : k0_t7_loop.trips = 256 := by decide

/-- The three in-place passes' payloads are the lane-by-lane sums of their two loads. -/
theorem k0_pay51_apply (a b : Vec F S16 .f32) (l : S16.Idx) : k0_pay51 a b l = FloatOps.addf (a l) (b l) := by
  unfold k0_pay51; simp only [shapeCast_self]; rfl
theorem k0_pay52_apply (a b : Vec F S16 .f32) (l : S16.Idx) : k0_pay52 a b l = FloatOps.addf (a l) (b l) := by
  unfold k0_pay52; simp only [shapeCast_self]; rfl
theorem k0_pay53_apply (a b : Vec F S16 .f32) (l : S16.Idx) : k0_pay53 a b l = FloatOps.addf (a l) (b l) := by
  unfold k0_pay53; simp only [shapeCast_self]; rfl

/-- A pass at distance `δ` over input rows `In`, before row `k`: the lane rows at contents in the pass's state. -/
def invPass (δ : Nat) (In : Nat → Nat → F .f32) (k : Nat) (_ : PUnit) : sProp 𝕄 :=
  iprop(∃ f, ((s3).view.loc (thr d L) ↦{fullShare} f) ∗ ⌜PassInv δ In k f⌝)

/-- The rows the three passes work on: the lane accumulators, then the sums at distance 8, then at distance 4. -/
def in8 (A : Buf (Elt F) (aLoc d)) (X : Buf (Elt F) (xLoc d)) (L : grid0.Coords) (ρ l : Nat) : F .f32 := laneAcc A X (base L + ρ) l 256
def in4 (A : Buf (Elt F) (aLoc d)) (X : Buf (Elt F) (xLoc d)) (L : grid0.Coords) (ρ l : Nat) : F .f32 := fold8 A X (base L + ρ) l
def in2 (A : Buf (Elt F) (aLoc d)) (X : Buf (Elt F) (xLoc d)) (L : grid0.Coords) (ρ l : Nat) : F .f32 := fold4 A X (base L + ρ) l

/-- The last pass's payload is the lane-by-lane sum of its two loads, as a 1 × 16 row. -/
theorem k0_pay54_apply (a b : Vec F S16 .f32) (j : S1x16.Idx) :
    k0_pay54 a b j = FloatOps.addf (a (ix1 (j 1))) (b (ix1 (j 1))) := by
  unfold k0_pay54
  rw [Cert.ViewAt.shapeCast_vec_to_row]
  simp only [shapeCast_self]
  rfl

/-- The last pass before row `k`: the lane rows as the third pass left them, the folded rows' column 0 at the rows'
    results for the rows before `k`. -/
def invLast (fC : Buf (Elt F) ((thr d L).loc cc0_scratch3)) (k : Nat) (_ : PUnit) : sProp 𝕄 :=
  iprop(((s3).view.loc (thr d L) ↦{fullShare} fC)
    ∗ ∃ g, ((s4).view.loc (thr d L) ↦{fullShare} g)
      ∗ ⌜∀ ρ : Fin 256, ρ.val < k → g (ix2 ρ (0 : Fin 16)) = rowSum (m (aLoc d)) (m (xLoc d)) (base L + ρ.val)⌝)

/-- Column 0 of the folded rows, as the first copy reads it: entry `j` is the folded rows' entry `(j, 0)`. -/
theorem col0_read (g : Buf (Elt F) ((thr d L).loc cc0_scratch4)) (j : S256.Idx) :
    View.read (Elt F)
        (((s4).slice (Rect.unit (s := S256x16) ![0, 0] S256x1.size inb_S256x16_S256x1_0_0) (fun _ => rfl)).squeeze S256
          squeezes_S256x1_S256).view g j
      = g (ix2 (j 0) (0 : Fin 16)) := by
  have e := congrFun (Memref.read_squeeze_slice (Val := Elt F) (s4)
    (Rect.unit (s := S256x16) ![0, 0] S256x1.size inb_S256x16_S256x1_0_0) (fun _ => rfl) squeezes_S256x1_S256
    (by decide) g) j
  rw [e, Cert.ViewAt.shapeCast_col_to_vec]
  have r := Cert.ViewAt.readAt_block2 (Val := Elt F) (s4).view g (off := ![0, 0]) (r0 := 0) (c0 := 0) (hh := 256) (w := 1) rfl
    inb_S256x16_S256x1_0_0 (ix2 (j 0) (0 : Fin 1))
  refine r.trans ?_
  exact congrArg g (funext fun a => by
    match a with
    | ⟨0, _⟩ => exact Fin.ext (Nat.zero_add _)
    | ⟨1, _⟩ => exact Fin.ext rfl)

/-- What the second copy leaves in the subcore's 256 entries of the result: there, the rows' results. -/
theorem out_agree (fsh : Buf (Elt F) ((shSl L).view.loc (thr d L))) (g : Buf (Elt F) ((thr d L).loc cc0_scratch4))
    (hg : ∀ ρ : Fin 256, ρ.val < 256 → g (ix2 ρ (0 : Fin 16)) = rowSum (m (aLoc d)) (m (xLoc d)) (base L + ρ.val))
    (w0 : S256.Idx → F .f32)
    (hw0 : w0 = ReadAs.same.apply (View.read (Elt F)
      (((s4).slice (Rect.unit (s := S256x16) ![0, 0] S256x1.size inb_S256x16_S256x1_0_0) (fun _ => rfl)).squeeze S256
        squeezes_S256x1_S256).view g))
    (w1 : S256.Idx → F .f32)
    (hw1 : w1 = ReadAs.same.apply (View.read (Elt F) (shSl L).view
      ((shSl L).view.writes (Elt F) fsh [⟨Rect.whole S256, w0⟩]))) :
    ∀ i ∈ (oSl L).view.set, (oSl L).view.writes (Elt F) (m (oLoc d)) [⟨Rect.whole S256, w1⟩] i = scOut m d i := by
  intro i hi
  obtain ⟨j, -, rfl⟩ := Finset.mem_map.mp hi
  have eL : (oSl L).view.writes (Elt F) (m (oLoc d)) [⟨Rect.whole S256, w1⟩] ((oSl L).view.emb j) = w1 j :=
    Cert.ViewAt.read_writes_whole (oSl L).view (m (oLoc d)) w1 j
  have e1 : w1 j = w0 j := by
    rw [hw1]
    exact Cert.ViewAt.read_writes_whole (shSl L).view fsh w0 j
  have e0 : w0 j = g (ix2 (j 0) (0 : Fin 16)) := by
    rw [hw0]
    exact col0_read d L g j
  have hj : (j 0).val < 256 := (j 0).isLt
  have eidx : (oSl L).view.emb j
      = ix1 (⟨256 * (L 1).val + 256 * (L 0).val + (j 0).val,
          Cert.ViewAt.lt_of_inb1 (k0_off35_eq L) (k0_off35_inb L) (j 0).isLt⟩ : Fin 4096) :=
    Cert.ViewAt.emb_unit1 (k0_off35_eq L) (k0_off35_inb L) j
  rw [eL, e1, e0, hg (j 0) hj, eidx]
  show _ = rowSum (m (aLoc d)) (m (xLoc d)) (12288 + (256 * (L 1).val + 256 * (L 0).val + (j 0).val))
  congr 1
  show 256 * (L 1).val + 256 * (L 0).val + 12288 + (j 0).val = 12288 + (256 * (L 1).val + 256 * (L 0).val + (j 0).val)
  omega

/-- The same at the contents the two copies leave, spelt as the run spells them. -/
theorem out_agree_run (fsh : Buf (Elt F) ((shSl L).view.loc (thr d L))) (g : Buf (Elt F) ((thr d L).loc cc0_scratch4))
    (hg : ∀ ρ : Fin 256, ρ.val < 256 → g (ix2 ρ (0 : Fin 16)) = rowSum (m (aLoc d)) (m (xLoc d)) (base L + ρ.val)) :
    ∀ i ∈ (oSl L).view.set,
      (oSl L).view.writes (Elt F) (m (oLoc d))
        [⟨Rect.whole S256, ReadAs.same.apply (View.read (Elt F) (shSl L).view
          ((shSl L).view.writes (Elt F) fsh
            [⟨Rect.whole S256, ReadAs.same.apply (View.read (Elt F)
              (((s4).slice (Rect.unit (s := S256x16) ![0, 0] S256x1.size inb_S256x16_S256x1_0_0) (fun _ => rfl)).squeeze S256
                squeezes_S256x1_S256).view g)⟩]))⟩] i
        = scOut m d i :=
  out_agree m d L fsh g hg _ rfl _ rfl

theorem tile_tail (O : CellTallies nD τ sig (HIx 1)) (W1 : Waits sig (HIx 1))
    (f3 : Buf (Elt F) ((thr d L).loc cc0_scratch3)) (hf3 : laneRows d (m (aLoc d)) (m (xLoc d)) L f3) :
  (iprop(Transfers.MayWaits (thr d L) (none : HIx 1) O ∗ ((s3).view.loc (thr d L) ↦{fullShare} f3)
      ∗ (∃ f4, (s4).view.loc (thr d L) ↦{fullShare} f4)
      ∗ ((oSl L).view.loc (thr d L) ↦[(oSl L).view.set]{fullShare} m (oLoc d))
      ∗ (∃ fsh, (shSl L).view.loc (thr d L) ↦[(shSl L).view.set]{fullShare} fsh)
      ∗ semVal (cellS d (cV L) (jV L)) 0 ∗ semVal (cellO d (cV L) (jV L)) 0 ∗ owes (thr d L) O W1) : sProp 𝕄)
    ⊢ wp frame (wpE (defs₀ (F := F)) 𝒱₀ (thr d L) none) Set.univ (tailProg (F := F) L) fun _ =>
        iprop((∃ f3', (s3).view.loc (thr d L) ↦{fullShare} f3') ∗ (∃ f4, (s4).view.loc (thr d L) ↦{fullShare} f4)
          ∗ ((oSl L).view.loc (thr d L) ↦[(oSl L).view.set]{fullShare} scOut m d)
          ∗ (∃ fsh, (shSl L).view.loc (thr d L) ↦[(shSl L).view.set]{fullShare} fsh)
          ∗ semVal (cellS d (cV L) (jV L)) 0 ∗ semVal (cellO d (cV L) (jV L)) 0
          ∗ ∃ W', ⌜∀ p ∈ W', p ∈ W1 ∨ p.2 = none⌝ ∗ owes (thr d L) O W') := by
  unfold tailProg
  iintro ⟨#Hmw, H3, ⟨%f4, H4⟩, HOut, ⟨%fsh, HSh⟩, HsS, HsO, HO⟩
  sl_for (invPass (F := F) d L 8 (in8 d (m (aLoc d)) (m (xLoc d)) L)) $$ [H3]
  case region =>
    intro k _
    unfold invPass
    iintro ⟨%f, H3, %hinv⟩
    sl_exec
    sl_step
    iexists _
    isplitl [H3]; · iexact H3
    ipureintro
    have hk : k.val < 256 := Nat.lt_of_lt_of_le k.isLt k0_t4_abs.2.1
    have st := fold_step_view (F := F) (s3).view f (k0_off25_eq k) (k0_off26_eq k) (k0_off25_inb k) (k0_off26_inb k) _
      (fun l => k0_pay51_apply _ _ l)
    exact PassInv.step (δ := 8) (by norm_num) hk hinv st.1 st.2
  · unfold invPass
    iexists f3
    isplitl [H3]; · iexact H3
    ipureintro
    refine PassInv.start fun ρ l hρ hl => ?_
    rw [rowAt_of_lt _ (show 16 * ρ + l < 4112 by omega)]
    exact hf3 ⟨ρ, hρ⟩ ⟨l, by omega⟩
  iintro %_ HI
  unfold invPass
  icases HI with ⟨%fA, H3, %hA⟩
  rw [show Scf.trips k0_t4_loop.lb k0_t4_loop.ub k0_t4_loop.st = 256 from trips4] at hA
  sl_for (invPass (F := F) d L 4 (in4 d (m (aLoc d)) (m (xLoc d)) L)) $$ [H3]
  case region =>
    intro k _
    unfold invPass
    iintro ⟨%f, H3, %hinv⟩
    sl_exec
    sl_step
    iexists _
    isplitl [H3]; · iexact H3
    ipureintro
    have hk : k.val < 256 := Nat.lt_of_lt_of_le k.isLt k0_t5_abs.2.1
    have st := fold_step_view (F := F) (s3).view f (k0_off27_eq k) (k0_off28_eq k) (k0_off27_inb k) (k0_off28_inb k) _
      (fun l => k0_pay52_apply _ _ l)
    exact PassInv.step (δ := 4) (by norm_num) hk hinv st.1 st.2
  · unfold invPass
    iexists fA
    isplitl [H3]; · iexact H3
    ipureintro
    exact PassInv.start fun ρ l hρ hl => hA.finish ρ l hρ (by omega)
  iintro %_ HI
  unfold invPass
  icases HI with ⟨%fB, H3, %hB⟩
  rw [show Scf.trips k0_t5_loop.lb k0_t5_loop.ub k0_t5_loop.st = 256 from trips5] at hB
  sl_for (invPass (F := F) d L 2 (in2 d (m (aLoc d)) (m (xLoc d)) L)) $$ [H3]
  case region =>
    intro k _
    unfold invPass
    iintro ⟨%f, H3, %hinv⟩
    sl_exec
    sl_step
    iexists _
    isplitl [H3]; · iexact H3
    ipureintro
    have hk : k.val < 256 := Nat.lt_of_lt_of_le k.isLt k0_t6_abs.2.1
    have st := fold_step_view (F := F) (s3).view f (k0_off29_eq k) (k0_off30_eq k) (k0_off29_inb k) (k0_off30_inb k) _
      (fun l => k0_pay53_apply _ _ l)
    exact PassInv.step (δ := 2) (by norm_num) hk hinv st.1 st.2
  · unfold invPass
    iexists fB
    isplitl [H3]; · iexact H3
    ipureintro
    exact PassInv.start fun ρ l hρ hl => hB.finish ρ l hρ (by omega)
  iintro %_ HI
  unfold invPass
  icases HI with ⟨%fC, H3, %hC⟩
  rw [show Scf.trips k0_t6_loop.lb k0_t6_loop.ub k0_t6_loop.st = 256 from trips6] at hC
  sl_for (invLast (F := F) m d L fC) $$ [H3 H4]
  case region =>
    intro k _
    unfold invLast
    iintro ⟨H3, %g, H4, %hg⟩
    sl_exec
    sl_step
    isplitl [H3]; · iexact H3
    iexists _
    isplitl [H4]; · iexact H4
    ipureintro
    intro ρ hρ
    have hk : k.val < 256 := Nat.lt_of_lt_of_le k.isLt k0_t7_abs.2.1
    have st := last_step_view (F := F) (s3).view fC (s4).view g (k0_off31_eq k) (k0_off32_eq k) (k0_off33_eq k)
      (k0_off31_inb k) (k0_off32_inb k) (k0_off33_inb k) _ (fun j => k0_pay54_apply _ _ j) ρ
    refine st.trans ?_
    by_cases hρk : ρ.val = k.val
    · rw [if_pos hρk]
      have e0 := hC.finish k.val 0 hk (by norm_num)
      have e1 := hC.finish k.val 1 hk (by norm_num)
      rw [hρk]
      exact (congrArg₂ FloatOps.addf e0 e1)
    · rw [if_neg hρk]
      exact hg ρ (by omega)
  · unfold invLast
    isplitl [H3]; · iexact H3
    iexists f4
    isplitl [H4]; · iexact H4
    ipureintro
    exact fun ρ hρ => absurd hρ (Nat.not_lt_zero _)
  iintro %_ HI
  unfold invLast
  icases HI with ⟨H3, %g, H4, %hg⟩
  rw [show Scf.trips k0_t7_loop.lb k0_t7_loop.ub k0_t7_loop.st = 256 from trips7] at hg
  sl_exec
  sl_step
  isplitl [H3]; · iexists _; iexact H3
  isplitl [H4]; · iexists _; iexact H4
  isplitl [HOut]
  · sl_unfold_run_names
    iapply (Entails.of_eq (pointsTo_congr (out_agree_run (F := F) m d L fsh g hg)))
    iexact HOut
  isplitl [HSh]; · iexists _; iexact HSh
  isplitl [HsS]; · iexact HsS
  isplitl [HsO]; · iexact HsO
  iexists (insert (SemLoc.dma cc0_scoped2.sem, (default : HIx 1)) (insert (SemLoc.dma cc0_scoped1.sem, (default : HIx 1)) W1))
  isplitr
  · ipureintro; intro p hp
    rcases Finset.mem_insert.mp hp with hp | hp
    · exact .inr (hp ▸ rfl)
    · rcases Finset.mem_insert.mp hp with hp | hp
      · exact .inr (hp ▸ rfl)
      · exact .inl hp
  · iexact HO

end Cert.Kernel.Pf

end
-- ==== Proof.Word.TileBody.lean ====
import proofs.«219795_g11467562680804_week1_w4_611_41_alg».proof.Proof.Word.TileTrip
import proofs.«219795_g11467562680804_week1_w4_611_41_alg».proof.Proof.Word.TileTail

set_option pp.maxSteps 4000
set_option pp.deepTerms false

noncomputable section

namespace Cert.Kernel.Pf

open Cert.Kernel Cert.Kernel.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) [FloatOps F]
variable (d : Dev nD) (L : grid0.Coords)

set_option maxHeartbeats 4000000 in
/-- The task of vector subcore `L`: copy the vector, stream its 32 blocks of 8 rows through two buffers accumulating
    each row in 16 lanes, fold the lanes, and write its 256 results out through its row of the shared scratch. -/
theorem tile_body (hF : (K (F := F)).Facts) (O : CellTallies nD τ sig (HIx 1)) (W : Waits sig (HIx 1)) (hO : ∀ g, O g none = 0) :
    iprop(levAts (K (F := F)).L (K (F := F)).lev ∗ emp ∗ tileGo m d L
        ∗ scopedBufs (thr d L) ∗ scopedSems0 (thr d L) ∗ owes (thr d L) O W)
      ⊢ wp frame (wpE (defs₀ (F := F)) 𝒱₀ (thr d L) none) Set.univ
          (cc0__sc_mv L aV (Memref.isWhole_whole _) xV (Memref.isWhole_whole _) oV (Memref.isWhole_whole _)
            s0 (Memref.isWhole_whole _) s1 (Memref.isWhole_whole _) s2 (Memref.isWhole_whole _) s3 (Memref.isWhole_whole _) s4 (Memref.isWhole_whole _)
            shV (Memref.isWhole_whole _) cc0_scratch6 cc0_scratch7 cc0_scoped0 cc0_scoped1 cc0_scoped2)
          fun _ => iprop(tileTd m d L ∗ scopedBufs (thr d L) ∗ scopedSems0 (thr d L)
            ∗ ∃ W', ⌜∀ p ∈ W', p ∈ W ∨ p.2 = none⌝ ∗ owes (thr d L) O W') := by
  simp only [cc0__sc_mv_eq_skeleton]; unfold cc0__sc_mv_skel
  simp only [k0_part6_eq_skeleton]; unfold k0_part6_skel
  simp only [bind_assoc]
  rw [(K (F := F)).scopedBufs_V hF d (cV L) (jV L), SparseCore.Cfg.scopedSems0_V (Val := Elt F) d (cV L) (jV L), ownSems0_V5, ownBufs_V5]
  unfold tileGo
  iintro ⟨#Hlv, -, ⟨HA, HX, HOut, ⟨%fsh, HSh⟩⟩, ⟨⟨%f0, H0⟩, ⟨%f1, H1⟩, ⟨%f2, H2⟩, ⟨%f3, H3⟩, ⟨%f4, H4⟩, Hbufs⟩, ⟨HsA0, HsA1, HsX, HsS, HsO, Hsems⟩, HO⟩
  ihave Hmw := ((K (F := F)).mayWaits_none (thr := thr d L) hO) $$ Hlv
  ihave HA' := (Entails.of_eq (pts_aV (F := F) d L _ _).symm) $$ HA
  ihave HX' := (Entails.of_eq (pts_xV (F := F) d L _ _).symm) $$ HX
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  sl_exec
  -- the landed vector is the vector
  ihave H0c := (Entails.of_eq (congrArg (fun c => ((s0).view.loc (thr d L) ↦{fullShare} c : sProp 𝕄)) (x_lands m d L f0 (tile_body.sl.dma0 m d) (by sl_unfold_run_names; rfl)))) $$ H0'
  sl_for (invOuter m d L O W (Transfers.shareTok fullShare 16 (jV L))) $$ [Hmw HX' H0c H3' HsA0 HsA1 HA' HO]
  case region =>
    intro k _
    exact outer_trip m d L O W _ k
  · unfold invOuter
    rw [if_pos (by norm_num : (0 : Nat) < 16)]
    unfold aFly
    isplitl [Hmw]; · iexact Hmw
    isplitl [HX']; · iexact HX'
    isplitl [H0c]; · iexact H0c
    isplitl [H3']
    · iexists _
      isplitl [H3']; · iexact H3'
      ipureintro; intro y hy; exact absurd hy (by omega)
    isplitl [HsA0 HsA1 HA']
    · iexists (k0_off1 L), (k0_off1_inb L), (k0_off2 L), (k0_off2_inb L)
      isplitr
      · ipureintro
        exact ⟨(k0_off1_eq L).trans (vec2_congr (by omega)), (k0_off2_eq L).trans (vec2_congr (by omega))⟩
      isplitl [HsA0]
      · iapply (Transfers.Flight_mono _ _ ?_) $$ HsA0
        iintro ⟨H, HA⟩
        isplitl [H]
        · iapply (Entails.of_eq (congrArg (fun c => ((s1).view.loc (thr d L) ↦{fullShare} c : sProp 𝕄))
            (blk_lands1 m d L (k0_off1 L) (k0_off1_inb L) (base L + 16 * 0) ((k0_off1_eq L).trans (vec2_congr (by unfold base; omega))) (tile_body.sl.dma0_1 m d L) (by sl_unfold_run_names; rfl) _)))
          iexact H
        iexact HA
      isplitl [HsA1]
      · iapply (Transfers.Flight_mono _ _ ?_) $$ HsA1
        iintro ⟨H, HA⟩
        isplitl [H]
        · iapply (Entails.of_eq (congrArg (fun c => ((s2).view.loc (thr d L) ↦{fullShare} c : sProp 𝕄))
            (blk_lands2 m d L (k0_off2 L) (k0_off2_inb L) (base L + 16 * 0 + 8) ((k0_off2_eq L).trans (vec2_congr (by unfold base; omega))) (tile_body.sl.dma0_2 m d L) (by sl_unfold_run_names; rfl) _)))
          iexact H
        iexact HA
      iexact HA'
    iexists (insert (SemLoc.dma cc0_scoped0.sem, (default : HIx 1)) W); isplitr
    · ipureintro; intro p hp
      rcases Finset.mem_insert.mp hp with hp | hp
      · exact .inr (by subst hp; rfl)
      · exact .inl hp
    · iexact HO
  iintro %_ HI
  have e16 : Scf.trips k0_t1_loop.lb k0_t1_loop.ub k0_t1_loop.st = 16 := t1_trips
  rw [e16]
  unfold invOuter
  rw [if_neg (by norm_num : ¬ (16 : Nat) < 16)]
  unfold aLanded
  icases HI with ⟨-, HX, H0, ⟨%g3, H3, %hg3⟩, ⟨HsA0, HsA1, ⟨%c1, H1⟩, ⟨%c2, H2⟩, HA⟩, %W1, %hW1, HO⟩
  have hrows : laneRows d (m (aLoc d)) (m (xLoc d)) L g3 := by
    intro ρ l
    have hρ := ρ.isLt
    have hl := l.isLt
    refine (hg3 (ix1 (⟨16 * ρ.val + l.val, by omega⟩ : Fin 4112)) (by show 16 * ρ.val + l.val < 16 * (16 * 16); omega)).trans ?_
    show laneAcc (F := F) (m (aLoc d)) (m (xLoc d)) (base L + (16 * ρ.val + l.val) / 16) ((16 * ρ.val + l.val) % 16) 256 = _
    have e1 : (16 * ρ.val + l.val) / 16 = ρ.val := by omega
    have e2 : (16 * ρ.val + l.val) % 16 = l.val := by omega
    rw [e1, e2]
  -- what remains is the tail: the four folds and the two copies out
  ihave Hwp := (tile_tail m d L O W1 g3 hrows) $$ [H3 H4' HOut HSh HsS HsO HO]
  · isplitr; · iexact Hmw
    isplitl [H3]; · iexact H3
    isplitl [H4']; · iexists _; iexact H4'
    isplitl [HOut]; · iexact HOut
    isplitl [HSh]; · iexists _; iexact HSh
    isplitl [HsS]; · iexact HsS
    isplitl [HsO]; · iexact HsO
    iexact HO
  iapply (wp_wand_r frame (wpE (defs₀ (F := F)) 𝒱₀ (thr d L) none) Set.univ)
  isplitl [Hwp]; · iexact Hwp
  iintro %_ ⟨⟨%g3', H3⟩, ⟨%g4, H4⟩, HOut, ⟨%fsh', HSh⟩, HsS, HsO, %W2, %hW2, HO⟩
  unfold tileTd
  isplitl [HA HX HOut HSh]
  · isplitl [HA]; · iapply (Entails.of_eq (pts_aV (F := F) d L _ _)); iexact HA
    isplitl [HX]; · iapply (Entails.of_eq (pts_xV (F := F) d L _ _)); iexact HX
    isplitl [HOut]; · iexact HOut
    iexists _; iexact HSh
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [HsA0 HsA1 HsX HsS HsO Hsems]
  · isplitl [HsA0]; · iexact HsA0
    isplitl [HsA1]; · iexact HsA1
    isplitl [HsX]; · iexact HsX
    isplitl [HsS]; · iexact HsS
    isplitl [HsO]; · iexact HsO
    iexact Hsems
  iexists W2; isplitr
  · ipureintro; intro p hp
    rcases hW2 p hp with h | h
    · exact hW1 p h
    · exact .inr h
  · iexact HO

end Cert.Kernel.Pf

end
-- ==== Proof.Word.TileObl.lean ====
import proofs.«219795_g11467562680804_week1_w4_611_41_alg».proof.Proof.Word.TileBody

noncomputable section

namespace Cert.Kernel.Pf

open Cert.Kernel Cert.Kernel.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- The body table's row for a vector subcore is the kernel at that subcore's coordinates on the whole arrays and its scratch. -/
theorem defs₀_vector (c : Fin τ.nSC) (s : Fin τ.nSub) :
    defs₀ (F := F) (.scVector c s) 0 ()
      = SparseCore.onTile hcore0 hsub0 (fun c s => cc0__sc_mv (coordsV c s)
          aV (Memref.isWhole_whole _) xV (Memref.isWhole_whole _) oV (Memref.isWhole_whole _)
          s0 (Memref.isWhole_whole _) s1 (Memref.isWhole_whole _) s2 (Memref.isWhole_whole _) s3 (Memref.isWhole_whole _) s4 (Memref.isWhole_whole _)
          shV (Memref.isWhole_whole _) cc0_scratch6 cc0_scratch7 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the one vector-subcore call: every task of its grid is `tile_body`. -/
theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

end Cert.Kernel.Pf

end
-- ==== Proof.Word.LaunchSplit.lean ====
/-
  How SparseCore 0's operands split among its sixteen vector subcores and gather back.

  The matrix and the vector are read by every subcore: each is handed one of sixteen read shares of the whole
  array, the remainder staying with the split until the shares come back. The SparseCore's 4096 results are cut
  into sixteen runs of 256 consecutive entries, run `w` to subcore `w`; the shared scratch (sixteen rows of 256)
  is cut into its rows, row `w` to subcore `w`. The runs and the rows are the sixteen parts of their arrays
  along the leading axis, so they are pairwise disjoint and cover them.
-/
import proofs.«219795_g11467562680804_week1_w4_611_41_alg».proof.Proof.Word.Common
import Idealize.ShloMosaic.Lib.Transfers

noncomputable section

namespace Cert.Kernel.Pf

open Cert.Kernel Cert.Kernel.Gen Cert.MV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The sixteen parts of the result array and of the shared scratch -/

theorem bound_one : grid0.bound 1 = 16 := rfl
theorem nSub_eq : τ.nSub = 16 := rfl
abbrev jL (L : grid0.Coords) : Fin 16 := Fin.cast bound_one (L 1)

theorem hdivO : 16 ∣ S4096.size 0 := ⟨256, rfl⟩
theorem hdivS : 16 ∣ S16x256.size 0 := ⟨1, rfl⟩
abbrev oPart (i : Fin 16) : Rect S4096 := Rect.part (s := S4096) (a₀ := 0) hdivO i
abbrev sPart (i : Fin 16) : Rect S16x256 := Rect.part (s := S16x256) (a₀ := 0) hdivS i
abbrev oSet (i : Fin 16) : Finset S4096.Idx := ((oV).view.slice (oPart i)).set
abbrev sSet (i : Fin 16) : Finset S16x256.Idx := ((shV).view.slice (sPart i)).set

theorem coord0_zero (L : grid0.Coords) : (L 0).val = 0 := by
  have h : (L 0).val < 1 := (L 0).isLt
  omega

/-- Subcore `L`'s run of the results is part `L 1` of sixteen. -/
theorem oRect_eq (L : grid0.Coords) :
    Rect.unit (s := S4096) (k0_off35 L) S256.size (k0_off35_inb L) = oPart (jL L) := by
  unfold oPart Rect.part Rect.block
  congr 1 <;> funext a
  · rw [k0_off35_eq]
    match a with
    | 0 => simp [Shape.partIx, Shape.partSize, coord0_zero L]; omega
  · match a with
    | 0 => simp [Shape.partSize]

/-- Its row of the shared scratch is part `L 1` of sixteen. -/
theorem sRect_eq (L : grid0.Coords) :
    Rect.unit (s := S16x256) (k0_off34 L) S1x256.size (k0_off34_inb L) = sPart (jL L) := by
  unfold sPart Rect.part Rect.block
  congr 1 <;> funext a
  · rw [k0_off34_eq]
    match a with
    | 0 => simp [Shape.partIx, Shape.partSize]
    | 1 => simp [Shape.partIx, Shape.partSize]
  · match a with
    | 0 => simp [Shape.partSize]
    | 1 => simp [Shape.partSize]

theorem set_oSl (L : grid0.Coords) : (oSl L).view.set = oSet (jL L) := by
  show ((oV).view.slice (Rect.unit (s := S4096) (k0_off35 L) S256.size (k0_off35_inb L))).set = ((oV).view.slice (oPart (jL L))).set
  exact oRect_eq L ▸ rfl

theorem set_shSl (L : grid0.Coords) : (shSl L).view.set = sSet (jL L) := by
  show (((shV).view.slice (Rect.unit (s := S16x256) (k0_off34 L) S1x256.size (k0_off34_inb L))).reshape S256 squeezes_S1x256_S256.numel_eq).set
    = ((shV).view.slice (sPart (jL L))).set
  rw [View.set_reshape]
  exact sRect_eq L ▸ rfl

theorem oSet_eq (i : Fin 16) : oSet i = (oPart i).set := by
  show ((View.whole (main_v0_scv : Ref sig .scVector)).slice (oPart i)).set = _
  rw [View.set_slice]; exact Finset.map_refl
theorem sSet_eq (i : Fin 16) : sSet i = (sPart i).set := by
  show ((View.whole (cc0_scratch5 : Ref sig .scVector)).slice (sPart i)).set = _
  rw [View.set_slice]; exact Finset.map_refl

theorem oSets_disjoint : ∀ i ∈ (Finset.univ : Finset (Fin 16)), ∀ j ∈ (Finset.univ : Finset (Fin 16)), i ≠ j → Disjoint (oSet i) (oSet j) :=
  fun i _ j _ h => by rw [oSet_eq, oSet_eq]; exact Rect.part_disjoint hdivO h
theorem oSets_cover : (Finset.univ : Finset (Fin 16)).biUnion oSet = Finset.univ :=
  (Finset.biUnion_congr rfl fun i _ => oSet_eq i).trans (Rect.biUnion_part hdivO)
theorem sSets_disjoint : ∀ i ∈ (Finset.univ : Finset (Fin 16)), ∀ j ∈ (Finset.univ : Finset (Fin 16)), i ≠ j → Disjoint (sSet i) (sSet j) :=
  fun i _ j _ h => by rw [sSet_eq, sSet_eq]; exact Rect.part_disjoint hdivS h
theorem sSets_cover : (Finset.univ : Finset (Fin 16)).biUnion sSet = Finset.univ :=
  (Finset.biUnion_congr rfl fun i _ => sSet_eq i).trans (Rect.biUnion_part hdivS)

/-! ## The task payloads over the sixteen parts -/

variable (m : (ℓ : Loc nD τ sig) → Buf (Elt F) ℓ)

/-- SparseCore `c`'s shared scratch, as every one of its subcores addresses it. -/
abbrev shRef (c : Fin τ.nSC) : DevRef τ sig := ⟨.shared, ⟨0, by decide⟩, c⟩
abbrev shLoc (d : Dev nD) (c : Fin τ.nSC) : Loc nD τ sig := (d, shRef c)

variable [FloatOps F]

/-- What task `j` is handed, over the parts: read share `j` of the matrix and of the vector, part `j` of the
    results at the launch contents, part `j` of the shared scratch at some contents; -/
def goAt (d : Dev nD) (c : Fin τ.nSC) (j : Fin 16) : sProp 𝕄 :=
  iprop((aLoc d ↦{Transfers.shareTok fullShare 16 j} m (aLoc d)) ∗ (xLoc d ↦{Transfers.shareTok fullShare 16 j} m (xLoc d))
    ∗ (oLoc d ↦[oSet j]{fullShare} m (oLoc d)) ∗ ∃ f, shLoc d c ↦[sSet j]{fullShare} f)
/-- and what it hands back: the same, part `j` of the results at the folded lane sums. -/
def tdAt (d : Dev nD) (c : Fin τ.nSC) (j : Fin 16) : sProp 𝕄 :=
  iprop((aLoc d ↦{Transfers.shareTok fullShare 16 j} m (aLoc d)) ∗ (xLoc d ↦{Transfers.shareTok fullShare 16 j} m (xLoc d))
    ∗ (oLoc d ↦[oSet j]{fullShare} scOut m d) ∗ ∃ f, shLoc d c ↦[sSet j]{fullShare} f)

theorem tileGo_eq (d : Dev nD) (L : grid0.Coords) : tileGo m d L = goAt m d (cV L) (jL L) := by
  unfold tileGo goAt
  rw [set_oSl, set_shSl]
  rfl
theorem tileTd_eq (d : Dev nD) (L : grid0.Coords) : tileTd m d L = tdAt m d (cV L) (jL L) := by
  unfold tileTd tdAt
  rw [set_oSl, set_shSl]
  rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem go_tasks (d : Dev nD) (c : Fin ((K (F := F)).nCore 0)) :
    (bigSep Finset.univ fun i : Fin ((K (F := F)).nSub 0) => (P m).go 0 d c i) = bigSep Finset.univ fun j : Fin 16 => goAt m d ((K (F := F)).core 0 c) j := by
  rw [← bigSep_tasks (F := F) (fun j => goAt m d ((K (F := F)).core 0 c) j)]
  exact bigSep_congr fun i _ => tileGo_eq m d (coordsOf c i)
theorem td_tasks (d : Dev nD) (c : Fin ((K (F := F)).nCore 0)) :
    (bigSep Finset.univ fun i : Fin ((K (F := F)).nSub 0) => (P m).td 0 d c i) = bigSep Finset.univ fun j : Fin 16 => tdAt m d ((K (F := F)).core 0 c) j := by
  rw [← bigSep_tasks (F := F) (fun j => tdAt m d ((K (F := F)).core 0 c) j)]
  exact bigSep_congr fun i _ => tileTd_eq m d (coordsOf c i)

/-! ## Splitting and joining -/

omit [FloatOps F] in
theorem oPts_parts (d : Dev nD) (f : Buf (Elt F) (oLoc d)) :
    (oLoc d ↦{fullShare} f : sProp 𝕄) = bigSep Finset.univ fun i : Fin 16 => oLoc d ↦[oSet i]{fullShare} f := by
  rw [← pointsTo_biUnion Finset.univ (ℓ := oLoc d) oSet oSets_disjoint, oSets_cover]; try rfl
omit [FloatOps F] in
theorem shPts_parts (d : Dev nD) (c : Fin τ.nSC) (f : Buf (Elt F) (shLoc d c)) :
    (shLoc d c ↦{fullShare} f : sProp 𝕄) = bigSep Finset.univ fun i : Fin 16 => shLoc d c ↦[sSet i]{fullShare} f := by
  rw [← pointsTo_biUnion Finset.univ (ℓ := shLoc d c) sSet sSets_disjoint, sSets_cover]; try rfl

/-- The scratch's parts, each at contents of its own, are the scratch whole at some contents. -/
theorem shParts_join (d : Dev nD) (c : Fin τ.nSC) :
    (bigSep Finset.univ fun i : Fin 16 => iprop(∃ f, shLoc d c ↦[sSet i]{fullShare} f)) ⊢ (iprop(∃ f, shLoc d c ↦{fullShare} f) : sProp 𝕄) := by
  refine (bigSep_exists_pi Finset.univ (fun i (f : Buf (Elt F) (shLoc d c)) => (shLoc d c ↦[sSet i]{fullShare} f : sProp 𝕄))).trans ?_
  iintro ⟨%fs, H⟩
  ihave H' := (pointsTo_biUnion_join Finset.univ sSet fs (fs 0) sSets_disjoint) $$ H
  icases H' with ⟨%g, -, Hg⟩
  rw [sSets_cover]
  iexists g; iexact Hg

omit [FloatOps F] in
/-- The shared scratch is among the sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- **The split of call 0.** The matrix and the vector as sixteen read shares (the remainder kept until they come
    back), the results and the shared scratch as their sixteen parts; back: the shares rejoin, the results' parts — each
    at the folded lane sums — are the array at them, the scratch's parts are the scratch at some contents. -/
theorem vecSplit : (K (F := F)).VecSplit (P m) 0 := by
  intro d c
  rw [go_tasks, td_tasks]
  show iprop(iprop((aLoc d ↦{fullShare} m (aLoc d)) ∗ (xLoc d ↦{fullShare} m (xLoc d)) ∗ (oLoc d ↦{fullShare} m (oLoc d))) ∗ ownBufs (S d ((K (F := F)).core 0 c)))
    ⊢ |={Set.univ}=> iprop((bigSep Finset.univ fun j : Fin 16 => goAt m d ((K (F := F)).core 0 c) j)
      ∗ ((bigSep Finset.univ fun j : Fin 16 => tdAt m d ((K (F := F)).core 0 c) j)
          -∗ iprop(iprop((aLoc d ↦{fullShare} m (aLoc d)) ∗ (xLoc d ↦{fullShare} m (xLoc d)) ∗ (oLoc d ↦{fullShare} scOut m d)) ∗ ownBufs (S d ((K (F := F)).core 0 c)))))
  unfold goAt tdAt
  rw [bigSep_sep', bigSep_sep', bigSep_sep', bigSep_sep', bigSep_sep', bigSep_sep', ownBufs_S, oPts_parts, oPts_parts]
  iintro ⟨⟨Ha, Hx, Ho⟩, ⟨%fsh, Hsh⟩, Hrest⟩
  ihave Ha' := (Transfers.pointsTo_toks_split fullShare 16) $$ Ha
  icases Ha' with ⟨Har, Hat⟩
  ihave Hx' := (Transfers.pointsTo_toks_split fullShare 16) $$ Hx
  icases Hx' with ⟨Hxr, Hxt⟩
  imodintro
  isplitl [Hat Hxt Ho Hsh]
  · isplitl [Hat]; · iexact Hat
    isplitl [Hxt]; · iexact Hxt
    isplitl [Ho]; · iexact Ho
    ihave Hsh' := ((Entails.of_eq (shPts_parts d ((K (F := F)).core 0 c) fsh)).trans (SparseCore.ent (bigSep_mono (Φ := fun i => (shLoc d ((K (F := F)).core 0 c) ↦[sSet i]{fullShare} fsh : sProp 𝕄))
      (Ψ := fun i => iprop(∃ f, shLoc d ((K (F := F)).core 0 c) ↦[sSet i]{fullShare} f))
      fun i _ => BI.BIClass.exists_intro (Φ := fun f => (shLoc d ((K (F := F)).core 0 c) ↦[sSet i]{fullShare} f : sProp 𝕄)) fsh))) $$ Hsh
    iexact Hsh'
  iintro ⟨Hat, Hxt, Ho, Hsh⟩
  isplitl [Har Hat Hxr Hxt Ho]
  · isplitl [Har Hat]
    · iapply (Transfers.pointsTo_toks_join fullShare 16)
      isplitl [Har] <;> iassumption
    isplitl [Hxr Hxt]
    · iapply (Transfers.pointsTo_toks_join fullShare 16)
      isplitl [Hxr] <;> iassumption
    iexact Ho
  isplitl [Hsh]; · iapply (shParts_join d); iexact Hsh
  iexact Hrest

end Cert.Kernel.Pf

end
-- ==== Proof.Word.LaunchRegion.lean ====
/-
  The TensorCore's part of the product: rows 0 … 12287, a pipeline of 24 points, point `t` multiplying block `t`
  of the matrix (512 rows) by the whole vector into block `t` of the TensorCore's result.

  This module: the pipeline library's place in the ghost state, the arrays as the region finds them (the
  SparseCore's results already in place), the proof data — what each window's staging buffer holds after the body
  at each point — and the body's run at a symbolic point.
-/
import proofs.«219795_g11467562680804_week1_w4_611_41_alg».proof.Proof.Word.Common
import Idealize.ShloMosaic.Lib.Pipeline.Regions
import Idealize.ShloMosaic.Lib.Pipeline.Value
import Idealize.ShloMosaic.Lib.Pipeline.FrameBody
import Idealize.ShloMosaic.Lib.Tactic

noncomputable section

namespace Cert.Kernel.Pf

open Cert.Kernel Cert.Kernel.Gen Cert.MV

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

/-! ## The pipeline library's rounds: the left half of the right factor -/

def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ _) := by unfold EP; infer_instance

/-- No prefetched table. -/
abbrev adm : (p : Fin 1) → (pcfgs (F := F) p).Adm := fun p => (cfgs p).toPCfg_adm

variable (m : (ℓ : Loc nD τ sig) → Buf (Elt F) ℓ)
variable [FloatOps F]

/-! ## The arrays as the region finds them -/

abbrev o' : DevRef τ sig := Proc.devRef .tc (main_v0 : Ref sig .tc)
/-- The launch contents; -/
def V0 (d : Dev nD) : Valuation τ sig (Elt F) := fun b => m (d, b)
/-- after the SparseCore call: its 4096 results at the folded lane sums. -/
def V1 (d : Dev nD) : Valuation τ sig (Elt F) := Function.update (V0 m d) o' (scOut m d)
abbrev Vr (d : Dev nD) (b : Ref sig .tc) : Buf (Elt F) ((d : Thread nD τ).loc b) := V1 m d (Proc.devRef .tc b)

theorem Vr_arg0 (d : Dev nD) : Vr m d main_arg0 = m (aLoc d) := Function.update_of_ne (show Proc.devRef .tc (main_arg0 : Ref sig .tc) ≠ o' by decide) _ _
theorem Vr_arg1 (d : Dev nD) : Vr m d main_arg1 = m (xLoc d) := Function.update_of_ne (show Proc.devRef .tc (main_arg1 : Ref sig .tc) ≠ o' by decide) _ _
theorem Vr_v0 (d : Dev nD) : Vr m d main_v0 = scOut m d := Function.update_self _ _ _
theorem Vr_v1 (d : Dev nD) : Vr m d main_v1 = m (tLoc d) := Function.update_of_ne (show Proc.devRef .tc (main_v1 : Ref sig .tc) ≠ o' by decide) _ _
theorem Vr_v2 (d : Dev nD) : Vr m d main_v2 = m (yLoc d) := Function.update_of_ne (show Proc.devRef .tc (main_v2 : Ref sig .tc) ≠ o' by decide) _ _

/-! ## The proof data -/

/-- Block `t` of the matrix, and the vector, as the fetches stage them. -/
abbrev blkA (c : Dev nD) (t : Fin cfg1.N) : (cfg1.win 0).block.Idx → Elt F (cfg1.win 0).elt :=
  ((cfg1.win 0).blk t).view.read (Elt F) (Vr m c (Pipeline.arrRef spec1 0))
abbrev blkX (c : Dev nD) (t : Fin cfg1.N) : (cfg1.win 1).block.Idx → Elt F (cfg1.win 1).elt :=
  ((cfg1.win 1).blk t).view.read (Elt F) (Vr m c (Pipeline.arrRef spec1 1))

/-- The recorded pairs the TensorCore may hold through the region: those at or below the first call's band. -/
def recB (c : Dev nD) : Set (SemLoc sig × HIx 1) := {p | (K (F := F)).lev ((c : Thread nD τ), p.1) p.2 ≤ 8}

/-- On core `c`: the arrays as the region finds them; after the body an input's buffer holds its block, the output's
    the block's product with the vector; no invariant but the scoped rest; nothing owed. -/
def dats (_ : Fin 1) (c : Dev nD) : Dat τ (Elt F) (HIx 1) ℕ UU ℕ cfg1 c where
  A w := Vr m c (Pipeline.arrRef spec1 w)
  after w t := match w with
    | ⟨0, _⟩ => blkA m c t
    | ⟨1, _⟩ => blkX m c t
    | ⟨2, _⟩ => k1_pay1 (blkA m c t) (blkX m c t)
    | ⟨_ + 3, h⟩ => absurd h (Nat.not_lt.2 (Nat.le_add_left _ _))
  Φ _ := Pipeline.scopedRest (Ix := HIx 1) (Name := ℕ) (U := UU) (Lvl := ℕ) (Val := Elt F) spec1 c
  q _ := fullShare
  owed _ := 0
  recorded _ := recB (F := F) c

/-! ## The body at a point -/

abbrev 𝒱₀' : Variants := Variants.none

omit [FloatOps F] in
theorem hz1 : (![0] : Fin 1 → Nat) = fun _ => 0 := by funext a; fin_cases a; rfl
omit [FloatOps F] in
theorem hz2 : (![0, 0] : Fin 2 → Nat) = fun _ => 0 := by funext a; fin_cases a <;> rfl

/-- A store over the whole of a 512-vector leaves its payload, whatever was there. -/
theorem read_store_whole (v : View sig .tc .vmem S512 .f32) (f : v.ty.Contents (Elt F)) (w : S512.Idx → Elt F .f32) :
    v.read (Elt F) (v.writes (Elt F) f [(⟨Rect.unit (s := S512) ![0] S512.size inb_S512_S512_0, w⟩ : View.Piece (Elt F) S512 .f32)]) = w := by
  have hc : ∀ y : S512.Idx, ∃ p ∈ [(⟨Rect.unit (s := S512) ![0] S512.size inb_S512_S512_0, w⟩ : View.Piece (Elt F) S512 .f32)], y ∈ p.1.set :=
    fun y => ⟨(⟨Rect.unit (s := S512) ![0] S512.size inb_S512_S512_0, w⟩ : View.Piece (Elt F) S512 .f32), List.mem_singleton_self _,
      View.mem_set_unit_zero (S := S512) hz1 inb_S512_S512_0 y⟩
  have h1 := View.read_writes_eq_canon v f [(⟨Rect.unit (s := S512) ![0] S512.size inb_S512_S512_0, w⟩ : View.Piece (Elt F) S512 .f32)] hc
  have h2 := View.canon_unit_zero (Val := Elt F) (S := S512) (e := .f32) hz1 inb_S512_S512_0 w
  exact h1.trans h2

/-- A load of the whole of a buffer reads its contents. -/
theorem readAt_whole_A (v : View sig .tc .vmem S512x4096 .f32) (f : v.ty.Contents (Elt F)) :
    v.readAt (Elt F) (Rect.unit (s := S512x4096) ![0, 0] S512x4096.size inb_S512x4096_S512x4096_0_0).toLoadRect f = v.read (Elt F) f :=
  (View.readAt_eq_ld v f _).trans (View.ld_unit_zero hz2 inb_S512x4096_S512x4096_0_0 _)
theorem readAt_whole_x (v : View sig .tc .vmem S4096 .f32) (f : v.ty.Contents (Elt F)) :
    v.readAt (Elt F) (Rect.unit (s := S4096) ![0] S4096.size inb_S4096_S4096_0).toLoadRect f = v.read (Elt F) f :=
  (View.readAt_eq_ld v f _).trans (View.ld_unit_zero hz1 inb_S4096_S4096_0 _)

/-- The body on three whole staging buffers: the matrix block and the vector are read, the product of the block
    with the vector into a zero accumulator is stored over the whole output buffer (what it held is read and dropped). -/
theorem tcBody (c : Dev nD) (i : grid1.Coords)
    (M1 : Memref sig .tc .vmem S512x4096 .f32) (h1 : M1.IsWhole) (M2 : Memref sig .tc .vmem S4096 .f32) (h2 : M2.IsWhole)
    (M3 : Memref sig .tc .vmem S512 .f32) (h3 : M3.IsWhole)
    (X1 : S512x4096.Idx → Elt F .f32) (X2 : S4096.Idx → Elt F .f32) (X3 : S512.Idx → Elt F .f32) (Q : PUnit → sProp 𝕄) :
    iprop(owns (c : Thread nD τ) M1 fullShare X1 ∗ owns (c : Thread nD τ) M2 fullShare X2 ∗ owns (c : Thread nD τ) M3 fullShare X3
      ∗ (iprop(owns (c : Thread nD τ) M1 fullShare X1 ∗ owns (c : Thread nD τ) M2 fullShare X2 ∗ owns (c : Thread nD τ) M3 fullShare (k1_pay1 X1 X2)) -∗ Q ⟨⟩))
    ⊢ wp frame (wpE (defs₀ (F := F)) Variants.none (c : Thread nD τ) none) Set.univ (cc1__tc_mv_body i M1 h1 M2 h2 M3 h3) Q := by
  unfold owns
  rw [h1.set_eq_univ, h2.set_eq_univ, h3.set_eq_univ]
  iintro ⟨⟨%f1, %e1, H1⟩, ⟨%f2, %e2, H2⟩, ⟨%f3, %e3, H3⟩, Hk⟩
  simp only [cc1__tc_mv_body_eq_skeleton]; unfold cc1__tc_mv_body_skel
  sl_exec
  sl_step
  iapply Hk
  isplitl [H1]
  · iexists f1
    isplitr
    · ipureintro; exact e1
    · iexact H1
  isplitl [H2]
  · iexists f2
    isplitr
    · ipureintro; exact e2
    · iexact H2
  iexists _
  isplitr; swap
  · iexact H3
  ipureintro
  exact (read_store_whole M3.view f3 _).trans
    (congrArg₂ k1_pay1 ((readAt_whole_A M1.view f1).trans e1) ((readAt_whole_x M2.view f2).trans e2))

/-! ## What the body finds, and the body obligation -/

theorem before0 (c : Dev nD) (t : Fin cfg1.N) (d) : (dats m 0 c).before 0 t d = blkA m c t := by
  rw [Dat.before_fetched _ 0 t (fetch1_0 t)]; rfl
theorem before1 (c : Dev nD) (t : Fin cfg1.N) (d) : (dats m 0 c).before 1 t d = blkX m c t := by
  rw [Pipeline.Dat.before_in_eq_fetched (dats m 0 c) 1 rfl (fun _ => rfl) (fun _ _ _ => rfl) (fun _ => rfl) t d]; rfl

theorem body_obligation (c : Dev nD) : BodyObligation (dats m 0 c) (defs₀ (F := F)) 𝒱₀' none Set.univ := fun t => by
  rw [bigSep_W1, bigSep_W1]
  rw [show (dats m 0 c).Φ t.castSucc = Pipeline.scopedRest (Ix := HIx 1) (Name := ℕ) (U := UU) (Lvl := ℕ) (Val := Elt F) spec1 c from rfl,
    show (dats m 0 c).Φ t.succ = Pipeline.scopedRest (Ix := HIx 1) (Name := ℕ) (U := UU) (Lvl := ℕ) (Val := Elt F) spec1 c from rfl]
  unfold Dat.owesAt Dat.bound
  rw [show (dats m 0 c).owed t.castSucc = 0 from rfl, show (dats m 0 c).owed t.succ = 0 from rfl,
    show (dats m 0 c).recorded t.castSucc = recB (F := F) c from rfl, show (dats m 0 c).recorded t.succ = recB (F := F) c from rfl]
  iintro ⟨HΦ, HO, ⟨%d0, H0⟩, ⟨%d1, H1⟩, ⟨%d2, H2⟩⟩
  rw [before0, before1]
  iapply (tcBody c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (blkA m c t) (blkX m c t) ((dats m 0 c).before 2 t d2))
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

end Cert.Kernel.Pf

end
-- ==== Proof.Word.LaunchSeg.lean ====
/-
  The TensorCore's region as one step of @main: entered from the arrays as the SparseCore call left them, it
  leaves the matrix and the vector as they were and the TensorCore's result at what the pipeline wrote back, block
  by block; the SparseCore's results and the final result's buffer bypass it.
-/
import proofs.«219795_g11467562680804_week1_w4_611_41_alg».proof.Proof.Word.LaunchRegion
import Idealize.ShloMosaic.Lib.Pipeline.Regions
import Idealize.ShloMosaic.Lib.Pipeline.Value
import Idealize.ShloMosaic.Lib.Pipeline.FrameBody
import Idealize.ShloMosaic.Lib.Tactic

noncomputable section

namespace Cert.Kernel.Pf

open Cert.Kernel Cert.Kernel.Gen Cert.MV

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ)
variable [FloatOps F]

/-- What rides beside the buffers through the region: the TensorCore owing nothing, its recorded pairs at or below
    the first call's band. -/
abbrev Rw (c : Dev nD) : sProp 𝕄 :=
  iprop(∃ W : Waits sig (HIx 1), ⌜(↑W : Set (SemLoc sig × HIx 1)) ⊆ recB (F := F) c⌝ ∗ owes (c : Thread nD τ) (0 : CellTallies nD τ sig (HIx 1)) W)

/-- The two arrays that bypass the region. -/
abbrev Zr (c : Dev nD) : sProp 𝕄 :=
  iprop((((c : Thread nD τ).loc main_v0) ↦{fullShare} Vr m c main_v0) ∗ (((c : Thread nD τ).loc main_v2) ↦{fullShare} Vr m c main_v2))

/-- The region's arrays after it. -/
abbrev Tr (c : Dev nD) : sProp 𝕄 := (dats m 0 c).arrays ((dats m 0 c).arrAt · cfg1.N)

omit [FloatOps F] in
theorem waitPairs_sub (c : Dev nD) : cfg1.waitPairs (none : HIx 1) ⊆ recB (F := F) c := by
  rintro p ⟨w, s, rfl⟩
  show (K (F := F)).lev _ none ≤ 8
  exact Nat.zero_le _

set_option backward.isDefEq.respectTransparency.types false in
/-- The region: the generated layout, no semaphore of the kernel's own, the body obligation; nothing enters the
    pipeline's invariant. -/
def reg1 : Pipeline.RegionSeg (pcfgs (F := F)) adm (dats m) (none : HIx 1) defs₀ 𝒱₀' (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation m c).loose
  hwaits := Pipeline.hwaits_of_owed_zero _ _ _ _ (K (F := F)).L (K (F := F)).lev 0 fun _ _ => rfl
  pre c := iprop(unscopedBufs c (Vr m c) ∗ Rw (F := F) c)
  post c := iprop(Tr m c ∗ Zr m c ∗ Rw (F := F) c)
  X _ := iprop(emp)
  Y _ := iprop(emp)
  Z c := Zr m c
  hentry c := by
    have hsplit := (Pipeline.arrays_of_unscopedBufs (pcfgs (F := F)) adm (dats m) launch1.win launch1.arr_whole c
      ((dats m 0 c).share_full fun _ => rfl) (Vr m c) fun _ => rfl).trans (sep_mono .rfl (Entails.of_eq (unscopedRest1_eq c (Vr m c))))
    iintro ⟨⟨Hub, HO⟩, -, -⟩
    ihave H := hsplit $$ Hub
    icases H with ⟨Ha, H0, H2⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W
      isplitr
      · ipureintro; exact hW.trans Set.subset_union_left
      · iexact HO
    isplitr; · iempintro
    isplitl [H0]; · iexact H0
    iexact H2
  hin c := by
    rw [show (dats m 0 c).Φ 0 = Pipeline.scopedRest (Ix := HIx 1) (Name := ℕ) (U := UU) (Lvl := ℕ) (Val := Elt F) spec1 c from rfl]
    iintro ⟨-, -, Hr⟩; iexact Hr
  hout c := by
    rw [show (dats m 0 c).Φ (Fin.last cfg1.N) = Pipeline.scopedRest (Ix := HIx 1) (Name := ℕ) (U := UU) (Lvl := ℕ) (Val := Elt F) spec1 c from rfl]
    iintro Hr
    isplitr; · iempintro
    isplitr
    · unfold Pipeline.ownSems0; rw [show (Finset.univ : Finset PEmpty) = ∅ from rfl, BI.bigSep_empty]; iempintro
    iexact Hr
  hexit c := by
    iintro ⟨Ha, HO, -, HZ⟩
    imodintro
    isplitl [Ha]; · iexact Ha
    isplitl [HZ]; · iexact HZ
    unfold Pipeline.Dat.owesAt Pipeline.owesWithin
    icases HO with ⟨%W, %hW, HO⟩; iexists W
    isplitr
    · ipureintro; exact hW.trans (Set.union_subset (show (dats m 0 c).recorded (Fin.last cfg1.N) ⊆ recB (F := F) c from subset_rfl) (waitPairs_sub c))
    · iexact HO

end Cert.Kernel.Pf

end
-- ==== Proof.Word.LaunchValue.lean ====
/-
  From blocks to the array: the TensorCore's 12288 results after the region.

  Point `t` of the pipeline writes back, as block `t` of the result array, the product of block `t` of the matrix
  (rows `512 t … 512 t + 511`) with the whole vector into a zero accumulator. Entry `i` of the array lies in block
  `i / 512` at position `i mod 512`, and the 24 blocks cover the array: so the array ends holding, entry by entry, the
  block products of the specification.
-/
import proofs.«219795_g11467562680804_week1_w4_611_41_alg».proof.Proof.Word.LaunchRegion
import Idealize.ShloMosaic.Lib.Pipeline.Regions
import Idealize.ShloMosaic.Lib.Pipeline.Value
import Idealize.ShloMosaic.Lib.Pipeline.FrameBody
import Idealize.ShloMosaic.Lib.Tactic

noncomputable section

namespace Cert.Kernel.Pf

open Cert.Kernel Cert.Kernel.Gen Cert.MV
open Idealize.ShloMosaic.ValueIdx

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ)
variable [FloatOps F]

/-- The body's payload at an entry, over plain functions: if the first operand is block `t` of the matrix and the
    second the vector, entry `j` of the payload is entry `512 t + j` of the specification's block products. -/
theorem pay_at (A : FVec F SA .f32) (x : FVec F SX .f32) (t : Nat)
    (X1 : Vec F S512x4096 .f32) (X2 : Vec F S4096 .f32)
    (h1 : ∀ j : S512x4096.Idx, X1 j = aAt A (512 * t + (j 0).val) (j 1).val) (h2 : X2 = x)
    (j : S512.Idx) (i : S12288.Idx) (hi : (i 0).val = 512 * t + (j 0).val) :
    k1_pay1 X1 X2 j = tcVal dot_S512x4096_S4096_S512_1_0_0_n_n_n A x i := by
  have hj : (j 0).val < 512 := (j 0).isLt
  have hq : (i 0).val / 512 = t := by rw [hi]; omega
  have hr : (i 0).val % 512 = (j 0).val := by rw [hi]; omega
  have hX : X1 = tcBlock A t := funext fun j' => h1 j'
  have hidx : (ix1 (⟨(i 0).val % 512, Nat.mod_lt _ (by norm_num)⟩ : Fin 512)) = j := by
    rw [eq_ix1 j]; exact congrArg ix1 (Fin.ext hr)
  unfold tcVal
  rw [hidx, hq, ← hX, ← h2]
  rfl

/-- The printed index maps over the grid: the matrix window's block row and the result window's block are the
    point; the matrix window's block column and the vector's block are 0. -/
theorem idx_facts : ∀ t : Fin cfg1.N, win1_0.index t (0 : Fin 2) = t.val ∧ win1_0.index t (1 : Fin 2) = 0
    ∧ win1_1.index t (0 : Fin 1) = 0 ∧ win1_2.index t (0 : Fin 1) = t.val :=
  (by decide +kernel : ∀ t : Fin grid1.N, _)

/-- What point `t` writes back is block `t` of the specification's block products. -/
theorem flushed_eq (c : Dev nD) (t : Fin cfg1.N) :
    (dats m 0 c).flushed 2 t = ((cfg1.win 2).blk t).view.read (Elt F) (tcOut m c) := by
  obtain ⟨e0, e1, e2, e3⟩ := idx_facts t
  funext j
  show k1_pay1 (blkA m c t) (blkX m c t) j = tcVal dot_S512x4096_S4096_S512_1_0_0_n_n_n (m (aLoc c)) (m (xLoc c)) (((cfg1.win 2).blk t).view.emb j)
  refine pay_at (m (aLoc c)) (m (xLoc c)) t.val (blkA m c t) (blkX m c t) ?_ ?_ j _ ?_
  · intro j'
    have hj0 : (j' 0).val < 512 := (j' 0).isLt
    have hj1 : (j' 1).val < 4096 := (j' 1).isLt
    have ht : t.val < 24 := t.isLt
    show Vr m c main_arg0 (((cfg1.win 0).blk t).view.emb j') = _
    rw [Vr_arg0]
    unfold aAt
    rw [dif_pos ⟨by omega, by omega⟩]
    congr 1
    funext a; apply Fin.ext
    match a with
    | ⟨0, _⟩ => show win1_0.index t (0 : Fin 2) * 512 + 1 * (j' 0).val = 512 * t.val + (j' 0).val; omega
    | ⟨1, _⟩ => show win1_0.index t (1 : Fin 2) * 4096 + 1 * (j' 1).val = (j' 1).val; omega
  · funext k
    show Vr m c main_arg1 (((cfg1.win 1).blk t).view.emb k) = m (xLoc c) k
    rw [Vr_arg1]
    congr 1
    funext a; apply Fin.ext
    match a with
    | ⟨0, _⟩ => show win1_1.index t (0 : Fin 1) * 4096 + 1 * (k 0).val = (k 0).val; omega
  · show win1_2.index t (0 : Fin 1) * 512 + 1 * (j 0).val = 512 * t.val + (j 0).val
    omega

/-- An entry is in point `t`'s block iff it is in the block's range. -/
theorem mem_blk (t : Fin cfg1.N) (i : S12288.Idx) :
    i ∈ ((cfg1.win 2).blk t).view.set ↔ ∀ a : Fin 1, win1_2.index t a * S512.size a ≤ (i a).val ∧ (i a).val < win1_2.index t a * S512.size a + S512.size a := by
  show i ∈ ((View.whole main_v1).slice (win1_2.rect t)).set ↔ _
  rw [View.set_slice_whole, Rect.mem_set_unit]
  exact Iff.rfl

/-- Every entry is in the block of the point its position divided by 512 names. -/
theorem tc_cover (i : S12288.Idx) : ∃ t : Fin cfg1.N, (cfg1.win 2).flush t = true ∧ i ∈ ((cfg1.win 2).blk t).view.set := by
  have hi : (i 0).val < 12288 := (i 0).isLt
  have hlt : (i 0).val / 512 < cfg1.N := by show _ < grid1.N; rw [N_1]; omega
  refine ⟨⟨(i 0).val / 512, hlt⟩, flush1_2 _, ?_⟩
  rw [mem_blk]
  intro a
  obtain ⟨-, -, -, e3⟩ := idx_facts ⟨(i 0).val / 512, hlt⟩
  match a with
  | ⟨0, _⟩ =>
    show win1_2.index ⟨(i 0).val / 512, hlt⟩ (0 : Fin 1) * 512 ≤ (i 0).val ∧ (i 0).val < win1_2.index ⟨(i 0).val / 512, hlt⟩ (0 : Fin 1) * 512 + 512
    rw [e3]
    show (i 0).val / 512 * 512 ≤ (i 0).val ∧ (i 0).val < (i 0).val / 512 * 512 + 512
    omega

/-- The TensorCore's result array after the region: the specification's block products. -/
theorem tc_final (c : Dev nD) : (dats m 0 c).arrAt 2 cfg1.N = tcOut m c :=
  (dats m 0 c).arrAt_eq_of_cover 2 (tcOut m c) (fun t _ => flushed_eq m c t) tc_cover

/-- The matrix and the vector are inputs of the region: after it they hold what they held. -/
theorem a_final (c : Dev nD) : (dats m 0 c).arrAt 0 cfg1.N = m (aLoc c) :=
  ((dats m 0 c).arrAt_in 0 rfl _).trans (Vr_arg0 m c)
theorem x_final (c : Dev nD) : (dats m 0 c).arrAt 1 cfg1.N = m (xLoc c) :=
  ((dats m 0 c).arrAt_in 1 rfl _).trans (Vr_arg1 m c)

end Cert.Kernel.Pf

end
-- ==== Proof.Word.LaunchMain.lean ====
/-
  The launch: @main on the TensorCore — the SparseCore call, the TensorCore's own region, the concatenation of
  the two parts — and the program's run.

  The launch element is the handshakes' rounds and the pipeline's staging rounds (the transfers' counters are
  dropped). @main hands SparseCore 0 the matrix, the vector and its result array and gets them back with the
  results at the folded lane sums; enters the region with the pipeline's ghost state the launch funded and leaves it
  with the TensorCore's results at the block products; concatenates. The final state is read off the three
  arrays @main ends holding.
-/
import proofs.«219795_g11467562680804_week1_w4_611_41_alg».proof.Proof.Word.LaunchSplit
import proofs.«219795_g11467562680804_week1_w4_611_41_alg».proof.Proof.Word.LaunchSeg
import proofs.«219795_g11467562680804_week1_w4_611_41_alg».proof.Proof.Word.LaunchValue
import Idealize.ShloMosaic.Lib.Pipeline.Regions
import Idealize.ShloMosaic.Lib.Tactic

noncomputable section

namespace Cert.Kernel.Pf

open Cert.Kernel Cert.Kernel.Gen Cert.MV

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element -/

/-- What the launch funds the TensorCore's region with: its staging cells' ghost state and its transfers' tokens. -/
abbrev Gd (d : Dev nD) : sProp 𝕄 :=
  iprop(Pipeline.cellsGhost (nD := nD) (τ := τ) (Pipeline.pin (pcfgs (F := F)) adm) (EP (F := F)) 0 d ∗ Pipeline.toksInit (nD := nD) (τ := τ) (Pipeline.pin (pcfgs (F := F)) adm) (EP (F := F)) 0 d)

omit [FloatOps F] in
/-- The pipeline's staging cells are pairwise distinct (the generated fact, at the pinned configuration). -/
theorem pin_inj : Function.Injective (Pipeline.cellOf (nD := nD) (τ := τ) (Pipeline.pin (pcfgs (F := F)) adm)) := cellOf_inj

def u₀ : UU :=
  (initOf (K (F := F)).hsCells (K (F := F)).hsToks,
    (initOf (Pipeline.cells (nD := nD) (τ := τ) (Pipeline.pin (pcfgs (F := F)) adm) pin_inj) (Pipeline.launchToks (nD := nD) (τ := τ) (Pipeline.pin (pcfgs (F := F)) adm) pin_inj), 1))

omit [FloatOps F] in
theorem bigSep_emp' {I : Type} (s : Finset I) : (bigSep s fun _ => iprop(emp)) = (iprop(emp) : sProp 𝕄) := bigSep_emp_const s

omit [FloatOps F] in
/-- The launch element's three factors: the handshakes', the pipeline's, the counters' (dropped). -/
theorem ownU_split3 (a : UH) (b : UP) : (ownU ((a, (b, 1)) : UU) : sProp 𝕄) ⊢ iprop(BI.own (EH a) ∗ BI.own (EP (F := F) b)) := by
  iintro Hu
  ihave H := (ownU_pair _ _) $$ Hu
  icases H with ⟨HH, HR⟩
  ihave H2 := (show (BI.own ((embR : Emb (UP × Counters) (MT nD τ sig (HIx 1) (Elt F) ℕ UU ℕ)) (b, (1 : Counters))) : sProp 𝕄)
      ⊢ iprop(BI.own (EP (F := F) b) ∗ BI.own (((Emb.inr : Emb Counters (UP × Counters)).trans embR) (1 : Counters))) from own_pair_emb (embR : Emb (UP × Counters) (MT nD τ sig (HIx 1) (Elt F) ℕ UU ℕ)) b (1 : Counters)) $$ HR
  icases H2 with ⟨HP, -⟩
  isplitl [HH]; · iexact HH
  iexact HP

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_split3 (F := F) _ _) $$ Hu
  icases H with ⟨HH, HP⟩
  imod (Pipeline.fund_ghost (nD := nD) (τ := τ) (Pipeline.pin (pcfgs (F := F)) adm) (EP (F := F)) pin_inj) $$ HP with ⟨Hg, Ht⟩
  imodintro
  isplitl [HH]; · iexact HH
  isplitl [Hg Ht]
  · rw [bigSep_sep',
      show (bigSep Finset.univ fun d : Dev nD => Pipeline.cellsGhost (nD := nD) (τ := τ) (Pipeline.pin (pcfgs (F := F)) adm) (EP (F := F)) 0 d)
        = bigSep Finset.univ fun d : Dev nD => bigSep Finset.univ fun p : Fin 1 => Pipeline.cellsGhost (nD := nD) (τ := τ) (Pipeline.pin (pcfgs (F := F)) adm) (EP (F := F)) p d
        from bigSep_congr fun d _ => (bigSep_univ_of_subsingleton (Φ := fun p : Fin 1 => Pipeline.cellsGhost (nD := nD) (τ := τ) (Pipeline.pin (pcfgs (F := F)) adm) (EP (F := F)) p d) (0 : Fin 1)).symm,
      show (bigSep Finset.univ fun d : Dev nD => Pipeline.toksInit (nD := nD) (τ := τ) (Pipeline.pin (pcfgs (F := F)) adm) (EP (F := F)) 0 d)
        = bigSep Finset.univ fun d : Dev nD => bigSep Finset.univ fun p : Fin 1 => Pipeline.toksInit (nD := nD) (τ := τ) (Pipeline.pin (pcfgs (F := F)) adm) (EP (F := F)) p d
        from bigSep_congr fun d _ => (bigSep_univ_of_subsingleton (Φ := fun p : Fin 1 => Pipeline.toksInit (nD := nD) (τ := τ) (Pipeline.pin (pcfgs (F := F)) adm) (EP (F := F)) p d) (0 : Fin 1)).symm]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (oLoc d ↦{fullShare} W main_v0)
      ∗ (tLoc d ↦{fullShare} W main_v1) ∗ (yLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c)
    = iprop((aLoc d ↦{fullShare} m (aLoc d)) ∗ (xLoc d ↦{fullShare} m (xLoc d)) ∗ (oLoc d ↦{fullShare} m (oLoc d))) :=
  bigSep_univ_of_subsingleton (0 : Fin 1)
theorem dn0_eq (d : Dev nD) : (bigSep Finset.univ fun c : Fin ((K (F := F)).nCore 0) => (P m).dn 0 d c)
    = iprop((aLoc d ↦{fullShare} m (aLoc d)) ∗ (xLoc d ↦{fullShare} m (xLoc d)) ∗ (oLoc d ↦{fullShare} scOut m d)) :=
  bigSep_univ_of_subsingleton (0 : Fin 1)

/-- The TensorCore's handshake state after the one call: what it owes (nothing) can be taken out and put back. -/
theorem tcSt_owes (d : Dev nD) :
    (K (F := F)).tcSt EH d 1 ⊢ iprop(Rw (F := F) d ∗ (Rw (F := F) d -∗ (K (F := F)).tcSt EH d 1)) := by
  unfold SparseCore.Cfg.tcSt
  rw [(K (F := F)).Otc_end d le_rfl]
  iintro ⟨⟨%W, %hW, HO⟩, Hrest⟩
  isplitl [HO]
  · iexists W
    isplitr
    · ipureintro; exact fun p hp => hW p hp
    · iexact HO
  iintro ⟨%W', %hW', HO⟩
  isplitl [HO]
  · iexists W'
    isplitr
    · ipureintro; exact fun p hp => hW' hp
    · iexact HO
  iexact Hrest

/-- The region's arrays after it, one by one. -/
theorem Tr_eq (d : Dev nD) : Tr m d = iprop((aLoc d ↦{fullShare} m (aLoc d)) ∗ (xLoc d ↦{fullShare} m (xLoc d)) ∗ (tLoc d ↦{fullShare} tcOut m d)) := by
  unfold Tr Dat.arrays
  rw [bigSep_W1]
  beta_reduce
  rw [(dats m 0 d).share_full (fun _ => rfl) 0, (dats m 0 d).share_full (fun _ => rfl) 1, (dats m 0 d).share_full (fun _ => rfl) 2,
    a_final, x_final, tc_final]
  simp only [Memref.view_whole, View.set_whole]

omit [FloatOps F] in
/-- The region's call, lifted to the extended body table, is @main's line. -/
theorem lift_cc : (SparseCore.liftProg (Q := 1) (Prog.lift (.customCall (Pipeline.entry 0) ()) : Prog (TpuEff nD τ sig (Elt F) (ΛP (F := F)) .tc) PUnit)
      : Prog (TpuEff nD τ sig (Elt F) (SparseCore.Sig (ΛP (F := F)) 1) .tc) PUnit)
    = Prog.lift (.customCall (SparseCore.inner (Pipeline.entry 0)) ()) := rfl

/-- The lifted call from the pipeline's own. -/
theorem wp_lift_cc (d : Dev nD) (Q : PUnit.{1} → sProp 𝕄) :
    wp frame (wpE (D (F := F)) 𝒱 (T d) none) Set.univ (Prog.lift (.customCall (Pipeline.entry 0) ()) : Prog (TpuEff nD τ sig (Elt F) (ΛP (F := F)) .tc) PUnit) Q
      ⊢ wp frame (wpE ((K (F := F)).defs (D (F := F))) 𝒱 (T d) none) Set.univ
          (Prog.lift (.customCall (SparseCore.inner (Pipeline.entry 0)) ())) Q := by
  rw [← lift_cc (F := F)]
  exact (K (F := F)).wp_liftProg (D (F := F)) 𝒱 (T d) Set.univ none _ Q

set_option backward.isDefEq.respectTransparency.types false in
/-- The TensorCore's region inside the SparseCore program's @main: entered through the lift of the pipeline's
    program to the extended body table, run as the region step. -/
theorem wp_region (d : Dev nD) (Q : PUnit.{1} → sProp 𝕄) :
    iprop((iprop(boundary (d.tc : Thread nD τ) ∗ (reg1 m).post d) -∗ |={Set.univ}=> Q ⟨⟩)
        ∗ boundary (d.tc : Thread nD τ) ∗ (reg1 m).pre d ∗ levAts (K (F := F)).L (K (F := F)).lev ∗ Gd (F := F) d)
      ⊢ wp frame (wpE ((K (F := F)).defs (D (F := F))) 𝒱 (T d) none) Set.univ
          (Prog.lift (.customCall (SparseCore.inner (Pipeline.entry 0)) ())) Q := by
  have h := Pipeline.RegionSeg.wp (pcfgs (F := F)) adm (dats m) (none : HIx 1) cellOf_inj (EP (F := F)) defs₀ 𝒱₀'
    (K (F := F)).L (K (F := F)).lev (reg1 m) d none (fun u h => nomatch h) (fun _ => Prog.ret PUnit.unit) Q
  have e : iprop((iprop(boundary (d.tc : Thread nD τ) ∗ (reg1 m).post d) -∗ |={Set.univ}=> Q ⟨⟩)
        ∗ boundary (d.tc : Thread nD τ) ∗ (reg1 m).pre d ∗ levAts (K (F := F)).L (K (F := F)).lev ∗ Gd (F := F) d)
      ⊢ iprop((iprop(boundary (d.tc : Thread nD τ) ∗ (reg1 m).post d) -∗
        wp frame (wpE (Pipeline.defs (pcfgs (F := F)) defs₀) (Variants.lift 𝒱₀') (d.tc : Thread nD τ) none) Set.univ (Prog.ret PUnit.unit) Q)
      ∗ boundary (d.tc : Thread nD τ) ∗ (reg1 m).pre d ∗ levAts (K (F := F)).L (K (F := F)).lev
      ∗ Pipeline.cellsGhost (nD := nD) (τ := τ) (Pipeline.pin (pcfgs (F := F)) adm) (EP (F := F)) 0 d
      ∗ Pipeline.toksInit (nD := nD) (τ := τ) (Pipeline.pin (pcfgs (F := F)) adm) (EP (F := F)) 0 d) := by
    iintro ⟨Hk, Hb, Hpre, Hl, Hg, Ht⟩
    isplitl [Hk]
    · iintro Hp
      rw [wp_ret]
      iapply Hk; iexact Hp
    isplitl [Hb]; · iexact Hb
    isplitl [Hpre]; · iexact Hpre
    isplitl [Hl]; · iexact Hl
    isplitl [Hg]; · iexact Hg
    iexact Ht
  exact BI.Entails.trans e (BI.Entails.trans h (wp_lift_cc d Q))

/-! ### The concatenation -/

abbrev t' : DevRef τ sig := Proc.devRef .tc (main_v1 : Ref sig .tc)
abbrev y' : DevRef τ sig := Proc.devRef .tc (main_v2 : Ref sig .tc)

/-- The two parts joined: the TensorCore's 12288 results, then the SparseCore's 4096. -/
abbrev opCat : HloOp τ sig (Elt F) :=
  StableHlo.binary main_v1 main_v0 main_v2 ((fun a b => concatenate S16384 0 [⟨S12288, a⟩, ⟨S4096, b⟩] concatenates_S12288_S4096_S16384_d0) : (⟨S12288, .f32⟩ : BufTy).Contents (Elt F) → (⟨S4096, .f32⟩ : BufTy).Contents (Elt F) → (⟨S16384, .f32⟩ : BufTy).Contents (Elt F))

/-- The three arrays the concatenation names. -/
abbrev S3 : Finset (DevRef τ sig) := {t', o', y'}

omit [FloatOps F] in
theorem held_S3 (d : Dev nD) (W : Valuation τ sig (Elt F)) :
    (held (T d) S3 W : sProp 𝕄) = iprop((tLoc d ↦{fullShare} W t') ∗ (oLoc d ↦{fullShare} W o') ∗ (yLoc d ↦{fullShare} W y')) := by
  unfold held S3
  rw [SparseCore.bigSep_insert' (by decide), SparseCore.bigSep_insert' (by decide), bigSep_singleton]

theorem hCat : (opCat (F := F)).bufs ⊆ S3 := show ({t', o', y'} : Finset (DevRef τ sig)) ⊆ S3 by decide

/-- Before the concatenation: the TensorCore's results at the block products, the SparseCore's at the folded lane sums. -/
def Vc (d : Dev nD) : Valuation τ sig (Elt F) := Function.update (V1 m d) t' (tcOut m d)

theorem Vc_t (d : Dev nD) : Vc m d t' = tcOut m d := Function.update_self _ _ _
theorem Vc_o (d : Dev nD) : Vc m d o' = scOut m d :=
  (Function.update_of_ne (show o' ≠ t' by decide) _ _).trans (Function.update_self _ _ _)
theorem Vc_y (d : Dev nD) : Vc m d y' = m (yLoc d) :=
  (Function.update_of_ne (show y' ≠ t' by decide) _ _).trans (Function.update_of_ne (show y' ≠ o' by decide) _ _)

/-- The concatenation's result is the specification's. -/
theorem cat_result (d : Dev nD) : (opCat (F := F)).result (Vc m d) y' = yOut m d := by
  rw [StableHlo.binary_result', Vc_t, Vc_o]
  rfl

/-- What @main ends holding for the claim: the result, the matrix, the vector. -/
abbrev FIN (d : Dev nD) : sProp 𝕄 :=
  iprop((yLoc d ↦{fullShare} yOut m d) ∗ (aLoc d ↦{fullShare} m (aLoc d)) ∗ (xLoc d ↦{fullShare} m (xLoc d)))

set_option backward.isDefEq.respectTransparency.types false in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hx, Ho, Ht, Hy⟩, -, -⟩, HG⟩
  -- the SparseCore call
  iapply ((K (F := F)).wp_run (D (F := F)) 𝒱 (EH := EH) (P := P m) κ d 0) $$ [Hst Ha Hx Ho Hb Ht Hy HG]
  isplitr; · iexact Hctx
  isplitl [Hst]; · iexact Hst
  isplitl [Ha Hx Ho]
  · rw [st0_eq]
    isplitl [Ha]; · iexact Ha
    isplitl [Hx]; · iexact Hx
    iexact Ho
  iintro ⟨Hst, Hdn⟩
  ihave Hdn' := (Entails.of_eq (dn0_eq m d)) $$ Hdn
  icases Hdn' with ⟨Ha, Hx, Ho⟩
  ihave Hst' := (show (K (F := F)).tcSt EH d ((0 : Fin 1).val + 1) ⊢ iprop(Rw (F := F) d ∗ (Rw (F := F) d -∗ (K (F := F)).tcSt EH d 1)) from tcSt_owes (F := F) d) $$ Hst
  icases Hst' with ⟨HO, Hback⟩
  ihave Hlev := (SparseCore.Cfg.ctx_levAts κ) $$ Hctx
  -- the TensorCore's region
  iapply (wp_region m d _) $$ [Hb Ha Hx Ho Ht Hy HO Hlev HG Hback]
  isplitr [Hb Ha Hx Ho Ht Hy HO Hlev HG]
  swap
  · isplitl [Hb]; · iexact Hb
    isplitl [Ha Hx Ho Ht Hy HO]
    · iapply (show iprop(unscopedBufs d (Vr m d) ∗ Rw (F := F) d) ⊢ (reg1 m).pre d from BI.Entails.refl _)
      rw [unscopedBufs_eq, Vr_arg0, Vr_arg1, Vr_v0, Vr_v1, Vr_v2]
      isplitr [HO]
      · isplitl [Ha]; · iexact Ha
        isplitl [Hx]; · iexact Hx
        isplitl [Ho]; · iexact Ho
        isplitl [Ht]; · iexact Ht
        iexact Hy
      · iexact HO
    isplitl [Hlev]; · iexact Hlev
    iexact HG
  iintro ⟨Hb, Hpost⟩
  ihave Hp := (show (reg1 m).post d ⊢ iprop(Tr m d ∗ Zr m d ∗ Rw (F := F) d) from BI.Entails.refl _) $$ Hpost
  icases Hp with ⟨Htr, ⟨Ho, Hy⟩, HO⟩
  ihave Htr' := (Entails.of_eq (Tr_eq m d)) $$ Htr
  icases Htr' with ⟨Ha, Hx, Ht⟩
  imodintro
  -- the concatenation
  iapply (wp_hlo_within 𝒱 (SparseCore.T d) none Set.univ (op := opCat) (S := S3) hCat (V := Vc m d)) $$ [Hb Ht Ho Hy]
  · isplitl [Hb]; · iexact Hb
    rw [held_S3, Vc_t, Vc_o, Vc_y, ← Vr_v0 m d, ← Vr_v2 m d]
    isplitl [Ht]; · iexact Ht
    isplitl [Ho]; · iexact Ho
    iexact Hy
  iintro ⟨Hb, Hheld⟩
  ihave Hh := (Entails.of_eq (held_S3 (F := F) d _)) $$ Hheld
  icases Hh with ⟨-, -, Hy⟩
  rw [wp_ret, cat_result]
  imodintro; imodintro
  isplitl [HO Hback]
  · iapply Hback; iexact HO
  isplitl [Hy]; · iexact Hy
  isplitl [Ha]; · iexact Ha
  iexact Hx

/-! ## The final state, and the run -/

def fq (d : Dev nD) (s' : Phys nD τ sig (Elt F)) : Prop :=
  s'.mem.mem (yLoc d) = yOut m d ∧ s'.mem.mem (aLoc d) = m (aLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hy, Ha, Hx⟩, HSI⟩
  ihave H := (persistent_entails_right (SI_pointsTo_agree (st := s') (ℓ := yLoc d) (I := Finset.univ) (q := fullShare) (f := yOut m d))) $$ [HSI Hy]
  · isplitl [HSI] <;> iassumption
  icases H with ⟨%h0, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := xLoc d) (I := Finset.univ) (q := fullShare) (f := m (xLoc d))) $$ [HSI Hx]
  · isplitl [HSI] <;> iassumption
  icases H with %h2
  ipureintro
  exact ⟨funext fun i => h0 i (Finset.mem_univ i), funext fun i => h1 i (Finset.mem_univ i), funext fun i => h2 i (Finset.mem_univ i)⟩

/-- The claim's reading of the final memory: the result at the specification's, the arguments unchanged. -/
def QC : PUnit × MemSt nD τ sig (Elt F) → Prop := fun r =>
  ∀ c : Dev nD, r.2.mem (yLoc c) = yOut m c ∧ r.2.mem (aLoc c) = m (aLoc c) ∧ r.2.mem (xLoc c) = m (xLoc c)

/-- **The program's run.** From any memory with every semaphore at zero, given the vector subcores' task proved:
    every weakly fair execution terminates, nothing faulting, the result array at the specification's value of the
    arguments and the arguments unchanged. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => vecSplit m)
    m ρ main (fun d => Gd (F := F) d) (FIN m) (u₀ (F := F)) (sep_elim_left.trans (hu₀ m)) (hmain m ρ) (fq m) (hfin m) (QC m) (fun _ h => h)

end Cert.Kernel.Pf

end
-- ==== Proof.RefValue.lean ====
/-
  The reference side. The reference program is one contraction of the matrix's second axis with the vector's only
  axis. Read at row `i` it is the sum over the 4096 columns `k` of `A (i, k) · x k`, which is the specification's plain
  product `G` word for word once the contraction's operand indices are written by coordinates. The reference's frame
  is its run with the named result forgotten.
-/
import proofs.«219795_g11467562680804_week1_w4_611_41_alg».proof.Defs
import proofs.«219795_g11467562680804_week1_w4_611_41_alg».proof.Proof.Gen.ReferenceIdeal
import proofs.«219795_g11467562680804_week1_w4_611_41_alg».proof.Proof.Gen.ReferenceIdeal.Read
import proofs.«219795_g11467562680804_week1_w4_611_41_alg».proof.Proof.Gen.Pre_finite_inputs
import proofs.«219795_g11467562680804_week1_w4_611_41_alg».proof.Proof.Spec

noncomputable section

namespace Cert.MV.RefSide

open Idealize.ShloMosaic Idealize.SL.Sem Idealize.ShloMosaic.ValueIdx Cert.MV
open scoped BigOperators

/-- The left operand's index at row `i` and column `k` is the pair `(i, k)`. -/
theorem lidx_eq (i : SY.Idx) (k : Fin 4096) :
    Cert.ReferenceIdeal.Read.lidx_main_v0 i k = ix2 (⟨(i 0).val, (i 0).isLt⟩ : Fin 16384) k :=
  funext fun a => by
    match a with
    | ⟨0, _⟩ => rfl
    | ⟨1, _⟩ => rfl

/-- The right operand's index at column `k` is `k`. -/
theorem ridx_eq (i : SY.Idx) (k : Fin 4096) : Cert.ReferenceIdeal.Read.ridx_main_v0 i k = ix1 k :=
  funext fun a => by
    match a with
    | ⟨0, _⟩ => rfl

/-- The reference's result is the plain matrix–vector product, entry by entry. -/
theorem ref_eq_G (A : SA.Idx → EReal) (x : SX.Idx → EReal) :
    Cert.ReferenceIdeal.Read.val_main_v0 (F := Ideal) A x = G A x := by
  funext i
  rw [Cert.ReferenceIdeal.Read.val_main_v0_apply]
  unfold G
  exact Finset.sum_congr rfl fun k _ => by rw [lidx_eq, ridx_eq]

/-- The reference terminates without a fault and leaves both arguments as they were. -/
theorem frame_ri :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Value.run (F := Ideal) m ρ)

end Cert.MV.RefSide

end
-- ==== Proof.LaneSum.lean ====
/-
  Two rearrangements of finite sums in a commutative monoid, stated over abstract terms.

  `sum_chunks`: a sum over the first `n · m` naturals, cut into `n` consecutive chunks of `m`, is the double sum over
  the chunk `j` and the place `l` inside it of the term at `m · j + l`.
  `sum_lanes`: the same sum taken lane by lane: for each place `l` the sum over the chunks, then the sum over the places.
  `tree16`: sixteen terms added pairwise at distances 8, 4, 2 and 1 are the sum of the sixteen.
  Only commutativity and associativity of the addition are used.
-/
import Mathlib.Algebra.BigOperators.Fin
import Mathlib.Algebra.BigOperators.Group.Finset.Sigma
import Mathlib.Tactic.Abel

namespace Cert.MV.LaneSum

open Finset
open scoped BigOperators

variable {M : Type*} [AddCommMonoid M]

/-- `n` consecutive chunks of `m` terms. -/
theorem sum_chunks (f : ℕ → M) (m n : ℕ) :
    ∑ k ∈ range (n * m), f k = ∑ j ∈ range n, ∑ l ∈ range m, f (m * j + l) := by
  induction n with
  | zero => simp
  | succ n ih =>
    rw [Nat.succ_mul, sum_range_add, ih, sum_range_succ, Nat.mul_comm n m]

/-- The same terms lane by lane: place `l` of every chunk first, then the places. -/
theorem sum_lanes (f : ℕ → M) (m n : ℕ) :
    ∑ l ∈ range m, ∑ j ∈ range n, f (m * j + l) = ∑ k ∈ range (n * m), f k := by
  rw [sum_chunks, sum_comm]

/-- Sixteen terms added pairwise at distances 8, 4, 2 and 1. -/
theorem tree16 (g : ℕ → M) :
    (((g 0 + g 8) + (g 4 + g 12)) + ((g 2 + g 10) + (g 6 + g 14)))
        + (((g 1 + g 9) + (g 5 + g 13)) + ((g 3 + g 11) + (g 7 + g 15)))
      = ∑ l ∈ range 16, g l := by
  simp only [sum_range_succ, sum_range_zero]
  abel

end Cert.MV.LaneSum
-- ==== Proof.ScValue.lean ====
/-
  The lane computation at the extended reals is the plain product.

  Lane `l` of a row accumulates, chunk after chunk from the zero word, the products of the columns `16 j + l`; the zero
  word is the extended real `0`, so after `n` chunks the lane holds the sum of those `n` products. The sixteen lanes
  are then added pairwise at distances 8, 4, 2 and 1, which is their sum; the sum over the lanes of the sums over the
  chunks runs over every column once. Only commutativity and associativity of the addition and `0 + a = a` are used:
  nothing is asked of the entries.
-/
import proofs.«219795_g11467562680804_week1_w4_611_41_alg».proof.Proof.Spec
import proofs.«219795_g11467562680804_week1_w4_611_41_alg».proof.Proof.Entries
import proofs.«219795_g11467562680804_week1_w4_611_41_alg».proof.Proof.LaneSum
import Idealize.ShloMosaic.PureOps.Ideal.Laws

noncomputable section

namespace Cert.MV

open Idealize.ShloMosaic Idealize.ShloMosaic.ValueIdx Finset
open scoped BigOperators

/-- The zero word is the extended real zero. -/
theorem zeroF_ideal : (zeroF (F := Ideal)) = 0 := Ideal.ofBits_zero_f32

/-- Lane `l` of row `i` after `n` chunks holds the sum of its first `n` products. -/
theorem laneAcc_ideal (A : FVec Ideal SA .f32) (x : FVec Ideal SX .f32) (i l n : Nat) :
    laneAcc (F := Ideal) A x i l n = ∑ j ∈ range n, aAt A i (16 * j + l) * xAt x (16 * j + l) := by
  induction n with
  | zero => rw [laneAcc, sum_range_zero]; exact zeroF_ideal
  | succ n ih => rw [laneAcc, sum_range_succ, ih]; rfl

/-- The four pairwise additions of a row's sixteen lanes are the sum of the lanes. -/
theorem rowSum_lanes (A : FVec Ideal SA .f32) (x : FVec Ideal SX .f32) (i : Nat) :
    rowSum (F := Ideal) A x i = ∑ l ∈ range 16, laneAcc (F := Ideal) A x i l 256 :=
  LaneSum.tree16 fun l => laneAcc (F := Ideal) A x i l 256

/-- So a row's result is the sum of the products over all 4096 columns, in the columns' own order. -/
theorem rowSum_ideal (A : FVec Ideal SA .f32) (x : FVec Ideal SX .f32) (i : Nat) :
    rowSum (F := Ideal) A x i = ∑ k ∈ range 4096, aAt A i k * xAt x k := by
  rw [rowSum_lanes, sum_congr rfl fun l _ => laneAcc_ideal A x i l 256]
  exact LaneSum.sum_lanes (fun k => aAt A i k * xAt x k) 16 256

/-- Inside the matrix, the sum over the columns by natural numbers is the sum over the column indices. -/
theorem sum_range_entries (A : FVec Ideal SA .f32) (x : FVec Ideal SX .f32) (i : Nat) (hi : i < 16384) :
    ∑ k ∈ range 4096, aAt A i k * xAt x k = ∑ k : Fin 4096, A (ix2 (⟨i, hi⟩ : Fin 16384) k) * x (ix1 k) := by
  rw [Finset.sum_range]
  exact Fintype.sum_congr _ _ fun k => by rw [aAt_of_lt A hi k.isLt, xAt_of_lt x k.isLt]

/-- Entry `j` of the lane part is entry `12288 + j` of the plain product. -/
theorem scVal_ideal (A : FVec Ideal SA .f32) (x : FVec Ideal SX .f32) (j : SSc.Idx) :
    scVal (F := Ideal) A x j
      = G A x (ix1 (⟨12288 + (j 0).val, by have := lt1 j; omega⟩ : Fin 16384)) := by
  have hj : 12288 + (j 0).val < 16384 := by have := lt1 j; omega
  show rowSum (F := Ideal) A x (12288 + (j 0).val) = _
  rw [rowSum_ideal, sum_range_entries A x _ hj]
  rfl

end Cert.MV

end
-- ==== Proof.TcValue.lean ====
/-
  The block computation at the extended reals is the plain product.

  Entry `i` of the first 12288 is entry `i mod 512` of the product of the block of rows `512 (i / 512) …` with the vector
  into a zero accumulator. At the extended reals that product, read at an index, is the sum over the contraction index
  of the operands' products, and the zero accumulator adds nothing. The contraction has one axis of extent 4096, so the
  sum re-indexes over the 4096 columns; the block's row `i mod 512` of block `i / 512` is the matrix's row `i`.
-/
import proofs.«219795_g11467562680804_week1_w4_611_41_alg».proof.Proof.Spec
import proofs.«219795_g11467562680804_week1_w4_611_41_alg».proof.Proof.Entries
import Idealize.ShloMosaic.PureOps.Ideal.Laws
import Idealize.ShloMosaic.Lib.ValueIdx

noncomputable section

namespace Cert.MV

open Idealize.ShloMosaic Idealize.ShloMosaic.ValueIdx
open scoped BigOperators

/-- The block product's dimension numbers: the block's second axis against the vector's only axis, the block's first
    axis kept, no batch axis. -/
abbrev blkDims (wf : DotDims.WF SBlk SX SOb [1] [0] [0] [] [] []) : DotDims SBlk SX SOb where
  lhsContracting := [1]
  rhsContracting := [0]
  lhsNonContracting := [0]
  rhsNonContracting := []
  lhsBatch := []
  rhsBatch := []
  wf := wf

section
variable (wf : DotDims.WF SBlk SX SOb [1] [0] [0] [] [] [])

/-- The contraction has one axis. -/
theorem blk_rank_pos : 0 < (blkDims wf).contr.rank := by
  rw [DotDims.rank_contr]; exact Nat.one_pos

/-- The block's row coordinate is the result's. -/
theorem blk_lhs0 (r : SOb.Idx) (q : (blkDims wf).contr.Idx) : ((blkDims wf).lhsIdx r q 0).val = (r 0).val := by
  unfold DotDims.lhsIdx
  rw [dif_neg (show ¬(0 : Fin SBlk.rank) ∈ (blkDims wf).lhsBatch from List.not_mem_nil),
    dif_pos (show (0 : Fin SBlk.rank) ∈ (blkDims wf).lhsNonContracting from List.mem_singleton.mpr rfl)]
  rfl

/-- The block's column coordinate is the contraction's. -/
theorem blk_lhs1 (r : SOb.Idx) (q : (blkDims wf).contr.Idx) :
    ((blkDims wf).lhsIdx r q 1).val = (q ⟨0, blk_rank_pos wf⟩).val :=
  (blkDims wf).lhsIdx_val_of_single rfl r q

/-- The vector's coordinate is the contraction's. -/
theorem blk_rhs0 (r : SOb.Idx) (q : (blkDims wf).contr.Idx) :
    ((blkDims wf).rhsIdx r q 0).val = (q ⟨0, blk_rank_pos wf⟩).val :=
  (blkDims wf).rhsIdx_val_of_single rfl r q

/-- Entry `i` of the block part is entry `i` of the plain product. -/
theorem tcVal_blk (A : FVec Ideal SA .f32) (x : FVec Ideal SX .f32) (i : STc.Idx) :
    tcVal (F := Ideal) (blkDims wf) A x i
      = G A x (ix1 (⟨(i 0).val, by have := lt1 i; omega⟩ : Fin 16384)) := by
  have hi : (i 0).val < 12288 := lt1 i
  unfold tcVal
  rw [Ideal.matmul_constant_zero_apply, ← Equiv.sum_comp (contrEquiv1 (blkDims wf) 4096 rfl rfl).symm]
  unfold G
  refine Finset.sum_congr rfl fun k _ => ?_
  have hk := contrEquiv1_symm_val (blkDims wf) 4096 rfl rfl k
  have hrow : 512 * ((i 0).val / 512) + (i 0).val % 512 = (i 0).val := Nat.div_add_mod _ _
  have eL := tcBlock_apply A ((i 0).val / 512)
    ((blkDims wf).lhsIdx (ix1 (⟨(i 0).val % 512, Nat.mod_lt _ (by norm_num)⟩ : Fin 512))
      ((contrEquiv1 (blkDims wf) 4096 rfl rfl).symm k))
    ((i 0).val % 512) k.val (blk_lhs0 wf _ _) ((blk_lhs1 wf _ _).trans hk)
  have eR : (blkDims wf).rhsIdx (ix1 (⟨(i 0).val % 512, Nat.mod_lt _ (by norm_num)⟩ : Fin 512))
      ((contrEquiv1 (blkDims wf) 4096 rfl rfl).symm k) = ix1 k :=
    funext fun a => Fin.ext (by
      match a with
      | ⟨0, _⟩ => exact (blk_rhs0 wf _ _).trans hk)
  rw [eL, eR, hrow, aAt_of_lt A (by omega) k.isLt]

end

/-- The same for any record with these dimension numbers. -/
theorem tcVal_ideal (d : DotDims SBlk SX SOb) (hlc : d.lhsContracting = [1]) (hrc : d.rhsContracting = [0])
    (hln : d.lhsNonContracting = [0]) (hrn : d.rhsNonContracting = []) (hlb : d.lhsBatch = [])
    (hrb : d.rhsBatch = []) (A : FVec Ideal SA .f32) (x : FVec Ideal SX .f32) (i : STc.Idx) :
    tcVal (F := Ideal) d A x i = G A x (ix1 (⟨(i 0).val, by have := lt1 i; omega⟩ : Fin 16384)) := by
  obtain ⟨lc, rc, ln, rn, lb, rb, wf⟩ := d
  dsimp only at hlc hrc hln hrn hlb hrb
  subst hlc hrc hln hrn hlb hrb
  exact tcVal_blk wf A x i

end Cert.MV

end
-- ==== Proof.KernelValue.lean ====
/-
  The whole result at the extended reals is the plain product.

  The result is the block part followed by the lane part along its one axis. An entry below 12288 is read in the first
  piece at the same coordinate; an entry from 12288 on is read in the second piece at its coordinate less 12288. Both
  pieces are the plain product at the entry's own row.
-/
import proofs.«219795_g11467562680804_week1_w4_611_41_alg».proof.Proof.Spec
import proofs.«219795_g11467562680804_week1_w4_611_41_alg».proof.Proof.Entries
import proofs.«219795_g11467562680804_week1_w4_611_41_alg».proof.Proof.ScValue
import proofs.«219795_g11467562680804_week1_w4_611_41_alg».proof.Proof.TcValue
import Idealize.ShloMosaic.Lib.Pipeline.Value

noncomputable section

namespace Cert.MV

open Idealize.ShloMosaic Idealize.ShloMosaic.ValueIdx
open scoped BigOperators

/-- The kernel's result, read at the extended reals, is the plain matrix–vector product. -/
theorem kernelVal_ideal (d : DotDims SBlk SX SOb) (hlc : d.lhsContracting = [1]) (hrc : d.rhsContracting = [0])
    (hln : d.lhsNonContracting = [0]) (hrn : d.rhsNonContracting = []) (hlb : d.lhsBatch = [])
    (hrb : d.rhsBatch = []) (A : FVec Ideal SA .f32) (x : FVec Ideal SX .f32)
    (h : Shape.Concatenates [STc, SSc] SY 0) :
    kernelVal (F := Ideal) d A x h = G A x := by
  funext j
  unfold kernelVal
  have hjlt : (j 0).val < 16384 := lt1 j
  by_cases hj : (j 0).val < 12288
  · have e := concatenate_apply_piece (α := EReal) (t := SY) 0
      [⟨STc, tcVal (F := Ideal) d A x⟩, ⟨SSc, scVal (F := Ideal) A x⟩] h j 0 Nat.zero_lt_two STc
      (tcVal (F := Ideal) d A x) rfl rfl 0 rfl (ix1 (⟨(j 0).val, hj⟩ : Fin 12288))
      (fun b hb => absurd (Subsingleton.elim (α := Fin 1) _ _) hb)
      (by show 0 + (j 0).val = (j 0).val; omega)
    rw [e, tcVal_ideal d hlc hrc hln hrn hlb hrb]
    exact congrArg (G A x) (idx1_ext _ _ rfl)
  · have e := concatenate_apply_piece (α := EReal) (t := SY) 0
      [⟨STc, tcVal (F := Ideal) d A x⟩, ⟨SSc, scVal (F := Ideal) A x⟩] h j 1 Nat.one_lt_two SSc
      (scVal (F := Ideal) A x) rfl rfl 12288 rfl (ix1 (⟨(j 0).val - 12288, by omega⟩ : Fin 4096))
      (fun b hb => absurd (Subsingleton.elim (α := Fin 1) _ _) hb)
      (by show 12288 + ((j 0).val - 12288) = (j 0).val; omega)
    rw [e, scVal_ideal]
    exact congrArg (G A x) (idx1_ext _ _ (by show 12288 + ((j 0).val - 12288) = (j 0).val; omega))

end Cert.MV

end
-- ==== Proof.Bridge.lean ====
/-
  The two sides meet: at the extended reals the kernel's result and the reference's result are the same function of
  the matrix and the vector, because each is the plain matrix–vector product.
-/
import proofs.«219795_g11467562680804_week1_w4_611_41_alg».proof.Proof.KernelValue
import proofs.«219795_g11467562680804_week1_w4_611_41_alg».proof.Proof.RefValue

noncomputable section

namespace Cert.MV

open Idealize.ShloMosaic Idealize.ShloMosaic.ValueIdx

/-- The kernel's result at the extended reals is the reference's. -/
theorem kernelVal_eq_ref (d : DotDims SBlk SX SOb) (hlc : d.lhsContracting = [1]) (hrc : d.rhsContracting = [0])
    (hln : d.lhsNonContracting = [0]) (hrn : d.rhsNonContracting = []) (hlb : d.lhsBatch = [])
    (hrb : d.rhsBatch = []) (A : FVec Ideal SA .f32) (x : FVec Ideal SX .f32)
    (h : Shape.Concatenates [STc, SSc] SY 0) :
    kernelVal (F := Ideal) d A x h = Cert.ReferenceIdeal.Read.val_main_v0 (F := Ideal) A x :=
  (kernelVal_ideal d hlc hrc hln hrn hlb hrb A x h).trans (RefSide.ref_eq_G A x).symm

end Cert.MV

end
-- ==== Proof.lean ====
/-
  The claim: a matrix–vector product computed in two parts, against the plain product.

  The kernel splits the 16384 rows of the matrix. Rows 0 … 12287 go through a pipeline of 24 blocks of 512 rows,
  each block multiplied with the whole vector into a zero accumulator. Rows 12288 … 16383 go to sixteen vector
  subcores, 256 rows each: a row's 4096 products are accumulated in 16 lanes, lane `l` taking the columns
  `16 j + l` in order, and the lanes are then added pairwise at distances 8, 4, 2 and 1. The two parts are
  concatenated. The reference contracts the matrix's second axis with the vector in one operation.

  At the extended reals addition is associative and commutative, so the lane sums, their folds and the block
  products are all the plain sum over the 4096 columns of `A (i, k) · x k`, which is the reference's value at row
  `i`: the two results are equal entry by entry. Each program's run also leaves its two arguments as they were,
  which gives the three frames; the idealised kernel is the kernel's own text read at the extended reals.
-/
import proofs.«219795_g11467562680804_week1_w4_611_41_alg».proof.Defs
import proofs.«219795_g11467562680804_week1_w4_611_41_alg».proof.Proof.Gen.Kernel
import proofs.«219795_g11467562680804_week1_w4_611_41_alg».proof.Proof.Gen.Kernel.Skeleton
import proofs.«219795_g11467562680804_week1_w4_611_41_alg».proof.Proof.Gen.Kernel.Launch
import proofs.«219795_g11467562680804_week1_w4_611_41_alg».proof.Proof.Gen.Kernel.Points
import proofs.«219795_g11467562680804_week1_w4_611_41_alg».proof.Proof.Gen.KernelIdeal
import proofs.«219795_g11467562680804_week1_w4_611_41_alg».proof.Proof.Gen.KernelIdeal.Skeleton
import proofs.«219795_g11467562680804_week1_w4_611_41_alg».proof.Proof.Gen.KernelIdeal.Launch
import proofs.«219795_g11467562680804_week1_w4_611_41_alg».proof.Proof.Gen.KernelIdeal.Points
import proofs.«219795_g11467562680804_week1_w4_611_41_alg».proof.Proof.Gen.ReferenceIdeal
import proofs.«219795_g11467562680804_week1_w4_611_41_alg».proof.Proof.Gen.Pre_finite_inputs
import proofs.«219795_g11467562680804_week1_w4_611_41_alg».proof.Proof.TileObl
import proofs.«219795_g11467562680804_week1_w4_611_41_alg».proof.Proof.LaunchMain
import proofs.«219795_g11467562680804_week1_w4_611_41_alg».proof.Proof.Word.TileObl
import proofs.«219795_g11467562680804_week1_w4_611_41_alg».proof.Proof.Word.LaunchMain
import proofs.«219795_g11467562680804_week1_w4_611_41_alg».proof.Proof.RefValue
import proofs.«219795_g11467562680804_week1_w4_611_41_alg».proof.Proof.Bridge
import Idealize.ShloMosaic.Adequacy
import Idealize.ShloMosaic.Init

noncomputable section

namespace Cert.Proof

open Idealize.ShloMosaic Idealize.SL.Sem

/-- The kernel at the word level runs to the end, nothing faulting, its arguments unchanged. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => ⟨(h c).2.1, (h c).2.2⟩)
    (Cert.Kernel.Pf.run_main (F := Bits) m ρ (Cert.Kernel.Pf.tileObl m))

/-- The same program read at the extended reals. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => ⟨(h c).2.1, (h c).2.2⟩)
    (Cert.KernelIdeal.Pf.run_main (F := Ideal) m ρ (Cert.KernelIdeal.Pf.tileObl m))

/-- At the extended reals the kernel and the reference, run from memories agreeing on the matrix and the vector, end
    with the same result: the kernel's two parts concatenated are the plain product, entry by entry. -/
theorem algebraic_ki_ri : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' _ hagree => ⟨fun c => Cert.KernelIdeal.Pf.yOut m c,
    Cert.KernelIdeal.Pf.run_main (F := Ideal) m ρ (Cert.KernelIdeal.Pf.tileObl m),
    (θ_run Cert.ReferenceIdeal.defs _ _).mono (fun _ h c => ⟨by
        rw [(h c).1, Cert.ReferenceIdeal.Read.val_main_v0_eq, (hagree c).1, (hagree c).2]
        exact (Cert.MV.kernelVal_eq_ref _ rfl rfl rfl rfl rfl rfl _ _ _).symm, (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, Cert.MV.RefSide.frame_ri, trivial, algebraic_ki_ri⟩

end Cert.Proof

end
